-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S128x1792 .f32 .bf16
  ∧ IdealRules.truncf_extf.Statement Cert.KernelIdeal.S300x1792 .f32 .bf16
  ∧ IdealRules.truncf_extf.Statement Cert.KernelIdeal.S300x1792 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v204)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v204) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v466) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x300x80 : Shape := ⟨3, ![4, 300, 80]⟩
abbrev S4x300x256x256 : Shape := ⟨4, ![4, 300, 256, 256]⟩
abbrev S4x100 : Shape := ⟨2, ![4, 100]⟩
abbrev S4x100x256x256 : Shape := ⟨4, ![4, 100, 256, 256]⟩
abbrev S4x12544x2 : Shape := ⟨3, ![4, 12544, 2]⟩
abbrev S_ : Shape := ⟨0, ![]⟩

class Facts : Prop where
  bcast_S_S4x300x80 : S_.BroadcastsInDim S4x300x80 (![] : Fin 0 → Fin S4x300x80.rank)
  reducesTo_S4x300x80_S_d0_1_2 : S4x300x80.ReducesTo [0, 1, 2] S_
  h_S_ : 0 < S_.numel
  bcast_S_S4x300x256x256 : S_.BroadcastsInDim S4x300x256x256 (![] : Fin 0 → Fin S4x300x256x256.rank)
  reducesTo_S4x300x256x256_S_d0_1_2_3 : S4x300x256x256.ReducesTo [0, 1, 2, 3] S_
  bcast_S_S4x100x256x256 : S_.BroadcastsInDim S4x100x256x256 (![] : Fin 0 → Fin S4x100x256x256.rank)
  reducesTo_S4x100x256x256_S_d0_1_2_3 : S4x100x256x256.ReducesTo [0, 1, 2, 3] S_
  bcast_S_S4x12544x2 : S_.BroadcastsInDim S4x12544x2 (![] : Fin 0 → Fin S4x12544x2.rank)
  reducesTo_S4x12544x2_S_d0_1_2 : S4x12544x2.ReducesTo [0, 1, 2] S_

variable [Facts]

def fn_part1 {F : FTy → Type} [FloatOps F] (main_v13 : IVec S_ 1) (main_v16 : IVec S4x12544x2 1) : IVec S_ 1 :=
  let main_c_5 : IVec S_ 1 := constantI S_ 1 1#1
  let main_v17 : IVec S_ 1 := (fun x v => Host.reduce IntOp.andi x v reducesTo_S4x12544x2_S_d0_1_2 h_S_) main_v16 main_c_5
  let main_v18 : IVec S_ 1 := andi main_v13 main_v17
  main_v18

def fn {F : FTy → Type} [FloatOps F] (main_arg0 : FVec F S4x300x80 .f32) (main_arg1 : FVec F S4x300x256x256 .f32) (main_arg2 : IVec S4x100 32) (main_arg3 : FVec F S4x100x256x256 .f32) (main_arg4 : FVec F S4x12544x2 .f32) : IVec S_ 1 :=
  let main_v0 : FVec F S4x300x80 .f32 := Host.absf main_arg0
  let main_cst : FVec F S_ .f32 := constant S_ .f32 0x7F800000#32
  let main_v1 : FVec F S4x300x80 .f32 := broadcastInDim S4x300x80 ![] bcast_S_S4x300x80 main_cst
  let main_v2 : IVec S4x300x80 1 := cmpf .olt main_v0 main_v1
  let main_c : IVec S_ 1 := constantI S_ 1 1#1
  let main_v3 : IVec S_ 1 := (fun x v => Host.reduce IntOp.andi x v reducesTo_S4x300x80_S_d0_1_2 h_S_) main_v2 main_c
  let main_v4 : FVec F S4x300x256x256 .f32 := Host.absf main_arg1
  let main_cst_0 : FVec F S_ .f32 := constant S_ .f32 0x7F800000#32
  let main_v5 : FVec F S4x300x256x256 .f32 := broadcastInDim S4x300x256x256 ![] bcast_S_S4x300x256x256 main_cst_0
  let main_v6 : IVec S4x300x256x256 1 := cmpf .olt main_v4 main_v5
  let main_c_1 : IVec S_ 1 := constantI S_ 1 1#1
  let main_v7 : IVec S_ 1 := (fun x v => Host.reduce IntOp.andi x v reducesTo_S4x300x256x256_S_d0_1_2_3 h_S_) main_v6 main_c_1
  let main_v8 : IVec S_ 1 := andi main_v3 main_v7
  let main_v9 : FVec F S4x100x256x256 .f32 := Host.absf main_arg3
  let main_cst_2 : FVec F S_ .f32 := constant S_ .f32 0x7F800000#32
  let main_v10 : FVec F S4x100x256x256 .f32 := broadcastInDim S4x100x256x256 ![] bcast_S_S4x100x256x256 main_cst_2
  let main_v11 : IVec S4x100x256x256 1 := cmpf .olt main_v9 main_v10
  let main_c_3 : IVec S_ 1 := constantI S_ 1 1#1
  let main_v12 : IVec S_ 1 := (fun x v => Host.reduce IntOp.andi x v reducesTo_S4x100x256x256_S_d0_1_2_3 h_S_) main_v11 main_c_3
  let main_v13 : IVec S_ 1 := andi main_v8 main_v12
  let main_v14 : FVec F S4x12544x2 .f32 := Host.absf main_arg4
  let main_cst_4 : FVec F S_ .f32 := constant S_ .f32 0x7F800000#32
  let main_v15 : FVec F S4x12544x2 .f32 := broadcastInDim S4x12544x2 ![] bcast_S_S4x12544x2 main_cst_4
  let main_v16 : IVec S4x12544x2 1 := cmpf .olt main_v14 main_v15
  fn_part1 (F := F) main_v13 main_v16
-- ==== Kernel.lean ====
abbrev S4x300x80 : Shape := ⟨3, ![4, 300, 80]⟩
abbrev S4x300x256x256 : Shape := ⟨4, ![4, 300, 256, 256]⟩
abbrev S4x100 : Shape := ⟨2, ![4, 100]⟩
abbrev S4x100x256x256 : Shape := ⟨4, ![4, 100, 256, 256]⟩
abbrev S4x12544x2 : Shape := ⟨3, ![4, 12544, 2]⟩
abbrev S4x12544x1 : Shape := ⟨3, ![4, 12544, 1]⟩
abbrev S4x12544 : Shape := ⟨2, ![4, 12544]⟩
abbrev S_ : Shape := ⟨0, ![]⟩
abbrev S4x12544x4 : Shape := ⟨3, ![4, 12544, 4]⟩
abbrev S4x300x65536 : Shape := ⟨3, ![4, 300, 65536]⟩
abbrev S4x12544x4x1 : Shape := ⟨4, ![4, 12544, 4, 1]⟩
abbrev S1 : Shape := ⟨1, ![1]⟩
abbrev S1x1x1x1 : Shape := ⟨4, ![1, 1, 1, 1]⟩
abbrev S4x300x12544x4 : Shape := ⟨4, ![4, 300, 12544, 4]⟩
abbrev S4x1x12544x4 : Shape := ⟨4, ![4, 1, 12544, 4]⟩
abbrev S4x300x12544 : Shape := ⟨3, ![4, 300, 12544]⟩
abbrev S4x100x65536 : Shape := ⟨3, ![4, 100, 65536]⟩
abbrev S4x100x12544x4 : Shape := ⟨4, ![4, 100, 12544, 4]⟩
abbrev S4x100x12544 : Shape := ⟨3, ![4, 100, 12544]⟩
abbrev S4x128x12544 : Shape := ⟨3, ![4, 128, 12544]⟩
abbrev S4x100x1 : Shape := ⟨3, ![4, 100, 1]⟩
abbrev S4x300x100 : Shape := ⟨3, ![4, 300, 100]⟩
abbrev S4x300x128 : Shape := ⟨3, ![4, 300, 128]⟩
abbrev S1x300x1792 : Shape := ⟨3, ![1, 300, 1792]⟩
abbrev S1x128x1792 : Shape := ⟨3, ![1, 128, 1792]⟩
abbrev S1x300x128 : Shape := ⟨3, ![1, 300, 128]⟩
abbrev S300x128 : Shape := ⟨2, ![300, 128]⟩
abbrev S300x1 : Shape := ⟨2, ![300, 1]⟩
abbrev S1x128 : Shape := ⟨2, ![1, 128]⟩
abbrev S300x1792 : Shape := ⟨2, ![300, 1792]⟩
abbrev S128x1792 : Shape := ⟨2, ![128, 1792]⟩
abbrev S300 : Shape := ⟨1, ![300]⟩
abbrev S1x1792 : Shape := ⟨2, ![1, 1792]⟩

abbrev nBuf : Space → Nat
  | .hbm => 336
  | .vmem => 13
  | .smem => 0
  | _ => 0

abbrev hbmTy0_0 (i : Nat) : BufTy := match i % 128 with
  | 0 => ⟨S4x300x80, .f32⟩
  | 1 => ⟨S4x300x256x256, .f32⟩
  | 2 => ⟨S4x100, .i32⟩
  | 3 => ⟨S4x100x256x256, .f32⟩
  | 4 => ⟨S4x12544x2, .f32⟩
  | 5 => ⟨S4x12544x1, .f32⟩
  | 6 => ⟨S4x12544, .f32⟩
  | 7 => ⟨S_, .f32⟩
  | 8 => ⟨S4x12544, .f32⟩
  | 9 => ⟨S4x12544, .f32⟩
  | 10 => ⟨S_, .f32⟩
  | 11 => ⟨S4x12544, .f32⟩
  | 12 => ⟨S4x12544, .f32⟩
  | 13 => ⟨S4x12544x1, .f32⟩
  | 14 => ⟨S4x12544, .f32⟩
  | 15 => ⟨S_, .f32⟩
  | 16 => ⟨S4x12544, .f32⟩
  | 17 => ⟨S4x12544, .f32⟩
  | 18 => ⟨S_, .f32⟩
  | 19 => ⟨S4x12544, .f32⟩
  | 20 => ⟨S4x12544, .f32⟩
  | 21 => ⟨S4x12544, .f32⟩
  | 22 => ⟨S4x12544, .f32⟩
  | 23 => ⟨S4x12544, .f32⟩
  | 24 => ⟨S4x12544, .f32⟩
  | 25 => ⟨S_, .f32⟩
  | 26 => ⟨S4x12544, .f32⟩
  | 27 => ⟨S4x12544, .f32⟩
  | 28 => ⟨S_, .f32⟩
  | 29 => ⟨S4x12544, .f32⟩
  | 30 => ⟨S4x12544, .f32⟩
  | 31 => ⟨S4x12544x1, .f32⟩
  | 32 => ⟨S4x12544x1, .f32⟩
  | 33 => ⟨S4x12544x1, .f32⟩
  | 34 => ⟨S4x12544x1, .f32⟩
  | 35 => ⟨S4x12544x4, .f32⟩
  | 36 => ⟨S_, .f32⟩
  | 37 => ⟨S4x12544, .f32⟩
  | 38 => ⟨S4x12544, .f32⟩
  | 39 => ⟨S_, .f32⟩
  | 40 => ⟨S4x12544, .f32⟩
  | 41 => ⟨S4x12544, .f32⟩
  | 42 => ⟨S4x12544x1, .f32⟩
  | 43 => ⟨S4x12544x1, .f32⟩
  | 44 => ⟨S4x12544x1, .f32⟩
  | 45 => ⟨S4x12544x1, .f32⟩
  | 46 => ⟨S4x12544x4, .f32⟩
  | 47 => ⟨S_, .f32⟩
  | 48 => ⟨S4x12544x4, .f32⟩
  | 49 => ⟨S4x12544x4, .i1⟩
  | 50 => ⟨S_, .f32⟩
  | 51 => ⟨S4x12544x4, .f32⟩
  | 52 => ⟨S4x12544x4, .i1⟩
  | 53 => ⟨S4x12544x4, .i1⟩
  | 54 => ⟨S_, .f32⟩
  | 55 => ⟨S4x12544x4, .f32⟩
  | 56 => ⟨S4x12544x4, .i1⟩
  | 57 => ⟨S4x12544x4, .i1⟩
  | 58 => ⟨S_, .f32⟩
  | 59 => ⟨S4x12544x4, .f32⟩
  | 60 => ⟨S4x12544x4, .i1⟩
  | 61 => ⟨S4x12544x4, .i1⟩
  | 62 => ⟨S4x12544x4, .f32⟩
  | 63 => ⟨S_, .i32⟩
  | 64 => ⟨S_, .i32⟩
  | 65 => ⟨S_, .f32⟩
  | 66 => ⟨S4x12544x4, .f32⟩
  | 67 => ⟨S4x12544x4, .f32⟩
  | 68 => ⟨S_, .f32⟩
  | 69 => ⟨S4x12544x4, .f32⟩
  | 70 => ⟨S4x12544x4, .f32⟩
  | 71 => ⟨S4x12544x4, .i32⟩
  | 72 => ⟨S_, .i32⟩
  | 73 => ⟨S_, .i32⟩
  | 74 => ⟨S_, .f32⟩
  | 75 => ⟨S4x12544x4, .f32⟩
  | 76 => ⟨S4x12544x4, .f32⟩
  | 77 => ⟨S_, .f32⟩
  | 78 => ⟨S4x12544x4, .f32⟩
  | 79 => ⟨S4x12544x4, .f32⟩
  | 80 => ⟨S4x12544x4, .i32⟩
  | 81 => ⟨S_, .i32⟩
  | 82 => ⟨S4x12544x4, .i32⟩
  | 83 => ⟨S4x12544x4, .i32⟩
  | 84 => ⟨S4x12544x4, .i32⟩
  | 85 => ⟨S4x300x65536, .f32⟩
  | 86 => ⟨S_, .i32⟩
  | 87 => ⟨S4x12544x4, .i32⟩
  | 88 => ⟨S4x12544x4, .i1⟩
  | 89 => ⟨S_, .i32⟩
  | 90 => ⟨S4x12544x4, .i32⟩
  | 91 => ⟨S4x12544x4, .i32⟩
  | 92 => ⟨S4x12544x4, .i32⟩
  | 93 => ⟨S4x12544x4x1, .i32⟩
  | 94 => ⟨S1, .i32⟩
  | 95 => ⟨S_, .i32⟩
  | 96 => ⟨S4x12544x4x1, .i32⟩
  | 97 => ⟨S4x12544x4x1, .i1⟩
  | 98 => ⟨S1x1x1x1, .i32⟩
  | 99 => ⟨S4x12544x4x1, .i32⟩
  | 100 => ⟨S4x12544x4x1, .i1⟩
  | 101 => ⟨S4x12544x4x1, .i1⟩
  | 102 => ⟨S_, .i1⟩
  | 103 => ⟨S4x12544x4, .i1⟩
  | 104 => ⟨S4x300x12544x4, .f32⟩
  | 105 => ⟨S4x300x12544x4, .i1⟩
  | 106 => ⟨S_, .f32⟩
  | 107 => ⟨S4x300x12544x4, .f32⟩
  | 108 => ⟨S4x300x12544x4, .f32⟩
  | 109 => ⟨S4x1x12544x4, .f32⟩
  | 110 => ⟨S4x300x12544x4, .f32⟩
  | 111 => ⟨S4x300x12544x4, .f32⟩
  | 112 => ⟨S_, .f32⟩
  | 113 => ⟨S4x12544, .f32⟩
  | 114 => ⟨S4x12544, .f32⟩
  | 115 => ⟨S_, .f32⟩
  | 116 => ⟨S4x12544, .f32⟩
  | 117 => ⟨S4x12544, .f32⟩
  | 118 => ⟨S4x12544, .f32⟩
  | 119 => ⟨S_, .f32⟩
  | 120 => ⟨S4x12544, .f32⟩
  | 121 => ⟨S4x12544, .f32⟩
  | 122 => ⟨S4x12544, .f32⟩
  | 123 => ⟨S_, .f32⟩
  | 124 => ⟨S4x12544, .f32⟩
  | 125 => ⟨S4x12544, .f32⟩
  | 126 => ⟨S4x12544, .f32⟩
  | 127 => ⟨S4x12544, .f32⟩
  | _ => ⟨S4x300x80, .f32⟩

abbrev hbmTy0_1 (i : Nat) : BufTy := match i % 128 with
  | 0 => ⟨S4x12544x1, .f32⟩
  | 1 => ⟨S4x12544x1, .f32⟩
  | 2 => ⟨S4x12544x1, .f32⟩
  | 3 => ⟨S4x12544x1, .f32⟩
  | 4 => ⟨S4x12544x4, .f32⟩
  | 5 => ⟨S4x1x12544x4, .f32⟩
  | 6 => ⟨S4x300x12544x4, .f32⟩
  | 7 => ⟨S4x300x12544x4, .f32⟩
  | 8 => ⟨S_, .f32⟩
  | 9 => ⟨S4x300x12544, .f32⟩
  | 10 => ⟨S4x12544x1, .f32⟩
  | 11 => ⟨S4x12544, .f32⟩
  | 12 => ⟨S_, .f32⟩
  | 13 => ⟨S4x12544, .f32⟩
  | 14 => ⟨S4x12544, .f32⟩
  | 15 => ⟨S_, .f32⟩
  | 16 => ⟨S4x12544, .f32⟩
  | 17 => ⟨S4x12544, .f32⟩
  | 18 => ⟨S4x12544x1, .f32⟩
  | 19 => ⟨S4x12544, .f32⟩
  | 20 => ⟨S_, .f32⟩
  | 21 => ⟨S4x12544, .f32⟩
  | 22 => ⟨S4x12544, .f32⟩
  | 23 => ⟨S_, .f32⟩
  | 24 => ⟨S4x12544, .f32⟩
  | 25 => ⟨S4x12544, .f32⟩
  | 26 => ⟨S4x12544, .f32⟩
  | 27 => ⟨S4x12544, .f32⟩
  | 28 => ⟨S4x12544, .f32⟩
  | 29 => ⟨S4x12544, .f32⟩
  | 30 => ⟨S_, .f32⟩
  | 31 => ⟨S4x12544, .f32⟩
  | 32 => ⟨S4x12544, .f32⟩
  | 33 => ⟨S_, .f32⟩
  | 34 => ⟨S4x12544, .f32⟩
  | 35 => ⟨S4x12544, .f32⟩
  | 36 => ⟨S4x12544x1, .f32⟩
  | 37 => ⟨S4x12544x1, .f32⟩
  | 38 => ⟨S4x12544x1, .f32⟩
  | 39 => ⟨S4x12544x1, .f32⟩
  | 40 => ⟨S4x12544x4, .f32⟩
  | 41 => ⟨S_, .f32⟩
  | 42 => ⟨S4x12544, .f32⟩
  | 43 => ⟨S4x12544, .f32⟩
  | 44 => ⟨S_, .f32⟩
  | 45 => ⟨S4x12544, .f32⟩
  | 46 => ⟨S4x12544, .f32⟩
  | 47 => ⟨S4x12544x1, .f32⟩
  | 48 => ⟨S4x12544x1, .f32⟩
  | 49 => ⟨S4x12544x1, .f32⟩
  | 50 => ⟨S4x12544x1, .f32⟩
  | 51 => ⟨S4x12544x4, .f32⟩
  | 52 => ⟨S_, .f32⟩
  | 53 => ⟨S4x12544x4, .f32⟩
  | 54 => ⟨S4x12544x4, .i1⟩
  | 55 => ⟨S_, .f32⟩
  | 56 => ⟨S4x12544x4, .f32⟩
  | 57 => ⟨S4x12544x4, .i1⟩
  | 58 => ⟨S4x12544x4, .i1⟩
  | 59 => ⟨S_, .f32⟩
  | 60 => ⟨S4x12544x4, .f32⟩
  | 61 => ⟨S4x12544x4, .i1⟩
  | 62 => ⟨S4x12544x4, .i1⟩
  | 63 => ⟨S_, .f32⟩
  | 64 => ⟨S4x12544x4, .f32⟩
  | 65 => ⟨S4x12544x4, .i1⟩
  | 66 => ⟨S4x12544x4, .i1⟩
  | 67 => ⟨S4x12544x4, .f32⟩
  | 68 => ⟨S_, .i32⟩
  | 69 => ⟨S_, .i32⟩
  | 70 => ⟨S_, .f32⟩
  | 71 => ⟨S4x12544x4, .f32⟩
  | 72 => ⟨S4x12544x4, .f32⟩
  | 73 => ⟨S_, .f32⟩
  | 74 => ⟨S4x12544x4, .f32⟩
  | 75 => ⟨S4x12544x4, .f32⟩
  | 76 => ⟨S4x12544x4, .i32⟩
  | 77 => ⟨S_, .i32⟩
  | 78 => ⟨S_, .i32⟩
  | 79 => ⟨S_, .f32⟩
  | 80 => ⟨S4x12544x4, .f32⟩
  | 81 => ⟨S4x12544x4, .f32⟩
  | 82 => ⟨S_, .f32⟩
  | 83 => ⟨S4x12544x4, .f32⟩
  | 84 => ⟨S4x12544x4, .f32⟩
  | 85 => ⟨S4x12544x4, .i32⟩
  | 86 => ⟨S_, .i32⟩
  | 87 => ⟨S4x12544x4, .i32⟩
  | 88 => ⟨S4x12544x4, .i32⟩
  | 89 => ⟨S4x12544x4, .i32⟩
  | 90 => ⟨S4x100x65536, .f32⟩
  | 91 => ⟨S_, .i32⟩
  | 92 => ⟨S4x12544x4, .i32⟩
  | 93 => ⟨S4x12544x4, .i1⟩
  | 94 => ⟨S_, .i32⟩
  | 95 => ⟨S4x12544x4, .i32⟩
  | 96 => ⟨S4x12544x4, .i32⟩
  | 97 => ⟨S4x12544x4, .i32⟩
  | 98 => ⟨S4x12544x4x1, .i32⟩
  | 99 => ⟨S1, .i32⟩
  | 100 => ⟨S_, .i32⟩
  | 101 => ⟨S4x12544x4x1, .i32⟩
  | 102 => ⟨S4x12544x4x1, .i1⟩
  | 103 => ⟨S1x1x1x1, .i32⟩
  | 104 => ⟨S4x12544x4x1, .i32⟩
  | 105 => ⟨S4x12544x4x1, .i1⟩
  | 106 => ⟨S4x12544x4x1, .i1⟩
  | 107 => ⟨S_, .i1⟩
  | 108 => ⟨S4x12544x4, .i1⟩
  | 109 => ⟨S4x100x12544x4, .f32⟩
  | 110 => ⟨S4x100x12544x4, .i1⟩
  | 111 => ⟨S_, .f32⟩
  | 112 => ⟨S4x100x12544x4, .f32⟩
  | 113 => ⟨S4x100x12544x4, .f32⟩
  | 114 => ⟨S4x1x12544x4, .f32⟩
  | 115 => ⟨S4x100x12544x4, .f32⟩
  | 116 => ⟨S4x100x12544x4, .f32⟩
  | 117 => ⟨S_, .f32⟩
  | 118 => ⟨S4x12544, .f32⟩
  | 119 => ⟨S4x12544, .f32⟩
  | 120 => ⟨S_, .f32⟩
  | 121 => ⟨S4x12544, .f32⟩
  | 122 => ⟨S4x12544, .f32⟩
  | 123 => ⟨S4x12544, .f32⟩
  | 124 => ⟨S_, .f32⟩
  | 125 => ⟨S4x12544, .f32⟩
  | 126 => ⟨S4x12544, .f32⟩
  | 127 => ⟨S4x12544, .f32⟩
  | _ => ⟨S4x300x80, .f32⟩

abbrev hbmTy0_2 (i : Nat) : BufTy := match i % 128 with
  | 0 => ⟨S_, .f32⟩
  | 1 => ⟨S4x12544, .f32⟩
  | 2 => ⟨S4x12544, .f32⟩
  | 3 => ⟨S4x12544, .f32⟩
  | 4 => ⟨S4x12544, .f32⟩
  | 5 => ⟨S4x12544x1, .f32⟩
  | 6 => ⟨S4x12544x1, .f32⟩
  | 7 => ⟨S4x12544x1, .f32⟩
  | 8 => ⟨S4x12544x1, .f32⟩
  | 9 => ⟨S4x12544x4, .f32⟩
  | 10 => ⟨S4x1x12544x4, .f32⟩
  | 11 => ⟨S4x100x12544x4, .f32⟩
  | 12 => ⟨S4x100x12544x4, .f32⟩
  | 13 => ⟨S_, .f32⟩
  | 14 => ⟨S4x100x12544, .f32⟩
  | 15 => ⟨S_, .i32⟩
  | 16 => ⟨S_, .f32⟩
  | 17 => ⟨S4x128x12544, .f32⟩
  | 18 => ⟨S4x300x80, .f32⟩
  | 19 => ⟨S4x300x80, .f32⟩
  | 20 => ⟨S_, .f32⟩
  | 21 => ⟨S4x300x80, .f32⟩
  | 22 => ⟨S4x300x80, .f32⟩
  | 23 => ⟨S_, .f32⟩
  | 24 => ⟨S4x300x80, .f32⟩
  | 25 => ⟨S4x300x80, .f32⟩
  | 26 => ⟨S_, .f32⟩
  | 27 => ⟨S4x300x80, .f32⟩
  | 28 => ⟨S4x300x80, .f32⟩
  | 29 => ⟨S_, .f32⟩
  | 30 => ⟨S4x300x80, .f32⟩
  | 31 => ⟨S4x300x80, .f32⟩
  | 32 => ⟨S_, .f32⟩
  | 33 => ⟨S4x300x80, .f32⟩
  | 34 => ⟨S4x300x80, .f32⟩
  | 35 => ⟨S_, .f32⟩
  | 36 => ⟨S4x300x80, .f32⟩
  | 37 => ⟨S4x300x80, .f32⟩
  | 38 => ⟨S4x300x80, .f32⟩
  | 39 => ⟨S4x300x80, .f32⟩
  | 40 => ⟨S4x300x80, .f32⟩
  | 41 => ⟨S_, .f32⟩
  | 42 => ⟨S4x300x80, .f32⟩
  | 43 => ⟨S4x300x80, .f32⟩
  | 44 => ⟨S_, .f32⟩
  | 45 => ⟨S4x300x80, .f32⟩
  | 46 => ⟨S4x300x80, .f32⟩
  | 47 => ⟨S_, .f32⟩
  | 48 => ⟨S4x300x80, .f32⟩
  | 49 => ⟨S4x300x80, .f32⟩
  | 50 => ⟨S_, .f32⟩
  | 51 => ⟨S4x300x80, .f32⟩
  | 52 => ⟨S4x300x80, .f32⟩
  | 53 => ⟨S4x300x80, .f32⟩
  | 54 => ⟨S4x300x80, .f32⟩
  | 55 => ⟨S4x300x80, .f32⟩
  | 56 => ⟨S_, .i32⟩
  | 57 => ⟨S4x100, .i32⟩
  | 58 => ⟨S4x100, .i1⟩
  | 59 => ⟨S_, .i32⟩
  | 60 => ⟨S4x100, .i32⟩
  | 61 => ⟨S4x100, .i32⟩
  | 62 => ⟨S4x100, .i32⟩
  | 63 => ⟨S4x100x1, .i32⟩
  | 64 => ⟨S4x300x100, .f32⟩
  | 65 => ⟨S_, .i32⟩
  | 66 => ⟨S4x100, .i32⟩
  | 67 => ⟨S4x100, .i1⟩
  | 68 => ⟨S_, .i32⟩
  | 69 => ⟨S4x100, .i32⟩
  | 70 => ⟨S4x100, .i32⟩
  | 71 => ⟨S4x100, .i32⟩
  | 72 => ⟨S4x100x1, .i32⟩
  | 73 => ⟨S4x300x100, .f32⟩
  | 74 => ⟨S4x300x100, .f32⟩
  | 75 => ⟨S_, .i32⟩
  | 76 => ⟨S_, .f32⟩
  | 77 => ⟨S4x300x128, .f32⟩
  | 78 => ⟨S4x300x128, .f32⟩
  | 79 => ⟨S4x300x100, .f32⟩
  | _ => ⟨S4x300x80, .f32⟩

abbrev hbmTy (i : Nat) : BufTy := match i / 128 with
  | 0 => hbmTy0_0 i
  | 1 => hbmTy0_1 i
  | 2 => hbmTy0_2 i
  | _ => ⟨S4x300x80, .f32⟩

abbrev bufTy : (tb : Table) → Fin (tcTables nBuf tb) → BufTy
  | .hbm, ⟨i, _⟩ => hbmTy i
  | .local _ .vmem, ⟨0, _⟩ => ⟨S1x300x1792, .f32⟩
  | .local _ .vmem, ⟨1, _⟩ => ⟨S1x300x1792, .f32⟩
  | .local _ .vmem, ⟨2, _⟩ => ⟨S1x128x1792, .f32⟩
  | .local _ .vmem, ⟨3, _⟩ => ⟨S1x128x1792, .f32⟩
  | .local _ .vmem, ⟨4, _⟩ => ⟨S1x300x128, .f32⟩
  | .local _ .vmem, ⟨5, _⟩ => ⟨S1x300x128, .f32⟩
  | .local _ .vmem, ⟨6, _⟩ => ⟨S1x300x128, .f32⟩
  | .local _ .vmem, ⟨7, _⟩ => ⟨S1x300x128, .f32⟩
  | .local _ .vmem, ⟨8, _⟩ => ⟨S300x128, .f32⟩
  | .local _ .vmem, ⟨9, _⟩ => ⟨S300x128, .f32⟩
  | .local _ .vmem, ⟨10, _⟩ => ⟨S300x1, .f32⟩
  | .local _ .vmem, ⟨11, _⟩ => ⟨S300x1, .f32⟩
  | .local _ .vmem, ⟨12, _⟩ => ⟨S1x128, .f32⟩
  | _, _ => ⟨S4x300x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_10 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c : Ref sig .tc := ⟨.hbm, 63, rfl⟩
abbrev main_c_11 : Ref sig .tc := ⟨.hbm, 64, rfl⟩
abbrev main_call0_v0 : Ref sig .tc := ⟨.hbm, 65, rfl⟩
abbrev main_call0_v1 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_v46 : Ref sig .tc := ⟨.hbm, 70, rfl⟩
abbrev main_v47 : Ref sig .tc := ⟨.hbm, 71, rfl⟩
abbrev main_c_12 : Ref sig .tc := ⟨.hbm, 72, rfl⟩
abbrev main_c_13 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_v48 : Ref sig .tc := ⟨.hbm, 79, rfl⟩
abbrev main_v49 : Ref sig .tc := ⟨.hbm, 80, rfl⟩
abbrev main_c_14 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_call2_c : Ref sig .tc := ⟨.hbm, 86, rfl⟩
abbrev main_call2_v0 : Ref sig .tc := ⟨.hbm, 87, rfl⟩
abbrev main_call2_v1 : Ref sig .tc := ⟨.hbm, 88, rfl⟩
abbrev main_call2_c_0 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_c_1 : Ref sig .tc := ⟨.hbm, 94, rfl⟩
abbrev main_call2_c_2 : Ref sig .tc := ⟨.hbm, 95, rfl⟩
abbrev main_call2_v6 : Ref sig .tc := ⟨.hbm, 96, rfl⟩
abbrev main_call2_v7 : Ref sig .tc := ⟨.hbm, 97, rfl⟩
abbrev main_call2_v8 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_c_3 : Ref sig .tc := ⟨.hbm, 102, rfl⟩
abbrev main_call2_v12 : Ref sig .tc := ⟨.hbm, 103, rfl⟩
abbrev main_call2_v13 : Ref sig .tc := ⟨.hbm, 104, rfl⟩
abbrev main_call2_v14 : Ref sig .tc := ⟨.hbm, 105, rfl⟩
abbrev main_call2_cst : Ref sig .tc := ⟨.hbm, 106, rfl⟩
abbrev main_call2_v15 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_cst_15 : Ref sig .tc := ⟨.hbm, 112, rfl⟩
abbrev main_v58 : Ref sig .tc := ⟨.hbm, 113, rfl⟩
abbrev main_v59 : Ref sig .tc := ⟨.hbm, 114, rfl⟩
abbrev main_cst_16 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_cst_17 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_cst_18 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_cst_19 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_cst_20 : Ref sig .tc := ⟨.hbm, 140, rfl⟩
abbrev main_v81 : Ref sig .tc := ⟨.hbm, 141, rfl⟩
abbrev main_v82 : Ref sig .tc := ⟨.hbm, 142, rfl⟩
abbrev main_cst_21 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_cst_22 : Ref sig .tc := ⟨.hbm, 148, rfl⟩
abbrev main_v87 : Ref sig .tc := ⟨.hbm, 149, rfl⟩
abbrev main_v88 : Ref sig .tc := ⟨.hbm, 150, rfl⟩
abbrev main_cst_23 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_cst_24 : Ref sig .tc := ⟨.hbm, 158, rfl⟩
abbrev main_v95 : Ref sig .tc := ⟨.hbm, 159, rfl⟩
abbrev main_v96 : Ref sig .tc := ⟨.hbm, 160, rfl⟩
abbrev main_cst_25 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_cst_26 : Ref sig .tc := ⟨.hbm, 169, rfl⟩
abbrev main_v104 : Ref sig .tc := ⟨.hbm, 170, rfl⟩
abbrev main_v105 : Ref sig .tc := ⟨.hbm, 171, rfl⟩
abbrev main_cst_27 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_cst_28 : Ref sig .tc := ⟨.hbm, 180, rfl⟩
abbrev main_v113 : Ref sig .tc := ⟨.hbm, 181, rfl⟩
abbrev main_v114 : Ref sig .tc := ⟨.hbm, 182, rfl⟩
abbrev main_cst_29 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_cst_30 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_cst_31 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_c_32 : Ref sig .tc := ⟨.hbm, 196, rfl⟩
abbrev main_c_33 : Ref sig .tc := ⟨.hbm, 197, rfl⟩
abbrev main_call3_v0 : Ref sig .tc := ⟨.hbm, 198, rfl⟩
abbrev main_call3_v1 : Ref sig .tc := ⟨.hbm, 199, rfl⟩
abbrev main_call3_v2 : Ref sig .tc := ⟨.hbm, 200, rfl⟩
abbrev main_call3_v3 : Ref sig .tc := ⟨.hbm, 201, rfl⟩
abbrev main_call3_v4 : Ref sig .tc := ⟨.hbm, 202, rfl⟩
abbrev main_v125 : Ref sig .tc := ⟨.hbm, 203, rfl⟩
abbrev main_v126 : Ref sig .tc := ⟨.hbm, 204, rfl⟩
abbrev main_c_34 : Ref sig .tc := ⟨.hbm, 205, rfl⟩
abbrev main_c_35 : Ref sig .tc := ⟨.hbm, 206, rfl⟩
abbrev main_call4_v0 : Ref sig .tc := ⟨.hbm, 207, rfl⟩
abbrev main_call4_v1 : Ref sig .tc := ⟨.hbm, 208, rfl⟩
abbrev main_call4_v2 : Ref sig .tc := ⟨.hbm, 209, rfl⟩
abbrev main_call4_v3 : Ref sig .tc := ⟨.hbm, 210, rfl⟩
abbrev main_call4_v4 : Ref sig .tc := ⟨.hbm, 211, rfl⟩
abbrev main_v127 : Ref sig .tc := ⟨.hbm, 212, rfl⟩
abbrev main_v128 : Ref sig .tc := ⟨.hbm, 213, rfl⟩
abbrev main_c_36 : Ref sig .tc := ⟨.hbm, 214, rfl⟩
abbrev main_v129 : Ref sig .tc := ⟨.hbm, 215, rfl⟩
abbrev main_v130 : Ref sig .tc := ⟨.hbm, 216, rfl⟩
abbrev main_v131 : Ref sig .tc := ⟨.hbm, 217, rfl⟩
abbrev main_v132 : Ref sig .tc := ⟨.hbm, 218, rfl⟩
abbrev main_call5_c : Ref sig .tc := ⟨.hbm, 219, rfl⟩
abbrev main_call5_v0 : Ref sig .tc := ⟨.hbm, 220, rfl⟩
abbrev main_call5_v1 : Ref sig .tc := ⟨.hbm, 221, rfl⟩
abbrev main_call5_c_0 : Ref sig .tc := ⟨.hbm, 222, rfl⟩
abbrev main_call5_v2 : Ref sig .tc := ⟨.hbm, 223, rfl⟩
abbrev main_call5_v3 : Ref sig .tc := ⟨.hbm, 224, rfl⟩
abbrev main_call5_v4 : Ref sig .tc := ⟨.hbm, 225, rfl⟩
abbrev main_call5_v5 : Ref sig .tc := ⟨.hbm, 226, rfl⟩
abbrev main_call5_c_1 : Ref sig .tc := ⟨.hbm, 227, rfl⟩
abbrev main_call5_c_2 : Ref sig .tc := ⟨.hbm, 228, rfl⟩
abbrev main_call5_v6 : Ref sig .tc := ⟨.hbm, 229, rfl⟩
abbrev main_call5_v7 : Ref sig .tc := ⟨.hbm, 230, rfl⟩
abbrev main_call5_v8 : Ref sig .tc := ⟨.hbm, 231, rfl⟩
abbrev main_call5_v9 : Ref sig .tc := ⟨.hbm, 232, rfl⟩
abbrev main_call5_v10 : Ref sig .tc := ⟨.hbm, 233, rfl⟩
abbrev main_call5_v11 : Ref sig .tc := ⟨.hbm, 234, rfl⟩
abbrev main_call5_c_3 : Ref sig .tc := ⟨.hbm, 235, rfl⟩
abbrev main_call5_v12 : Ref sig .tc := ⟨.hbm, 236, rfl⟩
abbrev main_call5_v13 : Ref sig .tc := ⟨.hbm, 237, rfl⟩
abbrev main_call5_v14 : Ref sig .tc := ⟨.hbm, 238, rfl⟩
abbrev main_call5_cst : Ref sig .tc := ⟨.hbm, 239, rfl⟩
abbrev main_call5_v15 : Ref sig .tc := ⟨.hbm, 240, rfl⟩
abbrev main_v133 : Ref sig .tc := ⟨.hbm, 241, rfl⟩
abbrev main_v134 : Ref sig .tc := ⟨.hbm, 242, rfl⟩
abbrev main_v135 : Ref sig .tc := ⟨.hbm, 243, rfl⟩
abbrev main_v136 : Ref sig .tc := ⟨.hbm, 244, rfl⟩
abbrev main_cst_37 : Ref sig .tc := ⟨.hbm, 245, rfl⟩
abbrev main_v137 : Ref sig .tc := ⟨.hbm, 246, rfl⟩
abbrev main_v138 : Ref sig .tc := ⟨.hbm, 247, rfl⟩
abbrev main_cst_38 : Ref sig .tc := ⟨.hbm, 248, rfl⟩
abbrev main_v139 : Ref sig .tc := ⟨.hbm, 249, rfl⟩
abbrev main_v140 : Ref sig .tc := ⟨.hbm, 250, rfl⟩
abbrev main_v141 : Ref sig .tc := ⟨.hbm, 251, rfl⟩
abbrev main_cst_39 : Ref sig .tc := ⟨.hbm, 252, rfl⟩
abbrev main_v142 : Ref sig .tc := ⟨.hbm, 253, rfl⟩
abbrev main_v143 : Ref sig .tc := ⟨.hbm, 254, rfl⟩
abbrev main_v144 : Ref sig .tc := ⟨.hbm, 255, rfl⟩
abbrev main_cst_40 : Ref sig .tc := ⟨.hbm, 256, rfl⟩
abbrev main_v145 : Ref sig .tc := ⟨.hbm, 257, rfl⟩
abbrev main_v146 : Ref sig .tc := ⟨.hbm, 258, rfl⟩
abbrev main_v147 : Ref sig .tc := ⟨.hbm, 259, rfl⟩
abbrev main_v148 : Ref sig .tc := ⟨.hbm, 260, rfl⟩
abbrev main_v149 : Ref sig .tc := ⟨.hbm, 261, rfl⟩
abbrev main_v150 : Ref sig .tc := ⟨.hbm, 262, rfl⟩
abbrev main_v151 : Ref sig .tc := ⟨.hbm, 263, rfl⟩
abbrev main_v152 : Ref sig .tc := ⟨.hbm, 264, rfl⟩
abbrev main_v153 : Ref sig .tc := ⟨.hbm, 265, rfl⟩
abbrev main_v154 : Ref sig .tc := ⟨.hbm, 266, rfl⟩
abbrev main_v155 : Ref sig .tc := ⟨.hbm, 267, rfl⟩
abbrev main_v156 : Ref sig .tc := ⟨.hbm, 268, rfl⟩
abbrev main_cst_41 : Ref sig .tc := ⟨.hbm, 269, rfl⟩
abbrev main_v157 : Ref sig .tc := ⟨.hbm, 270, rfl⟩
abbrev main_c_42 : Ref sig .tc := ⟨.hbm, 271, rfl⟩
abbrev main_call6_v0 : Ref sig .tc := ⟨.hbm, 272, rfl⟩
abbrev main_v158 : Ref sig .tc := ⟨.hbm, 273, rfl⟩
abbrev main_v159 : Ref sig .tc := ⟨.hbm, 274, rfl⟩
abbrev main_v160 : Ref sig .tc := ⟨.hbm, 275, rfl⟩
abbrev main_cst_43 : Ref sig .tc := ⟨.hbm, 276, rfl⟩
abbrev main_v161 : Ref sig .tc := ⟨.hbm, 277, rfl⟩
abbrev main_v162 : Ref sig .tc := ⟨.hbm, 278, rfl⟩
abbrev main_cst_44 : Ref sig .tc := ⟨.hbm, 279, rfl⟩
abbrev main_v163 : Ref sig .tc := ⟨.hbm, 280, rfl⟩
abbrev main_v164 : Ref sig .tc := ⟨.hbm, 281, rfl⟩
abbrev main_cst_45 : Ref sig .tc := ⟨.hbm, 282, rfl⟩
abbrev main_v165 : Ref sig .tc := ⟨.hbm, 283, rfl⟩
abbrev main_v166 : Ref sig .tc := ⟨.hbm, 284, rfl⟩
abbrev main_cst_46 : Ref sig .tc := ⟨.hbm, 285, rfl⟩
abbrev main_v167 : Ref sig .tc := ⟨.hbm, 286, rfl⟩
abbrev main_v168 : Ref sig .tc := ⟨.hbm, 287, rfl⟩
abbrev main_cst_47 : Ref sig .tc := ⟨.hbm, 288, rfl⟩
abbrev main_v169 : Ref sig .tc := ⟨.hbm, 289, rfl⟩
abbrev main_v170 : Ref sig .tc := ⟨.hbm, 290, rfl⟩
abbrev main_cst_48 : Ref sig .tc := ⟨.hbm, 291, rfl⟩
abbrev main_v171 : Ref sig .tc := ⟨.hbm, 292, rfl⟩
abbrev main_v172 : Ref sig .tc := ⟨.hbm, 293, rfl⟩
abbrev main_v173 : Ref sig .tc := ⟨.hbm, 294, rfl⟩
abbrev main_v174 : Ref sig .tc := ⟨.hbm, 295, rfl⟩
abbrev main_v175 : Ref sig .tc := ⟨.hbm, 296, rfl⟩
abbrev main_cst_49 : Ref sig .tc := ⟨.hbm, 297, rfl⟩
abbrev main_v176 : Ref sig .tc := ⟨.hbm, 298, rfl⟩
abbrev main_v177 : Ref sig .tc := ⟨.hbm, 299, rfl⟩
abbrev main_cst_50 : Ref sig .tc := ⟨.hbm, 300, rfl⟩
abbrev main_v178 : Ref sig .tc := ⟨.hbm, 301, rfl⟩
abbrev main_v179 : Ref sig .tc := ⟨.hbm, 302, rfl⟩
abbrev main_cst_51 : Ref sig .tc := ⟨.hbm, 303, rfl⟩
abbrev main_v180 : Ref sig .tc := ⟨.hbm, 304, rfl⟩
abbrev main_v181 : Ref sig .tc := ⟨.hbm, 305, rfl⟩
abbrev main_cst_52 : Ref sig .tc := ⟨.hbm, 306, rfl⟩
abbrev main_v182 : Ref sig .tc := ⟨.hbm, 307, rfl⟩
abbrev main_v183 : Ref sig .tc := ⟨.hbm, 308, rfl⟩
abbrev main_v184 : Ref sig .tc := ⟨.hbm, 309, rfl⟩
abbrev main_v185 : Ref sig .tc := ⟨.hbm, 310, rfl⟩
abbrev main_v186 : Ref sig .tc := ⟨.hbm, 311, rfl⟩
abbrev main_c_53 : Ref sig .tc := ⟨.hbm, 312, rfl⟩
abbrev main_v187 : Ref sig .tc := ⟨.hbm, 313, rfl⟩
abbrev main_v188 : Ref sig .tc := ⟨.hbm, 314, rfl⟩
abbrev main_c_54 : Ref sig .tc := ⟨.hbm, 315, rfl⟩
abbrev main_v189 : Ref sig .tc := ⟨.hbm, 316, rfl⟩
abbrev main_v190 : Ref sig .tc := ⟨.hbm, 317, rfl⟩
abbrev main_v191 : Ref sig .tc := ⟨.hbm, 318, rfl⟩
abbrev main_v192 : Ref sig .tc := ⟨.hbm, 319, rfl⟩
abbrev main_v193 : Ref sig .tc := ⟨.hbm, 320, rfl⟩
abbrev main_c_55 : Ref sig .tc := ⟨.hbm, 321, rfl⟩
abbrev main_v194 : Ref sig .tc := ⟨.hbm, 322, rfl⟩
abbrev main_v195 : Ref sig .tc := ⟨.hbm, 323, rfl⟩
abbrev main_c_56 : Ref sig .tc := ⟨.hbm, 324, rfl⟩
abbrev main_v196 : Ref sig .tc := ⟨.hbm, 325, rfl⟩
abbrev main_v197 : Ref sig .tc := ⟨.hbm, 326, rfl⟩
abbrev main_v198 : Ref sig .tc := ⟨.hbm, 327, rfl⟩
abbrev main_v199 : Ref sig .tc := ⟨.hbm, 328, rfl⟩
abbrev main_v200 : Ref sig .tc := ⟨.hbm, 329, rfl⟩
abbrev main_v201 : Ref sig .tc := ⟨.hbm, 330, rfl⟩
abbrev main_c_57 : Ref sig .tc := ⟨.hbm, 331, rfl⟩
abbrev main_call7_v0 : Ref sig .tc := ⟨.hbm, 332, rfl⟩
abbrev main_v202 : Ref sig .tc := ⟨.hbm, 333, rfl⟩
abbrev main_v203 : Ref sig .tc := ⟨.hbm, 334, rfl⟩
abbrev main_v204 : Ref sig .tc := ⟨.hbm, 335, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 7], ![false, false]⟩

def k0_cond2 (i : grid0.Coords) : BitVec 1 :=
  let arg1 : BitVec 32 := BitVec.ofNat 32 (i 1).val
  let c6_i32 : BitVec 32 := 6#32
  let v81 : BitVec 1 := Scalar.cmpi .eq arg1 c6_i32
  let v82 : BitVec 32 := Scalar.extui v81
  let c0_i32_39 : BitVec 32 := 0#32
  let v83 : BitVec 1 := Scalar.cmpi .ne v82 c0_i32_39
  v83

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x300x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x300x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x300x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  slices_S4x12544x2_S4x12544x1_0_0_0 : S4x12544x2.Slices ![0, 0, 0] S4x12544x1
  shapeCasts_S4x12544x1_S4x12544 : S4x12544x1.ShapeCasts S4x12544
  bcast_S_S4x12544 : S_.BroadcastsInDim S4x12544 (![] : Fin 0 → Fin S4x12544.rank)
  slices_S4x12544x2_S4x12544x1_0_0_1 : S4x12544x2.Slices ![0, 0, 1] S4x12544x1
  bcast_S4x12544_S4x12544x1_0_1 : S4x12544.BroadcastsInDim S4x12544x1 (![0, 1] : Fin 2 → Fin S4x12544x1.rank)
  concatenates_S4x12544x1_S4x12544x1_S4x12544x1_S4x12544x1_S4x12544x4_d2 : Shape.Concatenates [S4x12544x1, S4x12544x1, S4x12544x1, S4x12544x1] S4x12544x4 2
  bcast_S_S4x12544x4 : S_.BroadcastsInDim S4x12544x4 (![] : Fin 0 → Fin S4x12544x4.rank)
  shapeCasts_S4x300x256x256_S4x300x65536 : S4x300x256x256.ShapeCasts S4x300x65536
  bcast_S4x12544x4_S4x12544x4x1_0_1_2 : S4x12544x4.BroadcastsInDim S4x12544x4x1 (![0, 1, 2] : Fin 3 → Fin S4x12544x4x1.rank)
  bcast_S_S4x12544x4x1 : S_.BroadcastsInDim S4x12544x4x1 (![] : Fin 0 → Fin S4x12544x4x1.rank)
  bcast_S1_S1x1x1x1_3 : S1.BroadcastsInDim S1x1x1x1 (![3] : Fin 1 → Fin S1x1x1x1.rank)
  bcast_S1x1x1x1_S4x12544x4x1_0_1_2_3 : S1x1x1x1.BroadcastsInDim S4x12544x4x1 (![0, 1, 2, 3] : Fin 4 → Fin S4x12544x4x1.rank)
  reducesTo_S4x12544x4x1_S4x12544x4_d3 : S4x12544x4x1.ReducesTo [3] S4x12544x4
  h_S_ : 0 < S_.numel
  bcast_S4x12544x4_S4x300x12544x4_0_2_3 : S4x12544x4.BroadcastsInDim S4x300x12544x4 (![0, 2, 3] : Fin 3 → Fin S4x300x12544x4.rank)
  bcast_S_S4x300x12544x4 : S_.BroadcastsInDim S4x300x12544x4 (![] : Fin 0 → Fin S4x300x12544x4.rank)
  bcast_S4x12544x4_S4x1x12544x4_0_2_3 : S4x12544x4.BroadcastsInDim S4x1x12544x4 (![0, 2, 3] : Fin 3 → Fin S4x1x12544x4.rank)
  bcast_S4x1x12544x4_S4x300x12544x4_0_1_2_3 : S4x1x12544x4.BroadcastsInDim S4x300x12544x4 (![0, 1, 2, 3] : Fin 4 → Fin S4x300x12544x4.rank)
  reducesTo_S4x300x12544x4_S4x300x12544_d3 : S4x300x12544x4.ReducesTo [3] S4x300x12544
  shapeCasts_S4x100x256x256_S4x100x65536 : S4x100x256x256.ShapeCasts S4x100x65536
  bcast_S4x12544x4_S4x100x12544x4_0_2_3 : S4x12544x4.BroadcastsInDim S4x100x12544x4 (![0, 2, 3] : Fin 3 → Fin S4x100x12544x4.rank)
  bcast_S_S4x100x12544x4 : S_.BroadcastsInDim S4x100x12544x4 (![] : Fin 0 → Fin S4x100x12544x4.rank)
  bcast_S4x1x12544x4_S4x100x12544x4_0_1_2_3 : S4x1x12544x4.BroadcastsInDim S4x100x12544x4 (![0, 1, 2, 3] : Fin 4 → Fin S4x100x12544x4.rank)
  reducesTo_S4x100x12544x4_S4x100x12544_d3 : S4x100x12544x4.ReducesTo [3] S4x100x12544
  pads_S4x100x12544_S4x128x12544_000_0280_000 : S4x100x12544.Pads (![0, 0, 0] : Fin 3 → Nat) ![0, 28, 0] ![0, 0, 0] S4x128x12544
  bcast_S_S4x300x80 : S_.BroadcastsInDim S4x300x80 (![] : Fin 0 → Fin S4x300x80.rank)
  bcast_S_S4x100 : S_.BroadcastsInDim S4x100 (![] : Fin 0 → Fin S4x100.rank)
  bcast_S4x100_S4x100x1_0_1 : S4x100.BroadcastsInDim S4x100x1 (![0, 1] : Fin 2 → Fin S4x100x1.rank)
  pads_S4x300x100_S4x300x128_000_000_0280 : S4x300x100.Pads (![0, 0, 0] : Fin 3 → Nat) ![0, 0, 28] ![0, 0, 0] S4x300x128
  inb_S300x128_S300x128_0_0 : ∀ a, (![0, 0] : Fin 2 → Nat) a + S300x128.size a ≤ S300x128.size a
  h_S300x128 : 0 < S300x128.numel
  shapeCasts_S300x128_S300x128 : S300x128.ShapeCasts S300x128
  inb_S300x1_S300x1_0_0 : ∀ a, (![0, 0] : Fin 2 → Nat) a + S300x1.size a ≤ S300x1.size a
  h_S300x1 : 0 < S300x1.numel
  shapeCasts_S300x1_S300x1 : S300x1.ShapeCasts S300x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x300x1792_S1x300x1792_0_0_0 : ∀ a, (![0, 0, 0] : Fin 3 → Nat) a + S1x300x1792.size a ≤ S1x300x1792.size a
  h_S1x300x1792 : 0 < S1x300x1792.numel
  shapeCasts_S1x300x1792_S300x1792 : S1x300x1792.ShapeCasts S300x1792
  inb_S1x128x1792_S1x128x1792_0_0_0 : ∀ a, (![0, 0, 0] : Fin 3 → Nat) a + S1x128x1792.size a ≤ S1x128x1792.size a
  h_S1x128x1792 : 0 < S1x128x1792.numel
  shapeCasts_S1x128x1792_S128x1792 : S1x128x1792.ShapeCasts S128x1792
  bitsLt_bf16_f32 : FTy.bits .bf16 < FTy.bits .f32
  reduces_S300x1792_S300 : S300x1792.Reduces [1] S300
  shapeCasts_S300_S300x1 : S300.ShapeCasts S300x1
  broadcasts_S300x1_S300x128 : S300x1.Broadcasts S300x128
  broadcasts_S1x128_S300x128 : S1x128.Broadcasts S300x128
  inb_S1x300x128_S1x300x128_0_0_0 : ∀ a, (![0, 0, 0] : Fin 3 → Nat) a + S1x300x128.size a ≤ S1x300x128.size a
  h_S1x300x128 : 0 < S1x300x128.numel
  shapeCasts_S1x300x128_S300x128 : S1x300x128.ShapeCasts S300x128
  shapeCasts_S300x128_S1x300x128 : S300x128.ShapeCasts S1x300x128
  slices_S4x300x128_S4x300x100_0_0_0 : S4x300x128.Slices ![0, 0, 0] S4x300x100
  gather_S4x300x65536_S4x12544x4x1_S4x300x12544x4_1_2_0_0_2_3_13001_wf : GatherDims.WF S4x300x65536 S4x12544x4x1 S4x300x12544x4 [1] [2] [0] [2] [0] 3 ![1, 300, 1]
  gather_S4x100x65536_S4x12544x4x1_S4x100x12544x4_1_2_0_0_2_3_11001_wf : GatherDims.WF S4x100x65536 S4x12544x4x1 S4x100x12544x4 [1] [2] [0] [2] [0] 3 ![1, 100, 1]
  gather_S4x300x80_S4x100x1_S4x300x100_1_2_0_0_2_2_13001_wf : GatherDims.WF S4x300x80 S4x100x1 S4x300x100 [1] [2] [0] [2] [0] 2 ![1, 300, 1]
  dot_S300x1792_S128x1792_S300x128_1_1_0_0_n_n_wf : DotDims.WF S300x1792 S128x1792 S300x128 [1] [1] [0] [0] [] []
  dot_S1x1792_S128x1792_S1x128_1_1_0_0_n_n_wf : DotDims.WF S1x1792 S128x1792 S1x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x300x1792.size a ≤ S4x300x12544.size a
  hwx0_0 : ∀ i : grid0.Coords, EltTy.bits .f32 = 32 ∨ (Rect.block (s := S4x300x12544) S1x300x1792.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x1792.size a ≤ S4x128x12544.size a
  hwx0_1 : ∀ i : grid0.Coords, EltTy.bits .f32 = 32 ∨ (Rect.block (s := S4x128x12544) S1x128x1792.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x300x128.size a ≤ S4x300x128.size a
  hwx0_2 : ∀ i : grid0.Coords, EltTy.bits .f32 = 32 ∨ (Rect.block (s := S4x300x128) S1x300x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x300x128.size a ≤ S4x300x128.size a
  hwx0_3 : ∀ i : grid0.Coords, EltTy.bits .f32 = 32 ∨ (Rect.block (s := S4x300x128) S1x300x128.size (cc0_transform_3 i) (hinb0_3 i)).WholeWords (EltTy.packing .f32)

variable [Facts₀]

def gather_S4x300x65536_S4x12544x4x1_S4x300x12544x4_1_2_0_0_2_3_13001 : GatherDims S4x300x65536 S4x12544x4x1 S4x300x12544x4 where
  offsetDims := [1]
  collapsedSliceDims := [2]
  operandBatchingDims := [0]
  startIndicesBatchingDims := [0]
  startIndexMap := [2]
  indexVectorDim := 3
  sliceSizes := ![1, 300, 1]
  wf := gather_S4x300x65536_S4x12544x4x1_S4x300x12544x4_1_2_0_0_2_3_13001_wf
def gather_S4x100x65536_S4x12544x4x1_S4x100x12544x4_1_2_0_0_2_3_11001 : GatherDims S4x100x65536 S4x12544x4x1 S4x100x12544x4 where
  offsetDims := [1]
  collapsedSliceDims := [2]
  operandBatchingDims := [0]
  startIndicesBatchingDims := [0]
  startIndexMap := [2]
  indexVectorDim := 3
  sliceSizes := ![1, 100, 1]
  wf := gather_S4x100x65536_S4x12544x4x1_S4x100x12544x4_1_2_0_0_2_3_11001_wf
def gather_S4x300x80_S4x100x1_S4x300x100_1_2_0_0_2_2_13001 : GatherDims S4x300x80 S4x100x1 S4x300x100 where
  offsetDims := [1]
  collapsedSliceDims := [2]
  operandBatchingDims := [0]
  startIndicesBatchingDims := [0]
  startIndexMap := [2]
  indexVectorDim := 2
  sliceSizes := ![1, 300, 1]
  wf := gather_S4x300x80_S4x100x1_S4x300x100_1_2_0_0_2_2_13001_wf
def dot_S300x1792_S128x1792_S300x128_1_1_0_0_n_n : DotDims S300x1792 S128x1792 S300x128 where
  lhsContracting := [1]
  rhsContracting := [1]
  lhsNonContracting := [0]
  rhsNonContracting := [0]
  lhsBatch := []
  rhsBatch := []
  wf := dot_S300x1792_S128x1792_S300x128_1_1_0_0_n_n_wf
def dot_S1x1792_S128x1792_S1x128_1_1_0_0_n_n : DotDims S1x1792 S128x1792 S1x128 where
  lhsContracting := [1]
  rhsContracting := [1]
  lhsNonContracting := [0]
  rhsNonContracting := [0]
  lhsBatch := []
  rhsBatch := []
  wf := dot_S1x1792_S128x1792_S1x128_1_1_0_0_n_n_wf

abbrev win0_0 : Pipeline.Window sig grid0 :=
  Pipeline.Window.ofSpec (Memref.whole main_v78) S1x300x1792.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v158) S1x128x1792.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v202) S1x300x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v203) S1x300x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x300x80 : Shape := ⟨3, ![4, 300, 80]⟩
abbrev S4x300x256x256 : Shape := ⟨4, ![4, 300, 256, 256]⟩
abbrev S4x100 : Shape := ⟨2, ![4, 100]⟩
abbrev S4x100x256x256 : Shape := ⟨4, ![4, 100, 256, 256]⟩
abbrev S4x12544x2 : Shape := ⟨3, ![4, 12544, 2]⟩
abbrev S4x12544x1 : Shape := ⟨3, ![4, 12544, 1]⟩
abbrev S4x12544 : Shape := ⟨2, ![4, 12544]⟩
abbrev S_ : Shape := ⟨0, ![]⟩
abbrev S4x300x12544 : Shape := ⟨3, ![4, 300, 12544]⟩
abbrev S4x1x12544 : Shape := ⟨3, ![4, 1, 12544]⟩
abbrev S4x100x12544 : Shape := ⟨3, ![4, 100, 12544]⟩
abbrev S4x100x1 : Shape := ⟨3, ![4, 100, 1]⟩
abbrev S4x300x100 : Shape := ⟨3, ![4, 300, 100]⟩
abbrev S4x300 : Shape := ⟨2, ![4, 300]⟩
abbrev S4x300x1 : Shape := ⟨3, ![4, 300, 1]⟩
abbrev S4x1x100 : Shape := ⟨3, ![4, 1, 100]⟩

abbrev nBuf : Space → Nat
  | .hbm => 725
  | .vmem => 0
  | .smem => 0
  | _ => 0

abbrev hbmTy0_0 (i : Nat) : BufTy := match i % 128 with
  | 0 => ⟨S4x300x80, .f32⟩
  | 1 => ⟨S4x300x256x256, .f32⟩
  | 2 => ⟨S4x100, .i32⟩
  | 3 => ⟨S4x100x256x256, .f32⟩
  | 4 => ⟨S4x12544x2, .f32⟩
  | 5 => ⟨S4x12544x1, .f32⟩
  | 6 => ⟨S4x12544, .f32⟩
  | 7 => ⟨S_, .f32⟩
  | 8 => ⟨S4x12544, .f32⟩
  | 9 => ⟨S4x12544, .f32⟩
  | 10 => ⟨S_, .f32⟩
  | 11 => ⟨S4x12544, .f32⟩
  | 12 => ⟨S4x12544, .f32⟩
  | 13 => ⟨S4x12544x1, .f32⟩
  | 14 => ⟨S4x12544, .f32⟩
  | 15 => ⟨S_, .f32⟩
  | 16 => ⟨S4x12544, .f32⟩
  | 17 => ⟨S4x12544, .f32⟩
  | 18 => ⟨S_, .f32⟩
  | 19 => ⟨S4x12544, .f32⟩
  | 20 => ⟨S4x12544, .f32⟩
  | 21 => ⟨S4x12544, .f32⟩
  | 22 => ⟨S4x12544, .f32⟩
  | 23 => ⟨S4x12544, .f32⟩
  | 24 => ⟨S4x12544, .f32⟩
  | 25 => ⟨S_, .i32⟩
  | 26 => ⟨S_, .i32⟩
  | 27 => ⟨S_, .f32⟩
  | 28 => ⟨S4x12544, .f32⟩
  | 29 => ⟨S4x12544, .f32⟩
  | 30 => ⟨S_, .f32⟩
  | 31 => ⟨S4x12544, .f32⟩
  | 32 => ⟨S4x12544, .f32⟩
  | 33 => ⟨S4x12544, .i32⟩
  | 34 => ⟨S_, .i32⟩
  | 35 => ⟨S_, .i32⟩
  | 36 => ⟨S_, .f32⟩
  | 37 => ⟨S4x12544, .f32⟩
  | 38 => ⟨S4x12544, .f32⟩
  | 39 => ⟨S_, .f32⟩
  | 40 => ⟨S4x12544, .f32⟩
  | 41 => ⟨S4x12544, .f32⟩
  | 42 => ⟨S4x12544, .i32⟩
  | 43 => ⟨S_, .f32⟩
  | 44 => ⟨S4x12544, .f32⟩
  | 45 => ⟨S4x12544, .i1⟩
  | 46 => ⟨S_, .f32⟩
  | 47 => ⟨S4x12544, .f32⟩
  | 48 => ⟨S4x12544, .i1⟩
  | 49 => ⟨S4x12544, .i1⟩
  | 50 => ⟨S_, .f32⟩
  | 51 => ⟨S4x12544, .f32⟩
  | 52 => ⟨S4x12544, .i1⟩
  | 53 => ⟨S4x12544, .i1⟩
  | 54 => ⟨S_, .f32⟩
  | 55 => ⟨S4x12544, .f32⟩
  | 56 => ⟨S4x12544, .i1⟩
  | 57 => ⟨S4x12544, .i1⟩
  | 58 => ⟨S4x12544, .f32⟩
  | 59 => ⟨S_, .i32⟩
  | 60 => ⟨S4x12544, .i32⟩
  | 61 => ⟨S4x12544, .i1⟩
  | 62 => ⟨S_, .i32⟩
  | 63 => ⟨S4x12544, .i32⟩
  | 64 => ⟨S4x12544, .i32⟩
  | 65 => ⟨S4x12544, .i32⟩
  | 66 => ⟨S_, .i32⟩
  | 67 => ⟨S4x12544, .i32⟩
  | 68 => ⟨S4x12544, .i1⟩
  | 69 => ⟨S_, .i32⟩
  | 70 => ⟨S4x12544, .i32⟩
  | 71 => ⟨S4x12544, .i32⟩
  | 72 => ⟨S4x12544, .i32⟩
  | 73 => ⟨S4x12544x1, .i32⟩
  | 74 => ⟨S4x12544x1, .i32⟩
  | 75 => ⟨S4x12544x2, .i32⟩
  | 76 => ⟨S4x300x12544, .f32⟩
  | 77 => ⟨S4x1x12544, .f32⟩
  | 78 => ⟨S4x300x12544, .f32⟩
  | 79 => ⟨S4x300x12544, .f32⟩
  | 80 => ⟨S_, .f32⟩
  | 81 => ⟨S4x12544, .f32⟩
  | 82 => ⟨S4x12544, .f32⟩
  | 83 => ⟨S_, .i32⟩
  | 84 => ⟨S_, .i32⟩
  | 85 => ⟨S_, .f32⟩
  | 86 => ⟨S4x12544, .f32⟩
  | 87 => ⟨S4x12544, .f32⟩
  | 88 => ⟨S_, .f32⟩
  | 89 => ⟨S4x12544, .f32⟩
  | 90 => ⟨S4x12544, .f32⟩
  | 91 => ⟨S4x12544, .i32⟩
  | 92 => ⟨S_, .i32⟩
  | 93 => ⟨S_, .i32⟩
  | 94 => ⟨S_, .f32⟩
  | 95 => ⟨S4x12544, .f32⟩
  | 96 => ⟨S4x12544, .f32⟩
  | 97 => ⟨S_, .f32⟩
  | 98 => ⟨S4x12544, .f32⟩
  | 99 => ⟨S4x12544, .f32⟩
  | 100 => ⟨S4x12544, .i32⟩
  | 101 => ⟨S_, .f32⟩
  | 102 => ⟨S4x12544, .f32⟩
  | 103 => ⟨S4x12544, .i1⟩
  | 104 => ⟨S_, .f32⟩
  | 105 => ⟨S4x12544, .f32⟩
  | 106 => ⟨S4x12544, .i1⟩
  | 107 => ⟨S4x12544, .i1⟩
  | 108 => ⟨S_, .f32⟩
  | 109 => ⟨S4x12544, .f32⟩
  | 110 => ⟨S4x12544, .i1⟩
  | 111 => ⟨S4x12544, .i1⟩
  | 112 => ⟨S_, .f32⟩
  | 113 => ⟨S4x12544, .f32⟩
  | 114 => ⟨S4x12544, .i1⟩
  | 115 => ⟨S4x12544, .i1⟩
  | 116 => ⟨S4x12544, .f32⟩
  | 117 => ⟨S_, .i32⟩
  | 118 => ⟨S4x12544, .i32⟩
  | 119 => ⟨S4x12544, .i1⟩
  | 120 => ⟨S_, .i32⟩
  | 121 => ⟨S4x12544, .i32⟩
  | 122 => ⟨S4x12544, .i32⟩
  | 123 => ⟨S4x12544, .i32⟩
  | 124 => ⟨S_, .i32⟩
  | 125 => ⟨S4x12544, .i32⟩
  | 126 => ⟨S4x12544, .i1⟩
  | 127 => ⟨S_, .i32⟩
  | _ => ⟨S4x300x80, .f32⟩

abbrev hbmTy0_1 (i : Nat) : BufTy := match i % 128 with
  | 0 => ⟨S4x12544, .i32⟩
  | 1 => ⟨S4x12544, .i32⟩
  | 2 => ⟨S4x12544, .i32⟩
  | 3 => ⟨S4x12544x1, .i32⟩
  | 4 => ⟨S4x12544x1, .i32⟩
  | 5 => ⟨S4x12544x2, .i32⟩
  | 6 => ⟨S4x300x12544, .f32⟩
  | 7 => ⟨S4x1x12544, .f32⟩
  | 8 => ⟨S4x300x12544, .f32⟩
  | 9 => ⟨S4x300x12544, .f32⟩
  | 10 => ⟨S_, .f32⟩
  | 11 => ⟨S4x12544, .f32⟩
  | 12 => ⟨S4x12544, .f32⟩
  | 13 => ⟨S_, .i32⟩
  | 14 => ⟨S_, .i32⟩
  | 15 => ⟨S_, .f32⟩
  | 16 => ⟨S4x12544, .f32⟩
  | 17 => ⟨S4x12544, .f32⟩
  | 18 => ⟨S_, .f32⟩
  | 19 => ⟨S4x12544, .f32⟩
  | 20 => ⟨S4x12544, .f32⟩
  | 21 => ⟨S4x12544, .i32⟩
  | 22 => ⟨S_, .i32⟩
  | 23 => ⟨S_, .i32⟩
  | 24 => ⟨S_, .f32⟩
  | 25 => ⟨S4x12544, .f32⟩
  | 26 => ⟨S4x12544, .f32⟩
  | 27 => ⟨S_, .f32⟩
  | 28 => ⟨S4x12544, .f32⟩
  | 29 => ⟨S4x12544, .f32⟩
  | 30 => ⟨S4x12544, .i32⟩
  | 31 => ⟨S_, .f32⟩
  | 32 => ⟨S4x12544, .f32⟩
  | 33 => ⟨S4x12544, .i1⟩
  | 34 => ⟨S_, .f32⟩
  | 35 => ⟨S4x12544, .f32⟩
  | 36 => ⟨S4x12544, .i1⟩
  | 37 => ⟨S4x12544, .i1⟩
  | 38 => ⟨S_, .f32⟩
  | 39 => ⟨S4x12544, .f32⟩
  | 40 => ⟨S4x12544, .i1⟩
  | 41 => ⟨S4x12544, .i1⟩
  | 42 => ⟨S_, .f32⟩
  | 43 => ⟨S4x12544, .f32⟩
  | 44 => ⟨S4x12544, .i1⟩
  | 45 => ⟨S4x12544, .i1⟩
  | 46 => ⟨S4x12544, .f32⟩
  | 47 => ⟨S_, .i32⟩
  | 48 => ⟨S4x12544, .i32⟩
  | 49 => ⟨S4x12544, .i1⟩
  | 50 => ⟨S_, .i32⟩
  | 51 => ⟨S4x12544, .i32⟩
  | 52 => ⟨S4x12544, .i32⟩
  | 53 => ⟨S4x12544, .i32⟩
  | 54 => ⟨S_, .i32⟩
  | 55 => ⟨S4x12544, .i32⟩
  | 56 => ⟨S4x12544, .i1⟩
  | 57 => ⟨S_, .i32⟩
  | 58 => ⟨S4x12544, .i32⟩
  | 59 => ⟨S4x12544, .i32⟩
  | 60 => ⟨S4x12544, .i32⟩
  | 61 => ⟨S4x12544x1, .i32⟩
  | 62 => ⟨S4x12544x1, .i32⟩
  | 63 => ⟨S4x12544x2, .i32⟩
  | 64 => ⟨S4x300x12544, .f32⟩
  | 65 => ⟨S4x1x12544, .f32⟩
  | 66 => ⟨S4x300x12544, .f32⟩
  | 67 => ⟨S4x300x12544, .f32⟩
  | 68 => ⟨S_, .f32⟩
  | 69 => ⟨S4x12544, .f32⟩
  | 70 => ⟨S4x12544, .f32⟩
  | 71 => ⟨S_, .f32⟩
  | 72 => ⟨S4x12544, .f32⟩
  | 73 => ⟨S4x12544, .f32⟩
  | 74 => ⟨S_, .i32⟩
  | 75 => ⟨S_, .i32⟩
  | 76 => ⟨S_, .f32⟩
  | 77 => ⟨S4x12544, .f32⟩
  | 78 => ⟨S4x12544, .f32⟩
  | 79 => ⟨S_, .f32⟩
  | 80 => ⟨S4x12544, .f32⟩
  | 81 => ⟨S4x12544, .f32⟩
  | 82 => ⟨S4x12544, .i32⟩
  | 83 => ⟨S_, .i32⟩
  | 84 => ⟨S_, .i32⟩
  | 85 => ⟨S_, .f32⟩
  | 86 => ⟨S4x12544, .f32⟩
  | 87 => ⟨S4x12544, .f32⟩
  | 88 => ⟨S_, .f32⟩
  | 89 => ⟨S4x12544, .f32⟩
  | 90 => ⟨S4x12544, .f32⟩
  | 91 => ⟨S4x12544, .i32⟩
  | 92 => ⟨S_, .f32⟩
  | 93 => ⟨S4x12544, .f32⟩
  | 94 => ⟨S4x12544, .i1⟩
  | 95 => ⟨S_, .f32⟩
  | 96 => ⟨S4x12544, .f32⟩
  | 97 => ⟨S4x12544, .i1⟩
  | 98 => ⟨S4x12544, .i1⟩
  | 99 => ⟨S_, .f32⟩
  | 100 => ⟨S4x12544, .f32⟩
  | 101 => ⟨S4x12544, .i1⟩
  | 102 => ⟨S4x12544, .i1⟩
  | 103 => ⟨S_, .f32⟩
  | 104 => ⟨S4x12544, .f32⟩
  | 105 => ⟨S4x12544, .i1⟩
  | 106 => ⟨S4x12544, .i1⟩
  | 107 => ⟨S4x12544, .f32⟩
  | 108 => ⟨S_, .i32⟩
  | 109 => ⟨S4x12544, .i32⟩
  | 110 => ⟨S4x12544, .i1⟩
  | 111 => ⟨S_, .i32⟩
  | 112 => ⟨S4x12544, .i32⟩
  | 113 => ⟨S4x12544, .i32⟩
  | 114 => ⟨S4x12544, .i32⟩
  | 115 => ⟨S_, .i32⟩
  | 116 => ⟨S4x12544, .i32⟩
  | 117 => ⟨S4x12544, .i1⟩
  | 118 => ⟨S_, .i32⟩
  | 119 => ⟨S4x12544, .i32⟩
  | 120 => ⟨S4x12544, .i32⟩
  | 121 => ⟨S4x12544, .i32⟩
  | 122 => ⟨S4x12544x1, .i32⟩
  | 123 => ⟨S4x12544x1, .i32⟩
  | 124 => ⟨S4x12544x2, .i32⟩
  | 125 => ⟨S4x300x12544, .f32⟩
  | 126 => ⟨S4x1x12544, .f32⟩
  | 127 => ⟨S4x300x12544, .f32⟩
  | _ => ⟨S4x300x80, .f32⟩

abbrev hbmTy0_2 (i : Nat) : BufTy := match i % 128 with
  | 0 => ⟨S4x300x12544, .f32⟩
  | 1 => ⟨S_, .f32⟩
  | 2 => ⟨S4x12544, .f32⟩
  | 3 => ⟨S4x12544, .f32⟩
  | 4 => ⟨S4x1x12544, .f32⟩
  | 5 => ⟨S4x300x12544, .f32⟩
  | 6 => ⟨S4x300x12544, .f32⟩
  | 7 => ⟨S_, .f32⟩
  | 8 => ⟨S4x12544, .f32⟩
  | 9 => ⟨S4x12544, .f32⟩
  | 10 => ⟨S4x1x12544, .f32⟩
  | 11 => ⟨S4x300x12544, .f32⟩
  | 12 => ⟨S4x300x12544, .f32⟩
  | 13 => ⟨S4x1x12544, .f32⟩
  | 14 => ⟨S4x300x12544, .f32⟩
  | 15 => ⟨S4x300x12544, .f32⟩
  | 16 => ⟨S_, .f32⟩
  | 17 => ⟨S4x12544, .f32⟩
  | 18 => ⟨S4x12544, .f32⟩
  | 19 => ⟨S4x1x12544, .f32⟩
  | 20 => ⟨S4x300x12544, .f32⟩
  | 21 => ⟨S4x300x12544, .f32⟩
  | 22 => ⟨S4x300x12544, .f32⟩
  | 23 => ⟨S_, .f32⟩
  | 24 => ⟨S4x12544, .f32⟩
  | 25 => ⟨S4x12544, .f32⟩
  | 26 => ⟨S4x1x12544, .f32⟩
  | 27 => ⟨S4x300x12544, .f32⟩
  | 28 => ⟨S4x300x12544, .f32⟩
  | 29 => ⟨S4x1x12544, .f32⟩
  | 30 => ⟨S4x300x12544, .f32⟩
  | 31 => ⟨S4x300x12544, .f32⟩
  | 32 => ⟨S4x300x12544, .f32⟩
  | 33 => ⟨S4x1x12544, .f32⟩
  | 34 => ⟨S4x300x12544, .f32⟩
  | 35 => ⟨S4x300x12544, .f32⟩
  | 36 => ⟨S4x1x12544, .f32⟩
  | 37 => ⟨S4x300x12544, .f32⟩
  | 38 => ⟨S4x300x12544, .f32⟩
  | 39 => ⟨S4x300x12544, .f32⟩
  | 40 => ⟨S4x12544x1, .f32⟩
  | 41 => ⟨S4x12544, .f32⟩
  | 42 => ⟨S_, .f32⟩
  | 43 => ⟨S4x12544, .f32⟩
  | 44 => ⟨S4x12544, .f32⟩
  | 45 => ⟨S_, .f32⟩
  | 46 => ⟨S4x12544, .f32⟩
  | 47 => ⟨S4x12544, .f32⟩
  | 48 => ⟨S4x12544x1, .f32⟩
  | 49 => ⟨S4x12544, .f32⟩
  | 50 => ⟨S_, .f32⟩
  | 51 => ⟨S4x12544, .f32⟩
  | 52 => ⟨S4x12544, .f32⟩
  | 53 => ⟨S_, .f32⟩
  | 54 => ⟨S4x12544, .f32⟩
  | 55 => ⟨S4x12544, .f32⟩
  | 56 => ⟨S4x12544, .f32⟩
  | 57 => ⟨S4x12544, .f32⟩
  | 58 => ⟨S4x12544, .f32⟩
  | 59 => ⟨S4x12544, .f32⟩
  | 60 => ⟨S_, .i32⟩
  | 61 => ⟨S_, .i32⟩
  | 62 => ⟨S_, .f32⟩
  | 63 => ⟨S4x12544, .f32⟩
  | 64 => ⟨S4x12544, .f32⟩
  | 65 => ⟨S_, .f32⟩
  | 66 => ⟨S4x12544, .f32⟩
  | 67 => ⟨S4x12544, .f32⟩
  | 68 => ⟨S4x12544, .i32⟩
  | 69 => ⟨S_, .i32⟩
  | 70 => ⟨S_, .i32⟩
  | 71 => ⟨S_, .f32⟩
  | 72 => ⟨S4x12544, .f32⟩
  | 73 => ⟨S4x12544, .f32⟩
  | 74 => ⟨S_, .f32⟩
  | 75 => ⟨S4x12544, .f32⟩
  | 76 => ⟨S4x12544, .f32⟩
  | 77 => ⟨S4x12544, .i32⟩
  | 78 => ⟨S_, .f32⟩
  | 79 => ⟨S4x12544, .f32⟩
  | 80 => ⟨S4x12544, .i1⟩
  | 81 => ⟨S_, .f32⟩
  | 82 => ⟨S4x12544, .f32⟩
  | 83 => ⟨S4x12544, .i1⟩
  | 84 => ⟨S4x12544, .i1⟩
  | 85 => ⟨S_, .f32⟩
  | 86 => ⟨S4x12544, .f32⟩
  | 87 => ⟨S4x12544, .i1⟩
  | 88 => ⟨S4x12544, .i1⟩
  | 89 => ⟨S_, .f32⟩
  | 90 => ⟨S4x12544, .f32⟩
  | 91 => ⟨S4x12544, .i1⟩
  | 92 => ⟨S4x12544, .i1⟩
  | 93 => ⟨S4x12544, .f32⟩
  | 94 => ⟨S_, .i32⟩
  | 95 => ⟨S4x12544, .i32⟩
  | 96 => ⟨S4x12544, .i1⟩
  | 97 => ⟨S_, .i32⟩
  | 98 => ⟨S4x12544, .i32⟩
  | 99 => ⟨S4x12544, .i32⟩
  | 100 => ⟨S4x12544, .i32⟩
  | 101 => ⟨S_, .i32⟩
  | 102 => ⟨S4x12544, .i32⟩
  | 103 => ⟨S4x12544, .i1⟩
  | 104 => ⟨S_, .i32⟩
  | 105 => ⟨S4x12544, .i32⟩
  | 106 => ⟨S4x12544, .i32⟩
  | 107 => ⟨S4x12544, .i32⟩
  | 108 => ⟨S4x12544x1, .i32⟩
  | 109 => ⟨S4x12544x1, .i32⟩
  | 110 => ⟨S4x12544x2, .i32⟩
  | 111 => ⟨S4x100x12544, .f32⟩
  | 112 => ⟨S4x1x12544, .f32⟩
  | 113 => ⟨S4x100x12544, .f32⟩
  | 114 => ⟨S4x100x12544, .f32⟩
  | 115 => ⟨S_, .f32⟩
  | 116 => ⟨S4x12544, .f32⟩
  | 117 => ⟨S4x12544, .f32⟩
  | 118 => ⟨S_, .i32⟩
  | 119 => ⟨S_, .i32⟩
  | 120 => ⟨S_, .f32⟩
  | 121 => ⟨S4x12544, .f32⟩
  | 122 => ⟨S4x12544, .f32⟩
  | 123 => ⟨S_, .f32⟩
  | 124 => ⟨S4x12544, .f32⟩
  | 125 => ⟨S4x12544, .f32⟩
  | 126 => ⟨S4x12544, .i32⟩
  | 127 => ⟨S_, .i32⟩
  | _ => ⟨S4x300x80, .f32⟩

abbrev hbmTy0_3 (i : Nat) : BufTy := match i % 128 with
  | 0 => ⟨S_, .i32⟩
  | 1 => ⟨S_, .f32⟩
  | 2 => ⟨S4x12544, .f32⟩
  | 3 => ⟨S4x12544, .f32⟩
  | 4 => ⟨S_, .f32⟩
  | 5 => ⟨S4x12544, .f32⟩
  | 6 => ⟨S4x12544, .f32⟩
  | 7 => ⟨S4x12544, .i32⟩
  | 8 => ⟨S_, .f32⟩
  | 9 => ⟨S4x12544, .f32⟩
  | 10 => ⟨S4x12544, .i1⟩
  | 11 => ⟨S_, .f32⟩
  | 12 => ⟨S4x12544, .f32⟩
  | 13 => ⟨S4x12544, .i1⟩
  | 14 => ⟨S4x12544, .i1⟩
  | 15 => ⟨S_, .f32⟩
  | 16 => ⟨S4x12544, .f32⟩
  | 17 => ⟨S4x12544, .i1⟩
  | 18 => ⟨S4x12544, .i1⟩
  | 19 => ⟨S_, .f32⟩
  | 20 => ⟨S4x12544, .f32⟩
  | 21 => ⟨S4x12544, .i1⟩
  | 22 => ⟨S4x12544, .i1⟩
  | 23 => ⟨S4x12544, .f32⟩
  | 24 => ⟨S_, .i32⟩
  | 25 => ⟨S4x12544, .i32⟩
  | 26 => ⟨S4x12544, .i1⟩
  | 27 => ⟨S_, .i32⟩
  | 28 => ⟨S4x12544, .i32⟩
  | 29 => ⟨S4x12544, .i32⟩
  | 30 => ⟨S4x12544, .i32⟩
  | 31 => ⟨S_, .i32⟩
  | 32 => ⟨S4x12544, .i32⟩
  | 33 => ⟨S4x12544, .i1⟩
  | 34 => ⟨S_, .i32⟩
  | 35 => ⟨S4x12544, .i32⟩
  | 36 => ⟨S4x12544, .i32⟩
  | 37 => ⟨S4x12544, .i32⟩
  | 38 => ⟨S4x12544x1, .i32⟩
  | 39 => ⟨S4x12544x1, .i32⟩
  | 40 => ⟨S4x12544x2, .i32⟩
  | 41 => ⟨S4x100x12544, .f32⟩
  | 42 => ⟨S4x1x12544, .f32⟩
  | 43 => ⟨S4x100x12544, .f32⟩
  | 44 => ⟨S4x100x12544, .f32⟩
  | 45 => ⟨S_, .f32⟩
  | 46 => ⟨S4x12544, .f32⟩
  | 47 => ⟨S4x12544, .f32⟩
  | 48 => ⟨S_, .i32⟩
  | 49 => ⟨S_, .i32⟩
  | 50 => ⟨S_, .f32⟩
  | 51 => ⟨S4x12544, .f32⟩
  | 52 => ⟨S4x12544, .f32⟩
  | 53 => ⟨S_, .f32⟩
  | 54 => ⟨S4x12544, .f32⟩
  | 55 => ⟨S4x12544, .f32⟩
  | 56 => ⟨S4x12544, .i32⟩
  | 57 => ⟨S_, .i32⟩
  | 58 => ⟨S_, .i32⟩
  | 59 => ⟨S_, .f32⟩
  | 60 => ⟨S4x12544, .f32⟩
  | 61 => ⟨S4x12544, .f32⟩
  | 62 => ⟨S_, .f32⟩
  | 63 => ⟨S4x12544, .f32⟩
  | 64 => ⟨S4x12544, .f32⟩
  | 65 => ⟨S4x12544, .i32⟩
  | 66 => ⟨S_, .f32⟩
  | 67 => ⟨S4x12544, .f32⟩
  | 68 => ⟨S4x12544, .i1⟩
  | 69 => ⟨S_, .f32⟩
  | 70 => ⟨S4x12544, .f32⟩
  | 71 => ⟨S4x12544, .i1⟩
  | 72 => ⟨S4x12544, .i1⟩
  | 73 => ⟨S_, .f32⟩
  | 74 => ⟨S4x12544, .f32⟩
  | 75 => ⟨S4x12544, .i1⟩
  | 76 => ⟨S4x12544, .i1⟩
  | 77 => ⟨S_, .f32⟩
  | 78 => ⟨S4x12544, .f32⟩
  | 79 => ⟨S4x12544, .i1⟩
  | 80 => ⟨S4x12544, .i1⟩
  | 81 => ⟨S4x12544, .f32⟩
  | 82 => ⟨S_, .i32⟩
  | 83 => ⟨S4x12544, .i32⟩
  | 84 => ⟨S4x12544, .i1⟩
  | 85 => ⟨S_, .i32⟩
  | 86 => ⟨S4x12544, .i32⟩
  | 87 => ⟨S4x12544, .i32⟩
  | 88 => ⟨S4x12544, .i32⟩
  | 89 => ⟨S_, .i32⟩
  | 90 => ⟨S4x12544, .i32⟩
  | 91 => ⟨S4x12544, .i1⟩
  | 92 => ⟨S_, .i32⟩
  | 93 => ⟨S4x12544, .i32⟩
  | 94 => ⟨S4x12544, .i32⟩
  | 95 => ⟨S4x12544, .i32⟩
  | 96 => ⟨S4x12544x1, .i32⟩
  | 97 => ⟨S4x12544x1, .i32⟩
  | 98 => ⟨S4x12544x2, .i32⟩
  | 99 => ⟨S4x100x12544, .f32⟩
  | 100 => ⟨S4x1x12544, .f32⟩
  | 101 => ⟨S4x100x12544, .f32⟩
  | 102 => ⟨S4x100x12544, .f32⟩
  | 103 => ⟨S_, .f32⟩
  | 104 => ⟨S4x12544, .f32⟩
  | 105 => ⟨S4x12544, .f32⟩
  | 106 => ⟨S_, .f32⟩
  | 107 => ⟨S4x12544, .f32⟩
  | 108 => ⟨S4x12544, .f32⟩
  | 109 => ⟨S_, .i32⟩
  | 110 => ⟨S_, .i32⟩
  | 111 => ⟨S_, .f32⟩
  | 112 => ⟨S4x12544, .f32⟩
  | 113 => ⟨S4x12544, .f32⟩
  | 114 => ⟨S_, .f32⟩
  | 115 => ⟨S4x12544, .f32⟩
  | 116 => ⟨S4x12544, .f32⟩
  | 117 => ⟨S4x12544, .i32⟩
  | 118 => ⟨S_, .i32⟩
  | 119 => ⟨S_, .i32⟩
  | 120 => ⟨S_, .f32⟩
  | 121 => ⟨S4x12544, .f32⟩
  | 122 => ⟨S4x12544, .f32⟩
  | 123 => ⟨S_, .f32⟩
  | 124 => ⟨S4x12544, .f32⟩
  | 125 => ⟨S4x12544, .f32⟩
  | 126 => ⟨S4x12544, .i32⟩
  | 127 => ⟨S_, .f32⟩
  | _ => ⟨S4x300x80, .f32⟩

abbrev hbmTy0_4 (i : Nat) : BufTy := match i % 128 with
  | 0 => ⟨S4x12544, .f32⟩
  | 1 => ⟨S4x12544, .i1⟩
  | 2 => ⟨S_, .f32⟩
  | 3 => ⟨S4x12544, .f32⟩
  | 4 => ⟨S4x12544, .i1⟩
  | 5 => ⟨S4x12544, .i1⟩
  | 6 => ⟨S_, .f32⟩
  | 7 => ⟨S4x12544, .f32⟩
  | 8 => ⟨S4x12544, .i1⟩
  | 9 => ⟨S4x12544, .i1⟩
  | 10 => ⟨S_, .f32⟩
  | 11 => ⟨S4x12544, .f32⟩
  | 12 => ⟨S4x12544, .i1⟩
  | 13 => ⟨S4x12544, .i1⟩
  | 14 => ⟨S4x12544, .f32⟩
  | 15 => ⟨S_, .i32⟩
  | 16 => ⟨S4x12544, .i32⟩
  | 17 => ⟨S4x12544, .i1⟩
  | 18 => ⟨S_, .i32⟩
  | 19 => ⟨S4x12544, .i32⟩
  | 20 => ⟨S4x12544, .i32⟩
  | 21 => ⟨S4x12544, .i32⟩
  | 22 => ⟨S_, .i32⟩
  | 23 => ⟨S4x12544, .i32⟩
  | 24 => ⟨S4x12544, .i1⟩
  | 25 => ⟨S_, .i32⟩
  | 26 => ⟨S4x12544, .i32⟩
  | 27 => ⟨S4x12544, .i32⟩
  | 28 => ⟨S4x12544, .i32⟩
  | 29 => ⟨S4x12544x1, .i32⟩
  | 30 => ⟨S4x12544x1, .i32⟩
  | 31 => ⟨S4x12544x2, .i32⟩
  | 32 => ⟨S4x100x12544, .f32⟩
  | 33 => ⟨S4x1x12544, .f32⟩
  | 34 => ⟨S4x100x12544, .f32⟩
  | 35 => ⟨S4x100x12544, .f32⟩
  | 36 => ⟨S_, .f32⟩
  | 37 => ⟨S4x12544, .f32⟩
  | 38 => ⟨S4x12544, .f32⟩
  | 39 => ⟨S4x1x12544, .f32⟩
  | 40 => ⟨S4x100x12544, .f32⟩
  | 41 => ⟨S4x100x12544, .f32⟩
  | 42 => ⟨S_, .f32⟩
  | 43 => ⟨S4x12544, .f32⟩
  | 44 => ⟨S4x12544, .f32⟩
  | 45 => ⟨S4x1x12544, .f32⟩
  | 46 => ⟨S4x100x12544, .f32⟩
  | 47 => ⟨S4x100x12544, .f32⟩
  | 48 => ⟨S4x1x12544, .f32⟩
  | 49 => ⟨S4x100x12544, .f32⟩
  | 50 => ⟨S4x100x12544, .f32⟩
  | 51 => ⟨S_, .f32⟩
  | 52 => ⟨S4x12544, .f32⟩
  | 53 => ⟨S4x12544, .f32⟩
  | 54 => ⟨S4x1x12544, .f32⟩
  | 55 => ⟨S4x100x12544, .f32⟩
  | 56 => ⟨S4x100x12544, .f32⟩
  | 57 => ⟨S4x100x12544, .f32⟩
  | 58 => ⟨S_, .f32⟩
  | 59 => ⟨S4x12544, .f32⟩
  | 60 => ⟨S4x12544, .f32⟩
  | 61 => ⟨S4x1x12544, .f32⟩
  | 62 => ⟨S4x100x12544, .f32⟩
  | 63 => ⟨S4x100x12544, .f32⟩
  | 64 => ⟨S4x1x12544, .f32⟩
  | 65 => ⟨S4x100x12544, .f32⟩
  | 66 => ⟨S4x100x12544, .f32⟩
  | 67 => ⟨S4x100x12544, .f32⟩
  | 68 => ⟨S4x1x12544, .f32⟩
  | 69 => ⟨S4x100x12544, .f32⟩
  | 70 => ⟨S4x100x12544, .f32⟩
  | 71 => ⟨S4x1x12544, .f32⟩
  | 72 => ⟨S4x100x12544, .f32⟩
  | 73 => ⟨S4x100x12544, .f32⟩
  | 74 => ⟨S4x100x12544, .f32⟩
  | 75 => ⟨S4x300x80, .f32⟩
  | 76 => ⟨S4x300x80, .f32⟩
  | 77 => ⟨S_, .f32⟩
  | 78 => ⟨S4x300x80, .f32⟩
  | 79 => ⟨S4x300x80, .f32⟩
  | 80 => ⟨S_, .f32⟩
  | 81 => ⟨S4x300x80, .f32⟩
  | 82 => ⟨S4x300x80, .f32⟩
  | 83 => ⟨S_, .f32⟩
  | 84 => ⟨S4x300x80, .f32⟩
  | 85 => ⟨S4x300x80, .f32⟩
  | 86 => ⟨S_, .f32⟩
  | 87 => ⟨S4x300x80, .f32⟩
  | 88 => ⟨S4x300x80, .f32⟩
  | 89 => ⟨S_, .f32⟩
  | 90 => ⟨S4x300x80, .f32⟩
  | 91 => ⟨S4x300x80, .f32⟩
  | 92 => ⟨S_, .f32⟩
  | 93 => ⟨S4x300x80, .f32⟩
  | 94 => ⟨S4x300x80, .f32⟩
  | 95 => ⟨S4x300x80, .f32⟩
  | 96 => ⟨S4x300x80, .f32⟩
  | 97 => ⟨S4x300x80, .f32⟩
  | 98 => ⟨S_, .f32⟩
  | 99 => ⟨S4x300x80, .f32⟩
  | 100 => ⟨S4x300x80, .f32⟩
  | 101 => ⟨S_, .f32⟩
  | 102 => ⟨S4x300x80, .f32⟩
  | 103 => ⟨S4x300x80, .f32⟩
  | 104 => ⟨S_, .f32⟩
  | 105 => ⟨S4x300x80, .f32⟩
  | 106 => ⟨S4x300x80, .f32⟩
  | 107 => ⟨S_, .f32⟩
  | 108 => ⟨S4x300x80, .f32⟩
  | 109 => ⟨S4x300x80, .f32⟩
  | 110 => ⟨S4x300x80, .f32⟩
  | 111 => ⟨S4x300x80, .f32⟩
  | 112 => ⟨S4x300x80, .f32⟩
  | 113 => ⟨S_, .i32⟩
  | 114 => ⟨S4x100, .i32⟩
  | 115 => ⟨S4x100, .i1⟩
  | 116 => ⟨S_, .i32⟩
  | 117 => ⟨S4x100, .i32⟩
  | 118 => ⟨S4x100, .i32⟩
  | 119 => ⟨S4x100, .i32⟩
  | 120 => ⟨S4x100x1, .i32⟩
  | 121 => ⟨S4x300x100, .f32⟩
  | 122 => ⟨S_, .i32⟩
  | 123 => ⟨S4x100, .i32⟩
  | 124 => ⟨S4x100, .i1⟩
  | 125 => ⟨S_, .i32⟩
  | 126 => ⟨S4x100, .i32⟩
  | 127 => ⟨S4x100, .i32⟩
  | _ => ⟨S4x300x80, .f32⟩

abbrev hbmTy0_5 (i : Nat) : BufTy := match i % 128 with
  | 0 => ⟨S4x100, .i32⟩
  | 1 => ⟨S4x100x1, .i32⟩
  | 2 => ⟨S4x300x100, .f32⟩
  | 3 => ⟨S4x300x100, .f32⟩
  | 4 => ⟨S4x300x12544, .f32⟩
  | 5 => ⟨S_, .f32⟩
  | 6 => ⟨S4x300x12544, .f32⟩
  | 7 => ⟨S4x300x12544, .f32⟩
  | 8 => ⟨S4x300x12544, .f32⟩
  | 9 => ⟨S4x300x12544, .f32⟩
  | 10 => ⟨S4x300x12544, .i1⟩
  | 11 => ⟨S4x300x12544, .f32⟩
  | 12 => ⟨S4x300x12544, .f32⟩
  | 13 => ⟨S4x300x12544, .f32⟩
  | 14 => ⟨S4x300x12544, .f32⟩
  | 15 => ⟨S4x300x12544, .f32⟩
  | 16 => ⟨S4x300x12544, .f32⟩
  | 17 => ⟨S4x300x12544, .f32⟩
  | 18 => ⟨S4x300x12544, .f32⟩
  | 19 => ⟨S_, .f32⟩
  | 20 => ⟨S4x300x12544, .f32⟩
  | 21 => ⟨S4x300x12544, .f32⟩
  | 22 => ⟨S4x300x12544, .f32⟩
  | 23 => ⟨S4x300x12544, .f32⟩
  | 24 => ⟨S4x300x12544, .i1⟩
  | 25 => ⟨S4x300x12544, .f32⟩
  | 26 => ⟨S4x300x12544, .f32⟩
  | 27 => ⟨S4x300x12544, .f32⟩
  | 28 => ⟨S4x300x12544, .f32⟩
  | 29 => ⟨S4x300x12544, .f32⟩
  | 30 => ⟨S4x300x12544, .f32⟩
  | 31 => ⟨S4x300x12544, .f32⟩
  | 32 => ⟨S4x300x12544, .f32⟩
  | 33 => ⟨S4x300x100, .f32⟩
  | 34 => ⟨S_, .f32⟩
  | 35 => ⟨S4x100x12544, .f32⟩
  | 36 => ⟨S4x100x12544, .f32⟩
  | 37 => ⟨S4x300x100, .f32⟩
  | 38 => ⟨S4x300x100, .f32⟩
  | 39 => ⟨S_, .f32⟩
  | 40 => ⟨S4x300x100, .f32⟩
  | 41 => ⟨S4x300x100, .f32⟩
  | 42 => ⟨S4x300x12544, .f32⟩
  | 43 => ⟨S4x300x12544, .f32⟩
  | 44 => ⟨S_, .f32⟩
  | 45 => ⟨S4x300x12544, .f32⟩
  | 46 => ⟨S4x300x12544, .f32⟩
  | 47 => ⟨S_, .f32⟩
  | 48 => ⟨S4x300x12544, .f32⟩
  | 49 => ⟨S4x300x12544, .f32⟩
  | 50 => ⟨S4x300x100, .f32⟩
  | 51 => ⟨S_, .f32⟩
  | 52 => ⟨S4x300x100, .f32⟩
  | 53 => ⟨S4x300x100, .f32⟩
  | 54 => ⟨S_, .f32⟩
  | 55 => ⟨S4x300, .f32⟩
  | 56 => ⟨S4x300x1, .f32⟩
  | 57 => ⟨S_, .f32⟩
  | 58 => ⟨S4x100, .f32⟩
  | 59 => ⟨S4x1x100, .f32⟩
  | 60 => ⟨S4x300x100, .f32⟩
  | 61 => ⟨S4x300x100, .f32⟩
  | 62 => ⟨S4x300x100, .f32⟩
  | 63 => ⟨S_, .f32⟩
  | 64 => ⟨S4x300x100, .f32⟩
  | 65 => ⟨S4x300x100, .f32⟩
  | 66 => ⟨S_, .f32⟩
  | 67 => ⟨S4x300x100, .f32⟩
  | 68 => ⟨S4x300x100, .f32⟩
  | 69 => ⟨S4x300x100, .f32⟩
  | 70 => ⟨S_, .f32⟩
  | 71 => ⟨S4x300x100, .f32⟩
  | 72 => ⟨S4x300x100, .f32⟩
  | 73 => ⟨S_, .f32⟩
  | 74 => ⟨S4x300x100, .f32⟩
  | 75 => ⟨S4x300x100, .f32⟩
  | 76 => ⟨S_, .f32⟩
  | 77 => ⟨S4x300x100, .f32⟩
  | 78 => ⟨S4x300x100, .f32⟩
  | 79 => ⟨S4x300x100, .f32⟩
  | 80 => ⟨S_, .f32⟩
  | 81 => ⟨S4x300x100, .f32⟩
  | 82 => ⟨S4x300x100, .f32⟩
  | 83 => ⟨S4x300x100, .f32⟩
  | 84 => ⟨S4x300x100, .f32⟩
  | _ => ⟨S4x300x80, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4x300x80, .f32⟩

abbrev bufTy : (tb : Table) → Fin (tcTables nBuf tb) → BufTy
  | .hbm, ⟨i, _⟩ => hbmTy i
  | _, _ => ⟨S4x300x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_c_3 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_c_5 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v18 : Ref sig .tc := ⟨.hbm, 41, rfl⟩
abbrev main_v19 : Ref sig .tc := ⟨.hbm, 42, rfl⟩
abbrev main_cst_6 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_8 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_9 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_c_10 : Ref sig .tc := ⟨.hbm, 59, rfl⟩
abbrev main_v32 : Ref sig .tc := ⟨.hbm, 60, rfl⟩
abbrev main_v33 : Ref sig .tc := ⟨.hbm, 61, rfl⟩
abbrev main_c_11 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_c_12 : Ref sig .tc := ⟨.hbm, 66, rfl⟩
abbrev main_v37 : Ref sig .tc := ⟨.hbm, 67, rfl⟩
abbrev main_v38 : Ref sig .tc := ⟨.hbm, 68, rfl⟩
abbrev main_c_13 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_14 : Ref sig .tc := ⟨.hbm, 80, rfl⟩
abbrev main_v49 : Ref sig .tc := ⟨.hbm, 81, rfl⟩
abbrev main_v50 : Ref sig .tc := ⟨.hbm, 82, rfl⟩
abbrev main_c_15 : Ref sig .tc := ⟨.hbm, 83, rfl⟩
abbrev main_c_16 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_v51 : Ref sig .tc := ⟨.hbm, 90, rfl⟩
abbrev main_v52 : Ref sig .tc := ⟨.hbm, 91, rfl⟩
abbrev main_c_17 : Ref sig .tc := ⟨.hbm, 92, rfl⟩
abbrev main_c_18 : Ref sig .tc := ⟨.hbm, 93, rfl⟩
abbrev main_call3_v0 : Ref sig .tc := ⟨.hbm, 94, rfl⟩
abbrev main_call3_v1 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_v53 : Ref sig .tc := ⟨.hbm, 99, rfl⟩
abbrev main_v54 : Ref sig .tc := ⟨.hbm, 100, rfl⟩
abbrev main_cst_19 : Ref sig .tc := ⟨.hbm, 101, rfl⟩
abbrev main_v55 : Ref sig .tc := ⟨.hbm, 102, rfl⟩
abbrev main_v56 : Ref sig .tc := ⟨.hbm, 103, rfl⟩
abbrev main_cst_20 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_cst_21 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_cst_22 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_c_23 : Ref sig .tc := ⟨.hbm, 117, rfl⟩
abbrev main_v67 : Ref sig .tc := ⟨.hbm, 118, rfl⟩
abbrev main_v68 : Ref sig .tc := ⟨.hbm, 119, rfl⟩
abbrev main_c_24 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_c_25 : Ref sig .tc := ⟨.hbm, 124, rfl⟩
abbrev main_v72 : Ref sig .tc := ⟨.hbm, 125, rfl⟩
abbrev main_v73 : Ref sig .tc := ⟨.hbm, 126, rfl⟩
abbrev main_c_26 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_cst_27 : Ref sig .tc := ⟨.hbm, 138, rfl⟩
abbrev main_v84 : Ref sig .tc := ⟨.hbm, 139, rfl⟩
abbrev main_v85 : Ref sig .tc := ⟨.hbm, 140, rfl⟩
abbrev main_c_28 : Ref sig .tc := ⟨.hbm, 141, rfl⟩
abbrev main_c_29 : Ref sig .tc := ⟨.hbm, 142, rfl⟩
abbrev main_call4_v0 : Ref sig .tc := ⟨.hbm, 143, rfl⟩
abbrev main_call4_v1 : Ref sig .tc := ⟨.hbm, 144, rfl⟩
abbrev main_call4_v2 : Ref sig .tc := ⟨.hbm, 145, rfl⟩
abbrev main_call4_v3 : Ref sig .tc := ⟨.hbm, 146, rfl⟩
abbrev main_call4_v4 : Ref sig .tc := ⟨.hbm, 147, rfl⟩
abbrev main_v86 : Ref sig .tc := ⟨.hbm, 148, rfl⟩
abbrev main_v87 : Ref sig .tc := ⟨.hbm, 149, rfl⟩
abbrev main_c_30 : Ref sig .tc := ⟨.hbm, 150, rfl⟩
abbrev main_c_31 : Ref sig .tc := ⟨.hbm, 151, rfl⟩
abbrev main_call5_v0 : Ref sig .tc := ⟨.hbm, 152, rfl⟩
abbrev main_call5_v1 : Ref sig .tc := ⟨.hbm, 153, rfl⟩
abbrev main_call5_v2 : Ref sig .tc := ⟨.hbm, 154, rfl⟩
abbrev main_call5_v3 : Ref sig .tc := ⟨.hbm, 155, rfl⟩
abbrev main_call5_v4 : Ref sig .tc := ⟨.hbm, 156, rfl⟩
abbrev main_v88 : Ref sig .tc := ⟨.hbm, 157, rfl⟩
abbrev main_v89 : Ref sig .tc := ⟨.hbm, 158, rfl⟩
abbrev main_cst_32 : Ref sig .tc := ⟨.hbm, 159, rfl⟩
abbrev main_v90 : Ref sig .tc := ⟨.hbm, 160, rfl⟩
abbrev main_v91 : Ref sig .tc := ⟨.hbm, 161, rfl⟩
abbrev main_cst_33 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_cst_34 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_cst_35 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_c_36 : Ref sig .tc := ⟨.hbm, 175, rfl⟩
abbrev main_v102 : Ref sig .tc := ⟨.hbm, 176, rfl⟩
abbrev main_v103 : Ref sig .tc := ⟨.hbm, 177, rfl⟩
abbrev main_c_37 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_c_38 : Ref sig .tc := ⟨.hbm, 182, rfl⟩
abbrev main_v107 : Ref sig .tc := ⟨.hbm, 183, rfl⟩
abbrev main_v108 : Ref sig .tc := ⟨.hbm, 184, rfl⟩
abbrev main_c_39 : Ref sig .tc := ⟨.hbm, 185, rfl⟩
abbrev main_v109 : Ref sig .tc := ⟨.hbm, 186, rfl⟩
abbrev main_v110 : Ref sig .tc := ⟨.hbm, 187, rfl⟩
abbrev main_v111 : Ref sig .tc := ⟨.hbm, 188, rfl⟩
abbrev main_v112 : Ref sig .tc := ⟨.hbm, 189, rfl⟩
abbrev main_v113 : Ref sig .tc := ⟨.hbm, 190, rfl⟩
abbrev main_v114 : Ref sig .tc := ⟨.hbm, 191, rfl⟩
abbrev main_v115 : Ref sig .tc := ⟨.hbm, 192, rfl⟩
abbrev main_v116 : Ref sig .tc := ⟨.hbm, 193, rfl⟩
abbrev main_v117 : Ref sig .tc := ⟨.hbm, 194, rfl⟩
abbrev main_v118 : Ref sig .tc := ⟨.hbm, 195, rfl⟩
abbrev main_cst_40 : Ref sig .tc := ⟨.hbm, 196, rfl⟩
abbrev main_v119 : Ref sig .tc := ⟨.hbm, 197, rfl⟩
abbrev main_v120 : Ref sig .tc := ⟨.hbm, 198, rfl⟩
abbrev main_cst_41 : Ref sig .tc := ⟨.hbm, 199, rfl⟩
abbrev main_v121 : Ref sig .tc := ⟨.hbm, 200, rfl⟩
abbrev main_v122 : Ref sig .tc := ⟨.hbm, 201, rfl⟩
abbrev main_c_42 : Ref sig .tc := ⟨.hbm, 202, rfl⟩
abbrev main_c_43 : Ref sig .tc := ⟨.hbm, 203, rfl⟩
abbrev main_call6_v0 : Ref sig .tc := ⟨.hbm, 204, rfl⟩
abbrev main_call6_v1 : Ref sig .tc := ⟨.hbm, 205, rfl⟩
abbrev main_call6_v2 : Ref sig .tc := ⟨.hbm, 206, rfl⟩
abbrev main_call6_v3 : Ref sig .tc := ⟨.hbm, 207, rfl⟩
abbrev main_call6_v4 : Ref sig .tc := ⟨.hbm, 208, rfl⟩
abbrev main_v123 : Ref sig .tc := ⟨.hbm, 209, rfl⟩
abbrev main_v124 : Ref sig .tc := ⟨.hbm, 210, rfl⟩
abbrev main_c_44 : Ref sig .tc := ⟨.hbm, 211, rfl⟩
abbrev main_c_45 : Ref sig .tc := ⟨.hbm, 212, rfl⟩
abbrev main_call7_v0 : Ref sig .tc := ⟨.hbm, 213, rfl⟩
abbrev main_call7_v1 : Ref sig .tc := ⟨.hbm, 214, rfl⟩
abbrev main_call7_v2 : Ref sig .tc := ⟨.hbm, 215, rfl⟩
abbrev main_call7_v3 : Ref sig .tc := ⟨.hbm, 216, rfl⟩
abbrev main_call7_v4 : Ref sig .tc := ⟨.hbm, 217, rfl⟩
abbrev main_v125 : Ref sig .tc := ⟨.hbm, 218, rfl⟩
abbrev main_v126 : Ref sig .tc := ⟨.hbm, 219, rfl⟩
abbrev main_cst_46 : Ref sig .tc := ⟨.hbm, 220, rfl⟩
abbrev main_v127 : Ref sig .tc := ⟨.hbm, 221, rfl⟩
abbrev main_v128 : Ref sig .tc := ⟨.hbm, 222, rfl⟩
abbrev main_cst_47 : Ref sig .tc := ⟨.hbm, 223, rfl⟩
abbrev main_v129 : Ref sig .tc := ⟨.hbm, 224, rfl⟩
abbrev main_v130 : Ref sig .tc := ⟨.hbm, 225, rfl⟩
abbrev main_v131 : Ref sig .tc := ⟨.hbm, 226, rfl⟩
abbrev main_cst_48 : Ref sig .tc := ⟨.hbm, 227, rfl⟩
abbrev main_v132 : Ref sig .tc := ⟨.hbm, 228, rfl⟩
abbrev main_v133 : Ref sig .tc := ⟨.hbm, 229, rfl⟩
abbrev main_v134 : Ref sig .tc := ⟨.hbm, 230, rfl⟩
abbrev main_cst_49 : Ref sig .tc := ⟨.hbm, 231, rfl⟩
abbrev main_v135 : Ref sig .tc := ⟨.hbm, 232, rfl⟩
abbrev main_v136 : Ref sig .tc := ⟨.hbm, 233, rfl⟩
abbrev main_v137 : Ref sig .tc := ⟨.hbm, 234, rfl⟩
abbrev main_v138 : Ref sig .tc := ⟨.hbm, 235, rfl⟩
abbrev main_c_50 : Ref sig .tc := ⟨.hbm, 236, rfl⟩
abbrev main_v139 : Ref sig .tc := ⟨.hbm, 237, rfl⟩
abbrev main_v140 : Ref sig .tc := ⟨.hbm, 238, rfl⟩
abbrev main_c_51 : Ref sig .tc := ⟨.hbm, 239, rfl⟩
abbrev main_v141 : Ref sig .tc := ⟨.hbm, 240, rfl⟩
abbrev main_v142 : Ref sig .tc := ⟨.hbm, 241, rfl⟩
abbrev main_v143 : Ref sig .tc := ⟨.hbm, 242, rfl⟩
abbrev main_c_52 : Ref sig .tc := ⟨.hbm, 243, rfl⟩
abbrev main_v144 : Ref sig .tc := ⟨.hbm, 244, rfl⟩
abbrev main_v145 : Ref sig .tc := ⟨.hbm, 245, rfl⟩
abbrev main_c_53 : Ref sig .tc := ⟨.hbm, 246, rfl⟩
abbrev main_v146 : Ref sig .tc := ⟨.hbm, 247, rfl⟩
abbrev main_v147 : Ref sig .tc := ⟨.hbm, 248, rfl⟩
abbrev main_v148 : Ref sig .tc := ⟨.hbm, 249, rfl⟩
abbrev main_v149 : Ref sig .tc := ⟨.hbm, 250, rfl⟩
abbrev main_v150 : Ref sig .tc := ⟨.hbm, 251, rfl⟩
abbrev main_v151 : Ref sig .tc := ⟨.hbm, 252, rfl⟩
abbrev main_v152 : Ref sig .tc := ⟨.hbm, 253, rfl⟩
abbrev main_v153 : Ref sig .tc := ⟨.hbm, 254, rfl⟩
abbrev main_v154 : Ref sig .tc := ⟨.hbm, 255, rfl⟩
abbrev main_v155 : Ref sig .tc := ⟨.hbm, 256, rfl⟩
abbrev main_cst_54 : Ref sig .tc := ⟨.hbm, 257, rfl⟩
abbrev main_v156 : Ref sig .tc := ⟨.hbm, 258, rfl⟩
abbrev main_v157 : Ref sig .tc := ⟨.hbm, 259, rfl⟩
abbrev main_v158 : Ref sig .tc := ⟨.hbm, 260, rfl⟩
abbrev main_v159 : Ref sig .tc := ⟨.hbm, 261, rfl⟩
abbrev main_v160 : Ref sig .tc := ⟨.hbm, 262, rfl⟩
abbrev main_cst_55 : Ref sig .tc := ⟨.hbm, 263, rfl⟩
abbrev main_v161 : Ref sig .tc := ⟨.hbm, 264, rfl⟩
abbrev main_v162 : Ref sig .tc := ⟨.hbm, 265, rfl⟩
abbrev main_v163 : Ref sig .tc := ⟨.hbm, 266, rfl⟩
abbrev main_v164 : Ref sig .tc := ⟨.hbm, 267, rfl⟩
abbrev main_v165 : Ref sig .tc := ⟨.hbm, 268, rfl⟩
abbrev main_v166 : Ref sig .tc := ⟨.hbm, 269, rfl⟩
abbrev main_v167 : Ref sig .tc := ⟨.hbm, 270, rfl⟩
abbrev main_v168 : Ref sig .tc := ⟨.hbm, 271, rfl⟩
abbrev main_cst_56 : Ref sig .tc := ⟨.hbm, 272, rfl⟩
abbrev main_v169 : Ref sig .tc := ⟨.hbm, 273, rfl⟩
abbrev main_v170 : Ref sig .tc := ⟨.hbm, 274, rfl⟩
abbrev main_v171 : Ref sig .tc := ⟨.hbm, 275, rfl⟩
abbrev main_v172 : Ref sig .tc := ⟨.hbm, 276, rfl⟩
abbrev main_v173 : Ref sig .tc := ⟨.hbm, 277, rfl⟩
abbrev main_v174 : Ref sig .tc := ⟨.hbm, 278, rfl⟩
abbrev main_cst_57 : Ref sig .tc := ⟨.hbm, 279, rfl⟩
abbrev main_v175 : Ref sig .tc := ⟨.hbm, 280, rfl⟩
abbrev main_v176 : Ref sig .tc := ⟨.hbm, 281, rfl⟩
abbrev main_v177 : Ref sig .tc := ⟨.hbm, 282, rfl⟩
abbrev main_v178 : Ref sig .tc := ⟨.hbm, 283, rfl⟩
abbrev main_v179 : Ref sig .tc := ⟨.hbm, 284, rfl⟩
abbrev main_v180 : Ref sig .tc := ⟨.hbm, 285, rfl⟩
abbrev main_v181 : Ref sig .tc := ⟨.hbm, 286, rfl⟩
abbrev main_v182 : Ref sig .tc := ⟨.hbm, 287, rfl⟩
abbrev main_v183 : Ref sig .tc := ⟨.hbm, 288, rfl⟩
abbrev main_v184 : Ref sig .tc := ⟨.hbm, 289, rfl⟩
abbrev main_v185 : Ref sig .tc := ⟨.hbm, 290, rfl⟩
abbrev main_v186 : Ref sig .tc := ⟨.hbm, 291, rfl⟩
abbrev main_v187 : Ref sig .tc := ⟨.hbm, 292, rfl⟩
abbrev main_v188 : Ref sig .tc := ⟨.hbm, 293, rfl⟩
abbrev main_v189 : Ref sig .tc := ⟨.hbm, 294, rfl⟩
abbrev main_v190 : Ref sig .tc := ⟨.hbm, 295, rfl⟩
abbrev main_v191 : Ref sig .tc := ⟨.hbm, 296, rfl⟩
abbrev main_v192 : Ref sig .tc := ⟨.hbm, 297, rfl⟩
abbrev main_cst_58 : Ref sig .tc := ⟨.hbm, 298, rfl⟩
abbrev main_v193 : Ref sig .tc := ⟨.hbm, 299, rfl⟩
abbrev main_v194 : Ref sig .tc := ⟨.hbm, 300, rfl⟩
abbrev main_cst_59 : Ref sig .tc := ⟨.hbm, 301, rfl⟩
abbrev main_v195 : Ref sig .tc := ⟨.hbm, 302, rfl⟩
abbrev main_v196 : Ref sig .tc := ⟨.hbm, 303, rfl⟩
abbrev main_v197 : Ref sig .tc := ⟨.hbm, 304, rfl⟩
abbrev main_v198 : Ref sig .tc := ⟨.hbm, 305, rfl⟩
abbrev main_cst_60 : Ref sig .tc := ⟨.hbm, 306, rfl⟩
abbrev main_v199 : Ref sig .tc := ⟨.hbm, 307, rfl⟩
abbrev main_v200 : Ref sig .tc := ⟨.hbm, 308, rfl⟩
abbrev main_cst_61 : Ref sig .tc := ⟨.hbm, 309, rfl⟩
abbrev main_v201 : Ref sig .tc := ⟨.hbm, 310, rfl⟩
abbrev main_v202 : Ref sig .tc := ⟨.hbm, 311, rfl⟩
abbrev main_v203 : Ref sig .tc := ⟨.hbm, 312, rfl⟩
abbrev main_v204 : Ref sig .tc := ⟨.hbm, 313, rfl⟩
abbrev main_v205 : Ref sig .tc := ⟨.hbm, 314, rfl⟩
abbrev main_v206 : Ref sig .tc := ⟨.hbm, 315, rfl⟩
abbrev main_c_62 : Ref sig .tc := ⟨.hbm, 316, rfl⟩
abbrev main_c_63 : Ref sig .tc := ⟨.hbm, 317, rfl⟩
abbrev main_call8_v0 : Ref sig .tc := ⟨.hbm, 318, rfl⟩
abbrev main_call8_v1 : Ref sig .tc := ⟨.hbm, 319, rfl⟩
abbrev main_call8_v2 : Ref sig .tc := ⟨.hbm, 320, rfl⟩
abbrev main_call8_v3 : Ref sig .tc := ⟨.hbm, 321, rfl⟩
abbrev main_call8_v4 : Ref sig .tc := ⟨.hbm, 322, rfl⟩
abbrev main_v207 : Ref sig .tc := ⟨.hbm, 323, rfl⟩
abbrev main_v208 : Ref sig .tc := ⟨.hbm, 324, rfl⟩
abbrev main_c_64 : Ref sig .tc := ⟨.hbm, 325, rfl⟩
abbrev main_c_65 : Ref sig .tc := ⟨.hbm, 326, rfl⟩
abbrev main_call9_v0 : Ref sig .tc := ⟨.hbm, 327, rfl⟩
abbrev main_call9_v1 : Ref sig .tc := ⟨.hbm, 328, rfl⟩
abbrev main_call9_v2 : Ref sig .tc := ⟨.hbm, 329, rfl⟩
abbrev main_call9_v3 : Ref sig .tc := ⟨.hbm, 330, rfl⟩
abbrev main_call9_v4 : Ref sig .tc := ⟨.hbm, 331, rfl⟩
abbrev main_v209 : Ref sig .tc := ⟨.hbm, 332, rfl⟩
abbrev main_v210 : Ref sig .tc := ⟨.hbm, 333, rfl⟩
abbrev main_cst_66 : Ref sig .tc := ⟨.hbm, 334, rfl⟩
abbrev main_v211 : Ref sig .tc := ⟨.hbm, 335, rfl⟩
abbrev main_v212 : Ref sig .tc := ⟨.hbm, 336, rfl⟩
abbrev main_cst_67 : Ref sig .tc := ⟨.hbm, 337, rfl⟩
abbrev main_v213 : Ref sig .tc := ⟨.hbm, 338, rfl⟩
abbrev main_v214 : Ref sig .tc := ⟨.hbm, 339, rfl⟩
abbrev main_v215 : Ref sig .tc := ⟨.hbm, 340, rfl⟩
abbrev main_cst_68 : Ref sig .tc := ⟨.hbm, 341, rfl⟩
abbrev main_v216 : Ref sig .tc := ⟨.hbm, 342, rfl⟩
abbrev main_v217 : Ref sig .tc := ⟨.hbm, 343, rfl⟩
abbrev main_v218 : Ref sig .tc := ⟨.hbm, 344, rfl⟩
abbrev main_cst_69 : Ref sig .tc := ⟨.hbm, 345, rfl⟩
abbrev main_v219 : Ref sig .tc := ⟨.hbm, 346, rfl⟩
abbrev main_v220 : Ref sig .tc := ⟨.hbm, 347, rfl⟩
abbrev main_v221 : Ref sig .tc := ⟨.hbm, 348, rfl⟩
abbrev main_v222 : Ref sig .tc := ⟨.hbm, 349, rfl⟩
abbrev main_c_70 : Ref sig .tc := ⟨.hbm, 350, rfl⟩
abbrev main_v223 : Ref sig .tc := ⟨.hbm, 351, rfl⟩
abbrev main_v224 : Ref sig .tc := ⟨.hbm, 352, rfl⟩
abbrev main_c_71 : Ref sig .tc := ⟨.hbm, 353, rfl⟩
abbrev main_v225 : Ref sig .tc := ⟨.hbm, 354, rfl⟩
abbrev main_v226 : Ref sig .tc := ⟨.hbm, 355, rfl⟩
abbrev main_v227 : Ref sig .tc := ⟨.hbm, 356, rfl⟩
abbrev main_c_72 : Ref sig .tc := ⟨.hbm, 357, rfl⟩
abbrev main_v228 : Ref sig .tc := ⟨.hbm, 358, rfl⟩
abbrev main_v229 : Ref sig .tc := ⟨.hbm, 359, rfl⟩
abbrev main_c_73 : Ref sig .tc := ⟨.hbm, 360, rfl⟩
abbrev main_v230 : Ref sig .tc := ⟨.hbm, 361, rfl⟩
abbrev main_v231 : Ref sig .tc := ⟨.hbm, 362, rfl⟩
abbrev main_v232 : Ref sig .tc := ⟨.hbm, 363, rfl⟩
abbrev main_v233 : Ref sig .tc := ⟨.hbm, 364, rfl⟩
abbrev main_v234 : Ref sig .tc := ⟨.hbm, 365, rfl⟩
abbrev main_v235 : Ref sig .tc := ⟨.hbm, 366, rfl⟩
abbrev main_v236 : Ref sig .tc := ⟨.hbm, 367, rfl⟩
abbrev main_v237 : Ref sig .tc := ⟨.hbm, 368, rfl⟩
abbrev main_v238 : Ref sig .tc := ⟨.hbm, 369, rfl⟩
abbrev main_v239 : Ref sig .tc := ⟨.hbm, 370, rfl⟩
abbrev main_cst_74 : Ref sig .tc := ⟨.hbm, 371, rfl⟩
abbrev main_v240 : Ref sig .tc := ⟨.hbm, 372, rfl⟩
abbrev main_v241 : Ref sig .tc := ⟨.hbm, 373, rfl⟩
abbrev main_c_75 : Ref sig .tc := ⟨.hbm, 374, rfl⟩
abbrev main_c_76 : Ref sig .tc := ⟨.hbm, 375, rfl⟩
abbrev main_call10_v0 : Ref sig .tc := ⟨.hbm, 376, rfl⟩
abbrev main_call10_v1 : Ref sig .tc := ⟨.hbm, 377, rfl⟩
abbrev main_call10_v2 : Ref sig .tc := ⟨.hbm, 378, rfl⟩
abbrev main_call10_v3 : Ref sig .tc := ⟨.hbm, 379, rfl⟩
abbrev main_call10_v4 : Ref sig .tc := ⟨.hbm, 380, rfl⟩
abbrev main_v242 : Ref sig .tc := ⟨.hbm, 381, rfl⟩
abbrev main_v243 : Ref sig .tc := ⟨.hbm, 382, rfl⟩
abbrev main_c_77 : Ref sig .tc := ⟨.hbm, 383, rfl⟩
abbrev main_c_78 : Ref sig .tc := ⟨.hbm, 384, rfl⟩
abbrev main_call11_v0 : Ref sig .tc := ⟨.hbm, 385, rfl⟩
abbrev main_call11_v1 : Ref sig .tc := ⟨.hbm, 386, rfl⟩
abbrev main_call11_v2 : Ref sig .tc := ⟨.hbm, 387, rfl⟩
abbrev main_call11_v3 : Ref sig .tc := ⟨.hbm, 388, rfl⟩
abbrev main_call11_v4 : Ref sig .tc := ⟨.hbm, 389, rfl⟩
abbrev main_v244 : Ref sig .tc := ⟨.hbm, 390, rfl⟩
abbrev main_v245 : Ref sig .tc := ⟨.hbm, 391, rfl⟩
abbrev main_cst_79 : Ref sig .tc := ⟨.hbm, 392, rfl⟩
abbrev main_v246 : Ref sig .tc := ⟨.hbm, 393, rfl⟩
abbrev main_v247 : Ref sig .tc := ⟨.hbm, 394, rfl⟩
abbrev main_cst_80 : Ref sig .tc := ⟨.hbm, 395, rfl⟩
abbrev main_v248 : Ref sig .tc := ⟨.hbm, 396, rfl⟩
abbrev main_v249 : Ref sig .tc := ⟨.hbm, 397, rfl⟩
abbrev main_v250 : Ref sig .tc := ⟨.hbm, 398, rfl⟩
abbrev main_cst_81 : Ref sig .tc := ⟨.hbm, 399, rfl⟩
abbrev main_v251 : Ref sig .tc := ⟨.hbm, 400, rfl⟩
abbrev main_v252 : Ref sig .tc := ⟨.hbm, 401, rfl⟩
abbrev main_v253 : Ref sig .tc := ⟨.hbm, 402, rfl⟩
abbrev main_cst_82 : Ref sig .tc := ⟨.hbm, 403, rfl⟩
abbrev main_v254 : Ref sig .tc := ⟨.hbm, 404, rfl⟩
abbrev main_v255 : Ref sig .tc := ⟨.hbm, 405, rfl⟩
abbrev main_v256 : Ref sig .tc := ⟨.hbm, 406, rfl⟩
abbrev main_v257 : Ref sig .tc := ⟨.hbm, 407, rfl⟩
abbrev main_c_83 : Ref sig .tc := ⟨.hbm, 408, rfl⟩
abbrev main_v258 : Ref sig .tc := ⟨.hbm, 409, rfl⟩
abbrev main_v259 : Ref sig .tc := ⟨.hbm, 410, rfl⟩
abbrev main_c_84 : Ref sig .tc := ⟨.hbm, 411, rfl⟩
abbrev main_v260 : Ref sig .tc := ⟨.hbm, 412, rfl⟩
abbrev main_v261 : Ref sig .tc := ⟨.hbm, 413, rfl⟩
abbrev main_v262 : Ref sig .tc := ⟨.hbm, 414, rfl⟩
abbrev main_c_85 : Ref sig .tc := ⟨.hbm, 415, rfl⟩
abbrev main_v263 : Ref sig .tc := ⟨.hbm, 416, rfl⟩
abbrev main_v264 : Ref sig .tc := ⟨.hbm, 417, rfl⟩
abbrev main_c_86 : Ref sig .tc := ⟨.hbm, 418, rfl⟩
abbrev main_v265 : Ref sig .tc := ⟨.hbm, 419, rfl⟩
abbrev main_v266 : Ref sig .tc := ⟨.hbm, 420, rfl⟩
abbrev main_v267 : Ref sig .tc := ⟨.hbm, 421, rfl⟩
abbrev main_v268 : Ref sig .tc := ⟨.hbm, 422, rfl⟩
abbrev main_v269 : Ref sig .tc := ⟨.hbm, 423, rfl⟩
abbrev main_v270 : Ref sig .tc := ⟨.hbm, 424, rfl⟩
abbrev main_v271 : Ref sig .tc := ⟨.hbm, 425, rfl⟩
abbrev main_v272 : Ref sig .tc := ⟨.hbm, 426, rfl⟩
abbrev main_v273 : Ref sig .tc := ⟨.hbm, 427, rfl⟩
abbrev main_v274 : Ref sig .tc := ⟨.hbm, 428, rfl⟩
abbrev main_cst_87 : Ref sig .tc := ⟨.hbm, 429, rfl⟩
abbrev main_v275 : Ref sig .tc := ⟨.hbm, 430, rfl⟩
abbrev main_v276 : Ref sig .tc := ⟨.hbm, 431, rfl⟩
abbrev main_c_88 : Ref sig .tc := ⟨.hbm, 432, rfl⟩
abbrev main_c_89 : Ref sig .tc := ⟨.hbm, 433, rfl⟩
abbrev main_call12_v0 : Ref sig .tc := ⟨.hbm, 434, rfl⟩
abbrev main_call12_v1 : Ref sig .tc := ⟨.hbm, 435, rfl⟩
abbrev main_call12_v2 : Ref sig .tc := ⟨.hbm, 436, rfl⟩
abbrev main_call12_v3 : Ref sig .tc := ⟨.hbm, 437, rfl⟩
abbrev main_call12_v4 : Ref sig .tc := ⟨.hbm, 438, rfl⟩
abbrev main_v277 : Ref sig .tc := ⟨.hbm, 439, rfl⟩
abbrev main_v278 : Ref sig .tc := ⟨.hbm, 440, rfl⟩
abbrev main_c_90 : Ref sig .tc := ⟨.hbm, 441, rfl⟩
abbrev main_c_91 : Ref sig .tc := ⟨.hbm, 442, rfl⟩
abbrev main_call13_v0 : Ref sig .tc := ⟨.hbm, 443, rfl⟩
abbrev main_call13_v1 : Ref sig .tc := ⟨.hbm, 444, rfl⟩
abbrev main_call13_v2 : Ref sig .tc := ⟨.hbm, 445, rfl⟩
abbrev main_call13_v3 : Ref sig .tc := ⟨.hbm, 446, rfl⟩
abbrev main_call13_v4 : Ref sig .tc := ⟨.hbm, 447, rfl⟩
abbrev main_v279 : Ref sig .tc := ⟨.hbm, 448, rfl⟩
abbrev main_v280 : Ref sig .tc := ⟨.hbm, 449, rfl⟩
abbrev main_cst_92 : Ref sig .tc := ⟨.hbm, 450, rfl⟩
abbrev main_v281 : Ref sig .tc := ⟨.hbm, 451, rfl⟩
abbrev main_v282 : Ref sig .tc := ⟨.hbm, 452, rfl⟩
abbrev main_cst_93 : Ref sig .tc := ⟨.hbm, 453, rfl⟩
abbrev main_v283 : Ref sig .tc := ⟨.hbm, 454, rfl⟩
abbrev main_v284 : Ref sig .tc := ⟨.hbm, 455, rfl⟩
abbrev main_v285 : Ref sig .tc := ⟨.hbm, 456, rfl⟩
abbrev main_cst_94 : Ref sig .tc := ⟨.hbm, 457, rfl⟩
abbrev main_v286 : Ref sig .tc := ⟨.hbm, 458, rfl⟩
abbrev main_v287 : Ref sig .tc := ⟨.hbm, 459, rfl⟩
abbrev main_v288 : Ref sig .tc := ⟨.hbm, 460, rfl⟩
abbrev main_cst_95 : Ref sig .tc := ⟨.hbm, 461, rfl⟩
abbrev main_v289 : Ref sig .tc := ⟨.hbm, 462, rfl⟩
abbrev main_v290 : Ref sig .tc := ⟨.hbm, 463, rfl⟩
abbrev main_v291 : Ref sig .tc := ⟨.hbm, 464, rfl⟩
abbrev main_v292 : Ref sig .tc := ⟨.hbm, 465, rfl⟩
abbrev main_c_96 : Ref sig .tc := ⟨.hbm, 466, rfl⟩
abbrev main_v293 : Ref sig .tc := ⟨.hbm, 467, rfl⟩
abbrev main_v294 : Ref sig .tc := ⟨.hbm, 468, rfl⟩
abbrev main_c_97 : Ref sig .tc := ⟨.hbm, 469, rfl⟩
abbrev main_v295 : Ref sig .tc := ⟨.hbm, 470, rfl⟩
abbrev main_v296 : Ref sig .tc := ⟨.hbm, 471, rfl⟩
abbrev main_v297 : Ref sig .tc := ⟨.hbm, 472, rfl⟩
abbrev main_c_98 : Ref sig .tc := ⟨.hbm, 473, rfl⟩
abbrev main_v298 : Ref sig .tc := ⟨.hbm, 474, rfl⟩
abbrev main_v299 : Ref sig .tc := ⟨.hbm, 475, rfl⟩
abbrev main_c_99 : Ref sig .tc := ⟨.hbm, 476, rfl⟩
abbrev main_v300 : Ref sig .tc := ⟨.hbm, 477, rfl⟩
abbrev main_v301 : Ref sig .tc := ⟨.hbm, 478, rfl⟩
abbrev main_v302 : Ref sig .tc := ⟨.hbm, 479, rfl⟩
abbrev main_v303 : Ref sig .tc := ⟨.hbm, 480, rfl⟩
abbrev main_v304 : Ref sig .tc := ⟨.hbm, 481, rfl⟩
abbrev main_v305 : Ref sig .tc := ⟨.hbm, 482, rfl⟩
abbrev main_v306 : Ref sig .tc := ⟨.hbm, 483, rfl⟩
abbrev main_v307 : Ref sig .tc := ⟨.hbm, 484, rfl⟩
abbrev main_v308 : Ref sig .tc := ⟨.hbm, 485, rfl⟩
abbrev main_v309 : Ref sig .tc := ⟨.hbm, 486, rfl⟩
abbrev main_cst_100 : Ref sig .tc := ⟨.hbm, 487, rfl⟩
abbrev main_v310 : Ref sig .tc := ⟨.hbm, 488, rfl⟩
abbrev main_v311 : Ref sig .tc := ⟨.hbm, 489, rfl⟩
abbrev main_cst_101 : Ref sig .tc := ⟨.hbm, 490, rfl⟩
abbrev main_v312 : Ref sig .tc := ⟨.hbm, 491, rfl⟩
abbrev main_v313 : Ref sig .tc := ⟨.hbm, 492, rfl⟩
abbrev main_c_102 : Ref sig .tc := ⟨.hbm, 493, rfl⟩
abbrev main_c_103 : Ref sig .tc := ⟨.hbm, 494, rfl⟩
abbrev main_call14_v0 : Ref sig .tc := ⟨.hbm, 495, rfl⟩
abbrev main_call14_v1 : Ref sig .tc := ⟨.hbm, 496, rfl⟩
abbrev main_call14_v2 : Ref sig .tc := ⟨.hbm, 497, rfl⟩
abbrev main_call14_v3 : Ref sig .tc := ⟨.hbm, 498, rfl⟩
abbrev main_call14_v4 : Ref sig .tc := ⟨.hbm, 499, rfl⟩
abbrev main_v314 : Ref sig .tc := ⟨.hbm, 500, rfl⟩
abbrev main_v315 : Ref sig .tc := ⟨.hbm, 501, rfl⟩
abbrev main_c_104 : Ref sig .tc := ⟨.hbm, 502, rfl⟩
abbrev main_c_105 : Ref sig .tc := ⟨.hbm, 503, rfl⟩
abbrev main_call15_v0 : Ref sig .tc := ⟨.hbm, 504, rfl⟩
abbrev main_call15_v1 : Ref sig .tc := ⟨.hbm, 505, rfl⟩
abbrev main_call15_v2 : Ref sig .tc := ⟨.hbm, 506, rfl⟩
abbrev main_call15_v3 : Ref sig .tc := ⟨.hbm, 507, rfl⟩
abbrev main_call15_v4 : Ref sig .tc := ⟨.hbm, 508, rfl⟩
abbrev main_v316 : Ref sig .tc := ⟨.hbm, 509, rfl⟩
abbrev main_v317 : Ref sig .tc := ⟨.hbm, 510, rfl⟩
abbrev main_cst_106 : Ref sig .tc := ⟨.hbm, 511, rfl⟩
abbrev main_v318 : Ref sig .tc := ⟨.hbm, 512, rfl⟩
abbrev main_v319 : Ref sig .tc := ⟨.hbm, 513, rfl⟩
abbrev main_cst_107 : Ref sig .tc := ⟨.hbm, 514, rfl⟩
abbrev main_v320 : Ref sig .tc := ⟨.hbm, 515, rfl⟩
abbrev main_v321 : Ref sig .tc := ⟨.hbm, 516, rfl⟩
abbrev main_v322 : Ref sig .tc := ⟨.hbm, 517, rfl⟩
abbrev main_cst_108 : Ref sig .tc := ⟨.hbm, 518, rfl⟩
abbrev main_v323 : Ref sig .tc := ⟨.hbm, 519, rfl⟩
abbrev main_v324 : Ref sig .tc := ⟨.hbm, 520, rfl⟩
abbrev main_v325 : Ref sig .tc := ⟨.hbm, 521, rfl⟩
abbrev main_cst_109 : Ref sig .tc := ⟨.hbm, 522, rfl⟩
abbrev main_v326 : Ref sig .tc := ⟨.hbm, 523, rfl⟩
abbrev main_v327 : Ref sig .tc := ⟨.hbm, 524, rfl⟩
abbrev main_v328 : Ref sig .tc := ⟨.hbm, 525, rfl⟩
abbrev main_v329 : Ref sig .tc := ⟨.hbm, 526, rfl⟩
abbrev main_c_110 : Ref sig .tc := ⟨.hbm, 527, rfl⟩
abbrev main_v330 : Ref sig .tc := ⟨.hbm, 528, rfl⟩
abbrev main_v331 : Ref sig .tc := ⟨.hbm, 529, rfl⟩
abbrev main_c_111 : Ref sig .tc := ⟨.hbm, 530, rfl⟩
abbrev main_v332 : Ref sig .tc := ⟨.hbm, 531, rfl⟩
abbrev main_v333 : Ref sig .tc := ⟨.hbm, 532, rfl⟩
abbrev main_v334 : Ref sig .tc := ⟨.hbm, 533, rfl⟩
abbrev main_c_112 : Ref sig .tc := ⟨.hbm, 534, rfl⟩
abbrev main_v335 : Ref sig .tc := ⟨.hbm, 535, rfl⟩
abbrev main_v336 : Ref sig .tc := ⟨.hbm, 536, rfl⟩
abbrev main_c_113 : Ref sig .tc := ⟨.hbm, 537, rfl⟩
abbrev main_v337 : Ref sig .tc := ⟨.hbm, 538, rfl⟩
abbrev main_v338 : Ref sig .tc := ⟨.hbm, 539, rfl⟩
abbrev main_v339 : Ref sig .tc := ⟨.hbm, 540, rfl⟩
abbrev main_v340 : Ref sig .tc := ⟨.hbm, 541, rfl⟩
abbrev main_v341 : Ref sig .tc := ⟨.hbm, 542, rfl⟩
abbrev main_v342 : Ref sig .tc := ⟨.hbm, 543, rfl⟩
abbrev main_v343 : Ref sig .tc := ⟨.hbm, 544, rfl⟩
abbrev main_v344 : Ref sig .tc := ⟨.hbm, 545, rfl⟩
abbrev main_v345 : Ref sig .tc := ⟨.hbm, 546, rfl⟩
abbrev main_v346 : Ref sig .tc := ⟨.hbm, 547, rfl⟩
abbrev main_cst_114 : Ref sig .tc := ⟨.hbm, 548, rfl⟩
abbrev main_v347 : Ref sig .tc := ⟨.hbm, 549, rfl⟩
abbrev main_v348 : Ref sig .tc := ⟨.hbm, 550, rfl⟩
abbrev main_v349 : Ref sig .tc := ⟨.hbm, 551, rfl⟩
abbrev main_v350 : Ref sig .tc := ⟨.hbm, 552, rfl⟩
abbrev main_v351 : Ref sig .tc := ⟨.hbm, 553, rfl⟩
abbrev main_cst_115 : Ref sig .tc := ⟨.hbm, 554, rfl⟩
abbrev main_v352 : Ref sig .tc := ⟨.hbm, 555, rfl⟩
abbrev main_v353 : Ref sig .tc := ⟨.hbm, 556, rfl⟩
abbrev main_v354 : Ref sig .tc := ⟨.hbm, 557, rfl⟩
abbrev main_v355 : Ref sig .tc := ⟨.hbm, 558, rfl⟩
abbrev main_v356 : Ref sig .tc := ⟨.hbm, 559, rfl⟩
abbrev main_v357 : Ref sig .tc := ⟨.hbm, 560, rfl⟩
abbrev main_v358 : Ref sig .tc := ⟨.hbm, 561, rfl⟩
abbrev main_v359 : Ref sig .tc := ⟨.hbm, 562, rfl⟩
abbrev main_cst_116 : Ref sig .tc := ⟨.hbm, 563, rfl⟩
abbrev main_v360 : Ref sig .tc := ⟨.hbm, 564, rfl⟩
abbrev main_v361 : Ref sig .tc := ⟨.hbm, 565, rfl⟩
abbrev main_v362 : Ref sig .tc := ⟨.hbm, 566, rfl⟩
abbrev main_v363 : Ref sig .tc := ⟨.hbm, 567, rfl⟩
abbrev main_v364 : Ref sig .tc := ⟨.hbm, 568, rfl⟩
abbrev main_v365 : Ref sig .tc := ⟨.hbm, 569, rfl⟩
abbrev main_cst_117 : Ref sig .tc := ⟨.hbm, 570, rfl⟩
abbrev main_v366 : Ref sig .tc := ⟨.hbm, 571, rfl⟩
abbrev main_v367 : Ref sig .tc := ⟨.hbm, 572, rfl⟩
abbrev main_v368 : Ref sig .tc := ⟨.hbm, 573, rfl⟩
abbrev main_v369 : Ref sig .tc := ⟨.hbm, 574, rfl⟩
abbrev main_v370 : Ref sig .tc := ⟨.hbm, 575, rfl⟩
abbrev main_v371 : Ref sig .tc := ⟨.hbm, 576, rfl⟩
abbrev main_v372 : Ref sig .tc := ⟨.hbm, 577, rfl⟩
abbrev main_v373 : Ref sig .tc := ⟨.hbm, 578, rfl⟩
abbrev main_v374 : Ref sig .tc := ⟨.hbm, 579, rfl⟩
abbrev main_v375 : Ref sig .tc := ⟨.hbm, 580, rfl⟩
abbrev main_v376 : Ref sig .tc := ⟨.hbm, 581, rfl⟩
abbrev main_v377 : Ref sig .tc := ⟨.hbm, 582, rfl⟩
abbrev main_v378 : Ref sig .tc := ⟨.hbm, 583, rfl⟩
abbrev main_v379 : Ref sig .tc := ⟨.hbm, 584, rfl⟩
abbrev main_v380 : Ref sig .tc := ⟨.hbm, 585, rfl⟩
abbrev main_v381 : Ref sig .tc := ⟨.hbm, 586, rfl⟩
abbrev main_v382 : Ref sig .tc := ⟨.hbm, 587, rfl⟩
abbrev main_v383 : Ref sig .tc := ⟨.hbm, 588, rfl⟩
abbrev main_cst_118 : Ref sig .tc := ⟨.hbm, 589, rfl⟩
abbrev main_v384 : Ref sig .tc := ⟨.hbm, 590, rfl⟩
abbrev main_v385 : Ref sig .tc := ⟨.hbm, 591, rfl⟩
abbrev main_cst_119 : Ref sig .tc := ⟨.hbm, 592, rfl⟩
abbrev main_v386 : Ref sig .tc := ⟨.hbm, 593, rfl⟩
abbrev main_v387 : Ref sig .tc := ⟨.hbm, 594, rfl⟩
abbrev main_cst_120 : Ref sig .tc := ⟨.hbm, 595, rfl⟩
abbrev main_v388 : Ref sig .tc := ⟨.hbm, 596, rfl⟩
abbrev main_v389 : Ref sig .tc := ⟨.hbm, 597, rfl⟩
abbrev main_cst_121 : Ref sig .tc := ⟨.hbm, 598, rfl⟩
abbrev main_v390 : Ref sig .tc := ⟨.hbm, 599, rfl⟩
abbrev main_v391 : Ref sig .tc := ⟨.hbm, 600, rfl⟩
abbrev main_cst_122 : Ref sig .tc := ⟨.hbm, 601, rfl⟩
abbrev main_v392 : Ref sig .tc := ⟨.hbm, 602, rfl⟩
abbrev main_v393 : Ref sig .tc := ⟨.hbm, 603, rfl⟩
abbrev main_cst_123 : Ref sig .tc := ⟨.hbm, 604, rfl⟩
abbrev main_v394 : Ref sig .tc := ⟨.hbm, 605, rfl⟩
abbrev main_v395 : Ref sig .tc := ⟨.hbm, 606, rfl⟩
abbrev main_v396 : Ref sig .tc := ⟨.hbm, 607, rfl⟩
abbrev main_v397 : Ref sig .tc := ⟨.hbm, 608, rfl⟩
abbrev main_v398 : Ref sig .tc := ⟨.hbm, 609, rfl⟩
abbrev main_cst_124 : Ref sig .tc := ⟨.hbm, 610, rfl⟩
abbrev main_v399 : Ref sig .tc := ⟨.hbm, 611, rfl⟩
abbrev main_v400 : Ref sig .tc := ⟨.hbm, 612, rfl⟩
abbrev main_cst_125 : Ref sig .tc := ⟨.hbm, 613, rfl⟩
abbrev main_v401 : Ref sig .tc := ⟨.hbm, 614, rfl⟩
abbrev main_v402 : Ref sig .tc := ⟨.hbm, 615, rfl⟩
abbrev main_cst_126 : Ref sig .tc := ⟨.hbm, 616, rfl⟩
abbrev main_v403 : Ref sig .tc := ⟨.hbm, 617, rfl⟩
abbrev main_v404 : Ref sig .tc := ⟨.hbm, 618, rfl⟩
abbrev main_cst_127 : Ref sig .tc := ⟨.hbm, 619, rfl⟩
abbrev main_v405 : Ref sig .tc := ⟨.hbm, 620, rfl⟩
abbrev main_v406 : Ref sig .tc := ⟨.hbm, 621, rfl⟩
abbrev main_v407 : Ref sig .tc := ⟨.hbm, 622, rfl⟩
abbrev main_v408 : Ref sig .tc := ⟨.hbm, 623, rfl⟩
abbrev main_v409 : Ref sig .tc := ⟨.hbm, 624, rfl⟩
abbrev main_c_128 : Ref sig .tc := ⟨.hbm, 625, rfl⟩
abbrev main_v410 : Ref sig .tc := ⟨.hbm, 626, rfl⟩
abbrev main_v411 : Ref sig .tc := ⟨.hbm, 627, rfl⟩
abbrev main_c_129 : Ref sig .tc := ⟨.hbm, 628, rfl⟩
abbrev main_v412 : Ref sig .tc := ⟨.hbm, 629, rfl⟩
abbrev main_v413 : Ref sig .tc := ⟨.hbm, 630, rfl⟩
abbrev main_v414 : Ref sig .tc := ⟨.hbm, 631, rfl⟩
abbrev main_v415 : Ref sig .tc := ⟨.hbm, 632, rfl⟩
abbrev main_v416 : Ref sig .tc := ⟨.hbm, 633, rfl⟩
abbrev main_c_130 : Ref sig .tc := ⟨.hbm, 634, rfl⟩
abbrev main_v417 : Ref sig .tc := ⟨.hbm, 635, rfl⟩
abbrev main_v418 : Ref sig .tc := ⟨.hbm, 636, rfl⟩
abbrev main_c_131 : Ref sig .tc := ⟨.hbm, 637, rfl⟩
abbrev main_v419 : Ref sig .tc := ⟨.hbm, 638, rfl⟩
abbrev main_v420 : Ref sig .tc := ⟨.hbm, 639, rfl⟩
abbrev main_v421 : Ref sig .tc := ⟨.hbm, 640, rfl⟩
abbrev main_v422 : Ref sig .tc := ⟨.hbm, 641, rfl⟩
abbrev main_v423 : Ref sig .tc := ⟨.hbm, 642, rfl⟩
abbrev main_v424 : Ref sig .tc := ⟨.hbm, 643, rfl⟩
abbrev main_v425 : Ref sig .tc := ⟨.hbm, 644, rfl⟩
abbrev main_call16_cst : Ref sig .tc := ⟨.hbm, 645, rfl⟩
abbrev main_call16_v0 : Ref sig .tc := ⟨.hbm, 646, rfl⟩
abbrev main_call16_v1 : Ref sig .tc := ⟨.hbm, 647, rfl⟩
abbrev main_call16_v2 : Ref sig .tc := ⟨.hbm, 648, rfl⟩
abbrev main_call16_v3 : Ref sig .tc := ⟨.hbm, 649, rfl⟩
abbrev main_call16_v4 : Ref sig .tc := ⟨.hbm, 650, rfl⟩
abbrev main_call16_v5 : Ref sig .tc := ⟨.hbm, 651, rfl⟩
abbrev main_call16_v6 : Ref sig .tc := ⟨.hbm, 652, rfl⟩
abbrev main_call16_v7 : Ref sig .tc := ⟨.hbm, 653, rfl⟩
abbrev main_call16_v8 : Ref sig .tc := ⟨.hbm, 654, rfl⟩
abbrev main_call16_v9 : Ref sig .tc := ⟨.hbm, 655, rfl⟩
abbrev main_call16_v10 : Ref sig .tc := ⟨.hbm, 656, rfl⟩
abbrev main_call16_v11 : Ref sig .tc := ⟨.hbm, 657, rfl⟩
abbrev main_v426 : Ref sig .tc := ⟨.hbm, 658, rfl⟩
abbrev main_call17_cst : Ref sig .tc := ⟨.hbm, 659, rfl⟩
abbrev main_call17_v0 : Ref sig .tc := ⟨.hbm, 660, rfl⟩
abbrev main_call17_v1 : Ref sig .tc := ⟨.hbm, 661, rfl⟩
abbrev main_call17_v2 : Ref sig .tc := ⟨.hbm, 662, rfl⟩
abbrev main_call17_v3 : Ref sig .tc := ⟨.hbm, 663, rfl⟩
abbrev main_call17_v4 : Ref sig .tc := ⟨.hbm, 664, rfl⟩
abbrev main_call17_v5 : Ref sig .tc := ⟨.hbm, 665, rfl⟩
abbrev main_call17_v6 : Ref sig .tc := ⟨.hbm, 666, rfl⟩
abbrev main_call17_v7 : Ref sig .tc := ⟨.hbm, 667, rfl⟩
abbrev main_call17_v8 : Ref sig .tc := ⟨.hbm, 668, rfl⟩
abbrev main_call17_v9 : Ref sig .tc := ⟨.hbm, 669, rfl⟩
abbrev main_call17_v10 : Ref sig .tc := ⟨.hbm, 670, rfl⟩
abbrev main_call17_v11 : Ref sig .tc := ⟨.hbm, 671, rfl⟩
abbrev main_v427 : Ref sig .tc := ⟨.hbm, 672, rfl⟩
abbrev main_v428 : Ref sig .tc := ⟨.hbm, 673, rfl⟩
abbrev main_cst_132 : Ref sig .tc := ⟨.hbm, 674, rfl⟩
abbrev main_v429 : Ref sig .tc := ⟨.hbm, 675, rfl⟩
abbrev main_v430 : Ref sig .tc := ⟨.hbm, 676, rfl⟩
abbrev main_v431 : Ref sig .tc := ⟨.hbm, 677, rfl⟩
abbrev main_v432 : Ref sig .tc := ⟨.hbm, 678, rfl⟩
abbrev main_cst_133 : Ref sig .tc := ⟨.hbm, 679, rfl⟩
abbrev main_v433 : Ref sig .tc := ⟨.hbm, 680, rfl⟩
abbrev main_v434 : Ref sig .tc := ⟨.hbm, 681, rfl⟩
abbrev main_v435 : Ref sig .tc := ⟨.hbm, 682, rfl⟩
abbrev main_v436 : Ref sig .tc := ⟨.hbm, 683, rfl⟩
abbrev main_cst_134 : Ref sig .tc := ⟨.hbm, 684, rfl⟩
abbrev main_v437 : Ref sig .tc := ⟨.hbm, 685, rfl⟩
abbrev main_v438 : Ref sig .tc := ⟨.hbm, 686, rfl⟩
abbrev main_cst_135 : Ref sig .tc := ⟨.hbm, 687, rfl⟩
abbrev main_v439 : Ref sig .tc := ⟨.hbm, 688, rfl⟩
abbrev main_v440 : Ref sig .tc := ⟨.hbm, 689, rfl⟩
abbrev main_v441 : Ref sig .tc := ⟨.hbm, 690, rfl⟩
abbrev main_cst_136 : Ref sig .tc := ⟨.hbm, 691, rfl⟩
abbrev main_v442 : Ref sig .tc := ⟨.hbm, 692, rfl⟩
abbrev main_v443 : Ref sig .tc := ⟨.hbm, 693, rfl⟩
abbrev main_cst_137 : Ref sig .tc := ⟨.hbm, 694, rfl⟩
abbrev main_v444 : Ref sig .tc := ⟨.hbm, 695, rfl⟩
abbrev main_v445 : Ref sig .tc := ⟨.hbm, 696, rfl⟩
abbrev main_cst_138 : Ref sig .tc := ⟨.hbm, 697, rfl⟩
abbrev main_v446 : Ref sig .tc := ⟨.hbm, 698, rfl⟩
abbrev main_v447 : Ref sig .tc := ⟨.hbm, 699, rfl⟩
abbrev main_v448 : Ref sig .tc := ⟨.hbm, 700, rfl⟩
abbrev main_v449 : Ref sig .tc := ⟨.hbm, 701, rfl⟩
abbrev main_v450 : Ref sig .tc := ⟨.hbm, 702, rfl⟩
abbrev main_cst_139 : Ref sig .tc := ⟨.hbm, 703, rfl⟩
abbrev main_v451 : Ref sig .tc := ⟨.hbm, 704, rfl⟩
abbrev main_v452 : Ref sig .tc := ⟨.hbm, 705, rfl⟩
abbrev main_cst_140 : Ref sig .tc := ⟨.hbm, 706, rfl⟩
abbrev main_v453 : Ref sig .tc := ⟨.hbm, 707, rfl⟩
abbrev main_v454 : Ref sig .tc := ⟨.hbm, 708, rfl⟩
abbrev main_v455 : Ref sig .tc := ⟨.hbm, 709, rfl⟩
abbrev main_cst_141 : Ref sig .tc := ⟨.hbm, 710, rfl⟩
abbrev main_v456 : Ref sig .tc := ⟨.hbm, 711, rfl⟩
abbrev main_v457 : Ref sig .tc := ⟨.hbm, 712, rfl⟩
abbrev main_cst_142 : Ref sig .tc := ⟨.hbm, 713, rfl⟩
abbrev main_v458 : Ref sig .tc := ⟨.hbm, 714, rfl⟩
abbrev main_v459 : Ref sig .tc := ⟨.hbm, 715, rfl⟩
abbrev main_cst_143 : Ref sig .tc := ⟨.hbm, 716, rfl⟩
abbrev main_v460 : Ref sig .tc := ⟨.hbm, 717, rfl⟩
abbrev main_v461 : Ref sig .tc := ⟨.hbm, 718, rfl⟩
abbrev main_v462 : Ref sig .tc := ⟨.hbm, 719, rfl⟩
abbrev main_cst_144 : Ref sig .tc := ⟨.hbm, 720, rfl⟩
abbrev main_v463 : Ref sig .tc := ⟨.hbm, 721, rfl⟩
abbrev main_v464 : Ref sig .tc := ⟨.hbm, 722, rfl⟩
abbrev main_v465 : Ref sig .tc := ⟨.hbm, 723, rfl⟩
abbrev main_v466 : Ref sig .tc := ⟨.hbm, 724, rfl⟩

abbrev nD : Nat := 1
abbrev τ : Topo := Topo.v7x

variable {F : FTy → Type} [FloatOps F]

class Facts₀ : Prop where
  slices_S4x12544x2_S4x12544x1_0_0_0 : S4x12544x2.Slices ![0, 0, 0] S4x12544x1
  shapeCasts_S4x12544x1_S4x12544 : S4x12544x1.ShapeCasts S4x12544
  bcast_S_S4x12544 : S_.BroadcastsInDim S4x12544 (![] : Fin 0 → Fin S4x12544.rank)
  slices_S4x12544x2_S4x12544x1_0_0_1 : S4x12544x2.Slices ![0, 0, 1] S4x12544x1
  bcast_S4x12544_S4x12544x1_0_1 : S4x12544.BroadcastsInDim S4x12544x1 (![0, 1] : Fin 2 → Fin S4x12544x1.rank)
  concatenates_S4x12544x1_S4x12544x1_S4x12544x2_d2 : Shape.Concatenates [S4x12544x1, S4x12544x1] S4x12544x2 2
  bcast_S4x12544_S4x1x12544_0_2 : S4x12544.BroadcastsInDim S4x1x12544 (![0, 2] : Fin 2 → Fin S4x1x12544.rank)
  bcast_S4x1x12544_S4x300x12544_0_1_2 : S4x1x12544.BroadcastsInDim S4x300x12544 (![0, 1, 2] : Fin 3 → Fin S4x300x12544.rank)
  bcast_S4x1x12544_S4x100x12544_0_1_2 : S4x1x12544.BroadcastsInDim S4x100x12544 (![0, 1, 2] : Fin 3 → Fin S4x100x12544.rank)
  bcast_S_S4x300x80 : S_.BroadcastsInDim S4x300x80 (![] : Fin 0 → Fin S4x300x80.rank)
  bcast_S_S4x100 : S_.BroadcastsInDim S4x100 (![] : Fin 0 → Fin S4x100.rank)
  bcast_S4x100_S4x100x1_0_1 : S4x100.BroadcastsInDim S4x100x1 (![0, 1] : Fin 2 → Fin S4x100x1.rank)
  bcast_S_S4x300x12544 : S_.BroadcastsInDim S4x300x12544 (![] : Fin 0 → Fin S4x300x12544.rank)
  bcast_S_S4x100x12544 : S_.BroadcastsInDim S4x100x12544 (![] : Fin 0 → Fin S4x100x12544.rank)
  bcast_S_S4x300x100 : S_.BroadcastsInDim S4x300x100 (![] : Fin 0 → Fin S4x300x100.rank)
  reducesTo_S4x300x12544_S4x300_d2 : S4x300x12544.ReducesTo [2] S4x300
  h_S_ : 0 < S_.numel
  bcast_S4x300_S4x300x1_0_1 : S4x300.BroadcastsInDim S4x300x1 (![0, 1] : Fin 2 → Fin S4x300x1.rank)
  reducesTo_S4x100x12544_S4x100_d2 : S4x100x12544.ReducesTo [2] S4x100
  bcast_S4x100_S4x1x100_0_2 : S4x100.BroadcastsInDim S4x1x100 (![0, 2] : Fin 2 → Fin S4x1x100.rank)
  bcast_S4x300x1_S4x300x100_0_1_2 : S4x300x1.BroadcastsInDim S4x300x100 (![0, 1, 2] : Fin 3 → Fin S4x300x100.rank)
  bcast_S4x1x100_S4x300x100_0_1_2 : S4x1x100.BroadcastsInDim S4x300x100 (![0, 1, 2] : Fin 3 → Fin S4x300x100.rank)
  gather_S4x300x256x256_S4x12544x2_S4x300x12544_1_23_0_0_23_2_130011_wf : GatherDims.WF S4x300x256x256 S4x12544x2 S4x300x12544 [1] [2, 3] [0] [2, 3] [0] 2 ![1, 300, 1, 1]
  gather_S4x100x256x256_S4x12544x2_S4x100x12544_1_23_0_0_23_2_110011_wf : GatherDims.WF S4x100x256x256 S4x12544x2 S4x100x12544 [1] [2, 3] [0] [2, 3] [0] 2 ![1, 100, 1, 1]
  gather_S4x300x80_S4x100x1_S4x300x100_1_2_0_0_2_2_13001_wf : GatherDims.WF S4x300x80 S4x100x1 S4x300x100 [1] [2] [0] [2] [0] 2 ![1, 300, 1]
  dot_S4x300x12544_S4x100x12544_S4x300x100_2_2_1_1_0_0_wf : DotDims.WF S4x300x12544 S4x100x12544 S4x300x100 [2] [2] [1] [1] [0] [0]

variable [Facts₀]

def gather_S4x300x256x256_S4x12544x2_S4x300x12544_1_23_0_0_23_2_130011 : GatherDims S4x300x256x256 S4x12544x2 S4x300x12544 where
  offsetDims := [1]
  collapsedSliceDims := [2, 3]
  operandBatchingDims := [0]
  startIndicesBatchingDims := [0]
  startIndexMap := [2, 3]
  indexVectorDim := 2
  sliceSizes := ![1, 300, 1, 1]
  wf := gather_S4x300x256x256_S4x12544x2_S4x300x12544_1_23_0_0_23_2_130011_wf
def gather_S4x100x256x256_S4x12544x2_S4x100x12544_1_23_0_0_23_2_110011 : GatherDims S4x100x256x256 S4x12544x2 S4x100x12544 where
  offsetDims := [1]
  collapsedSliceDims := [2, 3]
  operandBatchingDims := [0]
  startIndicesBatchingDims := [0]
  startIndexMap := [2, 3]
  indexVectorDim := 2
  sliceSizes := ![1, 100, 1, 1]
  wf := gather_S4x100x256x256_S4x12544x2_S4x100x12544_1_23_0_0_23_2_110011_wf
def gather_S4x300x80_S4x100x1_S4x300x100_1_2_0_0_2_2_13001 : GatherDims S4x300x80 S4x100x1 S4x300x100 where
  offsetDims := [1]
  collapsedSliceDims := [2]
  operandBatchingDims := [0]
  startIndicesBatchingDims := [0]
  startIndexMap := [2]
  indexVectorDim := 2
  sliceSizes := ![1, 300, 1]
  wf := gather_S4x300x80_S4x100x1_S4x300x100_1_2_0_0_2_2_13001_wf
def dot_S4x300x12544_S4x100x12544_S4x300x100_2_2_1_1_0_0 : DotDims S4x300x12544 S4x100x12544 S4x300x100 where
  lhsContracting := [2]
  rhsContracting := [2]
  lhsNonContracting := [1]
  rhsNonContracting := [1]
  lhsBatch := [0]
  rhsBatch := [0]
  wf := dot_S4x300x12544_S4x100x12544_S4x300x100_2_2_1_1_0_0_wf

class Facts : Prop extends Facts₀ where

variable [Facts]
-- ==== Proof.Kernel.Region.lean ====
/-
  The region of `Kernel` and what surrounds it.

  @main is sixteen stretches of host operations (the two point samplers, the classification cost and the two
  zero paddings), the one pallas_call on the 4 × 7 grid (batch, block of 1792 sampled points), and one slice.
  Here: the buffers' contents when the region is entered (`V0`, `V`), @main as "prefix, region, tail", that the
  tail touches only the region's arrays and bypassing buffers, each window's block at a grid point, the two branch
  conditions of the body decided over the grid (the first block of a batch, `p = 0`; the last one, `p = 6`), at
  which points the result window is idle, and names for the staging and scratch memrefs the body is called with.
-/
import proofs.«122505_j52948356825308_2_alg».proof.Proof.Gen.Kernel.Launch
import proofs.«122505_j52948356825308_2_alg».proof.Proof.Gen.Kernel.Skeleton
import proofs.«122505_j52948356825308_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations before the region, stretch by stretch. -/
abbrev prefixOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]

/-- Core `c`'s buffers when the region is entered: the initial memory after the host operations before it. -/
abbrev V0 (c : Dev nD) : Valuation τ sig (Elt F) :=
  StableHlo.after (List.flatten (prefixOps (F := F))) (fun b => m (c, b))
/-- The same read at a TensorCore reference. -/
abbrev V (c : Dev nD) (b : Ref sig .tc) : Buf (Elt F) ((c : Thread nD τ).loc b) := V0 m c (Proc.devRef .tc b)

theorem prefix_sub : (prefixOps (F := F)).Forall fun ops => ops.Forall fun op => op.bufs ⊆ StableHlo.tcRefs τ sig := by
  refine List.forall_iff_forall_mem.mpr ?_
  intro ops hops
  simp only [prefixOps, List.mem_cons, List.mem_nil_iff, or_false] at hops
  rcases hops with rfl | rfl | rfl | rfl | rfl | rfl | rfl | rfl | rfl | rfl | rfl | rfl | rfl | rfl | rfl | rfl
  exacts [hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub]

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem prefix_fresh : (prefixOps (F := F)).Forall fun ops => ops.Forall fun op => op.fresh = ∅ := by
  refine List.forall_iff_forall_mem.mpr ?_
  intro ops hops
  simp only [prefixOps, List.mem_cons, List.mem_nil_iff, or_false] at hops
  rcases hops with rfl | rfl | rfl | rfl | rfl | rfl | rfl | rfl | rfl | rfl | rfl | rfl | rfl | rfl | rfl | rfl
  exacts [hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh]

/-- @main is the host prefix, the region, and the slice after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main prefixOps [hostOps1] prefix_sub prefix_fresh main_chain

/-- The slice after the region touches the region's arrays and bypassing buffers only, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocates nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and writes none of the region's arrays (it writes its own result buffer). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.unary_writes, Finset.mem_singleton] <;> exact StableHlo.devRef_ne_of_ne (by decide)

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (the class
    cost's block is fetched at the first point of a batch only; its index does not move within the batch). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two branches, decided over the grid -/

/-- "This is the first block of its batch" (`p = 0`): the accumulators are reset. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 7 = 0 :=
  (by decide +kernel : ∀ t : Fin grid0.N, isFirst (grid0.coords t) ↔ t.val % 7 = 0)

/-- "This is the last block of its batch" (`p = 6`): the cost tile is formed and stored. -/
abbrev isLast (i : grid0.Coords) : Prop := k0_cond2 i = 1#1
theorem isLast_iff : ∀ t : Fin cfg0.N, isLast (grid0.coords t) ↔ t.val % 7 = 6 :=
  (by decide +kernel : ∀ t : Fin grid0.N, isLast (grid0.coords t) ↔ t.val % 7 = 6)

/-! ## Where the windows are idle -/

theorem live0 : ∀ i, cfg0.idle 0 i = false := fun _ => rfl
theorem live1 : ∀ i, cfg0.idle 1 i = false := fun _ => rfl
theorem live2 : ∀ i, cfg0.idle 2 i = false := fun _ => rfl
/-- Away from the last block of a batch nothing is stored into the result window and it is not written back. -/
theorem idle3 : ∀ t : Fin cfg0.N, ¬isLast (grid0.coords t) → cfg0.idle 3 (grid0.coords t) = true := by decide +kernel
theorem noFlush3 : ∀ t : Fin cfg0.N, ¬isLast (grid0.coords t) → (cfg0.win 3).flush t = false := by decide +kernel
theorem live3 : ∀ t : Fin cfg0.N, isLast (grid0.coords t) → cfg0.idle 3 (grid0.coords t) = false := by decide +kernel

/-! ## The memrefs the body is called with -/

abbrev ms0 (t : Fin cfg0.N) : Memref sig .tc .vmem S1x300x1792 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x128x1792 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x300x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x300x128 .f32 := win0_3.stage (cfg0.slots t 3)
abbrev hs3 (t : Fin cfg0.N) : (ms3 t).IsWhole := hstage0_3 ((cfg0.slots t 3).cast nbuf0_3)
/-- The five accumulators: Σ out·tgt, Σ σ(out)·tgt, the row sums Σ softplus(out) and Σ σ(out), the column sums Σ tgt. -/
abbrev accOT : Memref sig .tc .vmem S300x128 .f32 := Memref.whole cc0_scratch0
abbrev accSig : Memref sig .tc .vmem S300x128 .f32 := Memref.whole cc0_scratch1
abbrev accNeg : Memref sig .tc .vmem S300x1 .f32 := Memref.whole cc0_scratch2
abbrev accRS : Memref sig .tc .vmem S300x1 .f32 := Memref.whole cc0_scratch3
abbrev accCS : Memref sig .tc .vmem S1x128 .f32 := Memref.whole cc0_scratch4
/-- One staging buffer of the result window, through which its contents are stated. -/
abbrev VOut : View sig .tc .vmem S1x300x128 .f32 := (Memref.whole cc0_stg3_0 : Memref sig .tc .vmem S1x300x128 .f32).view

/-- What the launch hands the body besides the windows: the five accumulators at some contents, and the generator register. -/
theorem PhiA_eq (c : Dev nD) :
    (Pipeline.ΦA spec0 c : sProp 𝕄)
      = iprop(iprop((∃ d, owns (c : Thread nD τ) accOT fullShare d) ∗ (∃ d, owns (c : Thread nD τ) accSig fullShare d) ∗ (∃ d, owns (c : Thread nD τ) accNeg fullShare d) ∗ (∃ d, owns (c : Thread nD τ) accRS fullShare d) ∗ (∃ d, owns (c : Thread nD τ) accCS fullShare d)) ∗ (∃ r, prngReg c r)) := by
  unfold Pipeline.ΦA; rw [scopedRest0_eq]; simp only [accOT, accSig, accNeg, accRS, accCS, owns_whole]; try rfl

end Cert.Kernel.Hand

end
-- ==== Proof.Kernel.RunFirst.lean ====
/-
  The body of `Kernel` at the FIRST block of a batch (p = 0): the five accumulators, whatever they held, are reset to zero and
  then take this block's contributions; the cost tile is not formed, so the result window's buffer is handed back untouched.
  The run is the symbolic execution of the body's skeleton; what each accumulator ends with is recorded as the list of its stores.
-/
import proofs.«122505_j52948356825308_2_alg».proof.Proof.Kernel.Region

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runFirst (c : Dev nD) (i : grid0.Coords) (arg2 : Memref sig .tc .vmem S1x300x1792 .f32) (harg2 : arg2.IsWhole) (arg3 : Memref sig .tc .vmem S1x128x1792 .f32) (harg3 : arg3.IsWhole) (arg4 : Memref sig .tc .vmem S1x300x128 .f32) (harg4 : arg4.IsWhole) (arg5 : Memref sig .tc .vmem S1x300x128 .f32) (harg5 : arg5.IsWhole) (arg6 : Memref sig .tc .vmem S300x128 .f32) (harg6 : arg6.IsWhole) (arg7 : Memref sig .tc .vmem S300x128 .f32) (harg7 : arg7.IsWhole) (arg8 : Memref sig .tc .vmem S300x1 .f32) (harg8 : arg8.IsWhole) (arg9 : Memref sig .tc .vmem S300x1 .f32) (harg9 : arg9.IsWhole) (arg10 : Memref sig .tc .vmem S1x128 .f32) (harg10 : arg10.IsWhole) (hc0 : isFirst i) (hc1 : ¬isLast i)
    (x0 : Vec F S1x300x1792 .f32) (x1 : Vec F S1x128x1792 .f32) (x2 : Vec F S1x300x128 .f32) :
    Σ' (L3 : List (View.Piece (Elt F) S1x300x128 .f32)) (LS0 : List (View.Piece (Elt F) S300x128 .f32)) (LS1 : List (View.Piece (Elt F) S300x128 .f32)) (LS2 : List (View.Piece (Elt F) S300x1 .f32)) (LS3 : List (View.Piece (Elt F) S300x1 .f32)), { LS4 : List (View.Piece (Elt F) S1x128 .f32) //
      ∀ (xi3 : Vec F S1x300x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3) ∗ (∃ f, arg10.view.loc (c : Thread nD τ) ↦[arg10.view.set]{fullShare} arg10.view.writes (Elt F) f LS4)) -∗ K ⟨⟩))
          ⊢ wp frame (wpE (defs₀ (F := F)) Variants.none c none) E (cc0__fused_cost_kernel i arg2 harg2 arg3 harg3 arg4 harg4 arg5 harg5 arg6 harg6 arg7 harg7 arg8 harg8 arg9 harg9 arg10 harg10) K } := by
  refine ⟨[], ?_, ?_, ?_, ?_, ?_, fun xi3 E K => ?run⟩
  case run =>
    simp only [cc0__fused_cost_kernel_eq_skeleton]; unfold cc0__fused_cost_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    isplitl [HS2]; · iexists _; iexact HS2
    isplitl [HS3]; · iexists _; iexact HS3
    iexists _; iexact HS4

end Cert.Kernel.Hand

end
-- ==== Proof.Kernel.RunMiddle.lean ====
/-
  The body of `Kernel` at a MIDDLE block of a batch (0 < p < 6): each accumulator, at what the block before left in it, takes this
  block's contributions; the cost tile is not formed, so the result window's buffer is handed back untouched.
-/
import proofs.«122505_j52948356825308_2_alg».proof.Proof.Kernel.RunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runMiddle (c : Dev nD) (i : grid0.Coords) (arg2 : Memref sig .tc .vmem S1x300x1792 .f32) (harg2 : arg2.IsWhole) (arg3 : Memref sig .tc .vmem S1x128x1792 .f32) (harg3 : arg3.IsWhole) (arg4 : Memref sig .tc .vmem S1x300x128 .f32) (harg4 : arg4.IsWhole) (arg5 : Memref sig .tc .vmem S1x300x128 .f32) (harg5 : arg5.IsWhole) (arg6 : Memref sig .tc .vmem S300x128 .f32) (harg6 : arg6.IsWhole) (arg7 : Memref sig .tc .vmem S300x128 .f32) (harg7 : arg7.IsWhole) (arg8 : Memref sig .tc .vmem S300x1 .f32) (harg8 : arg8.IsWhole) (arg9 : Memref sig .tc .vmem S300x1 .f32) (harg9 : arg9.IsWhole) (arg10 : Memref sig .tc .vmem S1x128 .f32) (harg10 : arg10.IsWhole) (hc0 : ¬isFirst i) (hc1 : ¬isLast i)
    (x0 : Vec F S1x300x1792 .f32) (x1 : Vec F S1x128x1792 .f32) (x2 : Vec F S1x300x128 .f32)
    (xs0 : Vec F S300x128 .f32) (xs1 : Vec F S300x128 .f32) (xs2 : Vec F S300x1 .f32) (xs3 : Vec F S300x1 .f32) (xs4 : Vec F S1x128 .f32) :
    Σ' (L3 : List (View.Piece (Elt F) S1x300x128 .f32)) (LS0 : List (View.Piece (Elt F) S300x128 .f32)) (LS1 : List (View.Piece (Elt F) S300x128 .f32)) (LS2 : List (View.Piece (Elt F) S300x1 .f32)) (LS3 : List (View.Piece (Elt F) S300x1 .f32)), { LS4 : List (View.Piece (Elt F) S1x128 .f32) //
      ∀ (xi3 : Vec F S1x300x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1 ∗ owns (c : Thread nD τ) arg8 fullShare xs2 ∗ owns (c : Thread nD τ) arg9 fullShare xs3 ∗ owns (c : Thread nD τ) arg10 fullShare xs4
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3) ∗ (∃ f, arg10.view.loc (c : Thread nD τ) ↦[arg10.view.set]{fullShare} arg10.view.writes (Elt F) f LS4)) -∗ K ⟨⟩))
          ⊢ wp frame (wpE (defs₀ (F := F)) Variants.none c none) E (cc0__fused_cost_kernel i arg2 harg2 arg3 harg3 arg4 harg4 arg5 harg5 arg6 harg6 arg7 harg7 arg8 harg8 arg9 harg9 arg10 harg10) K } := by
  refine ⟨[], ?_, ?_, ?_, ?_, ?_, fun xi3 E K => ?run⟩
  case run =>
    simp only [cc0__fused_cost_kernel_eq_skeleton]; unfold cc0__fused_cost_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2; obtain rfl := harg9.eq_unread hfs3; obtain rfl := harg10.eq_unread hfs4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    isplitl [HS2]; · iexists _; iexact HS2
    isplitl [HS3]; · iexists _; iexact HS3
    iexists _; iexact HS4

end Cert.Kernel.Hand

end
-- ==== Proof.Kernel.RunLast.lean ====
/-
  The body of `Kernel` at the LAST block of a batch (p = 6): each accumulator takes this block's contributions, and the negated
  cost tile is formed from the five completed sums and the class-cost block and stored, whole, into the result window's buffer
  (whatever that held).
-/
import proofs.«122505_j52948356825308_2_alg».proof.Proof.Kernel.RunMiddle

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runLast (c : Dev nD) (i : grid0.Coords) (arg2 : Memref sig .tc .vmem S1x300x1792 .f32) (harg2 : arg2.IsWhole) (arg3 : Memref sig .tc .vmem S1x128x1792 .f32) (harg3 : arg3.IsWhole) (arg4 : Memref sig .tc .vmem S1x300x128 .f32) (harg4 : arg4.IsWhole) (arg5 : Memref sig .tc .vmem S1x300x128 .f32) (harg5 : arg5.IsWhole) (arg6 : Memref sig .tc .vmem S300x128 .f32) (harg6 : arg6.IsWhole) (arg7 : Memref sig .tc .vmem S300x128 .f32) (harg7 : arg7.IsWhole) (arg8 : Memref sig .tc .vmem S300x1 .f32) (harg8 : arg8.IsWhole) (arg9 : Memref sig .tc .vmem S300x1 .f32) (harg9 : arg9.IsWhole) (arg10 : Memref sig .tc .vmem S1x128 .f32) (harg10 : arg10.IsWhole) (hc0 : ¬isFirst i) (hc1 : isLast i)
    (x0 : Vec F S1x300x1792 .f32) (x1 : Vec F S1x128x1792 .f32) (x2 : Vec F S1x300x128 .f32)
    (xs0 : Vec F S300x128 .f32) (xs1 : Vec F S300x128 .f32) (xs2 : Vec F S300x1 .f32) (xs3 : Vec F S300x1 .f32) (xs4 : Vec F S1x128 .f32) :
    Σ' (L3 : List (View.Piece (Elt F) S1x300x128 .f32)) (LS0 : List (View.Piece (Elt F) S300x128 .f32)) (LS1 : List (View.Piece (Elt F) S300x128 .f32)) (LS2 : List (View.Piece (Elt F) S300x1 .f32)) (LS3 : List (View.Piece (Elt F) S300x1 .f32)), { LS4 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1 ∗ owns (c : Thread nD τ) arg8 fullShare xs2 ∗ owns (c : Thread nD τ) arg9 fullShare xs3 ∗ owns (c : Thread nD τ) arg10 fullShare xs4
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3) ∗ (∃ f, arg10.view.loc (c : Thread nD τ) ↦[arg10.view.set]{fullShare} arg10.view.writes (Elt F) f LS4)) -∗ K ⟨⟩))
          ⊢ wp frame (wpE (defs₀ (F := F)) Variants.none c none) E (cc0__fused_cost_kernel i arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__fused_cost_kernel_eq_skeleton]; unfold cc0__fused_cost_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2; obtain rfl := harg9.eq_unread hfs3; obtain rfl := harg10.eq_unread hfs4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    isplitl [HS2]; · iexists _; iexact HS2
    isplitl [HS3]; · iexists _; iexact HS3
    iexists _; iexact HS4

end Cert.Kernel.Hand

end
-- ==== Proof.Kernel.Frame.lean ====
/-
  The frame of `Kernel`: what the five accumulators and the result window's buffer hold after each grid point, point by point
  (a batch's first block resets the accumulators, every block adds its 1792 sampled points' contributions, the last block forms the
  cost tile), the region's invariant (the accumulators at what the point before left), the proof data of the one pipeline, the body
  obligation at a generic point, the run of @main and the frame: @main terminates, nothing faults, the five argument arrays end unchanged.
-/
import proofs.«122505_j52948356825308_2_alg».proof.Proof.Kernel.RunLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's run at point `t`, a first block of its batch. -/
abbrev runFirstAt (c : Dev nD) (t : Fin cfg0.N) (h0 : t.val % 7 = 0) (h1 : ¬t.val % 7 = 6) (x0 : Vec F S1x300x1792 .f32) (x1 : Vec F S1x128x1792 .f32) (x2 : Vec F S1x300x128 .f32)  :=
  runFirst (F := F) c (grid0.coords t) (ms0 t) (hs0 t) (ms1 t) (hs1 t) (ms2 t) (hs2 t) (ms3 t) (hs3 t) accOT (Memref.isWhole_whole _) accSig (Memref.isWhole_whole _) accNeg (Memref.isWhole_whole _) accRS (Memref.isWhole_whole _) accCS (Memref.isWhole_whole _) ((isFirst_iff t).mpr h0) (fun h => h1 ((isLast_iff t).mp h)) x0 x1 x2

theorem coverrunFirst_0 (c : Dev nD) (t : Fin cfg0.N) (h0 : t.val % 7 = 0) (h1 : ¬t.val % 7 = 6) (x0 : Vec F S1x300x1792 .f32) (x1 : Vec F S1x128x1792 .f32) (x2 : Vec F S1x300x128 .f32)  (y : S300x128.Idx) :
    ∃ pc ∈ (runFirstAt c t h0 h1 x0 x1 x2 ).2.1, y ∈ pc.1.set :=
  View.cover_of_tiledL (runFirstAt c t h0 h1 x0 x1 x2 ).2.1 S300x128.size (by sl_kernel_rfl) y
theorem coverrunFirst_1 (c : Dev nD) (t : Fin cfg0.N) (h0 : t.val % 7 = 0) (h1 : ¬t.val % 7 = 6) (x0 : Vec F S1x300x1792 .f32) (x1 : Vec F S1x128x1792 .f32) (x2 : Vec F S1x300x128 .f32)  (y : S300x128.Idx) :
    ∃ pc ∈ (runFirstAt c t h0 h1 x0 x1 x2 ).2.2.1, y ∈ pc.1.set :=
  View.cover_of_tiledL (runFirstAt c t h0 h1 x0 x1 x2 ).2.2.1 S300x128.size (by sl_kernel_rfl) y
theorem coverrunFirst_2 (c : Dev nD) (t : Fin cfg0.N) (h0 : t.val % 7 = 0) (h1 : ¬t.val % 7 = 6) (x0 : Vec F S1x300x1792 .f32) (x1 : Vec F S1x128x1792 .f32) (x2 : Vec F S1x300x128 .f32)  (y : S300x1.Idx) :
    ∃ pc ∈ (runFirstAt c t h0 h1 x0 x1 x2 ).2.2.2.1, y ∈ pc.1.set :=
  View.cover_of_tiledL (runFirstAt c t h0 h1 x0 x1 x2 ).2.2.2.1 S300x1.size (by sl_kernel_rfl) y
theorem coverrunFirst_3 (c : Dev nD) (t : Fin cfg0.N) (h0 : t.val % 7 = 0) (h1 : ¬t.val % 7 = 6) (x0 : Vec F S1x300x1792 .f32) (x1 : Vec F S1x128x1792 .f32) (x2 : Vec F S1x300x128 .f32)  (y : S300x1.Idx) :
    ∃ pc ∈ (runFirstAt c t h0 h1 x0 x1 x2 ).2.2.2.2.1, y ∈ pc.1.set :=
  View.cover_of_tiledL (runFirstAt c t h0 h1 x0 x1 x2 ).2.2.2.2.1 S300x1.size (by sl_kernel_rfl) y
theorem coverrunFirst_4 (c : Dev nD) (t : Fin cfg0.N) (h0 : t.val % 7 = 0) (h1 : ¬t.val % 7 = 6) (x0 : Vec F S1x300x1792 .f32) (x1 : Vec F S1x128x1792 .f32) (x2 : Vec F S1x300x128 .f32)  (y : S1x128.Idx) :
    ∃ pc ∈ (runFirstAt c t h0 h1 x0 x1 x2 ).2.2.2.2.2.1, y ∈ pc.1.set :=
  View.cover_of_tiledL (runFirstAt c t h0 h1 x0 x1 x2 ).2.2.2.2.2.1 S1x128.size (by sl_kernel_rfl) y

/-- What that run leaves in the five accumulators: its stores read back. -/
def accsrunFirst (c : Dev nD) (t : Fin cfg0.N) (h0 : t.val % 7 = 0) (h1 : ¬t.val % 7 = 6) (x0 : Vec F S1x300x1792 .f32) (x1 : Vec F S1x128x1792 .f32) (x2 : Vec F S1x300x128 .f32)  : Vec F S300x128 .f32 × Vec F S300x128 .f32 × Vec F S300x1 .f32 × Vec F S300x1 .f32 × Vec F S1x128 .f32 :=
  (accOT.view.read (Elt F) (accOT.view.writes (Elt F) accOT.view.junk (runFirstAt c t h0 h1 x0 x1 x2 ).2.1),
   accSig.view.read (Elt F) (accSig.view.writes (Elt F) accSig.view.junk (runFirstAt c t h0 h1 x0 x1 x2 ).2.2.1),
   accNeg.view.read (Elt F) (accNeg.view.writes (Elt F) accNeg.view.junk (runFirstAt c t h0 h1 x0 x1 x2 ).2.2.2.1),
   accRS.view.read (Elt F) (accRS.view.writes (Elt F) accRS.view.junk (runFirstAt c t h0 h1 x0 x1 x2 ).2.2.2.2.1),
   accCS.view.read (Elt F) (accCS.view.writes (Elt F) accCS.view.junk (runFirstAt c t h0 h1 x0 x1 x2 ).2.2.2.2.2.1))

/-- The body's run at point `t`, a middle block of its batch. -/
abbrev runMiddleAt (c : Dev nD) (t : Fin cfg0.N) (h0 : ¬t.val % 7 = 0) (h1 : ¬t.val % 7 = 6) (x0 : Vec F S1x300x1792 .f32) (x1 : Vec F S1x128x1792 .f32) (x2 : Vec F S1x300x128 .f32) (xs : Vec F S300x128 .f32 × Vec F S300x128 .f32 × Vec F S300x1 .f32 × Vec F S300x1 .f32 × Vec F S1x128 .f32) :=
  runMiddle (F := F) c (grid0.coords t) (ms0 t) (hs0 t) (ms1 t) (hs1 t) (ms2 t) (hs2 t) (ms3 t) (hs3 t) accOT (Memref.isWhole_whole _) accSig (Memref.isWhole_whole _) accNeg (Memref.isWhole_whole _) accRS (Memref.isWhole_whole _) accCS (Memref.isWhole_whole _) (fun h => h0 ((isFirst_iff t).mp h)) (fun h => h1 ((isLast_iff t).mp h)) x0 x1 x2 xs.1 xs.2.1 xs.2.2.1 xs.2.2.2.1 xs.2.2.2.2

theorem coverrunMiddle_0 (c : Dev nD) (t : Fin cfg0.N) (h0 : ¬t.val % 7 = 0) (h1 : ¬t.val % 7 = 6) (x0 : Vec F S1x300x1792 .f32) (x1 : Vec F S1x128x1792 .f32) (x2 : Vec F S1x300x128 .f32) (xs : Vec F S300x128 .f32 × Vec F S300x128 .f32 × Vec F S300x1 .f32 × Vec F S300x1 .f32 × Vec F S1x128 .f32) (y : S300x128.Idx) :
    ∃ pc ∈ (runMiddleAt c t h0 h1 x0 x1 x2 xs).2.1, y ∈ pc.1.set :=
  View.cover_of_tiledL (runMiddleAt c t h0 h1 x0 x1 x2 xs).2.1 S300x128.size (by sl_kernel_rfl) y
theorem coverrunMiddle_1 (c : Dev nD) (t : Fin cfg0.N) (h0 : ¬t.val % 7 = 0) (h1 : ¬t.val % 7 = 6) (x0 : Vec F S1x300x1792 .f32) (x1 : Vec F S1x128x1792 .f32) (x2 : Vec F S1x300x128 .f32) (xs : Vec F S300x128 .f32 × Vec F S300x128 .f32 × Vec F S300x1 .f32 × Vec F S300x1 .f32 × Vec F S1x128 .f32) (y : S300x128.Idx) :
    ∃ pc ∈ (runMiddleAt c t h0 h1 x0 x1 x2 xs).2.2.1, y ∈ pc.1.set :=
  View.cover_of_tiledL (runMiddleAt c t h0 h1 x0 x1 x2 xs).2.2.1 S300x128.size (by sl_kernel_rfl) y
theorem coverrunMiddle_2 (c : Dev nD) (t : Fin cfg0.N) (h0 : ¬t.val % 7 = 0) (h1 : ¬t.val % 7 = 6) (x0 : Vec F S1x300x1792 .f32) (x1 : Vec F S1x128x1792 .f32) (x2 : Vec F S1x300x128 .f32) (xs : Vec F S300x128 .f32 × Vec F S300x128 .f32 × Vec F S300x1 .f32 × Vec F S300x1 .f32 × Vec F S1x128 .f32) (y : S300x1.Idx) :
    ∃ pc ∈ (runMiddleAt c t h0 h1 x0 x1 x2 xs).2.2.2.1, y ∈ pc.1.set :=
  View.cover_of_tiledL (runMiddleAt c t h0 h1 x0 x1 x2 xs).2.2.2.1 S300x1.size (by sl_kernel_rfl) y
theorem coverrunMiddle_3 (c : Dev nD) (t : Fin cfg0.N) (h0 : ¬t.val % 7 = 0) (h1 : ¬t.val % 7 = 6) (x0 : Vec F S1x300x1792 .f32) (x1 : Vec F S1x128x1792 .f32) (x2 : Vec F S1x300x128 .f32) (xs : Vec F S300x128 .f32 × Vec F S300x128 .f32 × Vec F S300x1 .f32 × Vec F S300x1 .f32 × Vec F S1x128 .f32) (y : S300x1.Idx) :
    ∃ pc ∈ (runMiddleAt c t h0 h1 x0 x1 x2 xs).2.2.2.2.1, y ∈ pc.1.set :=
  View.cover_of_tiledL (runMiddleAt c t h0 h1 x0 x1 x2 xs).2.2.2.2.1 S300x1.size (by sl_kernel_rfl) y
theorem coverrunMiddle_4 (c : Dev nD) (t : Fin cfg0.N) (h0 : ¬t.val % 7 = 0) (h1 : ¬t.val % 7 = 6) (x0 : Vec F S1x300x1792 .f32) (x1 : Vec F S1x128x1792 .f32) (x2 : Vec F S1x300x128 .f32) (xs : Vec F S300x128 .f32 × Vec F S300x128 .f32 × Vec F S300x1 .f32 × Vec F S300x1 .f32 × Vec F S1x128 .f32) (y : S1x128.Idx) :
    ∃ pc ∈ (runMiddleAt c t h0 h1 x0 x1 x2 xs).2.2.2.2.2.1, y ∈ pc.1.set :=
  View.cover_of_tiledL (runMiddleAt c t h0 h1 x0 x1 x2 xs).2.2.2.2.2.1 S1x128.size (by sl_kernel_rfl) y

/-- What that run leaves in the five accumulators: its stores read back. -/
def accsrunMiddle (c : Dev nD) (t : Fin cfg0.N) (h0 : ¬t.val % 7 = 0) (h1 : ¬t.val % 7 = 6) (x0 : Vec F S1x300x1792 .f32) (x1 : Vec F S1x128x1792 .f32) (x2 : Vec F S1x300x128 .f32) (xs : Vec F S300x128 .f32 × Vec F S300x128 .f32 × Vec F S300x1 .f32 × Vec F S300x1 .f32 × Vec F S1x128 .f32) : Vec F S300x128 .f32 × Vec F S300x128 .f32 × Vec F S300x1 .f32 × Vec F S300x1 .f32 × Vec F S1x128 .f32 :=
  (accOT.view.read (Elt F) (accOT.view.writes (Elt F) accOT.view.junk (runMiddleAt c t h0 h1 x0 x1 x2 xs).2.1),
   accSig.view.read (Elt F) (accSig.view.writes (Elt F) accSig.view.junk (runMiddleAt c t h0 h1 x0 x1 x2 xs).2.2.1),
   accNeg.view.read (Elt F) (accNeg.view.writes (Elt F) accNeg.view.junk (runMiddleAt c t h0 h1 x0 x1 x2 xs).2.2.2.1),
   accRS.view.read (Elt F) (accRS.view.writes (Elt F) accRS.view.junk (runMiddleAt c t h0 h1 x0 x1 x2 xs).2.2.2.2.1),
   accCS.view.read (Elt F) (accCS.view.writes (Elt F) accCS.view.junk (runMiddleAt c t h0 h1 x0 x1 x2 xs).2.2.2.2.2.1))

/-- The body's run at point `t`, a last block of its batch. -/
abbrev runLastAt (c : Dev nD) (t : Fin cfg0.N) (h0 : ¬t.val % 7 = 0) (h1 : t.val % 7 = 6) (x0 : Vec F S1x300x1792 .f32) (x1 : Vec F S1x128x1792 .f32) (x2 : Vec F S1x300x128 .f32) (xs : Vec F S300x128 .f32 × Vec F S300x128 .f32 × Vec F S300x1 .f32 × Vec F S300x1 .f32 × Vec F S1x128 .f32) :=
  runLast (F := F) c (grid0.coords t) (ms0 t) (hs0 t) (ms1 t) (hs1 t) (ms2 t) (hs2 t) (ms3 t) (hs3 t) accOT (Memref.isWhole_whole _) accSig (Memref.isWhole_whole _) accNeg (Memref.isWhole_whole _) accRS (Memref.isWhole_whole _) accCS (Memref.isWhole_whole _) (fun h => h0 ((isFirst_iff t).mp h)) ((isLast_iff t).mpr h1) x0 x1 x2 xs.1 xs.2.1 xs.2.2.1 xs.2.2.2.1 xs.2.2.2.2

theorem coverrunLast_0 (c : Dev nD) (t : Fin cfg0.N) (h0 : ¬t.val % 7 = 0) (h1 : t.val % 7 = 6) (x0 : Vec F S1x300x1792 .f32) (x1 : Vec F S1x128x1792 .f32) (x2 : Vec F S1x300x128 .f32) (xs : Vec F S300x128 .f32 × Vec F S300x128 .f32 × Vec F S300x1 .f32 × Vec F S300x1 .f32 × Vec F S1x128 .f32) (y : S300x128.Idx) :
    ∃ pc ∈ (runLastAt c t h0 h1 x0 x1 x2 xs).2.1, y ∈ pc.1.set :=
  View.cover_of_tiledL (runLastAt c t h0 h1 x0 x1 x2 xs).2.1 S300x128.size (by sl_kernel_rfl) y
theorem coverrunLast_1 (c : Dev nD) (t : Fin cfg0.N) (h0 : ¬t.val % 7 = 0) (h1 : t.val % 7 = 6) (x0 : Vec F S1x300x1792 .f32) (x1 : Vec F S1x128x1792 .f32) (x2 : Vec F S1x300x128 .f32) (xs : Vec F S300x128 .f32 × Vec F S300x128 .f32 × Vec F S300x1 .f32 × Vec F S300x1 .f32 × Vec F S1x128 .f32) (y : S300x128.Idx) :
    ∃ pc ∈ (runLastAt c t h0 h1 x0 x1 x2 xs).2.2.1, y ∈ pc.1.set :=
  View.cover_of_tiledL (runLastAt c t h0 h1 x0 x1 x2 xs).2.2.1 S300x128.size (by sl_kernel_rfl) y
theorem coverrunLast_2 (c : Dev nD) (t : Fin cfg0.N) (h0 : ¬t.val % 7 = 0) (h1 : t.val % 7 = 6) (x0 : Vec F S1x300x1792 .f32) (x1 : Vec F S1x128x1792 .f32) (x2 : Vec F S1x300x128 .f32) (xs : Vec F S300x128 .f32 × Vec F S300x128 .f32 × Vec F S300x1 .f32 × Vec F S300x1 .f32 × Vec F S1x128 .f32) (y : S300x1.Idx) :
    ∃ pc ∈ (runLastAt c t h0 h1 x0 x1 x2 xs).2.2.2.1, y ∈ pc.1.set :=
  View.cover_of_tiledL (runLastAt c t h0 h1 x0 x1 x2 xs).2.2.2.1 S300x1.size (by sl_kernel_rfl) y
theorem coverrunLast_3 (c : Dev nD) (t : Fin cfg0.N) (h0 : ¬t.val % 7 = 0) (h1 : t.val % 7 = 6) (x0 : Vec F S1x300x1792 .f32) (x1 : Vec F S1x128x1792 .f32) (x2 : Vec F S1x300x128 .f32) (xs : Vec F S300x128 .f32 × Vec F S300x128 .f32 × Vec F S300x1 .f32 × Vec F S300x1 .f32 × Vec F S1x128 .f32) (y : S300x1.Idx) :
    ∃ pc ∈ (runLastAt c t h0 h1 x0 x1 x2 xs).2.2.2.2.1, y ∈ pc.1.set :=
  View.cover_of_tiledL (runLastAt c t h0 h1 x0 x1 x2 xs).2.2.2.2.1 S300x1.size (by sl_kernel_rfl) y
theorem coverrunLast_4 (c : Dev nD) (t : Fin cfg0.N) (h0 : ¬t.val % 7 = 0) (h1 : t.val % 7 = 6) (x0 : Vec F S1x300x1792 .f32) (x1 : Vec F S1x128x1792 .f32) (x2 : Vec F S1x300x128 .f32) (xs : Vec F S300x128 .f32 × Vec F S300x128 .f32 × Vec F S300x1 .f32 × Vec F S300x1 .f32 × Vec F S1x128 .f32) (y : S1x128.Idx) :
    ∃ pc ∈ (runLastAt c t h0 h1 x0 x1 x2 xs).2.2.2.2.2.1, y ∈ pc.1.set :=
  View.cover_of_tiledL (runLastAt c t h0 h1 x0 x1 x2 xs).2.2.2.2.2.1 S1x128.size (by sl_kernel_rfl) y

/-- What that run leaves in the five accumulators: its stores read back. -/
def accsrunLast (c : Dev nD) (t : Fin cfg0.N) (h0 : ¬t.val % 7 = 0) (h1 : t.val % 7 = 6) (x0 : Vec F S1x300x1792 .f32) (x1 : Vec F S1x128x1792 .f32) (x2 : Vec F S1x300x128 .f32) (xs : Vec F S300x128 .f32 × Vec F S300x128 .f32 × Vec F S300x1 .f32 × Vec F S300x1 .f32 × Vec F S1x128 .f32) : Vec F S300x128 .f32 × Vec F S300x128 .f32 × Vec F S300x1 .f32 × Vec F S300x1 .f32 × Vec F S1x128 .f32 :=
  (accOT.view.read (Elt F) (accOT.view.writes (Elt F) accOT.view.junk (runLastAt c t h0 h1 x0 x1 x2 xs).2.1),
   accSig.view.read (Elt F) (accSig.view.writes (Elt F) accSig.view.junk (runLastAt c t h0 h1 x0 x1 x2 xs).2.2.1),
   accNeg.view.read (Elt F) (accNeg.view.writes (Elt F) accNeg.view.junk (runLastAt c t h0 h1 x0 x1 x2 xs).2.2.2.1),
   accRS.view.read (Elt F) (accRS.view.writes (Elt F) accRS.view.junk (runLastAt c t h0 h1 x0 x1 x2 xs).2.2.2.2.1),
   accCS.view.read (Elt F) (accCS.view.writes (Elt F) accCS.view.junk (runLastAt c t h0 h1 x0 x1 x2 xs).2.2.2.2.2.1))

theorem coverOutLast (c : Dev nD) (t : Fin cfg0.N) (h0 : ¬t.val % 7 = 0) (h1 : t.val % 7 = 6) (x0 : Vec F S1x300x1792 .f32) (x1 : Vec F S1x128x1792 .f32) (x2 : Vec F S1x300x128 .f32) (xs : Vec F S300x128 .f32 × Vec F S300x128 .f32 × Vec F S300x1 .f32 × Vec F S300x1 .f32 × Vec F S1x128 .f32) (y : S1x300x128.Idx) :
    ∃ pc ∈ (runLastAt c t h0 h1 x0 x1 x2 xs).1, y ∈ pc.1.set :=
  View.cover_of_tiledL (runLastAt c t h0 h1 x0 x1 x2 xs).1 S1x300x128.size (by sl_kernel_rfl) y
/-- The negated cost tile the last block of a batch leaves in the result window's buffer. -/
def outLast (c : Dev nD) (t : Fin cfg0.N) (h0 : ¬t.val % 7 = 0) (h1 : t.val % 7 = 6) (x0 : Vec F S1x300x1792 .f32) (x1 : Vec F S1x128x1792 .f32) (x2 : Vec F S1x300x128 .f32) (xs : Vec F S300x128 .f32 × Vec F S300x128 .f32 × Vec F S300x1 .f32 × Vec F S300x1 .f32 × Vec F S1x128 .f32) : Vec F S1x300x128 .f32 :=
  VOut.read (Elt F) (VOut.writes (Elt F) VOut.junk (runLastAt c t h0 h1 x0 x1 x2 xs).1)
/-- Away from a batch's last block nothing is stored into the result window: a placeholder nothing consults. -/
def idleOut : Vec F S1x300x128 .f32 := VOut.read (Elt F) (VOut.junk (Val := Elt F))

/-! ## Point by point -/

/-- After the body at position `n`: the result window's buffer and the five accumulators. -/
def outsAt (c : Dev nD) : (n : ℕ) → n < cfg0.N → Vec F S1x300x128 .f32 × (Vec F S300x128 .f32 × Vec F S300x128 .f32 × Vec F S300x1 .f32 × Vec F S300x1 .f32 × Vec F S1x128 .f32)
  | 0, hn => (idleOut, accsrunFirst c ⟨0, hn⟩ (Nat.zero_mod _) (by show ¬(0 % 7 = 6); decide) (iblk m c 0 ⟨0, hn⟩) (iblk m c 1 ⟨0, hn⟩) (iblk m c 2 ⟨0, hn⟩))
  | n + 1, hn =>
    if h0 : (n + 1) % 7 = 0 then
      if h1 : (n + 1) % 7 = 6 then False.elim (by omega)
      else (idleOut, accsrunFirst c ⟨n + 1, hn⟩ h0 h1 (iblk m c 0 ⟨n + 1, hn⟩) (iblk m c 1 ⟨n + 1, hn⟩) (iblk m c 2 ⟨n + 1, hn⟩))
    else
      if h1 : (n + 1) % 7 = 6 then
        (outLast c ⟨n + 1, hn⟩ h0 h1 (iblk m c 0 ⟨n + 1, hn⟩) (iblk m c 1 ⟨n + 1, hn⟩) (iblk m c 2 ⟨n + 1, hn⟩) (outsAt c n (Nat.lt_of_succ_lt hn)).2,
         accsrunLast c ⟨n + 1, hn⟩ h0 h1 (iblk m c 0 ⟨n + 1, hn⟩) (iblk m c 1 ⟨n + 1, hn⟩) (iblk m c 2 ⟨n + 1, hn⟩) (outsAt c n (Nat.lt_of_succ_lt hn)).2)
      else
        (idleOut, accsrunMiddle c ⟨n + 1, hn⟩ h0 h1 (iblk m c 0 ⟨n + 1, hn⟩) (iblk m c 1 ⟨n + 1, hn⟩) (iblk m c 2 ⟨n + 1, hn⟩) (outsAt c n (Nat.lt_of_succ_lt hn)).2)

theorem outsAt_first (c : Dev nD) (t : Fin cfg0.N) (h0 : t.val % 7 = 0) (h1 : ¬t.val % 7 = 6) :
    outsAt m c t.val t.isLt = (idleOut, accsrunFirst c t h0 h1 (iblk m c 0 t) (iblk m c 1 t) (iblk m c 2 t)) := by
  obtain ⟨n, hn⟩ := t
  cases n with
  | zero => exact rfl
  | succ n => exact (dif_pos h0).trans ((dif_neg h1).trans rfl)

theorem outsAt_middle (c : Dev nD) (t : Fin cfg0.N) (h0 : ¬t.val % 7 = 0) (h1 : ¬t.val % 7 = 6) :
    outsAt m c t.val t.isLt = (idleOut, accsrunMiddle c t h0 h1 (iblk m c 0 t) (iblk m c 1 t) (iblk m c 2 t)
      (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 7 = 0) (h1 : t.val % 7 = 6) :
    outsAt m c t.val t.isLt = (outLast c t h0 h1 (iblk m c 0 t) (iblk m c 1 t) (iblk m c 2 t) (outsAt m c (t.val - 1) (Nat.lt_of_le_of_lt (Nat.sub_le _ _) t.isLt)).2,
      accsrunLast c t h0 h1 (iblk m c 0 t) (iblk m c 1 t) (iblk m c 2 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The accumulators owned at given contents. -/
def accsAt (c : Dev nD) (a : Vec F S300x128 .f32 × Vec F S300x128 .f32 × Vec F S300x1 .f32 × Vec F S300x1 .f32 × Vec F S1x128 .f32) : sProp 𝕄 :=
  iprop(owns (c : Thread nD τ) accOT fullShare a.1 ∗ owns (c : Thread nD τ) accSig fullShare a.2.1 ∗ owns (c : Thread nD τ) accNeg fullShare a.2.2.1 ∗ owns (c : Thread nD τ) accRS fullShare a.2.2.2.1 ∗ owns (c : Thread nD τ) accCS fullShare a.2.2.2.2)

/-- The region's invariant before position `n`: before the first point what the launch hands over (the accumulators at anything);
    afterwards the accumulators at what the point before left, and the generator register at some state. -/
def PhiS (c : Dev nD) : (n : ℕ) → n ≤ cfg0.N → sProp 𝕄
  | 0, _ => Pipeline.ΦA spec0 c
  | n + 1, hn => iprop(accsAt c (outsAt m c n hn).2 ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(accsAt c (outsAt m c n hn).2 ∗ (∃ r, prngReg c r)) := rfl
theorem PhiS_pos (c : Dev nD) (n : ℕ) (h : n ≤ cfg0.N) (hz : n ≠ 0) :
    PhiS m c n h = iprop(accsAt c (outsAt m c (n - 1) (by omega)).2 ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (outsAt m c t.val t.isLt).1 := by dsimp only [dats]
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

theorem leaves_in0 (c : Dev nD) (t : Fin cfg0.N) : (dats m 0 c).leavesExact 0 t = owns (c : Thread nD τ) (ms0 t) fullShare (iblk m c 0 t) := by
  unfold Dat.leavesExact; rw [live0 (grid0.coords t), after0]; try rfl
theorem leaves_in1 (c : Dev nD) (t : Fin cfg0.N) : (dats m 0 c).leavesExact 1 t = owns (c : Thread nD τ) (ms1 t) fullShare (iblk m c 1 t) := by
  unfold Dat.leavesExact; rw [live1 (grid0.coords t), after1]; try rfl
theorem leaves_in2 (c : Dev nD) (t : Fin cfg0.N) : (dats m 0 c).leavesExact 2 t = owns (c : Thread nD τ) (ms2 t) fullShare (iblk m c 2 t) := by
  unfold Dat.leavesExact; rw [live2 (grid0.coords t), after2]; try rfl

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2]
  have hN : t.val < 28 := lt_of_lt_of_eq t.isLt (show cfg0.N = 28 from N_0)
  by_cases h0 : t.val % 7 = 0
  · have h1 : ¬t.val % 7 = 6 := by omega
    rw [Dat.leavesExact_idle (dats m 0 c) 3 t (idle3 t (fun h => h1 ((isLast_iff t).mp h))) (noFlush3 t (fun h => h1 ((isLast_iff t).mp h)))]
    rw [outsAt_first m c t h0 h1]
    unfold accsAt accsrunFirst; (try dsimp only)
    have hrun := (runFirstAt (F := F) c t h0 h1 (iblk m c 0 t) (iblk m c 1 t) (iblk m c 2 t)).2.2.2.2.2.2
    by_cases hz : t.val = 0
    · rw [PhiS_castSucc m c t, PhiS_zero m c _ _ hz, PhiA_eq]
      iintro ⟨⟨⟨HS0, HS1, HS2, HS3, HS4⟩, Hg⟩, Ho, ⟨%d0, H0⟩, ⟨%d1, H1⟩, ⟨%d2, H2⟩, ⟨%d3, H3⟩⟩
      iapply (hrun _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HS3]; · iexact HS3
      isplitl [HS4]; · iexact HS4
      iintro ⟨H0, H1, H2, H3, ⟨%e0, HS0⟩, ⟨%e1, HS1⟩, ⟨%e2, HS2⟩, ⟨%e3, HS3⟩, ⟨%e4, HS4⟩⟩
      isplitl [HS0 HS1 HS2 HS3 HS4 Hg]
      · isplitr [Hg]
        swap; · iexact Hg
        isplitl [HS0]
        · unfold owns; iexists _; isplitr
          swap; · iexact HS0
          ipureintro; exact View.read_writes_of_cover _ _ _ _ _ (coverrunFirst_0 c t h0 h1 _ _ _)
        isplitl [HS1]
        · unfold owns; iexists _; isplitr
          swap; · iexact HS1
          ipureintro; exact View.read_writes_of_cover _ _ _ _ _ (coverrunFirst_1 c t h0 h1 _ _ _)
        isplitl [HS2]
        · unfold owns; iexists _; isplitr
          swap; · iexact HS2
          ipureintro; exact View.read_writes_of_cover _ _ _ _ _ (coverrunFirst_2 c t h0 h1 _ _ _)
        isplitl [HS3]
        · unfold owns; iexists _; isplitr
          swap; · iexact HS3
          ipureintro; exact View.read_writes_of_cover _ _ _ _ _ (coverrunFirst_3 c t h0 h1 _ _ _)
        unfold owns; iexists _; isplitr
        swap; · iexact HS4
        ipureintro; exact View.read_writes_of_cover _ _ _ _ _ (coverrunFirst_4 c t h0 h1 _ _ _)
      isplitl [Ho]; · iexact Ho
      isplitl [H0]; · iexact H0
      isplitl [H1]; · iexact H1
      isplitl [H2]; · iexact H2
      iexists _; iexact H3
    · rw [PhiS_castSucc m c t, PhiS_pos m c _ _ hz]
      unfold accsAt
      iintro ⟨⟨⟨HS0, HS1, HS2, HS3, HS4⟩, Hg⟩, Ho, ⟨%d0, H0⟩, ⟨%d1, H1⟩, ⟨%d2, H2⟩, ⟨%d3, H3⟩⟩
      iapply (hrun _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      isplitl [HS3]; · iexists _; iexact HS3
      isplitl [HS4]; · iexists _; iexact HS4
      iintro ⟨H0, H1, H2, H3, ⟨%e0, HS0⟩, ⟨%e1, HS1⟩, ⟨%e2, HS2⟩, ⟨%e3, HS3⟩, ⟨%e4, HS4⟩⟩
      isplitl [HS0 HS1 HS2 HS3 HS4 Hg]
      · isplitr [Hg]
        swap; · iexact Hg
        isplitl [HS0]
        · unfold owns; iexists _; isplitr
          swap; · iexact HS0
          ipureintro; exact View.read_writes_of_cover _ _ _ _ _ (coverrunFirst_0 c t h0 h1 _ _ _)
        isplitl [HS1]
        · unfold owns; iexists _; isplitr
          swap; · iexact HS1
          ipureintro; exact View.read_writes_of_cover _ _ _ _ _ (coverrunFirst_1 c t h0 h1 _ _ _)
        isplitl [HS2]
        · unfold owns; iexists _; isplitr
          swap; · iexact HS2
          ipureintro; exact View.read_writes_of_cover _ _ _ _ _ (coverrunFirst_2 c t h0 h1 _ _ _)
        isplitl [HS3]
        · unfold owns; iexists _; isplitr
          swap; · iexact HS3
          ipureintro; exact View.read_writes_of_cover _ _ _ _ _ (coverrunFirst_3 c t h0 h1 _ _ _)
        unfold owns; iexists _; isplitr
        swap; · iexact HS4
        ipureintro; exact View.read_writes_of_cover _ _ _ _ _ (coverrunFirst_4 c t h0 h1 _ _ _)
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 7 = 6
    · rw [show (dats m 0 c).leavesExact 3 t = owns (c : Thread nD τ) (ms3 t) fullShare ((dats m 0 c).after 3 t) from by
        unfold Dat.leavesExact; rw [live3 t ((isLast_iff t).mpr h1), after3]]
      rw [after3, outsAt_last m c t h0 h1]
      unfold accsAt outLast accsrunLast; (try dsimp only)
      rw [PhiS_castSucc m c t, PhiS_pos m c _ _ hz]
      unfold accsAt
      have hrun := (runLastAt (F := F) c t h0 h1 (iblk m c 0 t) (iblk m c 1 t) (iblk m c 2 t) (outsAt m c (t.val - 1) (Nat.lt_of_le_of_lt (Nat.sub_le _ _) t.isLt)).2).2.2.2.2.2.2
      iintro ⟨⟨⟨HS0, HS1, HS2, HS3, HS4⟩, Hg⟩, Ho, ⟨%d0, H0⟩, ⟨%d1, H1⟩, ⟨%d2, H2⟩, ⟨%d3, H3⟩⟩
      iapply (hrun Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HS3]; · iexact HS3
      isplitl [HS4]; · iexact HS4
      iintro ⟨H0, H1, H2, ⟨%e3o, H3⟩, ⟨%e0, HS0⟩, ⟨%e1, HS1⟩, ⟨%e2, HS2⟩, ⟨%e3, HS3⟩, ⟨%e4, HS4⟩⟩
      isplitl [HS0 HS1 HS2 HS3 HS4 Hg]
      · isplitr [Hg]
        swap; · iexact Hg
        isplitl [HS0]
        · unfold owns; iexists _; isplitr
          swap; · iexact HS0
          ipureintro; exact View.read_writes_of_cover _ _ _ _ _ (coverrunLast_0 c t h0 h1 _ _ _ _)
        isplitl [HS1]
        · unfold owns; iexists _; isplitr
          swap; · iexact HS1
          ipureintro; exact View.read_writes_of_cover _ _ _ _ _ (coverrunLast_1 c t h0 h1 _ _ _ _)
        isplitl [HS2]
        · unfold owns; iexists _; isplitr
          swap; · iexact HS2
          ipureintro; exact View.read_writes_of_cover _ _ _ _ _ (coverrunLast_2 c t h0 h1 _ _ _ _)
        isplitl [HS3]
        · unfold owns; iexists _; isplitr
          swap; · iexact HS3
          ipureintro; exact View.read_writes_of_cover _ _ _ _ _ (coverrunLast_3 c t h0 h1 _ _ _ _)
        unfold owns; iexists _; isplitr
        swap; · iexact HS4
        ipureintro; exact View.read_writes_of_cover _ _ _ _ _ (coverrunLast_4 c t h0 h1 _ _ _ _)
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverOutLast c t h0 h1 _ _ _ _)
    · rw [Dat.leavesExact_idle (dats m 0 c) 3 t (idle3 t (fun h => h1 ((isLast_iff t).mp h))) (noFlush3 t (fun h => h1 ((isLast_iff t).mp h)))]
      rw [outsAt_middle m c t h0 h1]
      unfold accsAt accsrunMiddle; (try dsimp only)
      rw [PhiS_castSucc m c t, PhiS_pos m c _ _ hz]
      unfold accsAt
      have hrun := (runMiddleAt (F := F) c t h0 h1 (iblk m c 0 t) (iblk m c 1 t) (iblk m c 2 t) (outsAt m c (t.val - 1) (Nat.lt_of_le_of_lt (Nat.sub_le _ _) t.isLt)).2).2.2.2.2.2.2
      iintro ⟨⟨⟨HS0, HS1, HS2, HS3, HS4⟩, Hg⟩, Ho, ⟨%d0, H0⟩, ⟨%d1, H1⟩, ⟨%d2, H2⟩, ⟨%d3, H3⟩⟩
      iapply (hrun _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HS3]; · iexact HS3
      isplitl [HS4]; · iexact HS4
      iintro ⟨H0, H1, H2, H3, ⟨%e0, HS0⟩, ⟨%e1, HS1⟩, ⟨%e2, HS2⟩, ⟨%e3, HS3⟩, ⟨%e4, HS4⟩⟩
      isplitl [HS0 HS1 HS2 HS3 HS4 Hg]
      · isplitr [Hg]
        swap; · iexact Hg
        isplitl [HS0]
        · unfold owns; iexists _; isplitr
          swap; · iexact HS0
          ipureintro; exact View.read_writes_of_cover _ _ _ _ _ (coverrunMiddle_0 c t h0 h1 _ _ _ _)
        isplitl [HS1]
        · unfold owns; iexists _; isplitr
          swap; · iexact HS1
          ipureintro; exact View.read_writes_of_cover _ _ _ _ _ (coverrunMiddle_1 c t h0 h1 _ _ _ _)
        isplitl [HS2]
        · unfold owns; iexists _; isplitr
          swap; · iexact HS2
          ipureintro; exact View.read_writes_of_cover _ _ _ _ _ (coverrunMiddle_2 c t h0 h1 _ _ _ _)
        isplitl [HS3]
        · unfold owns; iexists _; isplitr
          swap; · iexact HS3
          ipureintro; exact View.read_writes_of_cover _ _ _ _ _ (coverrunMiddle_3 c t h0 h1 _ _ _ _)
        unfold owns; iexists _; isplitr
        swap; · iexact HS4
        ipureintro; exact View.read_writes_of_cover _ _ _ _ _ (coverrunMiddle_4 c t h0 h1 _ _ _ _)
      isplitl [Ho]; · iexact Ho
      isplitl [H0]; · iexact H0
      isplitl [H1]; · iexact H1
      isplitl [H2]; · iexact H2
      iexists _; iexact H3

/-- The body obligation of the pipeline library, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives that back: the accumulators' named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 28 := N_0; omega), PhiA_eq]
  unfold accsAt
  iintro ⟨⟨HS0, HS1, HS2, HS3, HS4⟩, Hg⟩
  isplitr [Hg]
  swap; · iexact Hg
  isplitl [HS0]; · iexists _; iexact HS0
  isplitl [HS1]; · iexists _; iexact HS1
  isplitl [HS2]; · iexists _; iexact HS2
  isplitl [HS3]; · iexists _; iexact HS3
  iexists _; iexact HS4

/-! ## The run and the frame -/

set_option backward.isDefEq.respectTransparency.types false in
/-- Every weakly fair execution of @main terminates; at the end each array of the pipeline holds what the proof data say and every
    other unscoped buffer what the slice after the region leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hin := hin m) (hout := hout m)

/-- A buffer no host operation before the region writes is, at the region's entry, what the initial memory holds: here the
    argument arrays (every operation writes its own result buffer). -/
theorem V_main_arg0 (c : Dev nD) : V m c main_arg0 = m ((c : Thread nD τ).loc main_arg0) := by
  dsimp only [V, V0]
  simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results_simp <;> rfl
theorem V_main_arg1 (c : Dev nD) : V m c main_arg1 = m ((c : Thread nD τ).loc main_arg1) := by
  dsimp only [V, V0]
  simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results_simp <;> rfl
theorem V_main_arg2 (c : Dev nD) : V m c main_arg2 = m ((c : Thread nD τ).loc main_arg2) := by
  dsimp only [V, V0]
  simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results_simp <;> rfl
theorem V_main_arg3 (c : Dev nD) : V m c main_arg3 = m ((c : Thread nD τ).loc main_arg3) := by
  dsimp only [V, V0]
  simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results_simp <;> rfl
theorem V_main_arg4 (c : Dev nD) : V m c main_arg4 = m ((c : Thread nD τ).loc main_arg4) := by
  dsimp only [V, V0]
  simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results_simp <;> rfl

/-- An unscoped buffer that is no array of the pipeline and that the slice after the region does not write ends at its contents
    at the region's entry. -/
theorem kept_of (c : Dev nD) (b : Ref sig .tc) (hs : b.isScoped = false) (ha : ∀ w, (spec0 w).arr.view.ref ≠ b)
    (ha' : ∀ w, Pipeline.arrRef spec0 w ≠ b) (hw : b ≠ main_v204)
    (r : PUnit × MemSt nD τ sig (Elt F))
    (h : Pipeline.FramePost cfgs (dats m) 0 (Pipeline.afterTail₀ cfgs (dats m) 0 (V0 m) [hostOps1]) r) :
    r.2.mem ((c.tc : Thread nD τ).loc b) = V m c b := by
  refine ((h c).2 b (Pipeline.mem_restRefs_of b hs ha)).trans ?_
  unfold Pipeline.afterTail₀
  rw [StableHlo.after_of_forall_not_mem _ _ (fun op hop => by
    simp only [List.flatten_cons, List.flatten_nil, List.append_nil, hostOps1, List.mem_cons, List.mem_nil_iff, or_false] at hop
    rcases hop with rfl
    simp only [StableHlo.unary_writes, Finset.mem_singleton]
    exact StableHlo.devRef_ne_of_ne hw)]
  exact Pipeline.withArrays_of_ne _ _ _ _ b ha'

/-- THE FRAME of `Kernel`, at any float instance: @main terminates, nothing faults, the five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(kept_of m c main_arg0 rfl (by decide) (by decide) (by decide) r h).trans (V_main_arg0 m c),
    (kept_of m c main_arg1 rfl (by decide) (by decide) (by decide) r h).trans (V_main_arg1 m c),
    (kept_of m c main_arg2 rfl (by decide) (by decide) (by decide) r h).trans (V_main_arg2 m c),
    (kept_of m c main_arg3 rfl (by decide) (by decide) (by decide) r h).trans (V_main_arg3 m c),
    (kept_of m c main_arg4 rfl (by decide) (by decide) (by decide) r h).trans (V_main_arg4 m c)⟩) (run_main m ρ)

end Cert.Kernel.Hand

end
-- ==== Proof.KernelIdeal.Region.lean ====
/-
  The region of `KernelIdeal` and what surrounds it.

  @main is sixteen stretches of host operations (the two point samplers, the classification cost and the two
  zero paddings), the one pallas_call on the 4 × 7 grid (batch, block of 1792 sampled points), and one slice.
  Here: the buffers' contents when the region is entered (`V0`, `V`), @main as "prefix, region, tail", that the
  tail touches only the region's arrays and bypassing buffers, each window's block at a grid point, the two branch
  conditions of the body decided over the grid (the first block of a batch, `p = 0`; the last one, `p = 6`), at
  which points the result window is idle, and names for the staging and scratch memrefs the body is called with.
-/
import proofs.«122505_j52948356825308_2_alg».proof.Proof.Gen.KernelIdeal.Launch
import proofs.«122505_j52948356825308_2_alg».proof.Proof.Gen.KernelIdeal.Skeleton
import proofs.«122505_j52948356825308_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations before the region, stretch by stretch. -/
abbrev prefixOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]

/-- Core `c`'s buffers when the region is entered: the initial memory after the host operations before it. -/
abbrev V0 (c : Dev nD) : Valuation τ sig (Elt F) :=
  StableHlo.after (List.flatten (prefixOps (F := F))) (fun b => m (c, b))
/-- The same read at a TensorCore reference. -/
abbrev V (c : Dev nD) (b : Ref sig .tc) : Buf (Elt F) ((c : Thread nD τ).loc b) := V0 m c (Proc.devRef .tc b)

theorem prefix_sub : (prefixOps (F := F)).Forall fun ops => ops.Forall fun op => op.bufs ⊆ StableHlo.tcRefs τ sig := by
  refine List.forall_iff_forall_mem.mpr ?_
  intro ops hops
  simp only [prefixOps, List.mem_cons, List.mem_nil_iff, or_false] at hops
  rcases hops with rfl | rfl | rfl | rfl | rfl | rfl | rfl | rfl | rfl | rfl | rfl | rfl | rfl | rfl | rfl | rfl
  exacts [hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub]

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem prefix_fresh : (prefixOps (F := F)).Forall fun ops => ops.Forall fun op => op.fresh = ∅ := by
  refine List.forall_iff_forall_mem.mpr ?_
  intro ops hops
  simp only [prefixOps, List.mem_cons, List.mem_nil_iff, or_false] at hops
  rcases hops with rfl | rfl | rfl | rfl | rfl | rfl | rfl | rfl | rfl | rfl | rfl | rfl | rfl | rfl | rfl | rfl
  exacts [hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh]

/-- @main is the host prefix, the region, and the slice after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main prefixOps [hostOps1] prefix_sub prefix_fresh main_chain

/-- The slice after the region touches the region's arrays and bypassing buffers only, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocates nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and writes none of the region's arrays (it writes its own result buffer). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.unary_writes, Finset.mem_singleton] <;> exact StableHlo.devRef_ne_of_ne (by decide)

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (the class
    cost's block is fetched at the first point of a batch only; its index does not move within the batch). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two branches, decided over the grid -/

/-- "This is the first block of its batch" (`p = 0`): the accumulators are reset. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 7 = 0 :=
  (by decide +kernel : ∀ t : Fin grid0.N, isFirst (grid0.coords t) ↔ t.val % 7 = 0)

/-- "This is the last block of its batch" (`p = 6`): the cost tile is formed and stored. -/
abbrev isLast (i : grid0.Coords) : Prop := k0_cond2 i = 1#1
theorem isLast_iff : ∀ t : Fin cfg0.N, isLast (grid0.coords t) ↔ t.val % 7 = 6 :=
  (by decide +kernel : ∀ t : Fin grid0.N, isLast (grid0.coords t) ↔ t.val % 7 = 6)

/-! ## Where the windows are idle -/

theorem live0 : ∀ i, cfg0.idle 0 i = false := fun _ => rfl
theorem live1 : ∀ i, cfg0.idle 1 i = false := fun _ => rfl
theorem live2 : ∀ i, cfg0.idle 2 i = false := fun _ => rfl
/-- Away from the last block of a batch nothing is stored into the result window and it is not written back. -/
theorem idle3 : ∀ t : Fin cfg0.N, ¬isLast (grid0.coords t) → cfg0.idle 3 (grid0.coords t) = true := by decide +kernel
theorem noFlush3 : ∀ t : Fin cfg0.N, ¬isLast (grid0.coords t) → (cfg0.win 3).flush t = false := by decide +kernel
theorem live3 : ∀ t : Fin cfg0.N, isLast (grid0.coords t) → cfg0.idle 3 (grid0.coords t) = false := by decide +kernel

/-! ## The memrefs the body is called with -/

abbrev ms0 (t : Fin cfg0.N) : Memref sig .tc .vmem S1x300x1792 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x128x1792 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x300x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x300x128 .f32 := win0_3.stage (cfg0.slots t 3)
abbrev hs3 (t : Fin cfg0.N) : (ms3 t).IsWhole := hstage0_3 ((cfg0.slots t 3).cast nbuf0_3)
/-- The five accumulators: Σ out·tgt, Σ σ(out)·tgt, the row sums Σ softplus(out) and Σ σ(out), the column sums Σ tgt. -/
abbrev accOT : Memref sig .tc .vmem S300x128 .f32 := Memref.whole cc0_scratch0
abbrev accSig : Memref sig .tc .vmem S300x128 .f32 := Memref.whole cc0_scratch1
abbrev accNeg : Memref sig .tc .vmem S300x1 .f32 := Memref.whole cc0_scratch2
abbrev accRS : Memref sig .tc .vmem S300x1 .f32 := Memref.whole cc0_scratch3
abbrev accCS : Memref sig .tc .vmem S1x128 .f32 := Memref.whole cc0_scratch4
/-- One staging buffer of the result window, through which its contents are stated. -/
abbrev VOut : View sig .tc .vmem S1x300x128 .f32 := (Memref.whole cc0_stg3_0 : Memref sig .tc .vmem S1x300x128 .f32).view

/-- What the launch hands the body besides the windows: the five accumulators at some contents, and the generator register. -/
theorem PhiA_eq (c : Dev nD) :
    (Pipeline.ΦA spec0 c : sProp 𝕄)
      = iprop(iprop((∃ d, owns (c : Thread nD τ) accOT fullShare d) ∗ (∃ d, owns (c : Thread nD τ) accSig fullShare d) ∗ (∃ d, owns (c : Thread nD τ) accNeg fullShare d) ∗ (∃ d, owns (c : Thread nD τ) accRS fullShare d) ∗ (∃ d, owns (c : Thread nD τ) accCS fullShare d)) ∗ (∃ r, prngReg c r)) := by
  unfold Pipeline.ΦA; rw [scopedRest0_eq]; simp only [accOT, accSig, accNeg, accRS, accCS, owns_whole]; try rfl

end Cert.KernelIdeal.Hand

end
-- ==== Proof.KernelIdeal.RunFirst.lean ====
/-
  The body of `KernelIdeal` at the FIRST block of a batch (p = 0): the five accumulators, whatever they held, are reset to zero and
  then take this block's contributions; the cost tile is not formed, so the result window's buffer is handed back untouched.
  The run is the symbolic execution of the body's skeleton; what each accumulator ends with is recorded as the list of its stores.
-/
import proofs.«122505_j52948356825308_2_alg».proof.Proof.KernelIdeal.Region

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runFirst (c : Dev nD) (i : grid0.Coords) (arg2 : Memref sig .tc .vmem S1x300x1792 .f32) (harg2 : arg2.IsWhole) (arg3 : Memref sig .tc .vmem S1x128x1792 .f32) (harg3 : arg3.IsWhole) (arg4 : Memref sig .tc .vmem S1x300x128 .f32) (harg4 : arg4.IsWhole) (arg5 : Memref sig .tc .vmem S1x300x128 .f32) (harg5 : arg5.IsWhole) (arg6 : Memref sig .tc .vmem S300x128 .f32) (harg6 : arg6.IsWhole) (arg7 : Memref sig .tc .vmem S300x128 .f32) (harg7 : arg7.IsWhole) (arg8 : Memref sig .tc .vmem S300x1 .f32) (harg8 : arg8.IsWhole) (arg9 : Memref sig .tc .vmem S300x1 .f32) (harg9 : arg9.IsWhole) (arg10 : Memref sig .tc .vmem S1x128 .f32) (harg10 : arg10.IsWhole) (hc0 : isFirst i) (hc1 : ¬isLast i)
    (x0 : Vec F S1x300x1792 .f32) (x1 : Vec F S1x128x1792 .f32) (x2 : Vec F S1x300x128 .f32) :
    Σ' (L3 : List (View.Piece (Elt F) S1x300x128 .f32)) (LS0 : List (View.Piece (Elt F) S300x128 .f32)) (LS1 : List (View.Piece (Elt F) S300x128 .f32)) (LS2 : List (View.Piece (Elt F) S300x1 .f32)) (LS3 : List (View.Piece (Elt F) S300x1 .f32)), { LS4 : List (View.Piece (Elt F) S1x128 .f32) //
      ∀ (xi3 : Vec F S1x300x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3) ∗ (∃ f, arg10.view.loc (c : Thread nD τ) ↦[arg10.view.set]{fullShare} arg10.view.writes (Elt F) f LS4)) -∗ K ⟨⟩))
          ⊢ wp frame (wpE (defs₀ (F := F)) Variants.none c none) E (cc0__fused_cost_kernel i arg2 harg2 arg3 harg3 arg4 harg4 arg5 harg5 arg6 harg6 arg7 harg7 arg8 harg8 arg9 harg9 arg10 harg10) K } := by
  refine ⟨[], ?_, ?_, ?_, ?_, ?_, fun xi3 E K => ?run⟩
  case run =>
    simp only [cc0__fused_cost_kernel_eq_skeleton]; unfold cc0__fused_cost_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    isplitl [HS2]; · iexists _; iexact HS2
    isplitl [HS3]; · iexists _; iexact HS3
    iexists _; iexact HS4

end Cert.KernelIdeal.Hand

end
-- ==== Proof.KernelIdeal.RunMiddle.lean ====
/-
  The body of `KernelIdeal` at a MIDDLE block of a batch (0 < p < 6): each accumulator, at what the block before left in it, takes this
  block's contributions; the cost tile is not formed, so the result window's buffer is handed back untouched.
-/
import proofs.«122505_j52948356825308_2_alg».proof.Proof.KernelIdeal.RunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runMiddle (c : Dev nD) (i : grid0.Coords) (arg2 : Memref sig .tc .vmem S1x300x1792 .f32) (harg2 : arg2.IsWhole) (arg3 : Memref sig .tc .vmem S1x128x1792 .f32) (harg3 : arg3.IsWhole) (arg4 : Memref sig .tc .vmem S1x300x128 .f32) (harg4 : arg4.IsWhole) (arg5 : Memref sig .tc .vmem S1x300x128 .f32) (harg5 : arg5.IsWhole) (arg6 : Memref sig .tc .vmem S300x128 .f32) (harg6 : arg6.IsWhole) (arg7 : Memref sig .tc .vmem S300x128 .f32) (harg7 : arg7.IsWhole) (arg8 : Memref sig .tc .vmem S300x1 .f32) (harg8 : arg8.IsWhole) (arg9 : Memref sig .tc .vmem S300x1 .f32) (harg9 : arg9.IsWhole) (arg10 : Memref sig .tc .vmem S1x128 .f32) (harg10 : arg10.IsWhole) (hc0 : ¬isFirst i) (hc1 : ¬isLast i)
    (x0 : Vec F S1x300x1792 .f32) (x1 : Vec F S1x128x1792 .f32) (x2 : Vec F S1x300x128 .f32)
    (xs0 : Vec F S300x128 .f32) (xs1 : Vec F S300x128 .f32) (xs2 : Vec F S300x1 .f32) (xs3 : Vec F S300x1 .f32) (xs4 : Vec F S1x128 .f32) :
    Σ' (L3 : List (View.Piece (Elt F) S1x300x128 .f32)) (LS0 : List (View.Piece (Elt F) S300x128 .f32)) (LS1 : List (View.Piece (Elt F) S300x128 .f32)) (LS2 : List (View.Piece (Elt F) S300x1 .f32)) (LS3 : List (View.Piece (Elt F) S300x1 .f32)), { LS4 : List (View.Piece (Elt F) S1x128 .f32) //
      ∀ (xi3 : Vec F S1x300x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1 ∗ owns (c : Thread nD τ) arg8 fullShare xs2 ∗ owns (c : Thread nD τ) arg9 fullShare xs3 ∗ owns (c : Thread nD τ) arg10 fullShare xs4
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3) ∗ (∃ f, arg10.view.loc (c : Thread nD τ) ↦[arg10.view.set]{fullShare} arg10.view.writes (Elt F) f LS4)) -∗ K ⟨⟩))
          ⊢ wp frame (wpE (defs₀ (F := F)) Variants.none c none) E (cc0__fused_cost_kernel i arg2 harg2 arg3 harg3 arg4 harg4 arg5 harg5 arg6 harg6 arg7 harg7 arg8 harg8 arg9 harg9 arg10 harg10) K } := by
  refine ⟨[], ?_, ?_, ?_, ?_, ?_, fun xi3 E K => ?run⟩
  case run =>
    simp only [cc0__fused_cost_kernel_eq_skeleton]; unfold cc0__fused_cost_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2; obtain rfl := harg9.eq_unread hfs3; obtain rfl := harg10.eq_unread hfs4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    isplitl [HS2]; · iexists _; iexact HS2
    isplitl [HS3]; · iexists _; iexact HS3
    iexists _; iexact HS4

end Cert.KernelIdeal.Hand

end
-- ==== Proof.KernelIdeal.RunLast.lean ====
/-
  The body of `KernelIdeal` at the LAST block of a batch (p = 6): each accumulator takes this block's contributions, and the negated
  cost tile is formed from the five completed sums and the class-cost block and stored, whole, into the result window's buffer
  (whatever that held).
-/
import proofs.«122505_j52948356825308_2_alg».proof.Proof.KernelIdeal.RunMiddle

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runLast (c : Dev nD) (i : grid0.Coords) (arg2 : Memref sig .tc .vmem S1x300x1792 .f32) (harg2 : arg2.IsWhole) (arg3 : Memref sig .tc .vmem S1x128x1792 .f32) (harg3 : arg3.IsWhole) (arg4 : Memref sig .tc .vmem S1x300x128 .f32) (harg4 : arg4.IsWhole) (arg5 : Memref sig .tc .vmem S1x300x128 .f32) (harg5 : arg5.IsWhole) (arg6 : Memref sig .tc .vmem S300x128 .f32) (harg6 : arg6.IsWhole) (arg7 : Memref sig .tc .vmem S300x128 .f32) (harg7 : arg7.IsWhole) (arg8 : Memref sig .tc .vmem S300x1 .f32) (harg8 : arg8.IsWhole) (arg9 : Memref sig .tc .vmem S300x1 .f32) (harg9 : arg9.IsWhole) (arg10 : Memref sig .tc .vmem S1x128 .f32) (harg10 : arg10.IsWhole) (hc0 : ¬isFirst i) (hc1 : isLast i)
    (x0 : Vec F S1x300x1792 .f32) (x1 : Vec F S1x128x1792 .f32) (x2 : Vec F S1x300x128 .f32)
    (xs0 : Vec F S300x128 .f32) (xs1 : Vec F S300x128 .f32) (xs2 : Vec F S300x1 .f32) (xs3 : Vec F S300x1 .f32) (xs4 : Vec F S1x128 .f32) :
    Σ' (L3 : List (View.Piece (Elt F) S1x300x128 .f32)) (LS0 : List (View.Piece (Elt F) S300x128 .f32)) (LS1 : List (View.Piece (Elt F) S300x128 .f32)) (LS2 : List (View.Piece (Elt F) S300x1 .f32)) (LS3 : List (View.Piece (Elt F) S300x1 .f32)), { LS4 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1 ∗ owns (c : Thread nD τ) arg8 fullShare xs2 ∗ owns (c : Thread nD τ) arg9 fullShare xs3 ∗ owns (c : Thread nD τ) arg10 fullShare xs4
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3) ∗ (∃ f, arg10.view.loc (c : Thread nD τ) ↦[arg10.view.set]{fullShare} arg10.view.writes (Elt F) f LS4)) -∗ K ⟨⟩))
          ⊢ wp frame (wpE (defs₀ (F := F)) Variants.none c none) E (cc0__fused_cost_kernel i arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__fused_cost_kernel_eq_skeleton]; unfold cc0__fused_cost_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2; obtain rfl := harg9.eq_unread hfs3; obtain rfl := harg10.eq_unread hfs4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    isplitl [HS2]; · iexists _; iexact HS2
    isplitl [HS3]; · iexists _; iexact HS3
    iexists _; iexact HS4

end Cert.KernelIdeal.Hand

end
-- ==== Proof.KernelIdeal.Frame.lean ====
/-
  The frame of `KernelIdeal`: what the five accumulators and the result window's buffer hold after each grid point, point by point
  (a batch's first block resets the accumulators, every block adds its 1792 sampled points' contributions, the last block forms the
  cost tile), the region's invariant (the accumulators at what the point before left), the proof data of the one pipeline, the body
  obligation at a generic point, the run of @main and the frame: @main terminates, nothing faults, the five argument arrays end unchanged.
-/
import proofs.«122505_j52948356825308_2_alg».proof.Proof.KernelIdeal.RunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's run at point `t`, a first block of its batch. -/
abbrev runFirstAt (c : Dev nD) (t : Fin cfg0.N) (h0 : t.val % 7 = 0) (h1 : ¬t.val % 7 = 6) (x0 : Vec F S1x300x1792 .f32) (x1 : Vec F S1x128x1792 .f32) (x2 : Vec F S1x300x128 .f32)  :=
  runFirst (F := F) c (grid0.coords t) (ms0 t) (hs0 t) (ms1 t) (hs1 t) (ms2 t) (hs2 t) (ms3 t) (hs3 t) accOT (Memref.isWhole_whole _) accSig (Memref.isWhole_whole _) accNeg (Memref.isWhole_whole _) accRS (Memref.isWhole_whole _) accCS (Memref.isWhole_whole _) ((isFirst_iff t).mpr h0) (fun h => h1 ((isLast_iff t).mp h)) x0 x1 x2

theorem coverrunFirst_0 (c : Dev nD) (t : Fin cfg0.N) (h0 : t.val % 7 = 0) (h1 : ¬t.val % 7 = 6) (x0 : Vec F S1x300x1792 .f32) (x1 : Vec F S1x128x1792 .f32) (x2 : Vec F S1x300x128 .f32)  (y : S300x128.Idx) :
    ∃ pc ∈ (runFirstAt c t h0 h1 x0 x1 x2 ).2.1, y ∈ pc.1.set :=
  View.cover_of_tiledL (runFirstAt c t h0 h1 x0 x1 x2 ).2.1 S300x128.size (by sl_kernel_rfl) y
theorem coverrunFirst_1 (c : Dev nD) (t : Fin cfg0.N) (h0 : t.val % 7 = 0) (h1 : ¬t.val % 7 = 6) (x0 : Vec F S1x300x1792 .f32) (x1 : Vec F S1x128x1792 .f32) (x2 : Vec F S1x300x128 .f32)  (y : S300x128.Idx) :
    ∃ pc ∈ (runFirstAt c t h0 h1 x0 x1 x2 ).2.2.1, y ∈ pc.1.set :=
  View.cover_of_tiledL (runFirstAt c t h0 h1 x0 x1 x2 ).2.2.1 S300x128.size (by sl_kernel_rfl) y
theorem coverrunFirst_2 (c : Dev nD) (t : Fin cfg0.N) (h0 : t.val % 7 = 0) (h1 : ¬t.val % 7 = 6) (x0 : Vec F S1x300x1792 .f32) (x1 : Vec F S1x128x1792 .f32) (x2 : Vec F S1x300x128 .f32)  (y : S300x1.Idx) :
    ∃ pc ∈ (runFirstAt c t h0 h1 x0 x1 x2 ).2.2.2.1, y ∈ pc.1.set :=
  View.cover_of_tiledL (runFirstAt c t h0 h1 x0 x1 x2 ).2.2.2.1 S300x1.size (by sl_kernel_rfl) y
theorem coverrunFirst_3 (c : Dev nD) (t : Fin cfg0.N) (h0 : t.val % 7 = 0) (h1 : ¬t.val % 7 = 6) (x0 : Vec F S1x300x1792 .f32) (x1 : Vec F S1x128x1792 .f32) (x2 : Vec F S1x300x128 .f32)  (y : S300x1.Idx) :
    ∃ pc ∈ (runFirstAt c t h0 h1 x0 x1 x2 ).2.2.2.2.1, y ∈ pc.1.set :=
  View.cover_of_tiledL (runFirstAt c t h0 h1 x0 x1 x2 ).2.2.2.2.1 S300x1.size (by sl_kernel_rfl) y
theorem coverrunFirst_4 (c : Dev nD) (t : Fin cfg0.N) (h0 : t.val % 7 = 0) (h1 : ¬t.val % 7 = 6) (x0 : Vec F S1x300x1792 .f32) (x1 : Vec F S1x128x1792 .f32) (x2 : Vec F S1x300x128 .f32)  (y : S1x128.Idx) :
    ∃ pc ∈ (runFirstAt c t h0 h1 x0 x1 x2 ).2.2.2.2.2.1, y ∈ pc.1.set :=
  View.cover_of_tiledL (runFirstAt c t h0 h1 x0 x1 x2 ).2.2.2.2.2.1 S1x128.size (by sl_kernel_rfl) y

/-- What that run leaves in the five accumulators: its stores read back. -/
def accsrunFirst (c : Dev nD) (t : Fin cfg0.N) (h0 : t.val % 7 = 0) (h1 : ¬t.val % 7 = 6) (x0 : Vec F S1x300x1792 .f32) (x1 : Vec F S1x128x1792 .f32) (x2 : Vec F S1x300x128 .f32)  : Vec F S300x128 .f32 × Vec F S300x128 .f32 × Vec F S300x1 .f32 × Vec F S300x1 .f32 × Vec F S1x128 .f32 :=
  (accOT.view.read (Elt F) (accOT.view.writes (Elt F) accOT.view.junk (runFirstAt c t h0 h1 x0 x1 x2 ).2.1),
   accSig.view.read (Elt F) (accSig.view.writes (Elt F) accSig.view.junk (runFirstAt c t h0 h1 x0 x1 x2 ).2.2.1),
   accNeg.view.read (Elt F) (accNeg.view.writes (Elt F) accNeg.view.junk (runFirstAt c t h0 h1 x0 x1 x2 ).2.2.2.1),
   accRS.view.read (Elt F) (accRS.view.writes (Elt F) accRS.view.junk (runFirstAt c t h0 h1 x0 x1 x2 ).2.2.2.2.1),
   accCS.view.read (Elt F) (accCS.view.writes (Elt F) accCS.view.junk (runFirstAt c t h0 h1 x0 x1 x2 ).2.2.2.2.2.1))

/-- The body's run at point `t`, a middle block of its batch. -/
abbrev runMiddleAt (c : Dev nD) (t : Fin cfg0.N) (h0 : ¬t.val % 7 = 0) (h1 : ¬t.val % 7 = 6) (x0 : Vec F S1x300x1792 .f32) (x1 : Vec F S1x128x1792 .f32) (x2 : Vec F S1x300x128 .f32) (xs : Vec F S300x128 .f32 × Vec F S300x128 .f32 × Vec F S300x1 .f32 × Vec F S300x1 .f32 × Vec F S1x128 .f32) :=
  runMiddle (F := F) c (grid0.coords t) (ms0 t) (hs0 t) (ms1 t) (hs1 t) (ms2 t) (hs2 t) (ms3 t) (hs3 t) accOT (Memref.isWhole_whole _) accSig (Memref.isWhole_whole _) accNeg (Memref.isWhole_whole _) accRS (Memref.isWhole_whole _) accCS (Memref.isWhole_whole _) (fun h => h0 ((isFirst_iff t).mp h)) (fun h => h1 ((isLast_iff t).mp h)) x0 x1 x2 xs.1 xs.2.1 xs.2.2.1 xs.2.2.2.1 xs.2.2.2.2

theorem coverrunMiddle_0 (c : Dev nD) (t : Fin cfg0.N) (h0 : ¬t.val % 7 = 0) (h1 : ¬t.val % 7 = 6) (x0 : Vec F S1x300x1792 .f32) (x1 : Vec F S1x128x1792 .f32) (x2 : Vec F S1x300x128 .f32) (xs : Vec F S300x128 .f32 × Vec F S300x128 .f32 × Vec F S300x1 .f32 × Vec F S300x1 .f32 × Vec F S1x128 .f32) (y : S300x128.Idx) :
    ∃ pc ∈ (runMiddleAt c t h0 h1 x0 x1 x2 xs).2.1, y ∈ pc.1.set :=
  View.cover_of_tiledL (runMiddleAt c t h0 h1 x0 x1 x2 xs).2.1 S300x128.size (by sl_kernel_rfl) y
theorem coverrunMiddle_1 (c : Dev nD) (t : Fin cfg0.N) (h0 : ¬t.val % 7 = 0) (h1 : ¬t.val % 7 = 6) (x0 : Vec F S1x300x1792 .f32) (x1 : Vec F S1x128x1792 .f32) (x2 : Vec F S1x300x128 .f32) (xs : Vec F S300x128 .f32 × Vec F S300x128 .f32 × Vec F S300x1 .f32 × Vec F S300x1 .f32 × Vec F S1x128 .f32) (y : S300x128.Idx) :
    ∃ pc ∈ (runMiddleAt c t h0 h1 x0 x1 x2 xs).2.2.1, y ∈ pc.1.set :=
  View.cover_of_tiledL (runMiddleAt c t h0 h1 x0 x1 x2 xs).2.2.1 S300x128.size (by sl_kernel_rfl) y
theorem coverrunMiddle_2 (c : Dev nD) (t : Fin cfg0.N) (h0 : ¬t.val % 7 = 0) (h1 : ¬t.val % 7 = 6) (x0 : Vec F S1x300x1792 .f32) (x1 : Vec F S1x128x1792 .f32) (x2 : Vec F S1x300x128 .f32) (xs : Vec F S300x128 .f32 × Vec F S300x128 .f32 × Vec F S300x1 .f32 × Vec F S300x1 .f32 × Vec F S1x128 .f32) (y : S300x1.Idx) :
    ∃ pc ∈ (runMiddleAt c t h0 h1 x0 x1 x2 xs).2.2.2.1, y ∈ pc.1.set :=
  View.cover_of_tiledL (runMiddleAt c t h0 h1 x0 x1 x2 xs).2.2.2.1 S300x1.size (by sl_kernel_rfl) y
theorem coverrunMiddle_3 (c : Dev nD) (t : Fin cfg0.N) (h0 : ¬t.val % 7 = 0) (h1 : ¬t.val % 7 = 6) (x0 : Vec F S1x300x1792 .f32) (x1 : Vec F S1x128x1792 .f32) (x2 : Vec F S1x300x128 .f32) (xs : Vec F S300x128 .f32 × Vec F S300x128 .f32 × Vec F S300x1 .f32 × Vec F S300x1 .f32 × Vec F S1x128 .f32) (y : S300x1.Idx) :
    ∃ pc ∈ (runMiddleAt c t h0 h1 x0 x1 x2 xs).2.2.2.2.1, y ∈ pc.1.set :=
  View.cover_of_tiledL (runMiddleAt c t h0 h1 x0 x1 x2 xs).2.2.2.2.1 S300x1.size (by sl_kernel_rfl) y
theorem coverrunMiddle_4 (c : Dev nD) (t : Fin cfg0.N) (h0 : ¬t.val % 7 = 0) (h1 : ¬t.val % 7 = 6) (x0 : Vec F S1x300x1792 .f32) (x1 : Vec F S1x128x1792 .f32) (x2 : Vec F S1x300x128 .f32) (xs : Vec F S300x128 .f32 × Vec F S300x128 .f32 × Vec F S300x1 .f32 × Vec F S300x1 .f32 × Vec F S1x128 .f32) (y : S1x128.Idx) :
    ∃ pc ∈ (runMiddleAt c t h0 h1 x0 x1 x2 xs).2.2.2.2.2.1, y ∈ pc.1.set :=
  View.cover_of_tiledL (runMiddleAt c t h0 h1 x0 x1 x2 xs).2.2.2.2.2.1 S1x128.size (by sl_kernel_rfl) y

/-- What that run leaves in the five accumulators: its stores read back. -/
def accsrunMiddle (c : Dev nD) (t : Fin cfg0.N) (h0 : ¬t.val % 7 = 0) (h1 : ¬t.val % 7 = 6) (x0 : Vec F S1x300x1792 .f32) (x1 : Vec F S1x128x1792 .f32) (x2 : Vec F S1x300x128 .f32) (xs : Vec F S300x128 .f32 × Vec F S300x128 .f32 × Vec F S300x1 .f32 × Vec F S300x1 .f32 × Vec F S1x128 .f32) : Vec F S300x128 .f32 × Vec F S300x128 .f32 × Vec F S300x1 .f32 × Vec F S300x1 .f32 × Vec F S1x128 .f32 :=
  (accOT.view.read (Elt F) (accOT.view.writes (Elt F) accOT.view.junk (runMiddleAt c t h0 h1 x0 x1 x2 xs).2.1),
   accSig.view.read (Elt F) (accSig.view.writes (Elt F) accSig.view.junk (runMiddleAt c t h0 h1 x0 x1 x2 xs).2.2.1),
   accNeg.view.read (Elt F) (accNeg.view.writes (Elt F) accNeg.view.junk (runMiddleAt c t h0 h1 x0 x1 x2 xs).2.2.2.1),
   accRS.view.read (Elt F) (accRS.view.writes (Elt F) accRS.view.junk (runMiddleAt c t h0 h1 x0 x1 x2 xs).2.2.2.2.1),
   accCS.view.read (Elt F) (accCS.view.writes (Elt F) accCS.view.junk (runMiddleAt c t h0 h1 x0 x1 x2 xs).2.2.2.2.2.1))

/-- The body's run at point `t`, a last block of its batch. -/
abbrev runLastAt (c : Dev nD) (t : Fin cfg0.N) (h0 : ¬t.val % 7 = 0) (h1 : t.val % 7 = 6) (x0 : Vec F S1x300x1792 .f32) (x1 : Vec F S1x128x1792 .f32) (x2 : Vec F S1x300x128 .f32) (xs : Vec F S300x128 .f32 × Vec F S300x128 .f32 × Vec F S300x1 .f32 × Vec F S300x1 .f32 × Vec F S1x128 .f32) :=
  runLast (F := F) c (grid0.coords t) (ms0 t) (hs0 t) (ms1 t) (hs1 t) (ms2 t) (hs2 t) (ms3 t) (hs3 t) accOT (Memref.isWhole_whole _) accSig (Memref.isWhole_whole _) accNeg (Memref.isWhole_whole _) accRS (Memref.isWhole_whole _) accCS (Memref.isWhole_whole _) (fun h => h0 ((isFirst_iff t).mp h)) ((isLast_iff t).mpr h1) x0 x1 x2 xs.1 xs.2.1 xs.2.2.1 xs.2.2.2.1 xs.2.2.2.2

theorem coverrunLast_0 (c : Dev nD) (t : Fin cfg0.N) (h0 : ¬t.val % 7 = 0) (h1 : t.val % 7 = 6) (x0 : Vec F S1x300x1792 .f32) (x1 : Vec F S1x128x1792 .f32) (x2 : Vec F S1x300x128 .f32) (xs : Vec F S300x128 .f32 × Vec F S300x128 .f32 × Vec F S300x1 .f32 × Vec F S300x1 .f32 × Vec F S1x128 .f32) (y : S300x128.Idx) :
    ∃ pc ∈ (runLastAt c t h0 h1 x0 x1 x2 xs).2.1, y ∈ pc.1.set :=
  View.cover_of_tiledL (runLastAt c t h0 h1 x0 x1 x2 xs).2.1 S300x128.size (by sl_kernel_rfl) y
theorem coverrunLast_1 (c : Dev nD) (t : Fin cfg0.N) (h0 : ¬t.val % 7 = 0) (h1 : t.val % 7 = 6) (x0 : Vec F S1x300x1792 .f32) (x1 : Vec F S1x128x1792 .f32) (x2 : Vec F S1x300x128 .f32) (xs : Vec F S300x128 .f32 × Vec F S300x128 .f32 × Vec F S300x1 .f32 × Vec F S300x1 .f32 × Vec F S1x128 .f32) (y : S300x128.Idx) :
    ∃ pc ∈ (runLastAt c t h0 h1 x0 x1 x2 xs).2.2.1, y ∈ pc.1.set :=
  View.cover_of_tiledL (runLastAt c t h0 h1 x0 x1 x2 xs).2.2.1 S300x128.size (by sl_kernel_rfl) y
theorem coverrunLast_2 (c : Dev nD) (t : Fin cfg0.N) (h0 : ¬t.val % 7 = 0) (h1 : t.val % 7 = 6) (x0 : Vec F S1x300x1792 .f32) (x1 : Vec F S1x128x1792 .f32) (x2 : Vec F S1x300x128 .f32) (xs : Vec F S300x128 .f32 × Vec F S300x128 .f32 × Vec F S300x1 .f32 × Vec F S300x1 .f32 × Vec F S1x128 .f32) (y : S300x1.Idx) :
    ∃ pc ∈ (runLastAt c t h0 h1 x0 x1 x2 xs).2.2.2.1, y ∈ pc.1.set :=
  View.cover_of_tiledL (runLastAt c t h0 h1 x0 x1 x2 xs).2.2.2.1 S300x1.size (by sl_kernel_rfl) y
theorem coverrunLast_3 (c : Dev nD) (t : Fin cfg0.N) (h0 : ¬t.val % 7 = 0) (h1 : t.val % 7 = 6) (x0 : Vec F S1x300x1792 .f32) (x1 : Vec F S1x128x1792 .f32) (x2 : Vec F S1x300x128 .f32) (xs : Vec F S300x128 .f32 × Vec F S300x128 .f32 × Vec F S300x1 .f32 × Vec F S300x1 .f32 × Vec F S1x128 .f32) (y : S300x1.Idx) :
    ∃ pc ∈ (runLastAt c t h0 h1 x0 x1 x2 xs).2.2.2.2.1, y ∈ pc.1.set :=
  View.cover_of_tiledL (runLastAt c t h0 h1 x0 x1 x2 xs).2.2.2.2.1 S300x1.size (by sl_kernel_rfl) y
theorem coverrunLast_4 (c : Dev nD) (t : Fin cfg0.N) (h0 : ¬t.val % 7 = 0) (h1 : t.val % 7 = 6) (x0 : Vec F S1x300x1792 .f32) (x1 : Vec F S1x128x1792 .f32) (x2 : Vec F S1x300x128 .f32) (xs : Vec F S300x128 .f32 × Vec F S300x128 .f32 × Vec F S300x1 .f32 × Vec F S300x1 .f32 × Vec F S1x128 .f32) (y : S1x128.Idx) :
    ∃ pc ∈ (runLastAt c t h0 h1 x0 x1 x2 xs).2.2.2.2.2.1, y ∈ pc.1.set :=
  View.cover_of_tiledL (runLastAt c t h0 h1 x0 x1 x2 xs).2.2.2.2.2.1 S1x128.size (by sl_kernel_rfl) y

/-- What that run leaves in the five accumulators: its stores read back. -/
def accsrunLast (c : Dev nD) (t : Fin cfg0.N) (h0 : ¬t.val % 7 = 0) (h1 : t.val % 7 = 6) (x0 : Vec F S1x300x1792 .f32) (x1 : Vec F S1x128x1792 .f32) (x2 : Vec F S1x300x128 .f32) (xs : Vec F S300x128 .f32 × Vec F S300x128 .f32 × Vec F S300x1 .f32 × Vec F S300x1 .f32 × Vec F S1x128 .f32) : Vec F S300x128 .f32 × Vec F S300x128 .f32 × Vec F S300x1 .f32 × Vec F S300x1 .f32 × Vec F S1x128 .f32 :=
  (accOT.view.read (Elt F) (accOT.view.writes (Elt F) accOT.view.junk (runLastAt c t h0 h1 x0 x1 x2 xs).2.1),
   accSig.view.read (Elt F) (accSig.view.writes (Elt F) accSig.view.junk (runLastAt c t h0 h1 x0 x1 x2 xs).2.2.1),
   accNeg.view.read (Elt F) (accNeg.view.writes (Elt F) accNeg.view.junk (runLastAt c t h0 h1 x0 x1 x2 xs).2.2.2.1),
   accRS.view.read (Elt F) (accRS.view.writes (Elt F) accRS.view.junk (runLastAt c t h0 h1 x0 x1 x2 xs).2.2.2.2.1),
   accCS.view.read (Elt F) (accCS.view.writes (Elt F) accCS.view.junk (runLastAt c t h0 h1 x0 x1 x2 xs).2.2.2.2.2.1))

theorem coverOutLast (c : Dev nD) (t : Fin cfg0.N) (h0 : ¬t.val % 7 = 0) (h1 : t.val % 7 = 6) (x0 : Vec F S1x300x1792 .f32) (x1 : Vec F S1x128x1792 .f32) (x2 : Vec F S1x300x128 .f32) (xs : Vec F S300x128 .f32 × Vec F S300x128 .f32 × Vec F S300x1 .f32 × Vec F S300x1 .f32 × Vec F S1x128 .f32) (y : S1x300x128.Idx) :
    ∃ pc ∈ (runLastAt c t h0 h1 x0 x1 x2 xs).1, y ∈ pc.1.set :=
  View.cover_of_tiledL (runLastAt c t h0 h1 x0 x1 x2 xs).1 S1x300x128.size (by sl_kernel_rfl) y
/-- The negated cost tile the last block of a batch leaves in the result window's buffer. -/
def outLast (c : Dev nD) (t : Fin cfg0.N) (h0 : ¬t.val % 7 = 0) (h1 : t.val % 7 = 6) (x0 : Vec F S1x300x1792 .f32) (x1 : Vec F S1x128x1792 .f32) (x2 : Vec F S1x300x128 .f32) (xs : Vec F S300x128 .f32 × Vec F S300x128 .f32 × Vec F S300x1 .f32 × Vec F S300x1 .f32 × Vec F S1x128 .f32) : Vec F S1x300x128 .f32 :=
  VOut.read (Elt F) (VOut.writes (Elt F) VOut.junk (runLastAt c t h0 h1 x0 x1 x2 xs).1)
/-- Away from a batch's last block nothing is stored into the result window: a placeholder nothing consults. -/
def idleOut : Vec F S1x300x128 .f32 := VOut.read (Elt F) (VOut.junk (Val := Elt F))

/-! ## Point by point -/

/-- After the body at position `n`: the result window's buffer and the five accumulators. -/
def outsAt (c : Dev nD) : (n : ℕ) → n < cfg0.N → Vec F S1x300x128 .f32 × (Vec F S300x128 .f32 × Vec F S300x128 .f32 × Vec F S300x1 .f32 × Vec F S300x1 .f32 × Vec F S1x128 .f32)
  | 0, hn => (idleOut, accsrunFirst c ⟨0, hn⟩ (Nat.zero_mod _) (by show ¬(0 % 7 = 6); decide) (iblk m c 0 ⟨0, hn⟩) (iblk m c 1 ⟨0, hn⟩) (iblk m c 2 ⟨0, hn⟩))
  | n + 1, hn =>
    if h0 : (n + 1) % 7 = 0 then
      if h1 : (n + 1) % 7 = 6 then False.elim (by omega)
      else (idleOut, accsrunFirst c ⟨n + 1, hn⟩ h0 h1 (iblk m c 0 ⟨n + 1, hn⟩) (iblk m c 1 ⟨n + 1, hn⟩) (iblk m c 2 ⟨n + 1, hn⟩))
    else
      if h1 : (n + 1) % 7 = 6 then
        (outLast c ⟨n + 1, hn⟩ h0 h1 (iblk m c 0 ⟨n + 1, hn⟩) (iblk m c 1 ⟨n + 1, hn⟩) (iblk m c 2 ⟨n + 1, hn⟩) (outsAt c n (Nat.lt_of_succ_lt hn)).2,
         accsrunLast c ⟨n + 1, hn⟩ h0 h1 (iblk m c 0 ⟨n + 1, hn⟩) (iblk m c 1 ⟨n + 1, hn⟩) (iblk m c 2 ⟨n + 1, hn⟩) (outsAt c n (Nat.lt_of_succ_lt hn)).2)
      else
        (idleOut, accsrunMiddle c ⟨n + 1, hn⟩ h0 h1 (iblk m c 0 ⟨n + 1, hn⟩) (iblk m c 1 ⟨n + 1, hn⟩) (iblk m c 2 ⟨n + 1, hn⟩) (outsAt c n (Nat.lt_of_succ_lt hn)).2)

theorem outsAt_first (c : Dev nD) (t : Fin cfg0.N) (h0 : t.val % 7 = 0) (h1 : ¬t.val % 7 = 6) :
    outsAt m c t.val t.isLt = (idleOut, accsrunFirst c t h0 h1 (iblk m c 0 t) (iblk m c 1 t) (iblk m c 2 t)) := by
  obtain ⟨n, hn⟩ := t
  cases n with
  | zero => exact rfl
  | succ n => exact (dif_pos h0).trans ((dif_neg h1).trans rfl)

theorem outsAt_middle (c : Dev nD) (t : Fin cfg0.N) (h0 : ¬t.val % 7 = 0) (h1 : ¬t.val % 7 = 6) :
    outsAt m c t.val t.isLt = (idleOut, accsrunMiddle c t h0 h1 (iblk m c 0 t) (iblk m c 1 t) (iblk m c 2 t)
      (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 7 = 0) (h1 : t.val % 7 = 6) :
    outsAt m c t.val t.isLt = (outLast c t h0 h1 (iblk m c 0 t) (iblk m c 1 t) (iblk m c 2 t) (outsAt m c (t.val - 1) (Nat.lt_of_le_of_lt (Nat.sub_le _ _) t.isLt)).2,
      accsrunLast c t h0 h1 (iblk m c 0 t) (iblk m c 1 t) (iblk m c 2 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The accumulators owned at given contents. -/
def accsAt (c : Dev nD) (a : Vec F S300x128 .f32 × Vec F S300x128 .f32 × Vec F S300x1 .f32 × Vec F S300x1 .f32 × Vec F S1x128 .f32) : sProp 𝕄 :=
  iprop(owns (c : Thread nD τ) accOT fullShare a.1 ∗ owns (c : Thread nD τ) accSig fullShare a.2.1 ∗ owns (c : Thread nD τ) accNeg fullShare a.2.2.1 ∗ owns (c : Thread nD τ) accRS fullShare a.2.2.2.1 ∗ owns (c : Thread nD τ) accCS fullShare a.2.2.2.2)

/-- The region's invariant before position `n`: before the first point what the launch hands over (the accumulators at anything);
    afterwards the accumulators at what the point before left, and the generator register at some state. -/
def PhiS (c : Dev nD) : (n : ℕ) → n ≤ cfg0.N → sProp 𝕄
  | 0, _ => Pipeline.ΦA spec0 c
  | n + 1, hn => iprop(accsAt c (outsAt m c n hn).2 ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(accsAt c (outsAt m c n hn).2 ∗ (∃ r, prngReg c r)) := rfl
theorem PhiS_pos (c : Dev nD) (n : ℕ) (h : n ≤ cfg0.N) (hz : n ≠ 0) :
    PhiS m c n h = iprop(accsAt c (outsAt m c (n - 1) (by omega)).2 ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (outsAt m c t.val t.isLt).1 := by dsimp only [dats]
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

theorem leaves_in0 (c : Dev nD) (t : Fin cfg0.N) : (dats m 0 c).leavesExact 0 t = owns (c : Thread nD τ) (ms0 t) fullShare (iblk m c 0 t) := by
  unfold Dat.leavesExact; rw [live0 (grid0.coords t), after0]; try rfl
theorem leaves_in1 (c : Dev nD) (t : Fin cfg0.N) : (dats m 0 c).leavesExact 1 t = owns (c : Thread nD τ) (ms1 t) fullShare (iblk m c 1 t) := by
  unfold Dat.leavesExact; rw [live1 (grid0.coords t), after1]; try rfl
theorem leaves_in2 (c : Dev nD) (t : Fin cfg0.N) : (dats m 0 c).leavesExact 2 t = owns (c : Thread nD τ) (ms2 t) fullShare (iblk m c 2 t) := by
  unfold Dat.leavesExact; rw [live2 (grid0.coords t), after2]; try rfl

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2]
  have hN : t.val < 28 := lt_of_lt_of_eq t.isLt (show cfg0.N = 28 from N_0)
  by_cases h0 : t.val % 7 = 0
  · have h1 : ¬t.val % 7 = 6 := by omega
    rw [Dat.leavesExact_idle (dats m 0 c) 3 t (idle3 t (fun h => h1 ((isLast_iff t).mp h))) (noFlush3 t (fun h => h1 ((isLast_iff t).mp h)))]
    rw [outsAt_first m c t h0 h1]
    unfold accsAt accsrunFirst; (try dsimp only)
    have hrun := (runFirstAt (F := F) c t h0 h1 (iblk m c 0 t) (iblk m c 1 t) (iblk m c 2 t)).2.2.2.2.2.2
    by_cases hz : t.val = 0
    · rw [PhiS_castSucc m c t, PhiS_zero m c _ _ hz, PhiA_eq]
      iintro ⟨⟨⟨HS0, HS1, HS2, HS3, HS4⟩, Hg⟩, Ho, ⟨%d0, H0⟩, ⟨%d1, H1⟩, ⟨%d2, H2⟩, ⟨%d3, H3⟩⟩
      iapply (hrun _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HS3]; · iexact HS3
      isplitl [HS4]; · iexact HS4
      iintro ⟨H0, H1, H2, H3, ⟨%e0, HS0⟩, ⟨%e1, HS1⟩, ⟨%e2, HS2⟩, ⟨%e3, HS3⟩, ⟨%e4, HS4⟩⟩
      isplitl [HS0 HS1 HS2 HS3 HS4 Hg]
      · isplitr [Hg]
        swap; · iexact Hg
        isplitl [HS0]
        · unfold owns; iexists _; isplitr
          swap; · iexact HS0
          ipureintro; exact View.read_writes_of_cover _ _ _ _ _ (coverrunFirst_0 c t h0 h1 _ _ _)
        isplitl [HS1]
        · unfold owns; iexists _; isplitr
          swap; · iexact HS1
          ipureintro; exact View.read_writes_of_cover _ _ _ _ _ (coverrunFirst_1 c t h0 h1 _ _ _)
        isplitl [HS2]
        · unfold owns; iexists _; isplitr
          swap; · iexact HS2
          ipureintro; exact View.read_writes_of_cover _ _ _ _ _ (coverrunFirst_2 c t h0 h1 _ _ _)
        isplitl [HS3]
        · unfold owns; iexists _; isplitr
          swap; · iexact HS3
          ipureintro; exact View.read_writes_of_cover _ _ _ _ _ (coverrunFirst_3 c t h0 h1 _ _ _)
        unfold owns; iexists _; isplitr
        swap; · iexact HS4
        ipureintro; exact View.read_writes_of_cover _ _ _ _ _ (coverrunFirst_4 c t h0 h1 _ _ _)
      isplitl [Ho]; · iexact Ho
      isplitl [H0]; · iexact H0
      isplitl [H1]; · iexact H1
      isplitl [H2]; · iexact H2
      iexists _; iexact H3
    · rw [PhiS_castSucc m c t, PhiS_pos m c _ _ hz]
      unfold accsAt
      iintro ⟨⟨⟨HS0, HS1, HS2, HS3, HS4⟩, Hg⟩, Ho, ⟨%d0, H0⟩, ⟨%d1, H1⟩, ⟨%d2, H2⟩, ⟨%d3, H3⟩⟩
      iapply (hrun _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      isplitl [HS3]; · iexists _; iexact HS3
      isplitl [HS4]; · iexists _; iexact HS4
      iintro ⟨H0, H1, H2, H3, ⟨%e0, HS0⟩, ⟨%e1, HS1⟩, ⟨%e2, HS2⟩, ⟨%e3, HS3⟩, ⟨%e4, HS4⟩⟩
      isplitl [HS0 HS1 HS2 HS3 HS4 Hg]
      · isplitr [Hg]
        swap; · iexact Hg
        isplitl [HS0]
        · unfold owns; iexists _; isplitr
          swap; · iexact HS0
          ipureintro; exact View.read_writes_of_cover _ _ _ _ _ (coverrunFirst_0 c t h0 h1 _ _ _)
        isplitl [HS1]
        · unfold owns; iexists _; isplitr
          swap; · iexact HS1
          ipureintro; exact View.read_writes_of_cover _ _ _ _ _ (coverrunFirst_1 c t h0 h1 _ _ _)
        isplitl [HS2]
        · unfold owns; iexists _; isplitr
          swap; · iexact HS2
          ipureintro; exact View.read_writes_of_cover _ _ _ _ _ (coverrunFirst_2 c t h0 h1 _ _ _)
        isplitl [HS3]
        · unfold owns; iexists _; isplitr
          swap; · iexact HS3
          ipureintro; exact View.read_writes_of_cover _ _ _ _ _ (coverrunFirst_3 c t h0 h1 _ _ _)
        unfold owns; iexists _; isplitr
        swap; · iexact HS4
        ipureintro; exact View.read_writes_of_cover _ _ _ _ _ (coverrunFirst_4 c t h0 h1 _ _ _)
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 7 = 6
    · rw [show (dats m 0 c).leavesExact 3 t = owns (c : Thread nD τ) (ms3 t) fullShare ((dats m 0 c).after 3 t) from by
        unfold Dat.leavesExact; rw [live3 t ((isLast_iff t).mpr h1), after3]]
      rw [after3, outsAt_last m c t h0 h1]
      unfold accsAt outLast accsrunLast; (try dsimp only)
      rw [PhiS_castSucc m c t, PhiS_pos m c _ _ hz]
      unfold accsAt
      have hrun := (runLastAt (F := F) c t h0 h1 (iblk m c 0 t) (iblk m c 1 t) (iblk m c 2 t) (outsAt m c (t.val - 1) (Nat.lt_of_le_of_lt (Nat.sub_le _ _) t.isLt)).2).2.2.2.2.2.2
      iintro ⟨⟨⟨HS0, HS1, HS2, HS3, HS4⟩, Hg⟩, Ho, ⟨%d0, H0⟩, ⟨%d1, H1⟩, ⟨%d2, H2⟩, ⟨%d3, H3⟩⟩
      iapply (hrun Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HS3]; · iexact HS3
      isplitl [HS4]; · iexact HS4
      iintro ⟨H0, H1, H2, ⟨%e3o, H3⟩, ⟨%e0, HS0⟩, ⟨%e1, HS1⟩, ⟨%e2, HS2⟩, ⟨%e3, HS3⟩, ⟨%e4, HS4⟩⟩
      isplitl [HS0 HS1 HS2 HS3 HS4 Hg]
      · isplitr [Hg]
        swap; · iexact Hg
        isplitl [HS0]
        · unfold owns; iexists _; isplitr
          swap; · iexact HS0
          ipureintro; exact View.read_writes_of_cover _ _ _ _ _ (coverrunLast_0 c t h0 h1 _ _ _ _)
        isplitl [HS1]
        · unfold owns; iexists _; isplitr
          swap; · iexact HS1
          ipureintro; exact View.read_writes_of_cover _ _ _ _ _ (coverrunLast_1 c t h0 h1 _ _ _ _)
        isplitl [HS2]
        · unfold owns; iexists _; isplitr
          swap; · iexact HS2
          ipureintro; exact View.read_writes_of_cover _ _ _ _ _ (coverrunLast_2 c t h0 h1 _ _ _ _)
        isplitl [HS3]
        · unfold owns; iexists _; isplitr
          swap; · iexact HS3
          ipureintro; exact View.read_writes_of_cover _ _ _ _ _ (coverrunLast_3 c t h0 h1 _ _ _ _)
        unfold owns; iexists _; isplitr
        swap; · iexact HS4
        ipureintro; exact View.read_writes_of_cover _ _ _ _ _ (coverrunLast_4 c t h0 h1 _ _ _ _)
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverOutLast c t h0 h1 _ _ _ _)
    · rw [Dat.leavesExact_idle (dats m 0 c) 3 t (idle3 t (fun h => h1 ((isLast_iff t).mp h))) (noFlush3 t (fun h => h1 ((isLast_iff t).mp h)))]
      rw [outsAt_middle m c t h0 h1]
      unfold accsAt accsrunMiddle; (try dsimp only)
      rw [PhiS_castSucc m c t, PhiS_pos m c _ _ hz]
      unfold accsAt
      have hrun := (runMiddleAt (F := F) c t h0 h1 (iblk m c 0 t) (iblk m c 1 t) (iblk m c 2 t) (outsAt m c (t.val - 1) (Nat.lt_of_le_of_lt (Nat.sub_le _ _) t.isLt)).2).2.2.2.2.2.2
      iintro ⟨⟨⟨HS0, HS1, HS2, HS3, HS4⟩, Hg⟩, Ho, ⟨%d0, H0⟩, ⟨%d1, H1⟩, ⟨%d2, H2⟩, ⟨%d3, H3⟩⟩
      iapply (hrun _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HS3]; · iexact HS3
      isplitl [HS4]; · iexact HS4
      iintro ⟨H0, H1, H2, H3, ⟨%e0, HS0⟩, ⟨%e1, HS1⟩, ⟨%e2, HS2⟩, ⟨%e3, HS3⟩, ⟨%e4, HS4⟩⟩
      isplitl [HS0 HS1 HS2 HS3 HS4 Hg]
      · isplitr [Hg]
        swap; · iexact Hg
        isplitl [HS0]
        · unfold owns; iexists _; isplitr
          swap; · iexact HS0
          ipureintro; exact View.read_writes_of_cover _ _ _ _ _ (coverrunMiddle_0 c t h0 h1 _ _ _ _)
        isplitl [HS1]
        · unfold owns; iexists _; isplitr
          swap; · iexact HS1
          ipureintro; exact View.read_writes_of_cover _ _ _ _ _ (coverrunMiddle_1 c t h0 h1 _ _ _ _)
        isplitl [HS2]
        · unfold owns; iexists _; isplitr
          swap; · iexact HS2
          ipureintro; exact View.read_writes_of_cover _ _ _ _ _ (coverrunMiddle_2 c t h0 h1 _ _ _ _)
        isplitl [HS3]
        · unfold owns; iexists _; isplitr
          swap; · iexact HS3
          ipureintro; exact View.read_writes_of_cover _ _ _ _ _ (coverrunMiddle_3 c t h0 h1 _ _ _ _)
        unfold owns; iexists _; isplitr
        swap; · iexact HS4
        ipureintro; exact View.read_writes_of_cover _ _ _ _ _ (coverrunMiddle_4 c t h0 h1 _ _ _ _)
      isplitl [Ho]; · iexact Ho
      isplitl [H0]; · iexact H0
      isplitl [H1]; · iexact H1
      isplitl [H2]; · iexact H2
      iexists _; iexact H3

/-- The body obligation of the pipeline library, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives that back: the accumulators' named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 28 := N_0; omega), PhiA_eq]
  unfold accsAt
  iintro ⟨⟨HS0, HS1, HS2, HS3, HS4⟩, Hg⟩
  isplitr [Hg]
  swap; · iexact Hg
  isplitl [HS0]; · iexists _; iexact HS0
  isplitl [HS1]; · iexists _; iexact HS1
  isplitl [HS2]; · iexists _; iexact HS2
  isplitl [HS3]; · iexists _; iexact HS3
  iexists _; iexact HS4

/-! ## The run and the frame -/

set_option backward.isDefEq.respectTransparency.types false in
/-- Every weakly fair execution of @main terminates; at the end each array of the pipeline holds what the proof data say and every
    other unscoped buffer what the slice after the region leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hin := hin m) (hout := hout m)

/-- A buffer no host operation before the region writes is, at the region's entry, what the initial memory holds: here the
    argument arrays (every operation writes its own result buffer). -/
theorem V_main_arg0 (c : Dev nD) : V m c main_arg0 = m ((c : Thread nD τ).loc main_arg0) := by
  dsimp only [V, V0]
  simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results_simp <;> rfl
theorem V_main_arg1 (c : Dev nD) : V m c main_arg1 = m ((c : Thread nD τ).loc main_arg1) := by
  dsimp only [V, V0]
  simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results_simp <;> rfl
theorem V_main_arg2 (c : Dev nD) : V m c main_arg2 = m ((c : Thread nD τ).loc main_arg2) := by
  dsimp only [V, V0]
  simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results_simp <;> rfl
theorem V_main_arg3 (c : Dev nD) : V m c main_arg3 = m ((c : Thread nD τ).loc main_arg3) := by
  dsimp only [V, V0]
  simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results_simp <;> rfl
theorem V_main_arg4 (c : Dev nD) : V m c main_arg4 = m ((c : Thread nD τ).loc main_arg4) := by
  dsimp only [V, V0]
  simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results_simp <;> rfl

/-- An unscoped buffer that is no array of the pipeline and that the slice after the region does not write ends at its contents
    at the region's entry. -/
theorem kept_of (c : Dev nD) (b : Ref sig .tc) (hs : b.isScoped = false) (ha : ∀ w, (spec0 w).arr.view.ref ≠ b)
    (ha' : ∀ w, Pipeline.arrRef spec0 w ≠ b) (hw : b ≠ main_v204)
    (r : PUnit × MemSt nD τ sig (Elt F))
    (h : Pipeline.FramePost cfgs (dats m) 0 (Pipeline.afterTail₀ cfgs (dats m) 0 (V0 m) [hostOps1]) r) :
    r.2.mem ((c.tc : Thread nD τ).loc b) = V m c b := by
  refine ((h c).2 b (Pipeline.mem_restRefs_of b hs ha)).trans ?_
  unfold Pipeline.afterTail₀
  rw [StableHlo.after_of_forall_not_mem _ _ (fun op hop => by
    simp only [List.flatten_cons, List.flatten_nil, List.append_nil, hostOps1, List.mem_cons, List.mem_nil_iff, or_false] at hop
    rcases hop with rfl
    simp only [StableHlo.unary_writes, Finset.mem_singleton]
    exact StableHlo.devRef_ne_of_ne hw)]
  exact Pipeline.withArrays_of_ne _ _ _ _ b ha'

/-- THE FRAME of `KernelIdeal`, at any float instance: @main terminates, nothing faults, the five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(kept_of m c main_arg0 rfl (by decide) (by decide) (by decide) r h).trans (V_main_arg0 m c),
    (kept_of m c main_arg1 rfl (by decide) (by decide) (by decide) r h).trans (V_main_arg1 m c),
    (kept_of m c main_arg2 rfl (by decide) (by decide) (by decide) r h).trans (V_main_arg2 m c),
    (kept_of m c main_arg3 rfl (by decide) (by decide) (by decide) r h).trans (V_main_arg3 m c),
    (kept_of m c main_arg4 rfl (by decide) (by decide) (by decide) r h).trans (V_main_arg4 m c)⟩) (run_main m ρ)

end Cert.KernelIdeal.Hand

end
-- ==== Proof.ReferenceMain.lean ====
/-
  The reference's @main IS the sequence of its listed operations, none of its buffers or semaphores is scoped, and every operation
  touches TensorCore buffers only.
-/
import proofs.«122505_j52948356825308_2_alg».proof.Proof.ReferenceOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 200000 in
set_option maxHeartbeats 40000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

end Cert.ReferenceIdeal.Hand

end
-- ==== Proof.ReferenceRunAll.lean ====
/-
  The reference's run: @main is a straight line of host operations on a signature that scopes nothing, so every weakly fair
  execution terminates without a fault with EACH buffer at the fold of the operations' results over its launch contents.
-/
import proofs.«122505_j52948356825308_2_alg».proof.Proof.ReferenceMain
import proofs.«122505_j52948356825308_2_alg».proof.Proof.ReferenceSub

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 200000 in
set_option maxHeartbeats 400000000 in
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq (fun _ => ops_sub) m ρ

end Cert.ReferenceIdeal.Hand

end
-- ==== Proof.ReferenceKept0.lean ====
/-
  No operation of the reference writes argument 0 (each writes its own result buffer): after all of them it holds what it held.
-/
import proofs.«122505_j52948356825308_2_alg».proof.Proof.ReferenceOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 400000000 in
theorem kept0 (V : Valuation τ sig (Elt F)) :
    after (ops (F := F)) V (Proc.devRef .tc main_arg0) = V (Proc.devRef .tc main_arg0) := by
  after_results_simp

end Cert.ReferenceIdeal.Hand

end
-- ==== Proof.ReferenceKept1.lean ====
/-
  No operation of the reference writes argument 1 (each writes its own result buffer): after all of them it holds what it held.
-/
import proofs.«122505_j52948356825308_2_alg».proof.Proof.ReferenceOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 400000000 in
theorem kept1 (V : Valuation τ sig (Elt F)) :
    after (ops (F := F)) V (Proc.devRef .tc main_arg1) = V (Proc.devRef .tc main_arg1) := by
  after_results_simp

end Cert.ReferenceIdeal.Hand

end
-- ==== Proof.ReferenceKept2.lean ====
/-
  No operation of the reference writes argument 2 (each writes its own result buffer): after all of them it holds what it held.
-/
import proofs.«122505_j52948356825308_2_alg».proof.Proof.ReferenceOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 400000000 in
theorem kept2 (V : Valuation τ sig (Elt F)) :
    after (ops (F := F)) V (Proc.devRef .tc main_arg2) = V (Proc.devRef .tc main_arg2) := by
  after_results_simp

end Cert.ReferenceIdeal.Hand

end
-- ==== Proof.ReferenceKept3.lean ====
/-
  No operation of the reference writes argument 3 (each writes its own result buffer): after all of them it holds what it held.
-/
import proofs.«122505_j52948356825308_2_alg».proof.Proof.ReferenceOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 400000000 in
theorem kept3 (V : Valuation τ sig (Elt F)) :
    after (ops (F := F)) V (Proc.devRef .tc main_arg3) = V (Proc.devRef .tc main_arg3) := by
  after_results_simp

end Cert.ReferenceIdeal.Hand

end
-- ==== Proof.ReferenceKept4.lean ====
/-
  No operation of the reference writes argument 4 (each writes its own result buffer): after all of them it holds what it held.
-/
import proofs.«122505_j52948356825308_2_alg».proof.Proof.ReferenceOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 400000000 in
theorem kept4 (V : Valuation τ sig (Elt F)) :
    after (ops (F := F)) V (Proc.devRef .tc main_arg4) = V (Proc.devRef .tc main_arg4) := by
  after_results_simp

end Cert.ReferenceIdeal.Hand

end
-- ==== Proof.ReferenceFrame.lean ====
/-
  The reference's frame: no operation writes an argument array (each writes its own result buffer), so after the run the five
  arguments hold what they held.
-/
import proofs.«122505_j52948356825308_2_alg».proof.Proof.ReferenceRunAll
import proofs.«122505_j52948356825308_2_alg».proof.Proof.ReferenceKept0
import proofs.«122505_j52948356825308_2_alg».proof.Proof.ReferenceKept1
import proofs.«122505_j52948356825308_2_alg».proof.Proof.ReferenceKept2
import proofs.«122505_j52948356825308_2_alg».proof.Proof.ReferenceKept3
import proofs.«122505_j52948356825308_2_alg».proof.Proof.ReferenceKept4

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨
      (h c main_arg0).trans (kept0 _),
      (h c main_arg1).trans (kept1 _),
      (h c main_arg2).trans (kept2 _),
      (h c main_arg3).trans (kept3 _),
      (h c main_arg4).trans (kept4 _)⟩)
    (run_all m ρ)

end Cert.ReferenceIdeal.Hand

end
-- ==== Proof.ReferencePre190.lean ====
/-
  After the reference's operations up to the classification cost, buffer main_v190 holds its stage function of the arguments.
-/
import proofs.«122505_j52948356825308_2_alg».proof.Proof.ReferenceSplit
import proofs.«122505_j52948356825308_2_alg».proof.Proof.ReferenceReadP

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 200000 in
set_option maxHeartbeats 2000000000 in
theorem pre190 (V : Valuation τ sig (Elt F)) :
    after (preOps (F := F)) V (Proc.devRef .tc main_v190)
      = Cert.ReferenceIdeal.ReadP.val_main_v190 (F := F) (V (Proc.devRef .tc main_arg1)) (V (Proc.devRef .tc main_arg4)) := by
  after_results_simp
  rfl

end Cert.ReferenceIdeal.Hand

end
-- ==== Proof.ReferencePre381.lean ====
/-
  After the reference's operations up to the classification cost, buffer main_v381 holds its stage function of the arguments.
-/
import proofs.«122505_j52948356825308_2_alg».proof.Proof.ReferenceSplit
import proofs.«122505_j52948356825308_2_alg».proof.Proof.ReferenceReadP

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 200000 in
set_option maxHeartbeats 2000000000 in
theorem pre381 (V : Valuation τ sig (Elt F)) :
    after (preOps (F := F)) V (Proc.devRef .tc main_v381)
      = Cert.ReferenceIdeal.ReadP.val_main_v381 (F := F) (V (Proc.devRef .tc main_arg3)) (V (Proc.devRef .tc main_arg4)) := by
  after_results_simp
  rfl

end Cert.ReferenceIdeal.Hand

end
-- ==== Proof.ReferencePre424.lean ====
/-
  After the reference's operations up to the classification cost, buffer main_v424 holds its stage function of the arguments.
-/
import proofs.«122505_j52948356825308_2_alg».proof.Proof.ReferenceSplit
import proofs.«122505_j52948356825308_2_alg».proof.Proof.ReferenceReadP

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 200000 in
set_option maxHeartbeats 2000000000 in
theorem pre424 (V : Valuation τ sig (Elt F)) :
    after (preOps (F := F)) V (Proc.devRef .tc main_v424)
      = Cert.ReferenceIdeal.ReadP.val_main_v424 (F := F) (V (Proc.devRef .tc main_arg0)) (V (Proc.devRef .tc main_arg2)) := by
  after_results_simp
  rfl

end Cert.ReferenceIdeal.Hand

end
-- ==== Proof.ReferenceTailLink.lean ====
/-
  The reference's tail: from a valuation holding the sampled prediction masks, the sampled target masks and the classification cost at
  their stage functions, the result buffer ends at the last stage function.
-/
import proofs.«122505_j52948356825308_2_alg».proof.Proof.ReferenceSplit
import proofs.«122505_j52948356825308_2_alg».proof.Proof.ReferenceReadP

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 200000 in
set_option maxHeartbeats 2000000000 in
theorem tail_link (W : Valuation τ sig (Elt F))
    (x0 : (⟨S4x300x80, .f32⟩ : BufTy).Contents (Elt F)) (x1 : (⟨S4x300x256x256, .f32⟩ : BufTy).Contents (Elt F)) (x2 : (⟨S4x100, .i32⟩ : BufTy).Contents (Elt F))
    (x3 : (⟨S4x100x256x256, .f32⟩ : BufTy).Contents (Elt F)) (x4 : (⟨S4x12544x2, .f32⟩ : BufTy).Contents (Elt F))
    (h190 : W (Proc.devRef .tc main_v190) = Cert.ReferenceIdeal.ReadP.val_main_v190 (F := F) x1 x4)
    (h381 : W (Proc.devRef .tc main_v381) = Cert.ReferenceIdeal.ReadP.val_main_v381 (F := F) x3 x4)
    (h424 : W (Proc.devRef .tc main_v424) = Cert.ReferenceIdeal.ReadP.val_main_v424 (F := F) x0 x2) :
    after (tailOps (F := F)) W (Proc.devRef .tc main_v466) = Cert.ReferenceIdeal.ReadP.val_main_v466 (F := F) x0 x1 x2 x3 x4 := by
  after_results_simp
  rw [h190, h381, h424]
  rfl

end Cert.ReferenceIdeal.Hand

end
-- ==== Proof.ReferenceResult.lean ====
/-
  The reference's result buffer, after all of @main's operations, holds the last stage function of the five arguments' launch
  contents: the operations up to the classification cost leave the sampled prediction masks, the sampled target masks and the
  classification cost at their stage functions, and the tail forms the result from those.
-/
import proofs.«122505_j52948356825308_2_alg».proof.Proof.ReferencePre190
import proofs.«122505_j52948356825308_2_alg».proof.Proof.ReferencePre381
import proofs.«122505_j52948356825308_2_alg».proof.Proof.ReferencePre424
import proofs.«122505_j52948356825308_2_alg».proof.Proof.ReferenceTailLink

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem result_eq (V : Valuation τ sig (Elt F)) :
    after (ops (F := F)) V (Proc.devRef .tc main_v466)
      = Cert.ReferenceIdeal.ReadP.val_main_v466 (F := F) (V (Proc.devRef .tc main_arg0)) (V (Proc.devRef .tc main_arg1))
          (V (Proc.devRef .tc main_arg2)) (V (Proc.devRef .tc main_arg3)) (V (Proc.devRef .tc main_arg4)) := by
  rw [ops_split, after_append]
  exact tail_link _ _ _ _ _ _ (pre190 V) (pre381 V) (pre424 V)

end Cert.ReferenceIdeal.Hand

end
-- ==== Proof.MathSoftplus.lean ====
/-
  The softplus and sigmoid identities on the extended reals.

  Both programs compute a numerically stable softplus, each in its own spelling, and a sigmoid:
  the kernel as the exponential of minus a softplus, the reference as a quotient. This module
  names the scalar operation chains of both (over the zero word and the one word of the 32-bit
  format, as the programs print them), and shows that at a REAL argument `r`

    kernel   pos r = log (1 + e^{-r})      reference softplus (-r) = log (1 + e^{-r})
    kernel   neg r = log (1 + e^{ r})      reference softplus   r  = log (1 + e^{ r})
    kernel   sig r = (1 + e^{-r})⁻¹        reference sigmoid    r  = (1 + e^{-r})⁻¹

  The real-number content is  max s 0 + log (1 + e^{-|s|}) = log (1 + e^s)  (split on the sign
  of s and use log (e^s) = s),  log (1 + e^{-r}) + r = log (1 + e^r), and
  e^{-log (1 + e^{-r})} = (1 + e^{-r})⁻¹.
-/
import Idealize.ShloMosaic.PureOps.Ideal
import Idealize.ShloMosaic.PureOps.Ideal.Laws

noncomputable section

namespace Cert.Math

open Idealize.ShloMosaic

/-! ## The scalar chains -/

/-- The zero word of the 32-bit format, read as an extended real. -/
abbrev z32 : EReal := Ideal.ofBits .f32 0x00000000#32
/-- The one word of the 32-bit format, read as an extended real. -/
abbrev o32 : EReal := Ideal.ofBits .f32 0x3F800000#32

/-- The kernel's softplus of `-x`: with `y = 0 - x` and `d = y - 0`, the select on `d ≠ d` between
    `y + 0` and `max y 0 + log1p (exp (0 - |d|))`. -/
def kpos (x : EReal) : EReal :=
  Scalar.select (Ideal.cmp .one ((z32 - x) - z32) ((z32 - x) - z32)) ((z32 - x) + z32)
    (max (z32 - x) z32 + Ideal.log1p (Ideal.exp (z32 - max ((z32 - x) - z32) (-((z32 - x) - z32)))))

/-- The kernel's softplus of `x`: the softplus of `-x` plus `x`. -/
def kneg (x : EReal) : EReal := kpos x + x

/-- The kernel's sigmoid: the exponential of `0 -` the softplus of `-x`. -/
def ksig (x : EReal) : EReal := Ideal.exp (z32 - kpos x)

/-- The reference's softplus of `y`: with `d = y - 0`, the select on `d ≠ d` between `y + 0` and
    `max y 0 + log1p (exp (-|d|))`. -/
def rsoftplus (y : EReal) : EReal :=
  Scalar.select (Ideal.cmp .une (y - z32) (y - z32)) (y + z32)
    (max y z32 + Ideal.log1p (Ideal.exp (-(max (y - z32) (-(y - z32))))))

/-- The reference's sigmoid, spelled out: `1 / (1 + exp (-x))`. -/
def rsig (x : EReal) : EReal := Ideal.div o32 (o32 + Ideal.exp (-x))

/-! ## Real analysis -/

/-- The stable softplus is the softplus: `max s 0 + log (1 + e^{-|s|}) = log (1 + e^s)`. -/
theorem stable_softplus (s : ℝ) : max s 0 + Real.log (1 + Real.exp (-|s|)) = Real.log (1 + Real.exp s) := by
  rcases le_total 0 s with h | h
  · rw [max_eq_left h, abs_of_nonneg h]
    have hpos : (0 : ℝ) < 1 + Real.exp (-s) := by positivity
    calc s + Real.log (1 + Real.exp (-s))
        = Real.log (Real.exp s) + Real.log (1 + Real.exp (-s)) := by rw [Real.log_exp]
      _ = Real.log (Real.exp s * (1 + Real.exp (-s))) := (Real.log_mul (Real.exp_pos s).ne' hpos.ne').symm
      _ = Real.log (1 + Real.exp s) := by
          congr 1
          rw [mul_add, mul_one, ← Real.exp_add, add_neg_cancel, Real.exp_zero, add_comm]
  · rw [max_eq_right h, abs_of_nonpos h, neg_neg, zero_add]

/-- `log (1 + e^{-r}) + r = log (1 + e^r)`. -/
theorem softplus_neg_add (r : ℝ) : Real.log (1 + Real.exp (-r)) + r = Real.log (1 + Real.exp r) := by
  have hpos : (0 : ℝ) < 1 + Real.exp (-r) := by positivity
  calc Real.log (1 + Real.exp (-r)) + r
      = Real.log (1 + Real.exp (-r)) + Real.log (Real.exp r) := by rw [Real.log_exp]
    _ = Real.log ((1 + Real.exp (-r)) * Real.exp r) := (Real.log_mul hpos.ne' (Real.exp_pos r).ne').symm
    _ = Real.log (1 + Real.exp r) := by
        congr 1
        rw [add_mul, one_mul, ← Real.exp_add, neg_add_cancel, Real.exp_zero, add_comm]

/-- `e^{-log (1 + e^{-r})} = (1 + e^{-r})⁻¹`. -/
theorem exp_neg_softplus (r : ℝ) : Real.exp (-Real.log (1 + Real.exp (-r))) = (1 + Real.exp (-r))⁻¹ := by
  have hpos : (0 : ℝ) < 1 + Real.exp (-r) := by positivity
  rw [Real.exp_neg, Real.exp_log hpos]

/-! ## The corners that are never taken, and the coercions -/

/-- Nothing differs from itself: the "is a NaN" test answers no (ordered spelling). -/
theorem cmp_one_self (d : EReal) : Ideal.cmp .one d d = 0#1 := by simp [Ideal.cmp]
/-- Nothing differs from itself: the "is a NaN" test answers no (unordered spelling). -/
theorem cmp_une_self (d : EReal) : Ideal.cmp .une d d = 0#1 := by simp [Ideal.cmp]
/-- A select on the bit `0` is its second operand. -/
theorem select_zero {α : Type} (a b : α) : Scalar.select 0#1 a b = b := if_neg (by decide)

/-- The coercion commutes with the maximum. -/
theorem coe_max (a b : ℝ) : ((max a b : ℝ) : EReal) = max (a : EReal) (b : EReal) :=
  EReal.coe_strictMono.monotone.map_max

/-- The one word is one. -/
theorem o32_eq : o32 = 1 := by
  simp [o32, Ideal.ofBits, Ideal.ieee]
  rw [← EReal.coe_mul, ← EReal.coe_one]
  congr 1
  norm_num

/-- `log1p (exp s)` at a real `s` is the real `log (1 + e^s)`. -/
theorem log1p_exp_coe (s : ℝ) : Ideal.log1p (Ideal.exp (s : EReal)) = ((Real.log (1 + Real.exp s) : ℝ) : EReal) := by
  have hpos : (0 : ℝ) < 1 + Real.exp s := by positivity
  rw [Ideal.exp_coe, Ideal.log1p, ← EReal.coe_one, ← EReal.coe_add, Ideal.log_coe, if_neg (not_le.mpr hpos)]

/-! ## The chains at a real argument -/

/-- The reference's softplus at a real `s` is `log (1 + e^s)`. -/
theorem rsoftplus_coe (s : ℝ) : rsoftplus (s : EReal) = ((Real.log (1 + Real.exp s) : ℝ) : EReal) := by
  unfold rsoftplus z32
  rw [Ideal.ofBits_zero_f32, cmp_une_self, select_zero, ← EReal.coe_zero, ← EReal.coe_sub, sub_zero, ← EReal.coe_neg,
    ← coe_max, ← coe_max, ← EReal.coe_neg, log1p_exp_coe, ← EReal.coe_add, ← abs_eq_max_neg, stable_softplus]

/-- The kernel's softplus of `-r` at a real `r` is `log (1 + e^{-r})`. -/
theorem kpos_coe (r : ℝ) : kpos (r : EReal) = ((Real.log (1 + Real.exp (-r)) : ℝ) : EReal) := by
  unfold kpos z32
  rw [Ideal.ofBits_zero_f32, cmp_one_self, select_zero, ← EReal.coe_zero, ← EReal.coe_sub, zero_sub, ← EReal.coe_sub,
    sub_zero, ← EReal.coe_neg, ← coe_max, ← coe_max, ← EReal.coe_sub, zero_sub, log1p_exp_coe, ← EReal.coe_add,
    ← abs_eq_max_neg, stable_softplus]

/-- The kernel's softplus of `r` at a real `r` is `log (1 + e^r)`. -/
theorem kneg_coe (r : ℝ) : kneg (r : EReal) = ((Real.log (1 + Real.exp r) : ℝ) : EReal) := by
  rw [kneg, kpos_coe, ← EReal.coe_add, softplus_neg_add]

/-- The kernel's sigmoid at a real `r` is `(1 + e^{-r})⁻¹`. -/
theorem ksig_coe (r : ℝ) : ksig (r : EReal) = (((1 + Real.exp (-r))⁻¹ : ℝ) : EReal) := by
  rw [ksig, kpos_coe, z32, Ideal.ofBits_zero_f32, ← EReal.coe_zero, ← EReal.coe_sub, zero_sub, Ideal.exp_coe,
    exp_neg_softplus]

/-- The reference's sigmoid at a real `r` is `(1 + e^{-r})⁻¹`. -/
theorem rsig_coe (r : ℝ) : rsig (r : EReal) = (((1 + Real.exp (-r))⁻¹ : ℝ) : EReal) := by
  rw [rsig, o32_eq]
  exact Ideal.logistic_coe r

/-! ## The kernel's chains are the reference's, at a real argument -/

/-- The kernel's softplus of `-x` is the reference's softplus at `-x`. -/
theorem kpos_eq (r : ℝ) : kpos (r : EReal) = rsoftplus (-(r : EReal)) := by
  rw [kpos_coe, ← EReal.coe_neg, rsoftplus_coe]

/-- The kernel's softplus of `x` is the reference's softplus at `x`. -/
theorem kneg_eq (r : ℝ) : kneg (r : EReal) = rsoftplus (r : EReal) := by
  rw [kneg_coe, rsoftplus_coe]

/-- The kernel's sigmoid is the reference's. -/
theorem ksig_eq (r : ℝ) : ksig (r : EReal) = rsig (r : EReal) := by
  rw [ksig_coe, rsig_coe]

/-- All of them are real. -/
theorem kpos_real (r : ℝ) : ∃ s : ℝ, kpos (r : EReal) = (s : EReal) := ⟨_, kpos_coe r⟩
theorem kneg_real (r : ℝ) : ∃ s : ℝ, kneg (r : EReal) = (s : EReal) := ⟨_, kneg_coe r⟩
theorem ksig_real (r : ℝ) : ∃ s : ℝ, ksig (r : EReal) = (s : EReal) := ⟨_, ksig_coe r⟩
theorem rsoftplus_real (r : ℝ) : ∃ s : ℝ, rsoftplus (r : EReal) = (s : EReal) := ⟨_, rsoftplus_coe r⟩
theorem rsig_real (r : ℝ) : ∃ s : ℝ, rsig (r : EReal) = (s : EReal) := ⟨_, rsig_coe r⟩

end Cert.Math
-- ==== Proof.RefTail.lean ====
/-
  The reference's result at an index (b, q, j), as arithmetic on the extended reals: with x_p the sampled prediction-mask value of
  query q at point p and t_p the sampled target-mask value of target j at p,
      −( (5 · ((Σ_p softplus(−x_p)·t_p + Σ_p softplus(x_p)·(1 − t_p)) / 12544) + 2 · class(q, j))
         + 5 · (1 − (2 · Σ_p σ(x_p)·t_p + 1) / (((0 + Σ_p σ(x_p)) + (0 + Σ_p t_p)) + 1)) ).
-/
import proofs.«122505_j52948356825308_2_alg».proof.Proof.ReferenceReadP
import proofs.«122505_j52948356825308_2_alg».proof.Proof.MathSoftplus
import Idealize.ShloMosaic.PureOps.Ideal
import Idealize.ShloMosaic.PureOps.Ideal.Laws

set_option maxRecDepth 200000

noncomputable section

namespace Cert.ReferenceIdeal.Tail

open Cert.ReferenceIdeal Cert.ReferenceIdeal.ReadP Cert.Math Idealize.ShloMosaic Idealize.ShloMosaic.TcCoe

/-- Point k of query row (b, q): the index of the sampled prediction masks the result index i = (b, q, j) reads. -/
abbrev px (i : S4x300x100.Idx) (k : Fin 12544) : S4x300x12544.Idx := lidx_main_v428 i k
/-- Point k of target row (b, j): the index of the sampled target masks the result index i = (b, q, j) reads. -/
abbrev pt (i : S4x300x100.Idx) (k : Fin 12544) : S4x100x12544.Idx := ridx_main_v428 i k

theorem rowsum_x (i : S4x300x100.Idx) (k : Fin 12544) : idx_main_v444 (idx_main_v445 (idx_main_v448 i)) k = px i k :=
  funext fun a => by match a with | ⟨0, _⟩ => rfl | ⟨1, _⟩ => rfl | ⟨2, _⟩ => rfl
theorem colsum_t (i : S4x300x100.Idx) (k : Fin 12544) : idx_main_v446 (idx_main_v447 (idx_main_v449 i)) k = pt i k :=
  funext fun a => by match a with | ⟨0, _⟩ => rfl | ⟨1, _⟩ => rfl | ⟨2, _⟩ => rfl

abbrev f5 : EReal := Ideal.ofBits .f32 0x40A00000#32
abbrev f2 : EReal := Ideal.ofBits .f32 0x40000000#32
abbrev fP : EReal := Ideal.ofBits .f32 0x46440000#32

/-- The reference's negated cost at result index `i = (b, q, j)` from the sampled prediction masks `X`, the sampled target masks
    `T` and the classification cost `CC`. -/
def refCostAt (X : S4x300x12544.Idx → EReal) (T : S4x100x12544.Idx → EReal) (CC : S4x300x100.Idx → EReal) (i : S4x300x100.Idx) : EReal :=
  -((f5 * Ideal.div ((∑ k, rsoftplus (-(X (px i k))) * T (pt i k)) + ∑ k, rsoftplus (X (px i k)) * (o32 - T (pt i k))) fP + f2 * CC i)
    + f5 * (o32 - Ideal.div (f2 * (∑ k, rsig (X (px i k)) * T (pt i k)) + o32) (((z32 + ∑ k, rsig (X (px i k))) + (z32 + ∑ k, T (pt i k))) + o32)))

set_option maxHeartbeats 40000000 in
theorem tail_apply (x0 : (⟨S4x300x80, .f32⟩ : BufTy).Contents (Elt Ideal)) (x1 : (⟨S4x300x256x256, .f32⟩ : BufTy).Contents (Elt Ideal)) (x2 : (⟨S4x100, .i32⟩ : BufTy).Contents (Elt Ideal)) (x3 : (⟨S4x100x256x256, .f32⟩ : BufTy).Contents (Elt Ideal)) (x4 : (⟨S4x12544x2, .f32⟩ : BufTy).Contents (Elt Ideal)) (i : S4x300x100.Idx) :
    val_main_v466 (F := Ideal) x0 x1 x2 x3 x4 i
      = refCostAt (val_main_v190 (F := Ideal) x1 x4) (val_main_v381 (F := Ideal) x3 x4) (val_main_v424 (F := Ideal) x0 x2) i := by
  simp only [val_main_v425_apply, val_main_call16_cst_apply, val_main_call16_v0_apply, val_main_call16_v1_apply, val_main_call16_v2_apply, val_main_call16_v3_apply, val_main_call16_v4_apply, val_main_call16_v5_apply, val_main_call16_v6_apply, val_main_call16_v7_apply, val_main_call16_v8_apply, val_main_call16_v9_apply, val_main_call16_v10_apply, val_main_call16_v11_apply, val_main_v426_apply, val_main_call17_cst_apply, val_main_call17_v0_apply, val_main_call17_v1_apply, val_main_call17_v2_apply, val_main_call17_v3_apply, val_main_call17_v4_apply, val_main_call17_v5_apply, val_main_call17_v6_apply, val_main_call17_v7_apply, val_main_call17_v8_apply, val_main_call17_v9_apply, val_main_call17_v10_apply, val_main_call17_v11_apply, val_main_v427_apply, val_main_v428_apply, val_main_cst_132_apply, val_main_v429_apply, val_main_v430_apply, val_main_v431_apply, val_main_v432_apply, val_main_cst_133_apply, val_main_v433_apply, val_main_v434_apply, val_main_v435_apply, val_main_v436_apply, val_main_cst_134_apply, val_main_v437_apply, val_main_v438_apply, val_main_cst_135_apply, val_main_v439_apply, val_main_v440_apply, val_main_v441_apply, val_main_cst_136_apply, val_main_v442_apply, val_main_v443_apply, val_main_cst_137_apply, val_main_v444_apply, val_main_v445_apply, val_main_cst_138_apply, val_main_v446_apply, val_main_v447_apply, val_main_v448_apply, val_main_v449_apply, val_main_v450_apply, val_main_cst_139_apply, val_main_v451_apply, val_main_v452_apply, val_main_cst_140_apply, val_main_v453_apply, val_main_v454_apply, val_main_v455_apply, val_main_cst_141_apply, val_main_v456_apply, val_main_v457_apply, val_main_cst_142_apply, val_main_v458_apply, val_main_v459_apply, val_main_cst_143_apply, val_main_v460_apply, val_main_v461_apply, val_main_v462_apply, val_main_cst_144_apply, val_main_v463_apply, val_main_v464_apply, val_main_v465_apply, val_main_v466_apply, rowsum_x, colsum_t]
  rfl

end Cert.ReferenceIdeal.Tail

end
-- ==== Proof.KernelIdeal.ValSpec.lean ====
/-
  The mathematics of the fused cost region, over the extended reals: one block's contribution to each of the five sums (the
  element functions are the softplus and sigmoid chains of `MathSoftplus`), the cost of a (query, target) pair from the completed
  sums, and the region's result as one function of the three arrays it reads, index by index.
-/
import proofs.«122505_j52948356825308_2_alg».proof.Proof.MathSoftplus
import Idealize.ShloMosaic.PureOps.Ideal.Laws
import Idealize.ShloMosaic.Lib.ValueIdx

noncomputable section

open scoped BigOperators

namespace Cert.KernelIdeal.Val

open Idealize.ShloMosaic Idealize.ShloMosaic.ValueIdx
open Cert.Math (kneg ksig)

/-- The extended real a 32-bit float word denotes. -/
abbrev lit (w : BitVec 32) : EReal := Ideal.ofBits .f32 w

/-! ## One block of 1792 sampled points: its contribution to each sum

`xb q k` is query row `q`'s prediction at the block's point `k`, `tb u k` target column `u`'s value there. The products are formed
on a high part and a low part of each factor; over the extended reals the high part is the factor and the low part is the factor
minus itself, kept as written. -/

/-- Σ prediction · target, split. -/
def cOT (xb : Fin 300 → Fin 1792 → EReal) (tb : Fin 128 → Fin 1792 → EReal) (q : Fin 300) (u : Fin 128) : EReal :=
  (∑ k : Fin 1792, xb q k * tb u k + ∑ k : Fin 1792, xb q k * (tb u k - tb u k)) + ∑ k : Fin 1792, (xb q k - xb q k) * tb u k

/-- Σ sigmoid(prediction) · target, split. -/
def cSig (xb : Fin 300 → Fin 1792 → EReal) (tb : Fin 128 → Fin 1792 → EReal) (q : Fin 300) (u : Fin 128) : EReal :=
  (∑ k : Fin 1792, ksig (xb q k) * tb u k + ∑ k : Fin 1792, ksig (xb q k) * (tb u k - tb u k))
    + ∑ k : Fin 1792, (ksig (xb q k) - ksig (xb q k)) * tb u k

/-- Σ softplus(prediction), by rows. -/
def cNeg (xb : Fin 300 → Fin 1792 → EReal) (q : Fin 300) : EReal := ∑ k : Fin 1792, kneg (xb q k)

/-- Σ sigmoid(prediction), by rows. -/
def cRS (xb : Fin 300 → Fin 1792 → EReal) (q : Fin 300) : EReal := ∑ k : Fin 1792, ksig (xb q k)

/-- Σ target, by columns: a product with a row of ones of the 16-bit format. -/
def cCS (tb : Fin 128 → Fin 1792 → EReal) (u : Fin 128) : EReal := ∑ k : Fin 1792, Ideal.ofBits .bf16 0x3F80#16 * tb u k

/-- The negated cost of a (query, target) pair from the five completed sums and the class cost:
    0 - ((5 * ((sneg - sxt) / 12544) + 5 * (1 - (2 * sst + 1) / ((srs + scs) + 1))) + 2 * cls). -/
def cost (sneg sxt srs scs sst cls : EReal) : EReal :=
  lit 0x00000000#32
    - ((lit 0x40A00000#32 * Ideal.div (sneg - sxt) (lit 0x46440000#32)
        + lit 0x40A00000#32 * (lit 0x3F800000#32 - Ideal.div (lit 0x40000000#32 * sst + lit 0x3F800000#32) ((srs + scs) + lit 0x3F800000#32)))
      + lit 0x40000000#32 * cls)

/-- Point `k` of block `j` among the 12544 sampled points: `1792 * j + k`. -/
def pt (j : Fin 7) (k : Fin 1792) : Fin 12544 := ⟨1792 * j.val + k.val, by have := j.isLt; have := k.isLt; omega⟩

/-- Batch `b`'s block `j` of the sampled predictions and of the sampled (padded) targets. -/
def blkX (X : (⟨3, ![4, 300, 12544]⟩ : Shape).Idx → EReal) (b : Fin 4) (j : Fin 7) : Fin 300 → Fin 1792 → EReal :=
  fun q k => X (ix3 b q (pt j k))
def blkT (T : (⟨3, ![4, 128, 12544]⟩ : Shape).Idx → EReal) (b : Fin 4) (j : Fin 7) : Fin 128 → Fin 1792 → EReal :=
  fun u k => T (ix3 b u (pt j k))

/-- The region's result at batch `b`, query `q`, (padded) target `u`: the cost of the five sums over the batch's seven blocks and
    the class cost there. -/
def regionOutAt (X : (⟨3, ![4, 300, 12544]⟩ : Shape).Idx → EReal) (T : (⟨3, ![4, 128, 12544]⟩ : Shape).Idx → EReal)
    (C : (⟨3, ![4, 300, 128]⟩ : Shape).Idx → EReal) (b : Fin 4) (q : Fin 300) (u : Fin 128) : EReal :=
  cost (∑ j : Fin 7, cNeg (blkX X b j) q)
    (∑ j : Fin 7, cOT (blkX X b j) (blkT T b j) q u)
    (∑ j : Fin 7, cRS (blkX X b j) q)
    (∑ j : Fin 7, cCS (blkT T b j) u)
    (∑ j : Fin 7, cSig (blkX X b j) (blkT T b j) q u)
    (C (ix3 b q u))

/-- The same as one function of the index. -/
def regionOut (X : (⟨3, ![4, 300, 12544]⟩ : Shape).Idx → EReal) (T : (⟨3, ![4, 128, 12544]⟩ : Shape).Idx → EReal)
    (C : (⟨3, ![4, 300, 128]⟩ : Shape).Idx → EReal) : (⟨3, ![4, 300, 128]⟩ : Shape).Idx → EReal :=
  fun i => regionOutAt X T C ⟨(i 0).val, (i 0).isLt⟩ ⟨(i 1).val, (i 1).isLt⟩ ⟨(i 2).val, (i 2).isLt⟩

theorem regionOut_ix3 (X : (⟨3, ![4, 300, 12544]⟩ : Shape).Idx → EReal) (T : (⟨3, ![4, 128, 12544]⟩ : Shape).Idx → EReal)
    (C : (⟨3, ![4, 300, 128]⟩ : Shape).Idx → EReal) (b : Fin 4) (q : Fin 300) (u : Fin 128) :
    regionOut X T C (ix3 b q u) = regionOutAt X T C b q u := rfl

end Cert.KernelIdeal.Val

end
-- ==== Proof.MathSums.lean ====
/-
  The algebra of finite sums that joins the two arrangements of the cost.

  Everything is first proved in ℝ over an abstract finite index type and then carried to the
  extended reals through the coercion, which commutes with finite sums and products of reals
  (the extended reals' product does not distribute over sums in general; the reals' does).

  * the binary cross-entropy rearrangement: with `P - N = -x` pointwise (softplus (-x) and
    softplus x),  ∑ P t + ∑ N (1 - t) = ∑ N - ∑ x t;
  * the split of a product into a high and a low part whose low parts vanish:
    ∑ x t + ∑ x (t - t) + ∑ (x - x) t = ∑ x t;
  * a sum over `m` consecutive blocks of `n` indices is the sum over all `m * n` indices.
-/
import Mathlib.Data.EReal.Inv
import Mathlib.Algebra.BigOperators.Fin
import Mathlib.Algebra.BigOperators.Ring.Finset
import Mathlib.Tactic.LinearCombination
import Mathlib.Tactic.Ring

namespace Cert.Math

open scoped BigOperators

/-! ## The coercion and finite sums -/

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of coerced reals is the coercion of the real sum of products. -/
theorem sum_coe_mul_coe {ι : Type*} (s : Finset ι) (f g : ι → ℝ) :
    ∑ i ∈ s, (f i : EReal) * (g i : EReal) = ((∑ i ∈ s, f i * g i : ℝ) : EReal) := by
  rw [coe_sum]
  exact Finset.sum_congr rfl fun i _ => (EReal.coe_mul (f i) (g i)).symm

/-! ## The cross-entropy rearrangement -/

section Bce
variable {ι : Type*} [Fintype ι]

/-- In ℝ: with `P - N = -x` pointwise, `∑ P t + ∑ N (1 - t) = ∑ N - ∑ x t`. -/
theorem bce_real (x t P N : ι → ℝ) (h : ∀ i, P i - N i = -x i) :
    (∑ i, P i * t i) + ∑ i, N i * (1 - t i) = (∑ i, N i) - ∑ i, x i * t i := by
  rw [← Finset.sum_add_distrib, ← Finset.sum_sub_distrib]
  refine Finset.sum_congr rfl fun i _ => ?_
  linear_combination (t i) * h i

/-- The same on the extended reals, every family the coercion of a real one. -/
theorem bce_ereal (x t P N : ι → ℝ) (h : ∀ i, P i - N i = -x i) :
    (∑ i, (P i : EReal) * (t i : EReal)) + ∑ i, (N i : EReal) * ((1 : EReal) - (t i : EReal))
      = (∑ i, (N i : EReal)) - ∑ i, (x i : EReal) * (t i : EReal) := by
  have h1 : ∀ i, (N i : EReal) * ((1 : EReal) - (t i : EReal)) = (N i : EReal) * ((1 - t i : ℝ) : EReal) := fun i => by
    rw [EReal.coe_sub, EReal.coe_one]
  simp only [h1]
  rw [sum_coe_mul_coe, sum_coe_mul_coe, sum_coe_mul_coe, ← coe_sum, ← EReal.coe_add, ← EReal.coe_sub, bce_real x t P N h]

end Bce

/-! ## The high/low split whose low parts vanish -/

section Split
variable {ι : Type*} [Fintype ι]

/-- In ℝ: `∑ x t + ∑ x (t - t) + ∑ (x - x) t = ∑ x t`. -/
theorem split_real (x t : ι → ℝ) :
    (∑ i, x i * t i) + (∑ i, x i * (t i - t i)) + (∑ i, (x i - x i) * t i) = ∑ i, x i * t i := by
  simp

/-- A real minus itself is zero on the extended reals too (an infinity minus itself is not). -/
theorem coe_sub_self (r : ℝ) : (r : EReal) - (r : EReal) = 0 := by
  rw [← EReal.coe_sub, sub_self, EReal.coe_zero]

/-- The same on the extended reals, every family the coercion of a real one. -/
theorem split_ereal (x t : ι → ℝ) :
    (∑ i, (x i : EReal) * (t i : EReal)) + (∑ i, (x i : EReal) * ((t i : EReal) - (t i : EReal)))
      + (∑ i, ((x i : EReal) - (x i : EReal)) * (t i : EReal)) = ∑ i, (x i : EReal) * (t i : EReal) := by
  simp only [coe_sub_self, mul_zero, zero_mul, Finset.sum_const_zero, add_zero]

end Split

/-! ## Consecutive blocks -/

/-- The sum over `m` consecutive blocks of `n` indices is the sum over all `m * n` indices. -/
theorem sum_blocks {M : Type*} [AddCommMonoid M] (m n : ℕ) (f : ℕ → M) :
    ∑ j : Fin m, ∑ k : Fin n, f (n * j + k) = ∑ p : Fin (m * n), f p := by
  rw [← Equiv.sum_comp finProdFinEquiv (fun p : Fin (m * n) => f p), Fintype.sum_prod_type]
  refine Finset.sum_congr rfl fun j _ => Finset.sum_congr rfl fun k _ => ?_
  rw [finProdFinEquiv_apply_val, add_comm]

/-- Seven blocks of 1792 sampled points are the 12544 sampled points. -/
theorem sum_blocks_7_1792 {M : Type*} [AddCommMonoid M] (f : ℕ → M) :
    ∑ j : Fin 7, ∑ k : Fin 1792, f (1792 * j + k) = ∑ p : Fin 12544, f p :=
  sum_blocks 7 1792 f

end Cert.Math
-- ==== Proof.MathCost.lean ====
/-
  The softplus / sigmoid identities and the sum algebra, joined: the statements the two
  arrangements of the mask cost meet in, over families of extended reals that are known to be real.

  With `X` the sampled prediction values and `T` the sampled target values along the contracted axis:

  * cross-entropy:  ∑ softplus (-X) · T + ∑ softplus X · (1 - T)  =  ∑ (softplus (-X) + X) - ∑ X · T,
    the left side in the reference's spelling, the right side in the kernel's;
  * the kernel's high/low split of a product (the low parts, a value minus itself, vanish) for the
    products X · T and sigmoid X · T;
  * the kernel's sigmoid is the reference's under a sum.
-/
import proofs.«122505_j52948356825308_2_alg».proof.Proof.MathSoftplus
import proofs.«122505_j52948356825308_2_alg».proof.Proof.MathSums

namespace Cert.Math

open Idealize.ShloMosaic
open scoped BigOperators

variable {ι : Type*} [Fintype ι]

/-! ## Over real families -/

/-- The cross-entropy rearrangement between the reference's spelling and the kernel's. -/
theorem bce_chains (x t : ι → ℝ) :
    (∑ i, rsoftplus (-(x i : EReal)) * (t i : EReal)) + ∑ i, rsoftplus (x i : EReal) * (o32 - (t i : EReal))
      = (∑ i, kneg (x i : EReal)) - ∑ i, (x i : EReal) * (t i : EReal) := by
  have hP : ∀ i, rsoftplus (-(x i : EReal)) = ((Real.log (1 + Real.exp (-x i)) : ℝ) : EReal) := fun i => by
    rw [← EReal.coe_neg, rsoftplus_coe]
  simp only [hP, rsoftplus_coe, kneg_coe, o32_eq]
  exact bce_ereal x t (fun i => Real.log (1 + Real.exp (-x i))) (fun i => Real.log (1 + Real.exp (x i)))
    (fun i => by have := softplus_neg_add (x i); linarith)

/-- The kernel's sigmoid sum is the reference's. -/
theorem sum_ksig (x : ι → ℝ) : ∑ i, ksig (x i : EReal) = ∑ i, rsig (x i : EReal) :=
  Finset.sum_congr rfl fun i _ => ksig_eq (x i)

/-- The kernel's sigmoid-times-target sum, with its high/low split, is the reference's. -/
theorem split_ksig (x t : ι → ℝ) :
    (∑ i, ksig (x i : EReal) * (t i : EReal)) + (∑ i, ksig (x i : EReal) * ((t i : EReal) - (t i : EReal)))
      + (∑ i, (ksig (x i : EReal) - ksig (x i : EReal)) * (t i : EReal)) = ∑ i, rsig (x i : EReal) * (t i : EReal) := by
  simp only [ksig_coe, rsig_coe]
  exact split_ereal (fun i => (1 + Real.exp (-x i))⁻¹) t

/-! ## Over families of extended reals that are real -/

/-- The cross-entropy rearrangement, for prediction and target values known to be real. -/
theorem bce_of_real (X T : ι → EReal) (hX : ∀ i, ∃ r : ℝ, X i = (r : EReal)) (hT : ∀ i, ∃ r : ℝ, T i = (r : EReal)) :
    (∑ i, rsoftplus (-(X i)) * T i) + ∑ i, rsoftplus (X i) * (o32 - T i) = (∑ i, kneg (X i)) - ∑ i, X i * T i := by
  choose x hx using hX
  choose t ht using hT
  simp only [hx, ht]
  exact bce_chains x t

/-- The split product sum of real values is the product sum. -/
theorem split_of_real (X T : ι → EReal) (hX : ∀ i, ∃ r : ℝ, X i = (r : EReal)) (hT : ∀ i, ∃ r : ℝ, T i = (r : EReal)) :
    (∑ i, X i * T i) + (∑ i, X i * (T i - T i)) + (∑ i, (X i - X i) * T i) = ∑ i, X i * T i := by
  choose x hx using hX
  choose t ht using hT
  simp only [hx, ht]
  exact split_ereal x t

/-- The kernel's sigmoid sum is the reference's, for prediction values known to be real. -/
theorem sum_ksig_of_real (X : ι → EReal) (hX : ∀ i, ∃ r : ℝ, X i = (r : EReal)) : ∑ i, ksig (X i) = ∑ i, rsig (X i) := by
  choose x hx using hX
  simp only [hx]
  exact sum_ksig x

/-- The kernel's split sigmoid-times-target sum is the reference's, for values known to be real. -/
theorem split_ksig_of_real (X T : ι → EReal) (hX : ∀ i, ∃ r : ℝ, X i = (r : EReal)) (hT : ∀ i, ∃ r : ℝ, T i = (r : EReal)) :
    (∑ i, ksig (X i) * T i) + (∑ i, ksig (X i) * (T i - T i)) + (∑ i, (ksig (X i) - ksig (X i)) * T i)
      = ∑ i, rsig (X i) * T i := by
  choose x hx using hX
  choose t ht using hT
  simp only [hx, ht]
  exact split_ksig x t

end Cert.Math
-- ==== Proof.Core.lean ====
/-
  THE JOIN. At a result index (b, q, u) with u < 100, the reference's cost formula over the sampled arrays X (predictions), T (targets,
  100 rows) and the classification cost CC equals the region's cost over X, the targets padded to 128 rows and the classification cost
  padded to 128 columns — provided every sampled value is a real number. The seven blocks of 1792 points are the 12544 points; on
  reals the high/low split's correction products vanish, softplus(−x)·t + softplus(x)·(1 − t) sums to Σ softplus(x) − Σ x·t, and
  exp(−softplus(−x)) is the sigmoid; what is left is the order of three summands.
-/
import proofs.«122505_j52948356825308_2_alg».proof.Proof.RefTail
import proofs.«122505_j52948356825308_2_alg».proof.Proof.KernelIdeal.ValSpec
import proofs.«122505_j52948356825308_2_alg».proof.Proof.MathCost
import proofs.«122505_j52948356825308_2_alg».proof.Proof.MathSums

noncomputable section

open scoped BigOperators

namespace Cert.Join

open Idealize.ShloMosaic Idealize.ShloMosaic.ValueIdx
open Cert.Math Cert.KernelIdeal.Val Cert.ReferenceIdeal.Tail

theorem px_ix3 (b : Fin 4) (q : Fin 300) (u : Fin 100) (k : Fin 12544) : px (ix3 b q u) k = ix3 b q k :=
  funext fun a => by match a with | ⟨0, _⟩ => rfl | ⟨1, _⟩ => rfl | ⟨2, _⟩ => rfl
theorem pt_ix3 (b : Fin 4) (q : Fin 300) (u : Fin 100) (k : Fin 12544) : Cert.ReferenceIdeal.Tail.pt (ix3 b q u) k = ix3 b u k :=
  funext fun a => by match a with | ⟨0, _⟩ => rfl | ⟨1, _⟩ => rfl | ⟨2, _⟩ => rfl

/-- Seven blocks of 1792 points are the 12544 points. -/
theorem sum_pt {M : Type} [AddCommMonoid M] (g : Fin 12544 → M) :
    ∑ j : Fin 7, ∑ k : Fin 1792, g (Cert.KernelIdeal.Val.pt j k) = ∑ p : Fin 12544, g p := by
  have h1 : ∀ (j : Fin 7) (k : Fin 1792), (if h : 1792 * j.val + k.val < 12544 then g ⟨1792 * j.val + k.val, h⟩ else 0) = g (Cert.KernelIdeal.Val.pt j k) := fun j k => by
    have hlt : 1792 * j.val + k.val < 12544 := by omega
    rw [dif_pos hlt]; rfl
  have h2 : ∀ p : Fin 12544, (if h : p.val < 12544 then g ⟨p.val, h⟩ else 0) = g p := fun p => by rw [dif_pos p.isLt]
  have h := sum_blocks_7_1792 (fun n => if h : n < 12544 then g ⟨n, h⟩ else 0)
  simp only [h1, h2] at h
  exact h

theorem core
    (X : (⟨3, ![4, 300, 12544]⟩ : Shape).Idx → EReal) (T : (⟨3, ![4, 100, 12544]⟩ : Shape).Idx → EReal)
    (CC : (⟨3, ![4, 300, 100]⟩ : Shape).Idx → EReal)
    (Tp : (⟨3, ![4, 128, 12544]⟩ : Shape).Idx → EReal) (Cp : (⟨3, ![4, 300, 128]⟩ : Shape).Idx → EReal)
    (hX : ∀ i, ∃ r : ℝ, X i = (r : EReal)) (hT : ∀ i, ∃ r : ℝ, T i = (r : EReal))
    (hTp : ∀ (b : Fin 4) (u : Fin 100) (p : Fin 12544), Tp (ix3 b (⟨u.val, by omega⟩ : Fin 128) p) = T (ix3 b u p))
    (hCp : ∀ (b : Fin 4) (q : Fin 300) (u : Fin 100), Cp (ix3 b q (⟨u.val, by omega⟩ : Fin 128)) = CC (ix3 b q u))
    (b : Fin 4) (q : Fin 300) (u : Fin 100) :
    refCostAt X T CC (ix3 b q u) = regionOutAt X Tp Cp b q (⟨u.val, by omega⟩ : Fin 128) := by
  have hxr : ∀ p : Fin 12544, ∃ r : ℝ, X (ix3 b q p) = (r : EReal) := fun p => hX _
  have htr : ∀ p : Fin 12544, ∃ r : ℝ, T (ix3 b u p) = (r : EReal) := fun p => hT _
  have eNeg : ∑ j : Fin 7, cNeg (blkX X b j) q = ∑ p : Fin 12544, kneg (X (ix3 b q p)) := by
    unfold cNeg blkX; exact sum_pt (fun p => kneg (X (ix3 b q p)))
  have eRS : ∑ j : Fin 7, cRS (blkX X b j) q = ∑ p : Fin 12544, ksig (X (ix3 b q p)) := by
    unfold cRS blkX; exact sum_pt (fun p => ksig (X (ix3 b q p)))
  have one16 : (Ideal.ofBits .bf16 0x3F80#16 : EReal) = 1 := by
    simp [Ideal.ofBits, Ideal.ieee]
    first
      | (rw [← EReal.coe_mul]; norm_num)
      | (norm_cast; norm_num)
      | (rw [show ((128 : ℝ) : EReal) * (((2 ^ 7 : ℝ)⁻¹ : ℝ) : EReal) = (((128 : ℝ) * (2 ^ 7 : ℝ)⁻¹ : ℝ) : EReal) from (EReal.coe_mul _ _).symm]; norm_num)
  have eCS : ∑ j : Fin 7, cCS (blkT Tp b j) (⟨u.val, by omega⟩ : Fin 128) = ∑ p : Fin 12544, T (ix3 b u p) := by
    unfold cCS blkT; simp only [hTp, one16, one_mul]; exact sum_pt (fun p => T (ix3 b u p))
  have eOT : ∑ j : Fin 7, cOT (blkX X b j) (blkT Tp b j) q (⟨u.val, by omega⟩ : Fin 128) = ∑ p : Fin 12544, X (ix3 b q p) * T (ix3 b u p) := by
    unfold cOT blkX blkT; simp only [hTp]
    rw [Finset.sum_add_distrib, Finset.sum_add_distrib,
      sum_pt (fun p => X (ix3 b q p) * T (ix3 b u p)),
      sum_pt (fun p => X (ix3 b q p) * (T (ix3 b u p) - T (ix3 b u p))),
      sum_pt (fun p => (X (ix3 b q p) - X (ix3 b q p)) * T (ix3 b u p))]
    exact split_of_real (fun p => X (ix3 b q p)) (fun p => T (ix3 b u p)) hxr htr
  have eSG : ∑ j : Fin 7, cSig (blkX X b j) (blkT Tp b j) q (⟨u.val, by omega⟩ : Fin 128) = ∑ p : Fin 12544, rsig (X (ix3 b q p)) * T (ix3 b u p) := by
    unfold cSig blkX blkT; simp only [hTp]
    rw [Finset.sum_add_distrib, Finset.sum_add_distrib,
      sum_pt (fun p => ksig (X (ix3 b q p)) * T (ix3 b u p)),
      sum_pt (fun p => ksig (X (ix3 b q p)) * (T (ix3 b u p) - T (ix3 b u p))),
      sum_pt (fun p => (ksig (X (ix3 b q p)) - ksig (X (ix3 b q p))) * T (ix3 b u p))]
    exact split_ksig_of_real (fun p => X (ix3 b q p)) (fun p => T (ix3 b u p)) hxr htr
  have eBce := bce_of_real (fun p : Fin 12544 => X (ix3 b q p)) (fun p => T (ix3 b u p)) hxr htr
  have eSig := sum_ksig_of_real (fun p : Fin 12544 => X (ix3 b q p)) hxr
  unfold refCostAt regionOutAt cost
  simp only [px_ix3, pt_ix3]
  rw [eNeg, eOT, eRS, eCS, eSG, hCp, eBce, ← eSig]
  simp only [lit, z32, o32, f5, f2, fP, Ideal.ofBits_zero_f32, zero_add]
  rw [sub_eq_add_neg (0 : EReal), zero_add, add_right_comm]

end Cert.Join

end
-- ==== Proof.LibPad.lean ====
/-
  `stablehlo.pad` read at an index: a result index that lands on operand entry `k` (on every axis its coordinate is
  `lo + k · (interior + 1)`) reads the operand there; an index that misses the operand on some axis reads the padding value.
-/
import Idealize.ShloMosaic.PureOps.ShapeOps

namespace Idealize.ShloMosaic.LibPad

open Idealize.ShloMosaic

variable {s t u : Shape} {α : Type}

/-- The padded array at an index that lands on the operand's entry `k` is the operand at `k`. -/
theorem pad_apply_of_mem (lo hi interior : Fin s.rank → Nat) (x : s.Idx → α) (v : u.Idx → α)
    (h : s.Pads lo hi interior t) (hu : 0 < u.numel) (j : t.Idx) (k : s.Idx)
    (hk : ∀ a : Fin s.rank, (j (a.cast h.1)).val = lo a + (k a).val * (interior a + 1)) :
    pad t lo hi interior x v h hu j = x k := by
  have hin : ∀ a : Fin s.rank, lo a ≤ (j (a.cast h.1)).val ∧ ((j (a.cast h.1)).val - lo a) % (interior a + 1) = 0
      ∧ ((j (a.cast h.1)).val - lo a) / (interior a + 1) < s.size a := fun a => by
    rw [hk a]
    refine ⟨Nat.le_add_right _ _, ?_, ?_⟩
    · rw [Nat.add_sub_cancel_left]; exact Nat.mul_mod_left _ _
    · rw [Nat.add_sub_cancel_left, Nat.mul_div_cancel _ (Nat.succ_pos _)]; exact (k a).isLt
  unfold pad
  rw [dif_pos hin]
  exact congrArg x (funext fun a => Fin.ext (by
    show ((j (a.cast h.1)).val - lo a) / (interior a + 1) = (k a).val
    rw [hk a, Nat.add_sub_cancel_left, Nat.mul_div_cancel _ (Nat.succ_pos _)]))

/-- The padded array at an index beyond the operand on some axis (no interior padding there is needed: it is enough that the
    coordinate, less the low padding, divided by the stride, is not below the operand's extent) is the padding value. -/
theorem pad_apply_of_not_mem (lo hi interior : Fin s.rank → Nat) (x : s.Idx → α) (v : u.Idx → α)
    (h : s.Pads lo hi interior t) (hu : 0 < u.numel) (j : t.Idx) (a : Fin s.rank)
    (ha : s.size a ≤ ((j (a.cast h.1)).val - lo a) / (interior a + 1)) :
    pad t lo hi interior x v h hu j = v (Shape.Idx.first hu) := by
  unfold pad
  rw [dif_neg]
  intro hin
  exact absurd (hin a).2.2 (Nat.not_lt.mpr ha)

end Idealize.ShloMosaic.LibPad
-- ==== Proof.KernelIdeal.ClassCost.lean ====
/-
  The kernel's class-cost operand is the reference's classification cost, its target axis padded from 100 to 128 with zeros: the two
  programs form it by the same operations of the logits and the labels (sigmoid, the two focal terms, the gathers at the labels, their
  difference).
-/
import proofs.«122505_j52948356825308_2_alg».proof.Proof.KernelIdeal.Frame
import proofs.«122505_j52948356825308_2_alg».proof.Proof.ReferenceReadP
import Idealize.ShloMosaic.PureOps.Ideal
import Idealize.ShloMosaic.PureOps.Ideal.Laws

set_option maxRecDepth 200000

noncomputable section

namespace Cert.KernelIdeal.Bridge

open Cert.KernelIdeal Cert.KernelIdeal.Gen Cert.KernelIdeal.Hand
open Idealize.ShloMosaic Idealize.ShloMosaic.TcCoe Idealize.SL.Sem Idealize.ShloMosaic.StableHlo

variable (m : (ℓ : Loc nD τ sig) → Buf (Elt Ideal) ℓ)

/-- The target axis padded from 100 to 128 with zeros (the integer 0 converted). -/
def padCost (X : FVec Ideal S4x300x100 .f32) : FVec Ideal S4x300x128 .f32 :=
  pad S4x300x128 ![0, 0, 0] ![0, 0, 28] ![0, 0, 0] X (sitofp .f32 (constantI S_ 32 0#32)) pads_S4x300x100_S4x300x128_000_000_0280 h_S_

set_option maxHeartbeats 400000000 in
theorem V_classCost (c : Dev nD) :
    V (F := Ideal) m c main_v202
      = padCost (Cert.ReferenceIdeal.ReadP.val_main_v424 (F := Ideal) (m ((c : Thread nD τ).loc main_arg0)) (m ((c : Thread nD τ).loc main_arg2))) := by
  dsimp only [V, V0]
  simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results_simp
  rfl

end Cert.KernelIdeal.Bridge

end
-- ==== Proof.KernelIdeal.PadTgt.lean ====
/-
  The kernel's target operand is its sampled target masks with the target axis padded from 100 to 128 with zero rows.
-/
import proofs.«122505_j52948356825308_2_alg».proof.Proof.KernelIdeal.Frame
import Idealize.ShloMosaic.PureOps.Ideal
import Idealize.ShloMosaic.PureOps.Ideal.Laws

set_option maxRecDepth 200000

noncomputable section

namespace Cert.KernelIdeal.Bridge

open Cert.KernelIdeal Cert.KernelIdeal.Gen Cert.KernelIdeal.Hand
open Idealize.ShloMosaic Idealize.ShloMosaic.TcCoe Idealize.SL.Sem Idealize.ShloMosaic.StableHlo

variable (m : (ℓ : Loc nD τ sig) → Buf (Elt Ideal) ℓ)

/-- The target axis padded from 100 to 128 with zero rows (the integer 0 converted). -/
def padTgt (X : FVec Ideal S4x100x12544 .f32) : FVec Ideal S4x128x12544 .f32 :=
  pad S4x128x12544 ![0, 0, 0] ![0, 28, 0] ![0, 0, 0] X (sitofp .f32 (constantI S_ 32 0#32)) pads_S4x100x12544_S4x128x12544_000_0280_000 h_S_

set_option maxHeartbeats 400000000 in
theorem V_padTgt (c : Dev nD) :
    V (F := Ideal) m c main_v158 = padTgt (V (F := Ideal) m c main_v157) := by
  dsimp only [V, V0]
  simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results_simp
  rfl

end Cert.KernelIdeal.Bridge

end
-- ==== Proof.MathFinite.lean ====
/-
  Finiteness from the precondition.

  The precondition is the conjunction, over the four float arguments, of "every entry's absolute
  value is below +∞". Read at the exact-real instance, an extended real whose absolute value is below
  +∞ is neither +∞ nor -∞: it is a real number. So under the precondition every entry of every float
  argument is (the coercion of) a real.
-/
import proofs.«122505_j52948356825308_2_alg».proof.Pre_finite_inputs
import Idealize.ShloMosaic.PureOps.Ideal
import Idealize.ShloMosaic.PureOps.Ideal.Laws
import Idealize.ShloMosaic.Lib.ReduceAll
import Idealize.ShloMosaic.Lib.ValueIdx

namespace Cert.Math

open Idealize.ShloMosaic Cert.Pre_finite_inputs

/-- The scalar shape has one index. -/
instance subsingleton_scalar_idx : Subsingleton S_.Idx := ⟨fun a b => funext fun d => d.elim0⟩

/-- The infinity word is +∞. -/
theorem inf32_eq : Ideal.ofBits .f32 0x7F800000#32 = ⊤ := by simp [Ideal.ofBits, Ideal.ieee]

/-- An extended real whose absolute value is below +∞ is a real. -/
theorem real_of_abs_lt_inf (x : EReal)
    (h : Ideal.cmp .olt (max x (-x)) (Ideal.ofBits .f32 0x7F800000#32) = 1#1) : ∃ r : ℝ, x = (r : EReal) := by
  rw [inf32_eq] at h
  induction x using EReal.rec with
  | bot => simp [Ideal.cmp] at h
  | coe r => exact ⟨r, rfl⟩
  | top => simp [Ideal.cmp] at h

/-- Under the precondition every entry of every float argument is a real. -/
theorem real_of_pre [Facts] (a0 : FVec Ideal S4x300x80 .f32) (a1 : FVec Ideal S4x300x256x256 .f32) (a2 : IVec S4x100 32)
    (a3 : FVec Ideal S4x100x256x256 .f32) (a4 : FVec Ideal S4x12544x2 .f32)
    (h : fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a3 i = (r : EReal))
      ∧ (∀ i, ∃ r : ℝ, a4 i = (r : EReal)) := by
  have h0 := congrFun h ValueIdx.ix0
  dsimp only [fn, fn_part1] at h0
  obtain ⟨h013, e4⟩ := IntOp.andi_eq_one.1 h0
  obtain ⟨h01, e3⟩ := IntOp.andi_eq_one.1 h013
  obtain ⟨e0, e1⟩ := IntOp.andi_eq_one.1 h01
  exact ⟨fun i => real_of_abs_lt_inf _ (Host.reduce_andi_all _ _ _ _ _ e0 i),
    fun i => real_of_abs_lt_inf _ (Host.reduce_andi_all _ _ _ _ _ e1 i),
    fun i => real_of_abs_lt_inf _ (Host.reduce_andi_all _ _ _ _ _ e3 i),
    fun i => real_of_abs_lt_inf _ (Host.reduce_andi_all _ _ _ _ _ e4 i)⟩

end Cert.Math
-- ==== Proof.MathRealStages.lean ====
/-
  The sampled arrays are real.

  The reference samples the prediction masks and the target masks bilinearly: each sampled value is a
  sum of four products of a gathered corner entry, a 0/1 in-range mask and two interpolation weights,
  all computed from the arguments by multiplications, additions, subtractions, maxima, minima, floors,
  finite constants, integer-to-float conversions and layout operations (which read their operand at some index).
  Each of these keeps an array of real entries real, so when the arguments' entries are real so is every
  sampled value. The walk below goes down the program's stages from the sampled array to the arguments,
  one closure lemma per stage.
-/
import proofs.«122505_j52948356825308_2_alg».proof.Proof.ReferenceReadP
import Idealize.ShloMosaic.PureOps.Ideal

namespace Cert.Math

open Idealize.ShloMosaic

/-- Every entry of the family is a real number. -/
def IsReal {ι : Type} (f : ι → EReal) : Prop := ∀ i, ∃ r : ℝ, f i = (r : EReal)

/-- A 32-bit pattern whose exponent field is not all ones denotes a real. -/
theorem real_ofBits_f32 (w : BitVec 32) (h : (w.extractLsb' 23 8).toNat ≠ 255) :
    ∃ r : ℝ, Ideal.ofBits .f32 w = (r : EReal) := by
  show ∃ r : ℝ, Ideal.ieee 8 23 w = (r : EReal)
  unfold Ideal.ieee
  dsimp only
  rw [if_neg (show ¬(BitVec.extractLsb' 23 8 w).toNat = 2 ^ 8 - 1 from h)]
  split_ifs <;> exact ⟨_, rfl⟩

namespace IsReal

variable {s t : Shape} {φ : FTy}

/-! ### Arithmetic -/

theorem mulf {a b : FVec Ideal s φ} (ha : IsReal a) (hb : IsReal b) : IsReal (Idealize.ShloMosaic.mulf a b) := fun i => by
  obtain ⟨r, hr⟩ := ha i
  obtain ⟨q, hq⟩ := hb i
  exact ⟨r * q, by show a i * b i = _; rw [hr, hq, EReal.coe_mul]⟩

theorem addf {a b : FVec Ideal s φ} (ha : IsReal a) (hb : IsReal b) : IsReal (Idealize.ShloMosaic.addf a b) := fun i => by
  obtain ⟨r, hr⟩ := ha i
  obtain ⟨q, hq⟩ := hb i
  exact ⟨r + q, by show a i + b i = _; rw [hr, hq, EReal.coe_add]⟩

theorem subf {a b : FVec Ideal s φ} (ha : IsReal a) (hb : IsReal b) : IsReal (Idealize.ShloMosaic.subf a b) := fun i => by
  obtain ⟨r, hr⟩ := ha i
  obtain ⟨q, hq⟩ := hb i
  exact ⟨r - q, by show a i - b i = _; rw [hr, hq, EReal.coe_sub]⟩

theorem maximumf {a b : FVec Ideal s φ} (ha : IsReal a) (hb : IsReal b) : IsReal (Idealize.ShloMosaic.maximumf a b) :=
  fun i => by
    obtain ⟨r, hr⟩ := ha i
    obtain ⟨q, hq⟩ := hb i
    exact ⟨max r q, by show max (a i) (b i) = _; rw [hr, hq]; exact (EReal.coe_strictMono.monotone.map_max).symm⟩

theorem minimumf {a b : FVec Ideal s φ} (ha : IsReal a) (hb : IsReal b) : IsReal (Idealize.ShloMosaic.minimumf a b) :=
  fun i => by
    obtain ⟨r, hr⟩ := ha i
    obtain ⟨q, hq⟩ := hb i
    exact ⟨min r q, by show min (a i) (b i) = _; rw [hr, hq]; exact (EReal.coe_strictMono.monotone.map_min).symm⟩

theorem floor {a : FVec Ideal s φ} (ha : IsReal a) : IsReal (Host.floor a) := fun i => by
  obtain ⟨r, hr⟩ := ha i
  exact ⟨((⌊r⌋ : ℤ) : ℝ), by show Ideal.liftRound Int.floor (a i) = _; rw [hr]; rfl⟩

/-! ### Values that are real whatever they are computed from -/

theorem constant (w : BitVec 32) (h : (w.extractLsb' 23 8).toNat ≠ 255) :
    IsReal (Idealize.ShloMosaic.constant (F := Ideal) s .f32 w) := fun _ => real_ofBits_f32 w h

theorem sitofp {w : Nat} (v : IVec s w) : IsReal (Idealize.ShloMosaic.sitofp (F := Ideal) φ v) := fun i => ⟨((v i).toInt : ℝ), rfl⟩

theorem uitofp {w : Nat} (v : IVec s w) : IsReal (Idealize.ShloMosaic.uitofp (F := Ideal) φ v) := fun i => ⟨((v i).toNat : ℝ), rfl⟩

/-! ### Layout operations: each entry is an entry of the operand -/

theorem broadcastInDim {x : s.Idx → EReal} (dims : Fin s.rank → Fin t.rank) (h : s.BroadcastsInDim t dims) (hx : IsReal x) :
    IsReal (Idealize.ShloMosaic.broadcastInDim t dims h x) := fun _ => hx _

theorem shapeCast {x : s.Idx → EReal} (h : s.ShapeCasts t) (hx : IsReal x) : IsReal (Idealize.ShloMosaic.shapeCast t x h) :=
  fun _ => hx _

theorem extractStridedSlice {x : s.Idx → EReal} (off : Fin s.rank → Nat) (h : s.Slices off t) (hx : IsReal x) :
    IsReal (Idealize.ShloMosaic.extractStridedSlice t off x h) := fun _ => hx _

theorem gather {si : Shape} {w : Nat} {x : s.Idx → EReal} (d : GatherDims s si t) (idx : IVec si w) (hx : IsReal x) :
    IsReal (Host.gather d x idx) := fun _ => hx _

end IsReal

/-! ## The walk down the stages -/

open Lean Elab Tactic Meta in
/-- Replaces the program stage named at the head of the goal's array by its defining operation. -/
elab "open_stage" : tactic => do
  let g ← getMainGoal
  let ty ← instantiateMVars (← g.getType)
  let arg := ty.appArg!
  let .const n _ := arg.getAppFn | throwError "no stage at the head"
  unless n.getString!.startsWith "val_main_" do throwError "no stage at the head"
  let some arg' ← delta? arg | throwError "the stage does not unfold"
  replaceMainGoal [← g.replaceTargetDefEq (mkApp ty.appFn! arg')]

/-- One step of the walk: an argument's hypothesis, a stage opened, or the closure lemma of the operation at the head. -/
macro "real_step" : tactic => `(tactic| first
  | assumption
  | open_stage
  | with_reducible apply IsReal.mulf
  | with_reducible apply IsReal.subf
  | with_reducible apply IsReal.addf
  | with_reducible apply IsReal.maximumf
  | with_reducible apply IsReal.minimumf
  | with_reducible apply IsReal.floor
  | with_reducible apply IsReal.sitofp
  | with_reducible apply IsReal.uitofp
  | (with_reducible apply IsReal.constant; decide)
  | with_reducible apply IsReal.broadcastInDim
  | with_reducible apply IsReal.shapeCast
  | with_reducible apply IsReal.extractStridedSlice
  | with_reducible apply IsReal.gather)

open Cert.ReferenceIdeal Cert.ReferenceIdeal.ReadP

/-- Every sampled prediction value is real when the prediction masks and the sample coordinates are. -/
theorem sampled_pred_real (x1 : (⟨S4x300x256x256, .f32⟩ : BufTy).Contents (Elt Ideal))
    (x4 : (⟨S4x12544x2, .f32⟩ : BufTy).Contents (Elt Ideal)) (h1 : IsReal x1) (h4 : IsReal x4) :
    IsReal (val_main_v190 (F := Ideal) x1 x4) := by
  repeat real_step

/-- Every sampled target value is real when the target masks and the sample coordinates are. -/
theorem sampled_tgt_real (x3 : (⟨S4x100x256x256, .f32⟩ : BufTy).Contents (Elt Ideal))
    (x4 : (⟨S4x12544x2, .f32⟩ : BufTy).Contents (Elt Ideal)) (h3 : IsReal x3) (h4 : IsReal x4) :
    IsReal (val_main_v381 (F := Ideal) x3 x4) := by
  repeat real_step

end Cert.Math
-- ==== Proof.KernelIdeal.Assemble.lean ====
/-
  The value claim but for the two samplers: given that the kernel's sampled prediction and target arrays are the reference's (the two
  hypotheses of `result_eq_of_samplers`), the reference's result is the slice of the region's result. Finite inputs make every sampled
  value a real number; the kernel's operands are the sampled targets padded with zero rows and the classification cost padded with
  zero columns, and the columns the final slice keeps are the unpadded ones.
-/
import proofs.«122505_j52948356825308_2_alg».proof.Proof.Core
import proofs.«122505_j52948356825308_2_alg».proof.Proof.LibPad
import proofs.«122505_j52948356825308_2_alg».proof.Proof.KernelIdeal.ClassCost
import proofs.«122505_j52948356825308_2_alg».proof.Proof.KernelIdeal.PadTgt
import proofs.«122505_j52948356825308_2_alg».proof.Proof.MathFinite
import proofs.«122505_j52948356825308_2_alg».proof.Proof.MathRealStages
import Idealize.ShloMosaic.Lib.Pipeline.Value

set_option maxRecDepth 200000

noncomputable section

namespace Cert.KernelIdeal.Bridge

open Cert.KernelIdeal Cert.KernelIdeal.Gen Cert.KernelIdeal.Hand
open Idealize.ShloMosaic Idealize.ShloMosaic.TcCoe Idealize.SL.Sem Idealize.ShloMosaic.ValueIdx

theorem padTgt_apply (T : FVec Ideal S4x100x12544 .f32) (b : Fin 4) (u : Fin 100) (p : Fin 12544) :
    padTgt T (ix3 b (⟨u.val, by omega⟩ : Fin 128) p) = T (ix3 b u p) := by
  unfold padTgt
  exact LibPad.pad_apply_of_mem _ _ _ T _ _ _ _ (ix3 b u p) (fun a => by
    match a with
    | ⟨0, _⟩ => show b.val = 0 + b.val * (0 + 1); omega
    | ⟨1, _⟩ => show u.val = 0 + u.val * (0 + 1); omega
    | ⟨2, _⟩ => show p.val = 0 + p.val * (0 + 1); omega)

theorem padCost_apply (C : FVec Ideal S4x300x100 .f32) (b : Fin 4) (q : Fin 300) (u : Fin 100) :
    padCost C (ix3 b q (⟨u.val, by omega⟩ : Fin 128)) = C (ix3 b q u) := by
  unfold padCost
  exact LibPad.pad_apply_of_mem _ _ _ C _ _ _ _ (ix3 b q u) (fun a => by
    match a with
    | ⟨0, _⟩ => show b.val = 0 + b.val * (0 + 1); omega
    | ⟨1, _⟩ => show q.val = 0 + q.val * (0 + 1); omega
    | ⟨2, _⟩ => show u.val = 0 + u.val * (0 + 1); omega)

/-- The slice after the region: columns 0 … 99 of the 128. -/
def sliceOut (R : FVec Ideal S4x300x128 .f32) : FVec Ideal S4x300x100 .f32 :=
  extractStridedSlice S4x300x100 ![0, 0, 0] R slices_S4x300x128_S4x300x100_0_0_0

theorem sliceOut_apply (R : FVec Ideal S4x300x128 .f32) (b : Fin 4) (q : Fin 300) (u : Fin 100) :
    sliceOut R (ix3 b q u) = R (ix3 b q (⟨u.val, by omega⟩ : Fin 128)) := by
  unfold sliceOut
  exact extractStridedSlice_apply ![0, 0, 0] R slices_S4x300x128_S4x300x100_0_0_0 (ix3 b q u) (ix3 b q (⟨u.val, by omega⟩ : Fin 128)) (fun a => by
    match a with
    | ⟨0, _⟩ => show b.val = 0 + b.val; omega
    | ⟨1, _⟩ => show q.val = 0 + q.val; omega
    | ⟨2, _⟩ => show u.val = 0 + u.val; omega)

variable (m : (ℓ : Loc nD τ sig) → Buf (Elt Ideal) ℓ)

/-- Under the precondition, with the two samplers' equalities, the reference's last stage of the arguments is the slice of the
    region's result on the kernel's three operands. -/
theorem result_eq_of_samplers [Cert.Pre_finite_inputs.Facts] (c : Dev nD)
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) = fun _ => 1#1)
    (hS1 : V (F := Ideal) m c main_v78 = Cert.ReferenceIdeal.ReadP.val_main_v190 (F := Ideal) (m ((c : Thread nD τ).loc main_arg1)) (m ((c : Thread nD τ).loc main_arg4)))
    (hS2 : V (F := Ideal) m c main_v157 = Cert.ReferenceIdeal.ReadP.val_main_v381 (F := Ideal) (m ((c : Thread nD τ).loc main_arg3)) (m ((c : Thread nD τ).loc main_arg4))) :
    Cert.ReferenceIdeal.ReadP.val_main_v466 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      = sliceOut (Cert.KernelIdeal.Val.regionOut (V (F := Ideal) m c main_v78) (V (F := Ideal) m c main_v158) (V (F := Ideal) m c main_v202)) := by
  obtain ⟨-, h1, h3, h4⟩ := Cert.Math.real_of_pre _ _ _ _ _ hpre
  have hX := Cert.Math.sampled_pred_real _ _ h1 h4
  have hT := Cert.Math.sampled_tgt_real _ _ h3 h4
  funext i
  obtain ⟨b, q, u, rfl⟩ : ∃ (b : Fin 4) (q : Fin 300) (u : Fin 100), i = ix3 b q u := ⟨i 0, i 1, i 2, eq_ix3 i⟩
  rw [Cert.ReferenceIdeal.Tail.tail_apply, sliceOut_apply, Cert.KernelIdeal.Val.regionOut_ix3, hS1, V_padTgt, hS2, V_classCost]
  exact Cert.Join.core _ _ _ _ _ hX hT (fun b u p => padTgt_apply _ b u p) (fun b q u => padCost_apply _ b q u) b q u

end Cert.KernelIdeal.Bridge

end
-- ==== Proof.KernelIdeal.ValPieces.lean ====
/-
  What the body's stores read back to, case by case and buffer by buffer, as the payload terms of the body's arithmetic
  (for every float instance): a block's contribution is added to what the accumulator held (a middle or last block) or to the
  zero block just stored (a first block); the cost tile of a last block is the cost formula of the accumulators after that
  block's contributions.
-/
import proofs.«122505_j52948356825308_2_alg».proof.Proof.KernelIdeal.Frame
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- An accumulator held whole reads back the contents it is owned at. -/
theorem ru0 (X : Vec F S300x128 .f32) : View.read (Elt F) (View.whole cc0_scratch0) ((Memref.isWhole_whole cc0_scratch0).unread X) = X := (Memref.isWhole_whole cc0_scratch0).read_unread X
theorem ru1 (X : Vec F S300x128 .f32) : View.read (Elt F) (View.whole cc0_scratch1) ((Memref.isWhole_whole cc0_scratch1).unread X) = X := (Memref.isWhole_whole cc0_scratch1).read_unread X
theorem ru2 (X : Vec F S300x1 .f32) : View.read (Elt F) (View.whole cc0_scratch2) ((Memref.isWhole_whole cc0_scratch2).unread X) = X := (Memref.isWhole_whole cc0_scratch2).read_unread X
theorem ru3 (X : Vec F S300x1 .f32) : View.read (Elt F) (View.whole cc0_scratch3) ((Memref.isWhole_whole cc0_scratch3).unread X) = X := (Memref.isWhole_whole cc0_scratch3).read_unread X
theorem ru4 (X : Vec F S1x128 .f32) : View.read (Elt F) (View.whole cc0_scratch4) ((Memref.isWhole_whole cc0_scratch4).unread X) = X := (Memref.isWhole_whole cc0_scratch4).read_unread X

/-! ## A middle block: each accumulator, at what it held, takes the block's contribution -/

theorem accsMiddle_0 (c : Dev nD) (t : Fin cfg0.N) (h0 : ¬t.val % 7 = 0) (h1 : ¬t.val % 7 = 6) (x0 : Vec F S1x300x1792 .f32) (x1 : Vec F S1x128x1792 .f32) (x2 : Vec F S1x300x128 .f32) (xs : Vec F S300x128 .f32 × Vec F S300x128 .f32 × Vec F S300x1 .f32 × Vec F S300x1 .f32 × Vec F S1x128 .f32) :
    (accsrunMiddle c t h0 h1 x0 x1 x2 xs).1 = k0_pay18 xs.1 (k0_pay16 x0 x1) (k0_pay17 x0 x1) := by
  unfold accsrunMiddle
  dsimp only
  rw [View.read_writes_eq_canon _ _ _ (coverrunMiddle_0 c t h0 h1 x0 x1 x2 xs)]
  unfold runMiddleAt runMiddle
  dsimp only
  sl_unfold_words
  rw [View.canon_unit_zero (S := S300x128) hz2]
  simp only [View.readCov_unit_zero (S := S300x128) _ hz2, View.readCov_unit_zero (S := S300x1) _ hz2, View.readCov_unit_zero (S := S1x128) _ hz2, View.readAt_eq_ld, Memref.IsWhole.read_unread, ru0, ru1, ru2, ru3, ru4, View.ld_unit_zero (S := S300x128) hz2, View.ld_unit_zero (S := S300x1) hz2, View.ld_unit_zero (S := S1x128) hz2, View.ld_unit_zero (S := S1x300x1792) hz3, View.ld_unit_zero (S := S1x128x1792) hz3, View.ld_unit_zero (S := S1x300x128) hz3]

theorem accsMiddle_1 (c : Dev nD) (t : Fin cfg0.N) (h0 : ¬t.val % 7 = 0) (h1 : ¬t.val % 7 = 6) (x0 : Vec F S1x300x1792 .f32) (x1 : Vec F S1x128x1792 .f32) (x2 : Vec F S1x300x128 .f32) (xs : Vec F S300x128 .f32 × Vec F S300x128 .f32 × Vec F S300x1 .f32 × Vec F S300x1 .f32 × Vec F S1x128 .f32) :
    (accsrunMiddle c t h0 h1 x0 x1 x2 xs).2.1 = k0_pay19 (k0_pay13 x0) (k0_pay14 x1) (k0_pay15 x1) xs.2.1 := by
  unfold accsrunMiddle
  dsimp only
  rw [View.read_writes_eq_canon _ _ _ (coverrunMiddle_1 c t h0 h1 x0 x1 x2 xs)]
  unfold runMiddleAt runMiddle
  dsimp only
  sl_unfold_words
  rw [View.canon_unit_zero (S := S300x128) hz2]
  simp only [View.readCov_unit_zero (S := S300x128) _ hz2, View.readCov_unit_zero (S := S300x1) _ hz2, View.readCov_unit_zero (S := S1x128) _ hz2, View.readAt_eq_ld, Memref.IsWhole.read_unread, ru0, ru1, ru2, ru3, ru4, View.ld_unit_zero (S := S300x128) hz2, View.ld_unit_zero (S := S300x1) hz2, View.ld_unit_zero (S := S1x128) hz2, View.ld_unit_zero (S := S1x300x1792) hz3, View.ld_unit_zero (S := S1x128x1792) hz3, View.ld_unit_zero (S := S1x300x128) hz3]

theorem accsMiddle_2 (c : Dev nD) (t : Fin cfg0.N) (h0 : ¬t.val % 7 = 0) (h1 : ¬t.val % 7 = 6) (x0 : Vec F S1x300x1792 .f32) (x1 : Vec F S1x128x1792 .f32) (x2 : Vec F S1x300x128 .f32) (xs : Vec F S300x128 .f32 × Vec F S300x128 .f32 × Vec F S300x1 .f32 × Vec F S300x1 .f32 × Vec F S1x128 .f32) :
    (accsrunMiddle c t h0 h1 x0 x1 x2 xs).2.2.1 = k0_pay20 (k0_pay12 x0) xs.2.2.1 := by
  unfold accsrunMiddle
  dsimp only
  rw [View.read_writes_eq_canon _ _ _ (coverrunMiddle_2 c t h0 h1 x0 x1 x2 xs)]
  unfold runMiddleAt runMiddle
  dsimp only
  sl_unfold_words
  rw [View.canon_unit_zero (S := S300x1) hz2]
  simp only [View.readCov_unit_zero (S := S300x128) _ hz2, View.readCov_unit_zero (S := S300x1) _ hz2, View.readCov_unit_zero (S := S1x128) _ hz2, View.readAt_eq_ld, Memref.IsWhole.read_unread, ru0, ru1, ru2, ru3, ru4, View.ld_unit_zero (S := S300x128) hz2, View.ld_unit_zero (S := S300x1) hz2, View.ld_unit_zero (S := S1x128) hz2, View.ld_unit_zero (S := S1x300x1792) hz3, View.ld_unit_zero (S := S1x128x1792) hz3, View.ld_unit_zero (S := S1x300x128) hz3]

theorem accsMiddle_3 (c : Dev nD) (t : Fin cfg0.N) (h0 : ¬t.val % 7 = 0) (h1 : ¬t.val % 7 = 6) (x0 : Vec F S1x300x1792 .f32) (x1 : Vec F S1x128x1792 .f32) (x2 : Vec F S1x300x128 .f32) (xs : Vec F S300x128 .f32 × Vec F S300x128 .f32 × Vec F S300x1 .f32 × Vec F S300x1 .f32 × Vec F S1x128 .f32) :
    (accsrunMiddle c t h0 h1 x0 x1 x2 xs).2.2.2.1 = k0_pay21 (k0_pay13 x0) xs.2.2.2.1 := by
  unfold accsrunMiddle
  dsimp only
  rw [View.read_writes_eq_canon _ _ _ (coverrunMiddle_3 c t h0 h1 x0 x1 x2 xs)]
  unfold runMiddleAt runMiddle
  dsimp only
  sl_unfold_words
  rw [View.canon_unit_zero (S := S300x1) hz2]
  simp only [View.readCov_unit_zero (S := S300x128) _ hz2, View.readCov_unit_zero (S := S300x1) _ hz2, View.readCov_unit_zero (S := S1x128) _ hz2, View.readAt_eq_ld, Memref.IsWhole.read_unread, ru0, ru1, ru2, ru3, ru4, View.ld_unit_zero (S := S300x128) hz2, View.ld_unit_zero (S := S300x1) hz2, View.ld_unit_zero (S := S1x128) hz2, View.ld_unit_zero (S := S1x300x1792) hz3, View.ld_unit_zero (S := S1x128x1792) hz3, View.ld_unit_zero (S := S1x300x128) hz3]

theorem accsMiddle_4 (c : Dev nD) (t : Fin cfg0.N) (h0 : ¬t.val % 7 = 0) (h1 : ¬t.val % 7 = 6) (x0 : Vec F S1x300x1792 .f32) (x1 : Vec F S1x128x1792 .f32) (x2 : Vec F S1x300x128 .f32) (xs : Vec F S300x128 .f32 × Vec F S300x128 .f32 × Vec F S300x1 .f32 × Vec F S300x1 .f32 × Vec F S1x128 .f32) :
    (accsrunMiddle c t h0 h1 x0 x1 x2 xs).2.2.2.2 = k0_pay1 (k0_pay10 x1) k0_pay22 xs.2.2.2.2 := by
  unfold accsrunMiddle
  dsimp only
  rw [View.read_writes_eq_canon _ _ _ (coverrunMiddle_4 c t h0 h1 x0 x1 x2 xs)]
  unfold runMiddleAt runMiddle
  dsimp only
  sl_unfold_words
  rw [View.canon_unit_zero (S := S1x128) hz2]
  simp only [View.readCov_unit_zero (S := S300x128) _ hz2, View.readCov_unit_zero (S := S300x1) _ hz2, View.readCov_unit_zero (S := S1x128) _ hz2, View.readAt_eq_ld, Memref.IsWhole.read_unread, ru0, ru1, ru2, ru3, ru4, View.ld_unit_zero (S := S300x128) hz2, View.ld_unit_zero (S := S300x1) hz2, View.ld_unit_zero (S := S1x128) hz2, View.ld_unit_zero (S := S1x300x1792) hz3, View.ld_unit_zero (S := S1x128x1792) hz3, View.ld_unit_zero (S := S1x300x128) hz3]

/-! ## A last block: the same contributions; the cost tile is formed from the accumulators AFTER them -/

theorem accsLast_0 (c : Dev nD) (t : Fin cfg0.N) (h0 : ¬t.val % 7 = 0) (h1 : t.val % 7 = 6) (x0 : Vec F S1x300x1792 .f32) (x1 : Vec F S1x128x1792 .f32) (x2 : Vec F S1x300x128 .f32) (xs : Vec F S300x128 .f32 × Vec F S300x128 .f32 × Vec F S300x1 .f32 × Vec F S300x1 .f32 × Vec F S1x128 .f32) :
    (accsrunLast c t h0 h1 x0 x1 x2 xs).1 = k0_pay18 xs.1 (k0_pay16 x0 x1) (k0_pay17 x0 x1) := by
  unfold accsrunLast
  dsimp only
  rw [View.read_writes_eq_canon _ _ _ (coverrunLast_0 c t h0 h1 x0 x1 x2 xs)]
  unfold runLastAt runLast
  dsimp only
  sl_unfold_words
  rw [View.canon_unit_zero (S := S300x128) hz2]
  simp only [View.readCov_unit_zero (S := S300x128) _ hz2, View.readCov_unit_zero (S := S300x1) _ hz2, View.readCov_unit_zero (S := S1x128) _ hz2, View.readAt_eq_ld, Memref.IsWhole.read_unread, ru0, ru1, ru2, ru3, ru4, View.ld_unit_zero (S := S300x128) hz2, View.ld_unit_zero (S := S300x1) hz2, View.ld_unit_zero (S := S1x128) hz2, View.ld_unit_zero (S := S1x300x1792) hz3, View.ld_unit_zero (S := S1x128x1792) hz3, View.ld_unit_zero (S := S1x300x128) hz3]

theorem accsLast_1 (c : Dev nD) (t : Fin cfg0.N) (h0 : ¬t.val % 7 = 0) (h1 : t.val % 7 = 6) (x0 : Vec F S1x300x1792 .f32) (x1 : Vec F S1x128x1792 .f32) (x2 : Vec F S1x300x128 .f32) (xs : Vec F S300x128 .f32 × Vec F S300x128 .f32 × Vec F S300x1 .f32 × Vec F S300x1 .f32 × Vec F S1x128 .f32) :
    (accsrunLast c t h0 h1 x0 x1 x2 xs).2.1 = k0_pay19 (k0_pay13 x0) (k0_pay14 x1) (k0_pay15 x1) xs.2.1 := by
  unfold accsrunLast
  dsimp only
  rw [View.read_writes_eq_canon _ _ _ (coverrunLast_1 c t h0 h1 x0 x1 x2 xs)]
  unfold runLastAt runLast
  dsimp only
  sl_unfold_words
  rw [View.canon_unit_zero (S := S300x128) hz2]
  simp only [View.readCov_unit_zero (S := S300x128) _ hz2, View.readCov_unit_zero (S := S300x1) _ hz2, View.readCov_unit_zero (S := S1x128) _ hz2, View.readAt_eq_ld, Memref.IsWhole.read_unread, ru0, ru1, ru2, ru3, ru4, View.ld_unit_zero (S := S300x128) hz2, View.ld_unit_zero (S := S300x1) hz2, View.ld_unit_zero (S := S1x128) hz2, View.ld_unit_zero (S := S1x300x1792) hz3, View.ld_unit_zero (S := S1x128x1792) hz3, View.ld_unit_zero (S := S1x300x128) hz3]

theorem accsLast_2 (c : Dev nD) (t : Fin cfg0.N) (h0 : ¬t.val % 7 = 0) (h1 : t.val % 7 = 6) (x0 : Vec F S1x300x1792 .f32) (x1 : Vec F S1x128x1792 .f32) (x2 : Vec F S1x300x128 .f32) (xs : Vec F S300x128 .f32 × Vec F S300x128 .f32 × Vec F S300x1 .f32 × Vec F S300x1 .f32 × Vec F S1x128 .f32) :
    (accsrunLast c t h0 h1 x0 x1 x2 xs).2.2.1 = k0_pay20 (k0_pay12 x0) xs.2.2.1 := by
  unfold accsrunLast
  dsimp only
  rw [View.read_writes_eq_canon _ _ _ (coverrunLast_2 c t h0 h1 x0 x1 x2 xs)]
  unfold runLastAt runLast
  dsimp only
  sl_unfold_words
  rw [View.canon_unit_zero (S := S300x1) hz2]
  simp only [View.readCov_unit_zero (S := S300x128) _ hz2, View.readCov_unit_zero (S := S300x1) _ hz2, View.readCov_unit_zero (S := S1x128) _ hz2, View.readAt_eq_ld, Memref.IsWhole.read_unread, ru0, ru1, ru2, ru3, ru4, View.ld_unit_zero (S := S300x128) hz2, View.ld_unit_zero (S := S300x1) hz2, View.ld_unit_zero (S := S1x128) hz2, View.ld_unit_zero (S := S1x300x1792) hz3, View.ld_unit_zero (S := S1x128x1792) hz3, View.ld_unit_zero (S := S1x300x128) hz3]

theorem accsLast_3 (c : Dev nD) (t : Fin cfg0.N) (h0 : ¬t.val % 7 = 0) (h1 : t.val % 7 = 6) (x0 : Vec F S1x300x1792 .f32) (x1 : Vec F S1x128x1792 .f32) (x2 : Vec F S1x300x128 .f32) (xs : Vec F S300x128 .f32 × Vec F S300x128 .f32 × Vec F S300x1 .f32 × Vec F S300x1 .f32 × Vec F S1x128 .f32) :
    (accsrunLast c t h0 h1 x0 x1 x2 xs).2.2.2.1 = k0_pay21 (k0_pay13 x0) xs.2.2.2.1 := by
  unfold accsrunLast
  dsimp only
  rw [View.read_writes_eq_canon _ _ _ (coverrunLast_3 c t h0 h1 x0 x1 x2 xs)]
  unfold runLastAt runLast
  dsimp only
  sl_unfold_words
  rw [View.canon_unit_zero (S := S300x1) hz2]
  simp only [View.readCov_unit_zero (S := S300x128) _ hz2, View.readCov_unit_zero (S := S300x1) _ hz2, View.readCov_unit_zero (S := S1x128) _ hz2, View.readAt_eq_ld, Memref.IsWhole.read_unread, ru0, ru1, ru2, ru3, ru4, View.ld_unit_zero (S := S300x128) hz2, View.ld_unit_zero (S := S300x1) hz2, View.ld_unit_zero (S := S1x128) hz2, View.ld_unit_zero (S := S1x300x1792) hz3, View.ld_unit_zero (S := S1x128x1792) hz3, View.ld_unit_zero (S := S1x300x128) hz3]

theorem accsLast_4 (c : Dev nD) (t : Fin cfg0.N) (h0 : ¬t.val % 7 = 0) (h1 : t.val % 7 = 6) (x0 : Vec F S1x300x1792 .f32) (x1 : Vec F S1x128x1792 .f32) (x2 : Vec F S1x300x128 .f32) (xs : Vec F S300x128 .f32 × Vec F S300x128 .f32 × Vec F S300x1 .f32 × Vec F S300x1 .f32 × Vec F S1x128 .f32) :
    (accsrunLast c t h0 h1 x0 x1 x2 xs).2.2.2.2 = k0_pay1 (k0_pay10 x1) k0_pay22 xs.2.2.2.2 := by
  unfold accsrunLast
  dsimp only
  rw [View.read_writes_eq_canon _ _ _ (coverrunLast_4 c t h0 h1 x0 x1 x2 xs)]
  unfold runLastAt runLast
  dsimp only
  sl_unfold_words
  rw [View.canon_unit_zero (S := S1x128) hz2]
  simp only [View.readCov_unit_zero (S := S300x128) _ hz2, View.readCov_unit_zero (S := S300x1) _ hz2, View.readCov_unit_zero (S := S1x128) _ hz2, View.readAt_eq_ld, Memref.IsWhole.read_unread, ru0, ru1, ru2, ru3, ru4, View.ld_unit_zero (S := S300x128) hz2, View.ld_unit_zero (S := S300x1) hz2, View.ld_unit_zero (S := S1x128) hz2, View.ld_unit_zero (S := S1x300x1792) hz3, View.ld_unit_zero (S := S1x128x1792) hz3, View.ld_unit_zero (S := S1x300x128) hz3]

/-- The cost tile of a last block: the cost formula of the five accumulators as this block leaves them and the class-cost block. -/
theorem outLast_eq (c : Dev nD) (t : Fin cfg0.N) (h0 : ¬t.val % 7 = 0) (h1 : t.val % 7 = 6) (x0 : Vec F S1x300x1792 .f32) (x1 : Vec F S1x128x1792 .f32) (x2 : Vec F S1x300x128 .f32) (xs : Vec F S300x128 .f32 × Vec F S300x128 .f32 × Vec F S300x1 .f32 × Vec F S300x1 .f32 × Vec F S1x128 .f32) :
    outLast c t h0 h1 x0 x1 x2 xs = k0_pay2 (k0_pay3 (k0_pay20 (k0_pay12 x0) xs.2.2.1) (k0_pay18 xs.1 (k0_pay16 x0 x1) (k0_pay17 x0 x1)) (k0_pay21 (k0_pay13 x0) xs.2.2.2.1) (k0_pay1 (k0_pay10 x1) k0_pay22 xs.2.2.2.2) (k0_pay19 (k0_pay13 x0) (k0_pay14 x1) (k0_pay15 x1) xs.2.1) x2) := by
  unfold outLast
  rw [View.read_writes_eq_canon _ _ _ (coverOutLast c t h0 h1 x0 x1 x2 xs)]
  unfold runLastAt runLast
  dsimp only
  sl_unfold_words
  rw [View.canon_unit_zero (S := S1x300x128) hz3]
  simp only [View.readCov_unit_zero (S := S300x128) _ hz2, View.readCov_unit_zero (S := S300x1) _ hz2, View.readCov_unit_zero (S := S1x128) _ hz2, View.readAt_eq_ld, Memref.IsWhole.read_unread, ru0, ru1, ru2, ru3, ru4, View.ld_unit_zero (S := S300x128) hz2, View.ld_unit_zero (S := S300x1) hz2, View.ld_unit_zero (S := S1x128) hz2, View.ld_unit_zero (S := S1x300x1792) hz3, View.ld_unit_zero (S := S1x128x1792) hz3, View.ld_unit_zero (S := S1x300x128) hz3]

/-! ## A first block: each accumulator is reset to the zero block and then takes the block's contribution -/

theorem accsFirst_0 (c : Dev nD) (t : Fin cfg0.N) (h0 : t.val % 7 = 0) (h1 : ¬t.val % 7 = 6) (x0 : Vec F S1x300x1792 .f32) (x1 : Vec F S1x128x1792 .f32) (x2 : Vec F S1x300x128 .f32) :
    (accsrunFirst c t h0 h1 x0 x1 x2).1 = k0_pay18 k0_pay4 (k0_pay16 x0 x1) (k0_pay17 x0 x1) := by
  unfold accsrunFirst
  dsimp only
  rw [View.read_writes_eq_canon _ _ _ (coverrunFirst_0 c t h0 h1 x0 x1 x2)]
  unfold runFirstAt runFirst
  dsimp only
  sl_unfold_words
  rw [View.canon_cons_unit_zero (S := S300x128) hz2]
  simp only [View.readCov_unit_zero (S := S300x128) _ hz2, View.readCov_unit_zero (S := S300x1) _ hz2, View.readCov_unit_zero (S := S1x128) _ hz2, View.readAt_eq_ld, Memref.IsWhole.read_unread, ru0, ru1, ru2, ru3, ru4, View.ld_unit_zero (S := S300x128) hz2, View.ld_unit_zero (S := S300x1) hz2, View.ld_unit_zero (S := S1x128) hz2, View.ld_unit_zero (S := S1x300x1792) hz3, View.ld_unit_zero (S := S1x128x1792) hz3, View.ld_unit_zero (S := S1x300x128) hz3]

theorem accsFirst_1 (c : Dev nD) (t : Fin cfg0.N) (h0 : t.val % 7 = 0) (h1 : ¬t.val % 7 = 6) (x0 : Vec F S1x300x1792 .f32) (x1 : Vec F S1x128x1792 .f32) (x2 : Vec F S1x300x128 .f32) :
    (accsrunFirst c t h0 h1 x0 x1 x2).2.1 = k0_pay19 (k0_pay13 x0) (k0_pay14 x1) (k0_pay15 x1) k0_pay5 := by
  unfold accsrunFirst
  dsimp only
  rw [View.read_writes_eq_canon _ _ _ (coverrunFirst_1 c t h0 h1 x0 x1 x2)]
  unfold runFirstAt runFirst
  dsimp only
  sl_unfold_words
  rw [View.canon_cons_unit_zero (S := S300x128) hz2]
  simp only [View.readCov_unit_zero (S := S300x128) _ hz2, View.readCov_unit_zero (S := S300x1) _ hz2, View.readCov_unit_zero (S := S1x128) _ hz2, View.readAt_eq_ld, Memref.IsWhole.read_unread, ru0, ru1, ru2, ru3, ru4, View.ld_unit_zero (S := S300x128) hz2, View.ld_unit_zero (S := S300x1) hz2, View.ld_unit_zero (S := S1x128) hz2, View.ld_unit_zero (S := S1x300x1792) hz3, View.ld_unit_zero (S := S1x128x1792) hz3, View.ld_unit_zero (S := S1x300x128) hz3]

theorem accsFirst_2 (c : Dev nD) (t : Fin cfg0.N) (h0 : t.val % 7 = 0) (h1 : ¬t.val % 7 = 6) (x0 : Vec F S1x300x1792 .f32) (x1 : Vec F S1x128x1792 .f32) (x2 : Vec F S1x300x128 .f32) :
    (accsrunFirst c t h0 h1 x0 x1 x2).2.2.1 = k0_pay20 (k0_pay12 x0) k0_pay6 := by
  unfold accsrunFirst
  dsimp only
  rw [View.read_writes_eq_canon _ _ _ (coverrunFirst_2 c t h0 h1 x0 x1 x2)]
  unfold runFirstAt runFirst
  dsimp only
  sl_unfold_words
  rw [View.canon_cons_unit_zero (S := S300x1) hz2]
  simp only [View.readCov_unit_zero (S := S300x128) _ hz2, View.readCov_unit_zero (S := S300x1) _ hz2, View.readCov_unit_zero (S := S1x128) _ hz2, View.readAt_eq_ld, Memref.IsWhole.read_unread, ru0, ru1, ru2, ru3, ru4, View.ld_unit_zero (S := S300x128) hz2, View.ld_unit_zero (S := S300x1) hz2, View.ld_unit_zero (S := S1x128) hz2, View.ld_unit_zero (S := S1x300x1792) hz3, View.ld_unit_zero (S := S1x128x1792) hz3, View.ld_unit_zero (S := S1x300x128) hz3]

theorem accsFirst_3 (c : Dev nD) (t : Fin cfg0.N) (h0 : t.val % 7 = 0) (h1 : ¬t.val % 7 = 6) (x0 : Vec F S1x300x1792 .f32) (x1 : Vec F S1x128x1792 .f32) (x2 : Vec F S1x300x128 .f32) :
    (accsrunFirst c t h0 h1 x0 x1 x2).2.2.2.1 = k0_pay21 (k0_pay13 x0) k0_pay7 := by
  unfold accsrunFirst
  dsimp only
  rw [View.read_writes_eq_canon _ _ _ (coverrunFirst_3 c t h0 h1 x0 x1 x2)]
  unfold runFirstAt runFirst
  dsimp only
  sl_unfold_words
  rw [View.canon_cons_unit_zero (S := S300x1) hz2]
  simp only [View.readCov_unit_zero (S := S300x128) _ hz2, View.readCov_unit_zero (S := S300x1) _ hz2, View.readCov_unit_zero (S := S1x128) _ hz2, View.readAt_eq_ld, Memref.IsWhole.read_unread, ru0, ru1, ru2, ru3, ru4, View.ld_unit_zero (S := S300x128) hz2, View.ld_unit_zero (S := S300x1) hz2, View.ld_unit_zero (S := S1x128) hz2, View.ld_unit_zero (S := S1x300x1792) hz3, View.ld_unit_zero (S := S1x128x1792) hz3, View.ld_unit_zero (S := S1x300x128) hz3]

theorem accsFirst_4 (c : Dev nD) (t : Fin cfg0.N) (h0 : t.val % 7 = 0) (h1 : ¬t.val % 7 = 6) (x0 : Vec F S1x300x1792 .f32) (x1 : Vec F S1x128x1792 .f32) (x2 : Vec F S1x300x128 .f32) :
    (accsrunFirst c t h0 h1 x0 x1 x2).2.2.2.2 = k0_pay1 (k0_pay10 x1) k0_pay22 k0_pay8 := by
  unfold accsrunFirst
  dsimp only
  rw [View.read_writes_eq_canon _ _ _ (coverrunFirst_4 c t h0 h1 x0 x1 x2)]
  unfold runFirstAt runFirst
  dsimp only
  sl_unfold_words
  rw [View.canon_cons_unit_zero (S := S1x128) hz2]
  simp only [View.readCov_unit_zero (S := S300x128) _ hz2, View.readCov_unit_zero (S := S300x1) _ hz2, View.readCov_unit_zero (S := S1x128) _ hz2, View.readAt_eq_ld, Memref.IsWhole.read_unread, ru0, ru1, ru2, ru3, ru4, View.ld_unit_zero (S := S300x128) hz2, View.ld_unit_zero (S := S300x1) hz2, View.ld_unit_zero (S := S1x128) hz2, View.ld_unit_zero (S := S1x300x1792) hz3, View.ld_unit_zero (S := S1x128x1792) hz3, View.ld_unit_zero (S := S1x300x128) hz3]

end Cert.KernelIdeal.Val

end
-- ==== Proof.KernelIdeal.ValPayloads.lean ====
/-
  The body's arithmetic read at an index, over the extended reals: the two input blocks' entries, the three matrix products into a
  zero accumulator as sums over the 1792 contracted points, the two lane sums, the accumulate steps, the zero blocks, and the cost
  formula of the last block. A change of float format is the identity here; the low part of a factor is the factor minus itself,
  kept as written.
-/
import proofs.«122505_j52948356825308_2_alg».proof.Proof.Gen.KernelIdeal.Skeleton
import proofs.«122505_j52948356825308_2_alg».proof.Proof.MathSoftplus
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen
open Idealize.ShloMosaic Idealize.ShloMosaic.ValueIdx
open Cert.Math (kpos kneg ksig)

/-- The extended real a 32-bit float word denotes. -/
abbrev w32 (w : BitVec 32) : EReal := Ideal.ofBits .f32 w

/-! ## The two matrix products' dimension numbers: [300,1792] × [128,1792] → [300,128] and [1,1792] × [128,1792] → [1,128],
    both contracting the 1792 points -/

abbrev D300 : DotDims S300x1792 S128x1792 S300x128 := dot_S300x1792_S128x1792_S300x128_1_1_0_0_n_n
abbrev D1 : DotDims S1x1792 S128x1792 S1x128 := dot_S1x1792_S128x1792_S1x128_1_1_0_0_n_n

theorem D300_lhs0 (i : S300x128.Idx) (c : D300.contr.Idx) : (D300.lhsIdx i c 0).val = (i 0).val := by
  unfold DotDims.lhsIdx
  rw [dif_neg (show ¬(0 : Fin S300x1792.rank) ∈ D300.lhsBatch by decide), dif_pos (show (0 : Fin S300x1792.rank) ∈ D300.lhsNonContracting by decide)]
  rfl
theorem D300_lhs1 (i : S300x128.Idx) (c : D300.contr.Idx) : (D300.lhsIdx i c 1).val = (c ⟨0, by decide⟩).val :=
  D300.lhsIdx_val_of_single rfl i c
theorem D300_rhs0 (i : S300x128.Idx) (c : D300.contr.Idx) : (D300.rhsIdx i c 0).val = (i 1).val := by
  unfold DotDims.rhsIdx
  rw [dif_neg (show ¬(0 : Fin S128x1792.rank) ∈ D300.rhsBatch by decide), dif_pos (show (0 : Fin S128x1792.rank) ∈ D300.rhsNonContracting by decide)]
  rfl
theorem D300_rhs1 (i : S300x128.Idx) (c : D300.contr.Idx) : (D300.rhsIdx i c 1).val = (c ⟨0, by decide⟩).val :=
  D300.rhsIdx_val_of_single rfl i c

theorem D1_lhs0 (i : S1x128.Idx) (c : D1.contr.Idx) : (D1.lhsIdx i c 0).val = (i 0).val := by
  unfold DotDims.lhsIdx
  rw [dif_neg (show ¬(0 : Fin S1x1792.rank) ∈ D1.lhsBatch by decide), dif_pos (show (0 : Fin S1x1792.rank) ∈ D1.lhsNonContracting by decide)]
  rfl
theorem D1_lhs1 (i : S1x128.Idx) (c : D1.contr.Idx) : (D1.lhsIdx i c 1).val = (c ⟨0, by decide⟩).val :=
  D1.lhsIdx_val_of_single rfl i c
theorem D1_rhs0 (i : S1x128.Idx) (c : D1.contr.Idx) : (D1.rhsIdx i c 0).val = (i 1).val := by
  unfold DotDims.rhsIdx
  rw [dif_neg (show ¬(0 : Fin S128x1792.rank) ∈ D1.rhsBatch by decide), dif_pos (show (0 : Fin S128x1792.rank) ∈ D1.rhsNonContracting by decide)]
  rfl
theorem D1_rhs1 (i : S1x128.Idx) (c : D1.contr.Idx) : (D1.rhsIdx i c 1).val = (c ⟨0, by decide⟩).val :=
  D1.rhsIdx_val_of_single rfl i c

/-- A product of a [300,1792] by a [128,1792] block into the zero block, at (q, u): the sum over the points of row q times row u. -/
theorem mm300 (A : FVec Ideal S300x1792 .bf16) (B : FVec Ideal S128x1792 .bf16) (q : Fin 300) (u : Fin 128) :
    matmul D300 none A B (constant (F := Ideal) S300x128 .f32 0x00000000#32) (ix2 q u)
      = ∑ k : Fin 1792, A (ix2 q k) * B (ix2 u k) := by
  refine (Ideal.matmul_constant_zero_apply D300 none A B (ix2 q u)).trans ?_
  rw [← Equiv.sum_comp (contrEquiv1 D300 1792 rfl rfl).symm]
  refine Finset.sum_congr rfl fun k _ => ?_
  have hk := contrEquiv1_symm_val D300 1792 rfl rfl k
  have el : D300.lhsIdx (ix2 q u) ((contrEquiv1 D300 1792 rfl rfl).symm k) = ix2 q k := funext fun a => Fin.ext (by
    match a with
    | ⟨0, _⟩ => exact D300_lhs0 _ _
    | ⟨1, _⟩ => exact (D300_lhs1 _ _).trans hk)
  have er : D300.rhsIdx (ix2 q u) ((contrEquiv1 D300 1792 rfl rfl).symm k) = ix2 u k := funext fun a => Fin.ext (by
    match a with
    | ⟨0, _⟩ => exact D300_rhs0 _ _
    | ⟨1, _⟩ => exact (D300_rhs1 _ _).trans hk)
  rw [el, er]

/-- A product of a [1,1792] row by a [128,1792] block into the zero row, at (0, u). -/
theorem mm1 (A : FVec Ideal S1x1792 .bf16) (B : FVec Ideal S128x1792 .bf16) (u : Fin 128) :
    matmul D1 none A B (constant (F := Ideal) S1x128 .f32 0x00000000#32) (ix2 (0 : Fin 1) u)
      = ∑ k : Fin 1792, A (ix2 (0 : Fin 1) k) * B (ix2 u k) := by
  refine (Ideal.matmul_constant_zero_apply D1 none A B (ix2 (0 : Fin 1) u)).trans ?_
  rw [← Equiv.sum_comp (contrEquiv1 D1 1792 rfl rfl).symm]
  refine Finset.sum_congr rfl fun k _ => ?_
  have hk := contrEquiv1_symm_val D1 1792 rfl rfl k
  have el : D1.lhsIdx (ix2 (0 : Fin 1) u) ((contrEquiv1 D1 1792 rfl rfl).symm k) = ix2 (0 : Fin 1) k := funext fun a => Fin.ext (by
    match a with
    | ⟨0, _⟩ => exact D1_lhs0 _ _
    | ⟨1, _⟩ => exact (D1_lhs1 _ _).trans hk)
  have er : D1.rhsIdx (ix2 (0 : Fin 1) u) ((contrEquiv1 D1 1792 rfl rfl).symm k) = ix2 u k := funext fun a => Fin.ext (by
    match a with
    | ⟨0, _⟩ => exact D1_rhs0 _ _
    | ⟨1, _⟩ => exact (D1_rhs1 _ _).trans hk)
  rw [el, er]

/-- A lane sum of a [300,1792] block from the zero word, at row q: the sum over the row's points. -/
theorem rowsum_apply (v : FVec Ideal S300x1792 .f32) (h : S300x1792.Reduces [1] S300) (hφ : FKind.Formats .f32)
    (hacc : (0x00000000#32 : BitVec 32) = FKind.add.neutral .f32 hφ) (q : Fin 300) :
    multiReduction .add [1] S300 v 0x00000000#32 h hφ hacc (ix1 q) = ∑ k : Fin 1792, v (ix2 q k) := by
  refine (Ideal.multiReduction_add_single v _ h hφ hacc (ix1 q)).trans ?_
  show ∑ k : Fin 1792, v (h.lift (ix1 q) k) = _
  refine Finset.sum_congr rfl fun k _ => congrArg v (funext fun c => Fin.ext ?_)
  match c with
  | ⟨0, _⟩ => rfl
  | ⟨1, _⟩ => rfl

/-- A [300] vector cast to a [300,1] column reads, at (q, 0), the vector at q. -/
theorem col_cast_apply {α : Type} (v : S300.Idx → α) (h : S300.ShapeCasts S300x1) (q : Fin 300) :
    shapeCast S300x1 v h (ix2 q (0 : Fin 1)) = v (ix1 q) :=
  shapeCast_apply v h _ _ (by
    rw [Shape.rowMajor_val_one, Shape.rowMajor_val_two]
    show q.val = q.val * 1 + 0
    omega)

/-- A [300,1] column broadcast to [300,128] reads, at (q, u), the column at (q, 0). -/
theorem col_bcast_apply {α : Type} (v : S300x1.Idx → α) (h : S300x1.Broadcasts S300x128) (q : Fin 300) (u : Fin 128) :
    broadcastTo S300x128 v h (ix2 q u) = v (ix2 q (0 : Fin 1)) := by
  refine broadcastTo_apply v h (ix2 q u) (ix2 q (0 : Fin 1)) fun ax => ?_
  match ax with
  | ⟨0, _⟩ =>
    show q.val = if (300 : ℕ) = 1 then 0 else q.val
    rw [if_neg (by decide)]
  | ⟨1, _⟩ => rfl

/-! ## The input blocks' entries -/

theorem pay9_apply (x0 : Vec Ideal S1x300x1792 .f32) (q : Fin 300) (k : Fin 1792) :
    k0_pay9 (F := Ideal) x0 (ix2 q k) = x0 (ix3 (0 : Fin 1) q k) := by
  unfold k0_pay9
  exact shapeCast_1ab_ab_apply x0 _ q k

theorem pay10_apply (x1 : Vec Ideal S1x128x1792 .f32) (u : Fin 128) (k : Fin 1792) :
    k0_pay10 (F := Ideal) x1 (ix2 u k) = x1 (ix3 (0 : Fin 1) u k) := by
  unfold k0_pay10
  exact shapeCast_1ab_ab_apply x1 _ u k

theorem pay14_apply (x1 : Vec Ideal S1x128x1792 .f32) (u : Fin 128) (k : Fin 1792) :
    k0_pay14 (F := Ideal) x1 (ix2 u k) = x1 (ix3 (0 : Fin 1) u k) := by
  unfold k0_pay14
  exact pay10_apply x1 u k

theorem pay15_apply (x1 : Vec Ideal S1x128x1792 .f32) (u : Fin 128) (k : Fin 1792) :
    k0_pay15 (F := Ideal) x1 (ix2 u k) = x1 (ix3 (0 : Fin 1) u k) - x1 (ix3 (0 : Fin 1) u k) := by
  unfold k0_pay15
  exact congrArg₂ (· - ·) (pay10_apply x1 u k) (pay10_apply x1 u k)

/-- softplus(x) of an entry. -/
theorem pay12_apply (x0 : Vec Ideal S1x300x1792 .f32) (q : Fin 300) (k : Fin 1792) :
    k0_pay12 (F := Ideal) x0 (ix2 q k) = kneg (x0 (ix3 (0 : Fin 1) q k)) :=
  (rfl : k0_pay12 (F := Ideal) x0 (ix2 q k) = kneg (k0_pay9 (F := Ideal) x0 (ix2 q k))).trans (congrArg kneg (pay9_apply x0 q k))

/-- sigmoid(x) of an entry. -/
theorem pay13_apply (x0 : Vec Ideal S1x300x1792 .f32) (q : Fin 300) (k : Fin 1792) :
    k0_pay13 (F := Ideal) x0 (ix2 q k) = ksig (x0 (ix3 (0 : Fin 1) q k)) :=
  (rfl : k0_pay13 (F := Ideal) x0 (ix2 q k) = ksig (k0_pay9 (F := Ideal) x0 (ix2 q k))).trans (congrArg ksig (pay9_apply x0 q k))

/-! ## The products of a block -/

/-- hi·hi + hi·lo of the prediction by the target. -/
theorem pay16_apply (x0 : Vec Ideal S1x300x1792 .f32) (x1 : Vec Ideal S1x128x1792 .f32) (q : Fin 300) (u : Fin 128) :
    k0_pay16 (F := Ideal) x0 x1 (ix2 q u)
      = ∑ k : Fin 1792, x0 (ix3 (0 : Fin 1) q k) * x1 (ix3 (0 : Fin 1) u k)
        + ∑ k : Fin 1792, x0 (ix3 (0 : Fin 1) q k) * (x1 (ix3 (0 : Fin 1) u k) - x1 (ix3 (0 : Fin 1) u k)) := by
  unfold k0_pay16
  refine (addf_apply _ _ _).trans ?_
  refine congrArg₂ (· + ·) ((mm300 _ _ q u).trans (Finset.sum_congr rfl fun k _ => ?_)) ((mm300 _ _ q u).trans (Finset.sum_congr rfl fun k _ => ?_))
  · exact congrArg₂ (· * ·) (pay9_apply x0 q k) (pay14_apply x1 u k)
  · exact congrArg₂ (· * ·) (pay9_apply x0 q k) (pay15_apply x1 u k)

/-- lo·hi of the prediction by the target. -/
theorem pay17_apply (x0 : Vec Ideal S1x300x1792 .f32) (x1 : Vec Ideal S1x128x1792 .f32) (q : Fin 300) (u : Fin 128) :
    k0_pay17 (F := Ideal) x0 x1 (ix2 q u)
      = ∑ k : Fin 1792, (x0 (ix3 (0 : Fin 1) q k) - x0 (ix3 (0 : Fin 1) q k)) * x1 (ix3 (0 : Fin 1) u k) := by
  unfold k0_pay17
  refine (mm300 _ _ q u).trans (Finset.sum_congr rfl fun k _ => ?_)
  exact congrArg₂ (· * ·) (congrArg₂ (· - ·) (pay9_apply x0 q k) (pay9_apply x0 q k)) (pay14_apply x1 u k)

/-! ## The accumulate steps -/

/-- Σ prediction · target: what was held plus (hi·hi + hi·lo) plus lo·hi. -/
theorem pay18_apply (acc : Vec Ideal S300x128 .f32) (a b : FVec Ideal S300x128 .f32) (i : S300x128.Idx) :
    k0_pay18 (F := Ideal) acc a b i = acc i + (a i + b i) := by
  unfold k0_pay18
  exact congrFun (shapeCast_self _ _) i

/-- Σ sigmoid · target: what was held plus ((hi·hi + hi·lo) + lo·hi) of the three products. -/
theorem pay19_apply (v26 : FVec Ideal S300x1792 .f32) (v27 v30 : FVec Ideal S128x1792 .bf16) (acc : Vec Ideal S300x128 .f32)
    (q : Fin 300) (u : Fin 128) :
    k0_pay19 (F := Ideal) v26 v27 v30 acc (ix2 q u)
      = acc (ix2 q u) + ((∑ k : Fin 1792, v26 (ix2 q k) * v27 (ix2 u k) + ∑ k : Fin 1792, v26 (ix2 q k) * v30 (ix2 u k))
          + ∑ k : Fin 1792, (v26 (ix2 q k) - v26 (ix2 q k)) * v27 (ix2 u k)) := by
  unfold k0_pay19
  refine (congrFun (shapeCast_self _ _) _).trans ?_
  refine (addf_apply _ _ _).trans ?_
  refine congrArg (acc (ix2 q u) + ·) ?_
  refine (addf_apply _ _ _).trans ?_
  refine congrArg₂ (· + ·) ?_ (mm300 _ _ q u)
  refine (addf_apply _ _ _).trans ?_
  exact congrArg₂ (· + ·) (mm300 _ _ q u) (mm300 _ _ q u)

/-- A row sum: what was held at (q, 0) plus the sum over the row's points. -/
theorem pay20_apply (v23 : FVec Ideal S300x1792 .f32) (acc : Vec Ideal S300x1 .f32) (q : Fin 300) :
    k0_pay20 (F := Ideal) v23 acc (ix2 q (0 : Fin 1)) = acc (ix2 q (0 : Fin 1)) + ∑ k : Fin 1792, v23 (ix2 q k) := by
  unfold k0_pay20
  refine (congrFun (shapeCast_self _ _) _).trans ?_
  refine (addf_apply _ _ _).trans ?_
  refine congrArg (acc (ix2 q (0 : Fin 1)) + ·) ?_
  refine (col_cast_apply _ _ q).trans ?_
  exact rowsum_apply v23 _ _ _ q

theorem pay21_apply (v26 : FVec Ideal S300x1792 .f32) (acc : Vec Ideal S300x1 .f32) (q : Fin 300) :
    k0_pay21 (F := Ideal) v26 acc (ix2 q (0 : Fin 1)) = acc (ix2 q (0 : Fin 1)) + ∑ k : Fin 1792, v26 (ix2 q k) := by
  unfold k0_pay21
  refine (congrFun (shapeCast_self _ _) _).trans ?_
  refine (addf_apply _ _ _).trans ?_
  refine congrArg (acc (ix2 q (0 : Fin 1)) + ·) ?_
  refine (col_cast_apply _ _ q).trans ?_
  exact rowsum_apply v26 _ _ _ q

/-- The column sum: what was held at (0, u) plus the product of a row by the target block. -/
theorem pay1_apply (v6 : FVec Ideal S128x1792 .f32) (v73 : FVec Ideal S1x1792 .bf16) (acc : Vec Ideal S1x128 .f32) (u : Fin 128) :
    k0_pay1 (F := Ideal) v6 v73 acc (ix2 (0 : Fin 1) u)
      = acc (ix2 (0 : Fin 1) u) + ∑ k : Fin 1792, v73 (ix2 (0 : Fin 1) k) * v6 (ix2 u k) := by
  unfold k0_pay1
  refine (congrFun (shapeCast_self _ _) _).trans ?_
  refine (addf_apply _ _ _).trans ?_
  exact congrArg (acc (ix2 (0 : Fin 1) u) + ·) (mm1 _ _ u)

/-- The row of ones of the 16-bit format. -/
theorem pay22_apply (i : S1x1792.Idx) : k0_pay22 (F := Ideal) i = Ideal.ofBits .bf16 0x3F80#16 := rfl

/-! ## The zero blocks -/

theorem pay4_apply (i : S300x128.Idx) : k0_pay4 (F := Ideal) i = w32 0x00000000#32 := by
  unfold k0_pay4; exact congrFun (shapeCast_self _ _) i
theorem pay5_apply (i : S300x128.Idx) : k0_pay5 (F := Ideal) i = w32 0x00000000#32 := by
  unfold k0_pay5; exact congrFun (shapeCast_self _ _) i
theorem pay6_apply (i : S300x1.Idx) : k0_pay6 (F := Ideal) i = w32 0x00000000#32 := by
  unfold k0_pay6; exact congrFun (shapeCast_self _ _) i
theorem pay7_apply (i : S300x1.Idx) : k0_pay7 (F := Ideal) i = w32 0x00000000#32 := by
  unfold k0_pay7; exact congrFun (shapeCast_self _ _) i
theorem pay8_apply (i : S1x128.Idx) : k0_pay8 (F := Ideal) i = w32 0x00000000#32 := by
  unfold k0_pay8; exact congrFun (shapeCast_self _ _) i

/-! ## The cost tile -/

/-- The cost formula at (q, u): 0 - ((5 · ((sneg − sxt) / 12544) + 5 · (1 − (2 · sst + 1) / ((srs + scs) + 1))) + 2 · cls), of the row
    sums at (q, 0), the column sum at (0, u), the two product sums at (q, u) and the class cost at (0, q, u). -/
theorem pay3_apply (v84 : Vec Ideal S300x1 .f32) (v85 : Vec Ideal S300x128 .f32) (v90 : Vec Ideal S300x1 .f32) (v91 : Vec Ideal S1x128 .f32)
    (v97 : Vec Ideal S300x128 .f32) (v105 : Vec Ideal S1x300x128 .f32) (q : Fin 300) (u : Fin 128) :
    k0_pay3 (F := Ideal) v84 v85 v90 v91 v97 v105 (ix2 q u)
      = w32 0x00000000#32
        - ((w32 0x40A00000#32 * Ideal.div (v84 (ix2 q (0 : Fin 1)) - v85 (ix2 q u)) (w32 0x46440000#32)
            + w32 0x40A00000#32 * (w32 0x3F800000#32
                - Ideal.div (w32 0x40000000#32 * v97 (ix2 q u) + w32 0x3F800000#32)
                    ((v90 (ix2 q (0 : Fin 1)) + v91 (ix2 (0 : Fin 1) u)) + w32 0x3F800000#32)))
          + w32 0x40000000#32 * v105 (ix3 (0 : Fin 1) q u)) := by
  have e84 := col_bcast_apply v84 Facts₀.broadcasts_S300x1_S300x128 q u
  have e90 := col_bcast_apply v90 Facts₀.broadcasts_S300x1_S300x128 q u
  have e91 := broadcastTo_1b_ab_apply v91 Facts₀.broadcasts_S1x128_S300x128 q u
  have e105 := shapeCast_1ab_ab_apply v105 Facts₀.shapeCasts_S1x300x128_S300x128 q u
  unfold k0_pay3
  show w32 0x00000000#32
        - ((w32 0x40A00000#32 * Ideal.div (broadcastTo S300x128 v84 _ (ix2 q u) - v85 (ix2 q u)) (w32 0x46440000#32)
            + w32 0x40A00000#32 * (w32 0x3F800000#32
                - Ideal.div (w32 0x40000000#32 * v97 (ix2 q u) + w32 0x3F800000#32)
                    ((broadcastTo S300x128 v90 _ (ix2 q u) + broadcastTo S300x128 v91 _ (ix2 q u)) + w32 0x3F800000#32)))
          + w32 0x40000000#32 * shapeCast S300x128 v105 _ (ix2 q u)) = _
  rw [e84, e90, e91, e105]

/-- The tile with its leading unit axis: (0, q, u) reads (q, u). -/
theorem pay2_apply (v116 : FVec Ideal S300x128 .f32) (q : Fin 300) (u : Fin 128) :
    k0_pay2 (F := Ideal) v116 (ix3 (0 : Fin 1) q u) = v116 (ix2 q u) := by
  unfold k0_pay2
  exact shapeCast_ab_1ab_apply v116 _ (0 : Fin 1) q u

end Cert.KernelIdeal.Val

end
-- ==== Proof.KernelIdeal.ValSteps.lean ====
/-
  One block's step of each accumulator, read at an index in the vocabulary of the specification: what the accumulator held there plus
  the block's contribution (Σ prediction·target, Σ sigmoid·target, the two row sums, the column sum) of the block's entries; and the
  cost tile of the last block at an index.
-/
import proofs.«122505_j52948356825308_2_alg».proof.Proof.KernelIdeal.ValPayloads
import proofs.«122505_j52948356825308_2_alg».proof.Proof.KernelIdeal.ValSpec

set_option maxRecDepth 16384

noncomputable section

open scoped BigOperators

namespace Cert.KernelIdeal.Val

open Cert.KernelIdeal Cert.KernelIdeal.Gen
open Idealize.ShloMosaic Idealize.ShloMosaic.ValueIdx
open Cert.Math (kpos kneg ksig)

/-- A prediction block's entries by query row and point. -/
def entX (x0 : Vec Ideal S1x300x1792 .f32) : Fin 300 → Fin 1792 → EReal := fun q k => x0 (ix3 (0 : Fin 1) q k)
/-- A target block's entries by target column and point. -/
def entT (x1 : Vec Ideal S1x128x1792 .f32) : Fin 128 → Fin 1792 → EReal := fun u k => x1 (ix3 (0 : Fin 1) u k)

theorem stepOT_apply (x0 : Vec Ideal S1x300x1792 .f32) (x1 : Vec Ideal S1x128x1792 .f32) (acc : Vec Ideal S300x128 .f32)
    (q : Fin 300) (u : Fin 128) :
    k0_pay18 (F := Ideal) acc (k0_pay16 x0 x1) (k0_pay17 x0 x1) (ix2 q u) = acc (ix2 q u) + cOT (entX x0) (entT x1) q u := by
  rw [pay18_apply, pay16_apply, pay17_apply]
  rfl

theorem stepSig_apply (x0 : Vec Ideal S1x300x1792 .f32) (x1 : Vec Ideal S1x128x1792 .f32) (acc : Vec Ideal S300x128 .f32)
    (q : Fin 300) (u : Fin 128) :
    k0_pay19 (F := Ideal) (k0_pay13 x0) (k0_pay14 x1) (k0_pay15 x1) acc (ix2 q u) = acc (ix2 q u) + cSig (entX x0) (entT x1) q u := by
  rw [pay19_apply]
  refine congrArg (acc (ix2 q u) + ·) ?_
  unfold cSig entX entT
  refine congrArg₂ (· + ·) (congrArg₂ (· + ·) (Finset.sum_congr rfl fun k _ => ?_) (Finset.sum_congr rfl fun k _ => ?_)) (Finset.sum_congr rfl fun k _ => ?_)
  · rw [pay13_apply, pay14_apply]
  · rw [pay13_apply, pay15_apply]
  · rw [pay13_apply, pay14_apply]

theorem stepNeg_apply (x0 : Vec Ideal S1x300x1792 .f32) (acc : Vec Ideal S300x1 .f32) (q : Fin 300) :
    k0_pay20 (F := Ideal) (k0_pay12 x0) acc (ix2 q (0 : Fin 1)) = acc (ix2 q (0 : Fin 1)) + cNeg (entX x0) q := by
  rw [pay20_apply]
  refine congrArg (acc (ix2 q (0 : Fin 1)) + ·) ?_
  unfold cNeg entX
  exact Finset.sum_congr rfl fun k _ => pay12_apply x0 q k

theorem stepRS_apply (x0 : Vec Ideal S1x300x1792 .f32) (acc : Vec Ideal S300x1 .f32) (q : Fin 300) :
    k0_pay21 (F := Ideal) (k0_pay13 x0) acc (ix2 q (0 : Fin 1)) = acc (ix2 q (0 : Fin 1)) + cRS (entX x0) q := by
  rw [pay21_apply]
  refine congrArg (acc (ix2 q (0 : Fin 1)) + ·) ?_
  unfold cRS entX
  exact Finset.sum_congr rfl fun k _ => pay13_apply x0 q k

theorem stepCS_apply (x1 : Vec Ideal S1x128x1792 .f32) (acc : Vec Ideal S1x128 .f32) (u : Fin 128) :
    k0_pay1 (F := Ideal) (k0_pay10 x1) k0_pay22 acc (ix2 (0 : Fin 1) u) = acc (ix2 (0 : Fin 1) u) + cCS (entT x1) u := by
  rw [pay1_apply]
  refine congrArg (acc (ix2 (0 : Fin 1) u) + ·) ?_
  unfold cCS entT
  exact Finset.sum_congr rfl fun k _ => congrArg₂ (· * ·) (pay22_apply _) (pay10_apply x1 u k)

/-- The cost tile at (0, q, u): the cost of the five sums there and the class cost. -/
theorem tile_apply (sneg : Vec Ideal S300x1 .f32) (sxt : Vec Ideal S300x128 .f32) (srs : Vec Ideal S300x1 .f32) (scs : Vec Ideal S1x128 .f32)
    (sst : Vec Ideal S300x128 .f32) (cls : Vec Ideal S1x300x128 .f32) (q : Fin 300) (u : Fin 128) :
    k0_pay2 (F := Ideal) (k0_pay3 sneg sxt srs scs sst cls) (ix3 (0 : Fin 1) q u)
      = cost (sneg (ix2 q (0 : Fin 1))) (sxt (ix2 q u)) (srs (ix2 q (0 : Fin 1))) (scs (ix2 (0 : Fin 1) u)) (sst (ix2 q u)) (cls (ix3 (0 : Fin 1) q u)) := by
  rw [pay2_apply, pay3_apply]
  rfl

end Cert.KernelIdeal.Val

end
-- ==== Proof.KernelIdeal.ValBlocks.lean ====
/-
  The region's windows over the grid: point t = 7·b + p reads block (b, 0, p) of the sampled predictions and of the sampled targets
  (1792 points of batch b) and block (b, 0, 0) of the class costs, and — at p = 6 only — writes block (b, 0, 0) of the result.
  Here: those block indices decided over the 28 points, each input block's entries as entries of its array, where the result
  block sits in the result array, and that the seven-th points' blocks cover it.
-/
import proofs.«122505_j52948356825308_2_alg».proof.Proof.KernelIdeal.Frame
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ)

/-- The four windows' block indices at point t: batch t / 7; the point block t % 7 for the two sampled arrays. -/
theorem idx_facts : ∀ t : Fin cfg0.N,
    win0_0.index t (0 : Fin 3) = t.val / 7 ∧ win0_0.index t (1 : Fin 3) = 0 ∧ win0_0.index t (2 : Fin 3) = t.val % 7
    ∧ win0_1.index t (0 : Fin 3) = t.val / 7 ∧ win0_1.index t (1 : Fin 3) = 0 ∧ win0_1.index t (2 : Fin 3) = t.val % 7
    ∧ win0_2.index t (0 : Fin 3) = t.val / 7 ∧ win0_2.index t (1 : Fin 3) = 0 ∧ win0_2.index t (2 : Fin 3) = 0
    ∧ win0_3.index t (0 : Fin 3) = t.val / 7 ∧ win0_3.index t (1 : Fin 3) = 0 ∧ win0_3.index t (2 : Fin 3) = 0 :=
  (by decide +kernel : ∀ t : Fin grid0.N, _)

/-- The prediction block at point t: entry (0, q, k) is the array's entry (t / 7, q, 1792 · (t % 7) + k). -/
theorem iblk0_apply (c : Dev nD) (t : Fin cfg0.N) (q : Fin 300) (k : Fin 1792) (β : Fin 4) (p : Fin 12544)
    (hβ : β.val = t.val / 7) (hp : p.val = 1792 * (t.val % 7) + k.val) :
    (iblk m c 0 t : Vec F S1x300x1792 .f32) (ix3 (0 : Fin 1) q k) = (V m c main_v78 : S4x300x12544.Idx → Elt F .f32) (ix3 β q p) := by
  obtain ⟨e0, e1, e2, -⟩ := idx_facts t
  unfold iblk
  rw [View.read_apply]
  show V m c main_v78 _ = V m c main_v78 _
  refine congrArg (V m c main_v78) ?_
  funext a
  apply Fin.ext
  match a with
  | ⟨0, _⟩ => show win0_0.index t (0 : Fin 3) * 1 + 1 * 0 = β.val; rw [e0, hβ]; omega
  | ⟨1, _⟩ => show win0_0.index t (1 : Fin 3) * 300 + 1 * q.val = q.val; rw [e1]; omega
  | ⟨2, _⟩ => show win0_0.index t (2 : Fin 3) * 1792 + 1 * k.val = p.val; rw [e2, hp]; omega

/-- The target block at point t: entry (0, u, k) is the array's entry (t / 7, u, 1792 · (t % 7) + k). -/
theorem iblk1_apply (c : Dev nD) (t : Fin cfg0.N) (u : Fin 128) (k : Fin 1792) (β : Fin 4) (p : Fin 12544)
    (hβ : β.val = t.val / 7) (hp : p.val = 1792 * (t.val % 7) + k.val) :
    (iblk m c 1 t : Vec F S1x128x1792 .f32) (ix3 (0 : Fin 1) u k) = (V m c main_v158 : S4x128x12544.Idx → Elt F .f32) (ix3 β u p) := by
  obtain ⟨-, -, -, e0, e1, e2, -⟩ := idx_facts t
  unfold iblk
  rw [View.read_apply]
  show V m c main_v158 _ = V m c main_v158 _
  refine congrArg (V m c main_v158) ?_
  funext a
  apply Fin.ext
  match a with
  | ⟨0, _⟩ => show win0_1.index t (0 : Fin 3) * 1 + 1 * 0 = β.val; rw [e0, hβ]; omega
  | ⟨1, _⟩ => show win0_1.index t (1 : Fin 3) * 128 + 1 * u.val = u.val; rw [e1]; omega
  | ⟨2, _⟩ => show win0_1.index t (2 : Fin 3) * 1792 + 1 * k.val = p.val; rw [e2, hp]; omega

/-- The class-cost block at point t: entry (0, q, u) is the array's entry (t / 7, q, u). -/
theorem iblk2_apply (c : Dev nD) (t : Fin cfg0.N) (q : Fin 300) (u : Fin 128) (β : Fin 4) (hβ : β.val = t.val / 7) :
    (iblk m c 2 t : Vec F S1x300x128 .f32) (ix3 (0 : Fin 1) q u) = (V m c main_v202 : S4x300x128.Idx → Elt F .f32) (ix3 β q u) := by
  obtain ⟨-, -, -, -, -, -, e0, e1, e2, -⟩ := idx_facts t
  unfold iblk
  rw [View.read_apply]
  show V m c main_v202 _ = V m c main_v202 _
  refine congrArg (V m c main_v202) ?_
  funext a
  apply Fin.ext
  match a with
  | ⟨0, _⟩ => show win0_2.index t (0 : Fin 3) * 1 + 1 * 0 = β.val; rw [e0, hβ]; omega
  | ⟨1, _⟩ => show win0_2.index t (1 : Fin 3) * 300 + 1 * q.val = q.val; rw [e1]; omega
  | ⟨2, _⟩ => show win0_2.index t (2 : Fin 3) * 128 + 1 * u.val = u.val; rw [e2]; omega

/-- Where the result block of point t sits in the result array: entry (0, q, u) at (t / 7, q, u). -/
theorem emb3 (t : Fin cfg0.N) (q : Fin 300) (u : Fin 128) (β : Fin 4) (hβ : β.val = t.val / 7) :
    (((cfg0.win 3).blk t).view.emb (ix3 (0 : Fin 1) q u) : S4x300x128.Idx) = ix3 β q u := by
  obtain ⟨-, -, -, -, -, -, -, -, -, e0, e1, e2⟩ := idx_facts t
  funext a
  apply Fin.ext
  match a with
  | ⟨0, _⟩ => show win0_3.index t (0 : Fin 3) * 1 + 1 * 0 = β.val; rw [e0, hβ]; omega
  | ⟨1, _⟩ => show win0_3.index t (1 : Fin 3) * 300 + 1 * q.val = q.val; rw [e1]; omega
  | ⟨2, _⟩ => show win0_3.index t (2 : Fin 3) * 128 + 1 * u.val = u.val; rw [e2]; omega

/-- An index of the result array is in point t's block iff each coordinate is in the block's range on its axis. -/
theorem mem_blk3 (t : Fin cfg0.N) (i : S4x300x128.Idx) :
    i ∈ ((cfg0.win 3).blk t).view.set ↔ ∀ a : Fin 3, win0_3.index t a * S1x300x128.size a ≤ (i a).val ∧ (i a).val < win0_3.index t a * S1x300x128.size a + S1x300x128.size a := by
  show i ∈ ((View.whole main_v203).slice (win0_3.rect t)).set ↔ _
  rw [View.set_slice_whole, Rect.mem_set_unit]
  exact Iff.rfl

/-- Every index of the result array lies in the block some batch's last point writes back: batch i₀'s, at point 7·i₀ + 6. -/
theorem cover3 (i : S4x300x128.Idx) : ∃ t : Fin cfg0.N, (cfg0.win 3).flush t = true ∧ i ∈ ((cfg0.win 3).blk t).view.set := by
  have hN : cfg0.N = 28 := N_0
  have h0 : (i 0).val < 4 := (i 0).isLt
  have h1 : (i 1).val < 300 := (i 1).isLt
  have h2 : (i 2).val < 128 := (i 2).isLt
  refine ⟨⟨7 * (i 0).val + 6, by omega⟩, (flush0_3 _).mpr (by show (7 * (i 0).val + 6) % 7 = 6; omega), ?_⟩
  rw [mem_blk3]
  obtain ⟨-, -, -, -, -, -, -, -, -, e0, e1, e2⟩ := idx_facts ⟨7 * (i 0).val + 6, by omega⟩
  have hd : (7 * (i 0).val + 6) / 7 = (i 0).val := by omega
  intro a
  match a with
  | ⟨0, _⟩ => show win0_3.index _ (0 : Fin 3) * 1 ≤ (i 0).val ∧ (i 0).val < win0_3.index _ (0 : Fin 3) * 1 + 1; rw [e0]; dsimp only; omega
  | ⟨1, _⟩ => show win0_3.index _ (1 : Fin 3) * 300 ≤ (i 1).val ∧ (i 1).val < win0_3.index _ (1 : Fin 3) * 300 + 300; rw [e1]; omega
  | ⟨2, _⟩ => show win0_3.index _ (2 : Fin 3) * 128 ≤ (i 2).val ∧ (i 2).val < win0_3.index _ (2 : Fin 3) * 128 + 128; rw [e2]; omega

end Cert.KernelIdeal.Val

end
-- ==== Proof.KernelIdeal.ValInduction.lean ====
/-
  The five accumulators over a batch: after the batch's block p each holds, at every index, the sum of the contributions of the
  blocks 0 … p (a first block starts from the zero block, every later one adds to what the block before left) — by induction on
  the block, never by enumerating the grid — with each block's entries read as entries of the sampled arrays. So after a batch's last
  block the five sums are complete, and the cost tile formed there is the specification's cost at the batch.
-/
import proofs.«122505_j52948356825308_2_alg».proof.Proof.KernelIdeal.ValPieces
import proofs.«122505_j52948356825308_2_alg».proof.Proof.KernelIdeal.ValSteps
import proofs.«122505_j52948356825308_2_alg».proof.Proof.KernelIdeal.ValBlocks

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-- A quantity that starts at `z` plus its first addend at the multiples of 7 and adds its addend to what the point before left at
    every other point is, at point 7·b + j (j < 7), `z` plus the addends of the points 7·b … 7·b + j. -/
theorem fold_blocks {ι : Type} {N : ℕ} (A : (n : ℕ) → n < N → ι → EReal) (M : ℕ → ι → EReal) (z : EReal)
    (hfirst : ∀ (n : ℕ) (h : n < N), n % 7 = 0 → ∀ i, A n h i = z + M n i)
    (hstep : ∀ (n : ℕ) (h : n + 1 < N), ¬(n + 1) % 7 = 0 → ∀ i, A (n + 1) h i = A n (Nat.lt_of_succ_lt h) i + M (n + 1) i)
    (b : ℕ) : ∀ (j : ℕ), j < 7 → ∀ (h : 7 * b + j < N) (i : ι), A (7 * b + j) h i = z + ∑ s ∈ Finset.range (j + 1), M (7 * b + s) i
  | 0, _, h, i => by
    rw [Finset.sum_range_one]
    exact hfirst _ h (by omega) i
  | j + 1, hj, h, i => by
    refine (hstep (7 * b + j) h (by omega) i).trans ?_
    rw [fold_blocks A M z hfirst hstep b j (by omega) (Nat.lt_of_succ_lt h) i, Finset.sum_range_succ _ (j + 1), add_assoc]
    rfl

theorem w32_zero : w32 0x00000000#32 = 0 := Ideal.ofBits_zero_f32

variable (m : (ℓ : Loc nD τ sig) → Buf (Elt Ideal) ℓ)

/-- The three arrays the region reads, as it finds them: the sampled predictions, the sampled (padded) targets, the (padded) class costs. -/
abbrev XA (c : Dev nD) : (⟨3, ![4, 300, 12544]⟩ : Shape).Idx → EReal := V m c main_v78
abbrev TA (c : Dev nD) : (⟨3, ![4, 128, 12544]⟩ : Shape).Idx → EReal := V m c main_v158
abbrev CA (c : Dev nD) : (⟨3, ![4, 300, 128]⟩ : Shape).Idx → EReal := V m c main_v202

/-- The three input blocks at a point named by its number. -/
abbrev bx (c : Dev nD) (n : ℕ) (h : n < cfg0.N) : Vec Ideal S1x300x1792 .f32 := iblk m c 0 ⟨n, h⟩
abbrev bt (c : Dev nD) (n : ℕ) (h : n < cfg0.N) : Vec Ideal S1x128x1792 .f32 := iblk m c 1 ⟨n, h⟩
abbrev bc (c : Dev nD) (n : ℕ) (h : n < cfg0.N) : Vec Ideal S1x300x128 .f32 := iblk m c 2 ⟨n, h⟩

/-- The prediction block of point 7·β + j is batch β's block j of the sampled predictions. -/
theorem entX_bx (c : Dev nD) (β : Fin 4) (j : Fin 7) (h : 7 * β.val + j.val < cfg0.N) :
    entX (bx m c (7 * β.val + j.val) h) = blkX (XA m c) β j := by
  funext q k
  have hβ : β.val = (7 * β.val + j.val) / 7 := by have := j.isLt; omega
  have hj : (7 * β.val + j.val) % 7 = j.val := by have := j.isLt; omega
  exact iblk0_apply m c ⟨7 * β.val + j.val, h⟩ q k β (pt j k) hβ (by show 1792 * j.val + k.val = 1792 * ((7 * β.val + j.val) % 7) + k.val; rw [hj])

/-- The target block of point 7·β + j is batch β's block j of the sampled targets. -/
theorem entT_bt (c : Dev nD) (β : Fin 4) (j : Fin 7) (h : 7 * β.val + j.val < cfg0.N) :
    entT (bt m c (7 * β.val + j.val) h) = blkT (TA m c) β j := by
  funext u k
  have hβ : β.val = (7 * β.val + j.val) / 7 := by have := j.isLt; omega
  have hj : (7 * β.val + j.val) % 7 = j.val := by have := j.isLt; omega
  exact iblk1_apply m c ⟨7 * β.val + j.val, h⟩ u k β (pt j k) hβ (by show 1792 * j.val + k.val = 1792 * ((7 * β.val + j.val) % 7) + k.val; rw [hj])

/-! ## Accumulator 0 -/

/-- After a first block: the zero block plus the block's contribution. -/
theorem acc0_first (c : Dev nD) (n : ℕ) (h : n < cfg0.N) (hn : n % 7 = 0) :
    (outsAt m c n h).2.1 = k0_pay18 (k0_pay4 (F := Ideal)) (k0_pay16 (bx m c n h) (bt m c n h)) (k0_pay17 (bx m c n h) (bt m c n h)) := by
  have h1 : ¬n % 7 = 6 := by omega
  exact (congrArg (fun z => z.2.1) (outsAt_first m c ⟨n, h⟩ hn h1)).trans
    (accsFirst_0 c ⟨n, h⟩ hn h1 (bx m c n h) (bt m c n h) (bc m c n h))

/-- After any later block: what the block before left plus the block's contribution. -/
theorem acc0_step (c : Dev nD) (n : ℕ) (h : n + 1 < cfg0.N) (hne : ¬(n + 1) % 7 = 0) :
    (outsAt m c (n + 1) h).2.1 = k0_pay18 (outsAt m c n (Nat.lt_of_succ_lt h)).2.1 (k0_pay16 (bx m c (n + 1) h) (bt m c (n + 1) h)) (k0_pay17 (bx m c (n + 1) h) (bt m c (n + 1) h)) := by
  by_cases h1 : (n + 1) % 7 = 6
  · exact (congrArg (fun z => z.2.1) (outsAt_last m c ⟨n + 1, h⟩ hne h1)).trans
      (accsLast_0 c ⟨n + 1, h⟩ hne h1 (bx m c (n + 1) h) (bt m c (n + 1) h) (bc m c (n + 1) h) (outsAt m c n (Nat.lt_of_succ_lt h)).2)
  · exact (congrArg (fun z => z.2.1) (outsAt_middle m c ⟨n + 1, h⟩ hne h1)).trans
      (accsMiddle_0 c ⟨n + 1, h⟩ hne h1 (bx m c (n + 1) h) (bt m c (n + 1) h) (bc m c (n + 1) h) (outsAt m c n (Nat.lt_of_succ_lt h)).2)

/-- Point n's addend. -/
def M0 (c : Dev nD) (n : ℕ) (p : Fin 300 × Fin 128) : EReal :=
  if h : n < cfg0.N then cOT (entX (bx m c n h)) (entT (bt m c n h)) p.1 p.2 else 0

theorem acc0_sum (c : Dev nD) (b j : ℕ) (hj : j < 7) (h : 7 * b + j < cfg0.N) (p : Fin 300 × Fin 128) :
    (outsAt m c (7 * b + j) h).2.1 (ix2 p.1 p.2) = w32 0x00000000#32 + ∑ s ∈ Finset.range (j + 1), M0 m c (7 * b + s) p :=
  fold_blocks (fun n h p => (outsAt m c n h).2.1 (ix2 p.1 p.2)) (M0 m c) (w32 0x00000000#32)
    (fun n h hn p => by
      refine (congrFun (acc0_first m c n h hn) _).trans ((stepOT_apply (bx m c n h) (bt m c n h) (k0_pay4 (F := Ideal)) p.1 p.2).trans ?_)
      rw [pay4_apply]
      unfold M0
      rw [dif_pos h])
    (fun n h hne p => by
      refine (congrFun (acc0_step m c n h hne) _).trans ((stepOT_apply (bx m c (n + 1) h) (bt m c (n + 1) h) ((outsAt m c n (Nat.lt_of_succ_lt h)).2.1) p.1 p.2).trans ?_)
      unfold M0
      rw [dif_pos h])
    b j hj h p

/-- The addend of point 7·β + s is batch β's block s's contribution. -/
theorem M0_eq (c : Dev nD) (β : Fin 4) (s : Fin 7) (p : Fin 300 × Fin 128) :
    M0 m c (7 * β.val + s.val) p = cOT (blkX (XA m c) β s) (blkT (TA m c) β s) p.1 p.2 := by
  have hN : cfg0.N = 28 := N_0
  have h : 7 * β.val + s.val < cfg0.N := by have := β.isLt; have := s.isLt; omega
  unfold M0
  rw [dif_pos h, entX_bx m c β s h, entT_bt m c β s h]

/-- After batch β's last block: the sum over the batch's seven blocks. -/
theorem acc0_last (c : Dev nD) (β : Fin 4) (n : ℕ) (h : n < cfg0.N) (hn : n = 7 * β.val + 6) (q : Fin 300) (u : Fin 128) :
    (outsAt m c n h).2.1 (ix2 q u) = ∑ j : Fin 7, cOT (blkX (XA m c) β j) (blkT (TA m c) β j) q u := by
  subst hn
  refine (acc0_sum m c β.val 6 (by decide) h (q, u)).trans ?_
  rw [w32_zero, zero_add, Finset.sum_range]
  exact Finset.sum_congr rfl fun j _ => M0_eq m c β j (q, u)

/-! ## Accumulator 1 -/

/-- After a first block: the zero block plus the block's contribution. -/
theorem acc1_first (c : Dev nD) (n : ℕ) (h : n < cfg0.N) (hn : n % 7 = 0) :
    (outsAt m c n h).2.2.1 = k0_pay19 (k0_pay13 (bx m c n h)) (k0_pay14 (bt m c n h)) (k0_pay15 (bt m c n h)) (k0_pay5 (F := Ideal)) := by
  have h1 : ¬n % 7 = 6 := by omega
  exact (congrArg (fun z => z.2.2.1) (outsAt_first m c ⟨n, h⟩ hn h1)).trans
    (accsFirst_1 c ⟨n, h⟩ hn h1 (bx m c n h) (bt m c n h) (bc m c n h))

/-- After any later block: what the block before left plus the block's contribution. -/
theorem acc1_step (c : Dev nD) (n : ℕ) (h : n + 1 < cfg0.N) (hne : ¬(n + 1) % 7 = 0) :
    (outsAt m c (n + 1) h).2.2.1 = k0_pay19 (k0_pay13 (bx m c (n + 1) h)) (k0_pay14 (bt m c (n + 1) h)) (k0_pay15 (bt m c (n + 1) h)) (outsAt m c n (Nat.lt_of_succ_lt h)).2.2.1 := by
  by_cases h1 : (n + 1) % 7 = 6
  · exact (congrArg (fun z => z.2.2.1) (outsAt_last m c ⟨n + 1, h⟩ hne h1)).trans
      (accsLast_1 c ⟨n + 1, h⟩ hne h1 (bx m c (n + 1) h) (bt m c (n + 1) h) (bc m c (n + 1) h) (outsAt m c n (Nat.lt_of_succ_lt h)).2)
  · exact (congrArg (fun z => z.2.2.1) (outsAt_middle m c ⟨n + 1, h⟩ hne h1)).trans
      (accsMiddle_1 c ⟨n + 1, h⟩ hne h1 (bx m c (n + 1) h) (bt m c (n + 1) h) (bc m c (n + 1) h) (outsAt m c n (Nat.lt_of_succ_lt h)).2)

/-- Point n's addend. -/
def M1 (c : Dev nD) (n : ℕ) (p : Fin 300 × Fin 128) : EReal :=
  if h : n < cfg0.N then cSig (entX (bx m c n h)) (entT (bt m c n h)) p.1 p.2 else 0

theorem acc1_sum (c : Dev nD) (b j : ℕ) (hj : j < 7) (h : 7 * b + j < cfg0.N) (p : Fin 300 × Fin 128) :
    (outsAt m c (7 * b + j) h).2.2.1 (ix2 p.1 p.2) = w32 0x00000000#32 + ∑ s ∈ Finset.range (j + 1), M1 m c (7 * b + s) p :=
  fold_blocks (fun n h p => (outsAt m c n h).2.2.1 (ix2 p.1 p.2)) (M1 m c) (w32 0x00000000#32)
    (fun n h hn p => by
      refine (congrFun (acc1_first m c n h hn) _).trans ((stepSig_apply (bx m c n h) (bt m c n h) (k0_pay5 (F := Ideal)) p.1 p.2).trans ?_)
      rw [pay5_apply]
      unfold M1
      rw [dif_pos h])
    (fun n h hne p => by
      refine (congrFun (acc1_step m c n h hne) _).trans ((stepSig_apply (bx m c (n + 1) h) (bt m c (n + 1) h) ((outsAt m c n (Nat.lt_of_succ_lt h)).2.2.1) p.1 p.2).trans ?_)
      unfold M1
      rw [dif_pos h])
    b j hj h p

/-- The addend of point 7·β + s is batch β's block s's contribution. -/
theorem M1_eq (c : Dev nD) (β : Fin 4) (s : Fin 7) (p : Fin 300 × Fin 128) :
    M1 m c (7 * β.val + s.val) p = cSig (blkX (XA m c) β s) (blkT (TA m c) β s) p.1 p.2 := by
  have hN : cfg0.N = 28 := N_0
  have h : 7 * β.val + s.val < cfg0.N := by have := β.isLt; have := s.isLt; omega
  unfold M1
  rw [dif_pos h, entX_bx m c β s h, entT_bt m c β s h]

/-- After batch β's last block: the sum over the batch's seven blocks. -/
theorem acc1_last (c : Dev nD) (β : Fin 4) (n : ℕ) (h : n < cfg0.N) (hn : n = 7 * β.val + 6) (q : Fin 300) (u : Fin 128) :
    (outsAt m c n h).2.2.1 (ix2 q u) = ∑ j : Fin 7, cSig (blkX (XA m c) β j) (blkT (TA m c) β j) q u := by
  subst hn
  refine (acc1_sum m c β.val 6 (by decide) h (q, u)).trans ?_
  rw [w32_zero, zero_add, Finset.sum_range]
  exact Finset.sum_congr rfl fun j _ => M1_eq m c β j (q, u)

/-! ## Accumulator 2 -/

/-- After a first block: the zero block plus the block's contribution. -/
theorem acc2_first (c : Dev nD) (n : ℕ) (h : n < cfg0.N) (hn : n % 7 = 0) :
    (outsAt m c n h).2.2.2.1 = k0_pay20 (k0_pay12 (bx m c n h)) (k0_pay6 (F := Ideal)) := by
  have h1 : ¬n % 7 = 6 := by omega
  exact (congrArg (fun z => z.2.2.2.1) (outsAt_first m c ⟨n, h⟩ hn h1)).trans
    (accsFirst_2 c ⟨n, h⟩ hn h1 (bx m c n h) (bt m c n h) (bc m c n h))

/-- After any later block: what the block before left plus the block's contribution. -/
theorem acc2_step (c : Dev nD) (n : ℕ) (h : n + 1 < cfg0.N) (hne : ¬(n + 1) % 7 = 0) :
    (outsAt m c (n + 1) h).2.2.2.1 = k0_pay20 (k0_pay12 (bx m c (n + 1) h)) (outsAt m c n (Nat.lt_of_succ_lt h)).2.2.2.1 := by
  by_cases h1 : (n + 1) % 7 = 6
  · exact (congrArg (fun z => z.2.2.2.1) (outsAt_last m c ⟨n + 1, h⟩ hne h1)).trans
      (accsLast_2 c ⟨n + 1, h⟩ hne h1 (bx m c (n + 1) h) (bt m c (n + 1) h) (bc m c (n + 1) h) (outsAt m c n (Nat.lt_of_succ_lt h)).2)
  · exact (congrArg (fun z => z.2.2.2.1) (outsAt_middle m c ⟨n + 1, h⟩ hne h1)).trans
      (accsMiddle_2 c ⟨n + 1, h⟩ hne h1 (bx m c (n + 1) h) (bt m c (n + 1) h) (bc m c (n + 1) h) (outsAt m c n (Nat.lt_of_succ_lt h)).2)

/-- Point n's addend. -/
def M2 (c : Dev nD) (n : ℕ) (p : Fin 300) : EReal :=
  if h : n < cfg0.N then cNeg (entX (bx m c n h)) p else 0

theorem acc2_sum (c : Dev nD) (b j : ℕ) (hj : j < 7) (h : 7 * b + j < cfg0.N) (p : Fin 300) :
    (outsAt m c (7 * b + j) h).2.2.2.1 (ix2 p (0 : Fin 1)) = w32 0x00000000#32 + ∑ s ∈ Finset.range (j + 1), M2 m c (7 * b + s) p :=
  fold_blocks (fun n h p => (outsAt m c n h).2.2.2.1 (ix2 p (0 : Fin 1))) (M2 m c) (w32 0x00000000#32)
    (fun n h hn p => by
      refine (congrFun (acc2_first m c n h hn) _).trans ((stepNeg_apply (bx m c n h) (k0_pay6 (F := Ideal)) p).trans ?_)
      rw [pay6_apply]
      unfold M2
      rw [dif_pos h])
    (fun n h hne p => by
      refine (congrFun (acc2_step m c n h hne) _).trans ((stepNeg_apply (bx m c (n + 1) h) ((outsAt m c n (Nat.lt_of_succ_lt h)).2.2.2.1) p).trans ?_)
      unfold M2
      rw [dif_pos h])
    b j hj h p

/-- The addend of point 7·β + s is batch β's block s's contribution. -/
theorem M2_eq (c : Dev nD) (β : Fin 4) (s : Fin 7) (p : Fin 300) :
    M2 m c (7 * β.val + s.val) p = cNeg (blkX (XA m c) β s) p := by
  have hN : cfg0.N = 28 := N_0
  have h : 7 * β.val + s.val < cfg0.N := by have := β.isLt; have := s.isLt; omega
  unfold M2
  rw [dif_pos h, entX_bx m c β s h]

/-- After batch β's last block: the sum over the batch's seven blocks. -/
theorem acc2_last (c : Dev nD) (β : Fin 4) (n : ℕ) (h : n < cfg0.N) (hn : n = 7 * β.val + 6) (q : Fin 300) :
    (outsAt m c n h).2.2.2.1 (ix2 q (0 : Fin 1)) = ∑ j : Fin 7, cNeg (blkX (XA m c) β j) q := by
  subst hn
  refine (acc2_sum m c β.val 6 (by decide) h q).trans ?_
  rw [w32_zero, zero_add, Finset.sum_range]
  exact Finset.sum_congr rfl fun j _ => M2_eq m c β j q

/-! ## Accumulator 3 -/

/-- After a first block: the zero block plus the block's contribution. -/
theorem acc3_first (c : Dev nD) (n : ℕ) (h : n < cfg0.N) (hn : n % 7 = 0) :
    (outsAt m c n h).2.2.2.2.1 = k0_pay21 (k0_pay13 (bx m c n h)) (k0_pay7 (F := Ideal)) := by
  have h1 : ¬n % 7 = 6 := by omega
  exact (congrArg (fun z => z.2.2.2.2.1) (outsAt_first m c ⟨n, h⟩ hn h1)).trans
    (accsFirst_3 c ⟨n, h⟩ hn h1 (bx m c n h) (bt m c n h) (bc m c n h))

/-- After any later block: what the block before left plus the block's contribution. -/
theorem acc3_step (c : Dev nD) (n : ℕ) (h : n + 1 < cfg0.N) (hne : ¬(n + 1) % 7 = 0) :
    (outsAt m c (n + 1) h).2.2.2.2.1 = k0_pay21 (k0_pay13 (bx m c (n + 1) h)) (outsAt m c n (Nat.lt_of_succ_lt h)).2.2.2.2.1 := by
  by_cases h1 : (n + 1) % 7 = 6
  · exact (congrArg (fun z => z.2.2.2.2.1) (outsAt_last m c ⟨n + 1, h⟩ hne h1)).trans
      (accsLast_3 c ⟨n + 1, h⟩ hne h1 (bx m c (n + 1) h) (bt m c (n + 1) h) (bc m c (n + 1) h) (outsAt m c n (Nat.lt_of_succ_lt h)).2)
  · exact (congrArg (fun z => z.2.2.2.2.1) (outsAt_middle m c ⟨n + 1, h⟩ hne h1)).trans
      (accsMiddle_3 c ⟨n + 1, h⟩ hne h1 (bx m c (n + 1) h) (bt m c (n + 1) h) (bc m c (n + 1) h) (outsAt m c n (Nat.lt_of_succ_lt h)).2)

/-- Point n's addend. -/
def M3 (c : Dev nD) (n : ℕ) (p : Fin 300) : EReal :=
  if h : n < cfg0.N then cRS (entX (bx m c n h)) p else 0

theorem acc3_sum (c : Dev nD) (b j : ℕ) (hj : j < 7) (h : 7 * b + j < cfg0.N) (p : Fin 300) :
    (outsAt m c (7 * b + j) h).2.2.2.2.1 (ix2 p (0 : Fin 1)) = w32 0x00000000#32 + ∑ s ∈ Finset.range (j + 1), M3 m c (7 * b + s) p :=
  fold_blocks (fun n h p => (outsAt m c n h).2.2.2.2.1 (ix2 p (0 : Fin 1))) (M3 m c) (w32 0x00000000#32)
    (fun n h hn p => by
      refine (congrFun (acc3_first m c n h hn) _).trans ((stepRS_apply (bx m c n h) (k0_pay7 (F := Ideal)) p).trans ?_)
      rw [pay7_apply]
      unfold M3
      rw [dif_pos h])
    (fun n h hne p => by
      refine (congrFun (acc3_step m c n h hne) _).trans ((stepRS_apply (bx m c (n + 1) h) ((outsAt m c n (Nat.lt_of_succ_lt h)).2.2.2.2.1) p).trans ?_)
      unfold M3
      rw [dif_pos h])
    b j hj h p

/-- The addend of point 7·β + s is batch β's block s's contribution. -/
theorem M3_eq (c : Dev nD) (β : Fin 4) (s : Fin 7) (p : Fin 300) :
    M3 m c (7 * β.val + s.val) p = cRS (blkX (XA m c) β s) p := by
  have hN : cfg0.N = 28 := N_0
  have h : 7 * β.val + s.val < cfg0.N := by have := β.isLt; have := s.isLt; omega
  unfold M3
  rw [dif_pos h, entX_bx m c β s h]

/-- After batch β's last block: the sum over the batch's seven blocks. -/
theorem acc3_last (c : Dev nD) (β : Fin 4) (n : ℕ) (h : n < cfg0.N) (hn : n = 7 * β.val + 6) (q : Fin 300) :
    (outsAt m c n h).2.2.2.2.1 (ix2 q (0 : Fin 1)) = ∑ j : Fin 7, cRS (blkX (XA m c) β j) q := by
  subst hn
  refine (acc3_sum m c β.val 6 (by decide) h q).trans ?_
  rw [w32_zero, zero_add, Finset.sum_range]
  exact Finset.sum_congr rfl fun j _ => M3_eq m c β j q

/-! ## Accumulator 4 -/

/-- After a first block: the zero block plus the block's contribution. -/
theorem acc4_first (c : Dev nD) (n : ℕ) (h : n < cfg0.N) (hn : n % 7 = 0) :
    (outsAt m c n h).2.2.2.2.2 = k0_pay1 (k0_pay10 (bt m c n h)) k0_pay22 (k0_pay8 (F := Ideal)) := by
  have h1 : ¬n % 7 = 6 := by omega
  exact (congrArg (fun z => z.2.2.2.2.2) (outsAt_first m c ⟨n, h⟩ hn h1)).trans
    (accsFirst_4 c ⟨n, h⟩ hn h1 (bx m c n h) (bt m c n h) (bc m c n h))

/-- After any later block: what the block before left plus the block's contribution. -/
theorem acc4_step (c : Dev nD) (n : ℕ) (h : n + 1 < cfg0.N) (hne : ¬(n + 1) % 7 = 0) :
    (outsAt m c (n + 1) h).2.2.2.2.2 = k0_pay1 (k0_pay10 (bt m c (n + 1) h)) k0_pay22 (outsAt m c n (Nat.lt_of_succ_lt h)).2.2.2.2.2 := by
  by_cases h1 : (n + 1) % 7 = 6
  · exact (congrArg (fun z => z.2.2.2.2.2) (outsAt_last m c ⟨n + 1, h⟩ hne h1)).trans
      (accsLast_4 c ⟨n + 1, h⟩ hne h1 (bx m c (n + 1) h) (bt m c (n + 1) h) (bc m c (n + 1) h) (outsAt m c n (Nat.lt_of_succ_lt h)).2)
  · exact (congrArg (fun z => z.2.2.2.2.2) (outsAt_middle m c ⟨n + 1, h⟩ hne h1)).trans
      (accsMiddle_4 c ⟨n + 1, h⟩ hne h1 (bx m c (n + 1) h) (bt m c (n + 1) h) (bc m c (n + 1) h) (outsAt m c n (Nat.lt_of_succ_lt h)).2)

/-- Point n's addend. -/
def M4 (c : Dev nD) (n : ℕ) (p : Fin 128) : EReal :=
  if h : n < cfg0.N then cCS (entT (bt m c n h)) p else 0

theorem acc4_sum (c : Dev nD) (b j : ℕ) (hj : j < 7) (h : 7 * b + j < cfg0.N) (p : Fin 128) :
    (outsAt m c (7 * b + j) h).2.2.2.2.2 (ix2 (0 : Fin 1) p) = w32 0x00000000#32 + ∑ s ∈ Finset.range (j + 1), M4 m c (7 * b + s) p :=
  fold_blocks (fun n h p => (outsAt m c n h).2.2.2.2.2 (ix2 (0 : Fin 1) p)) (M4 m c) (w32 0x00000000#32)
    (fun n h hn p => by
      refine (congrFun (acc4_first m c n h hn) _).trans ((stepCS_apply (bt m c n h) (k0_pay8 (F := Ideal)) p).trans ?_)
      rw [pay8_apply]
      unfold M4
      rw [dif_pos h])
    (fun n h hne p => by
      refine (congrFun (acc4_step m c n h hne) _).trans ((stepCS_apply (bt m c (n + 1) h) ((outsAt m c n (Nat.lt_of_succ_lt h)).2.2.2.2.2) p).trans ?_)
      unfold M4
      rw [dif_pos h])
    b j hj h p

/-- The addend of point 7·β + s is batch β's block s's contribution. -/
theorem M4_eq (c : Dev nD) (β : Fin 4) (s : Fin 7) (p : Fin 128) :
    M4 m c (7 * β.val + s.val) p = cCS (blkT (TA m c) β s) p := by
  have hN : cfg0.N = 28 := N_0
  have h : 7 * β.val + s.val < cfg0.N := by have := β.isLt; have := s.isLt; omega
  unfold M4
  rw [dif_pos h, entT_bt m c β s h]

/-- After batch β's last block: the sum over the batch's seven blocks. -/
theorem acc4_last (c : Dev nD) (β : Fin 4) (n : ℕ) (h : n < cfg0.N) (hn : n = 7 * β.val + 6) (u : Fin 128) :
    (outsAt m c n h).2.2.2.2.2 (ix2 (0 : Fin 1) u) = ∑ j : Fin 7, cCS (blkT (TA m c) β j) u := by
  subst hn
  refine (acc4_sum m c β.val 6 (by decide) h u).trans ?_
  rw [w32_zero, zero_add, Finset.sum_range]
  exact Finset.sum_congr rfl fun j _ => M4_eq m c β j u

/-! ## The cost tile of a batch's last block -/

/-- At a last block the tile is the cost formula of the five accumulators as that block leaves them and the class-cost block. -/
theorem tile_at (c : Dev nD) (t : Fin cfg0.N) (h0 : ¬t.val % 7 = 0) (h1 : t.val % 7 = 6) (q : Fin 300) (u : Fin 128) :
    (outsAt m c t.val t.isLt).1 (ix3 (0 : Fin 1) q u)
      = cost ((outsAt m c t.val t.isLt).2.2.2.1 (ix2 q (0 : Fin 1))) ((outsAt m c t.val t.isLt).2.1 (ix2 q u))
          ((outsAt m c t.val t.isLt).2.2.2.2.1 (ix2 q (0 : Fin 1))) ((outsAt m c t.val t.isLt).2.2.2.2.2 (ix2 (0 : Fin 1) u))
          ((outsAt m c t.val t.isLt).2.2.1 (ix2 q u)) ((iblk m c 2 t : Vec Ideal S1x300x128 .f32) (ix3 (0 : Fin 1) q u)) := by
  obtain ⟨prev, e⟩ : ∃ prev, outsAt m c t.val t.isLt
      = (outLast c t h0 h1 (iblk m c 0 t) (iblk m c 1 t) (iblk m c 2 t) prev, accsrunLast c t h0 h1 (iblk m c 0 t) (iblk m c 1 t) (iblk m c 2 t) prev) :=
    ⟨_, outsAt_last m c t h0 h1⟩
  rw [e]
  dsimp only
  rw [outLast_eq c t h0 h1 (iblk m c 0 t) (iblk m c 1 t) (iblk m c 2 t) prev,
    accsLast_0 c t h0 h1 (iblk m c 0 t) (iblk m c 1 t) (iblk m c 2 t) prev,
    accsLast_1 c t h0 h1 (iblk m c 0 t) (iblk m c 1 t) (iblk m c 2 t) prev,
    accsLast_2 c t h0 h1 (iblk m c 0 t) (iblk m c 1 t) (iblk m c 2 t) prev,
    accsLast_3 c t h0 h1 (iblk m c 0 t) (iblk m c 1 t) (iblk m c 2 t) prev,
    accsLast_4 c t h0 h1 (iblk m c 0 t) (iblk m c 1 t) (iblk m c 2 t) prev]
  exact tile_apply _ _ _ _ _ _ q u

/-- So the tile of batch β's last block is the specification's cost at batch β. -/
theorem tile_eq (c : Dev nD) (t : Fin cfg0.N) (h1 : t.val % 7 = 6) (β : Fin 4) (hβ : β.val = t.val / 7) (q : Fin 300) (u : Fin 128) :
    (outsAt m c t.val t.isLt).1 (ix3 (0 : Fin 1) q u) = regionOutAt (XA m c) (TA m c) (CA m c) β q u := by
  have h0 : ¬t.val % 7 = 0 := by omega
  have ht : t.val = 7 * β.val + 6 := by omega
  rw [tile_at m c t h0 h1 q u, acc2_last m c β t.val t.isLt ht q, acc0_last m c β t.val t.isLt ht q u, acc3_last m c β t.val t.isLt ht q,
    acc4_last m c β t.val t.isLt ht u, acc1_last m c β t.val t.isLt ht q u, iblk2_apply m c t q u β hβ]
  rfl

end Cert.KernelIdeal.Val

end
-- ==== Proof.KernelIdeal.ValArray.lean ====
/-
  The region's result array: the block a batch's last point writes back is that batch's block of the specification's function of
  the three arrays the region reads, and the four batches' blocks cover the result array — so the array ends holding that function.
-/
import proofs.«122505_j52948356825308_2_alg».proof.Proof.KernelIdeal.ValInduction
import Idealize.ShloMosaic.Lib.Pipeline.Value
import Idealize.ShloMosaic.Lib.Tactic

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The tile of a last block, entry by entry, is the specification at the entry's place in the result array. -/
theorem tile_fun (c : Dev nD) (t : Fin cfg0.N) (h6 : t.val % 7 = 6) (j : S1x300x128.Idx) :
    (outsAt m c t.val t.isLt).1 j = regionOut (XA m c) (TA m c) (CA m c) (((cfg0.win 3).blk t).view.emb j) := by
  have hN : cfg0.N = 28 := N_0
  obtain ⟨z, q, u, rfl⟩ : ∃ (z : Fin 1) (q : Fin 300) (u : Fin 128), j = ix3 z q u := ⟨j 0, j 1, j 2, eq_ix3 j⟩
  obtain rfl : z = 0 := Subsingleton.elim _ _
  have hβ : t.val / 7 < 4 := by have := t.isLt; omega
  rw [emb3 t q u ⟨t.val / 7, hβ⟩ rfl, regionOut_ix3]
  exact tile_eq m c t h6 ⟨t.val / 7, hβ⟩ rfl q u

/-- What a writing-back point writes back is its block of the specification. -/
theorem flushed_eq (c : Dev nD) (t : Fin cfg0.N) (hf : (cfg0.win 3).flush t = true) :
    (dats m 0 c).flushed 3 t = ((cfg0.win 3).blk t).view.read (Elt Ideal) (regionOut (XA m c) (TA m c) (CA m c)) := by
  have h6 : t.val % 7 = 6 := (flush0_3 t).mp hf
  show (cfg0.win 3).cut (grid0.coords t) ((dats m 0 c).after 3 t) = _
  rw [after3]
  funext j
  rw [View.read_apply]
  exact tile_fun m c t h6 j

/-- THE RESULT ARRAY after the region: the specification's function of the sampled predictions, the sampled targets and the class
    costs as the region finds them. -/
theorem final (c : Dev nD) : (dats m 0 c).arrAt 3 cfg0.N = regionOut (XA m c) (TA m c) (CA m c) :=
  (dats m 0 c).arrAt_eq_of_cover 3 (regionOut (XA m c) (TA m c) (CA m c)) (flushed_eq m c) cover3

end Cert.KernelIdeal.Val

end
-- ==== Proof.KernelIdeal.ValRun.lean ====
/-
  The run of the idealized kernel, read: after the region the one host line slices the padding off the result array, so the
  program's result is that slice of the specification's function of the three arrays the region reads, and the five argument
  arrays end unchanged.
-/
import proofs.«122505_j52948356825308_2_alg».proof.Proof.KernelIdeal.ValArray
import Idealize.ShloMosaic.Lib.Pipeline.Value
import Idealize.ShloMosaic.Lib.Tactic

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The slice after the region reads the result array the region left. -/
theorem tail_v204 (c : Dev nD) :
    Pipeline.afterTail₀ cfgs (dats m) 0 (V0 m) [hostOps1] c main_v204
      = extractStridedSlice S4x300x100 ![0, 0, 0] (regionOut (XA m c) (TA m c) (CA m c)) Facts₀.slices_S4x300x128_S4x300x100_0_0_0 := by
  unfold Pipeline.afterTail₀
  show StableHlo.after hostOps1 _ (Proc.devRef .tc main_v204) = _
  after_results
  refine congrArg (fun x : S4x300x128.Idx → Elt Ideal .f32 => extractStridedSlice S4x300x100 ![0, 0, 0] x Facts₀.slices_S4x300x128_S4x300x100_0_0_0) ?_
  exact (Pipeline.withArrays_arr spec0 launch0.win.arr_inj c _ _ 3).trans (final m c)

/-- THE RUN of the idealized kernel over the extended reals: every weakly fair execution of @main terminates, nothing faults, the
    result buffer ends at the slice [0:4, 0:300, 0:100] of the specification's function of the sampled predictions, the sampled
    (padded) targets and the (padded) class costs as the region finds them, and the five argument arrays end unchanged. -/
theorem run : θ_run defs (onTc (τ := τ) (main (F := Ideal))) ⟨m, fun _ => 0, ρ⟩ (fun r => ∀ c : Dev nD,
      r.2.mem ((c.tc : Thread nD τ).loc main_v204)
        = extractStridedSlice S4x300x100 ![0, 0, 0] (regionOut (XA m c) (TA m c) (CA m c)) Facts₀.slices_S4x300x128_S4x300x100_0_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).2 main_v204 (Pipeline.mem_restRefs_of main_v204 rfl (by decide))).trans (tail_v204 m c),
      (kept_of m c main_arg0 rfl (by decide) (by decide) (by decide) r h).trans (V_main_arg0 m c),
      (kept_of m c main_arg1 rfl (by decide) (by decide) (by decide) r h).trans (V_main_arg1 m c),
      (kept_of m c main_arg2 rfl (by decide) (by decide) (by decide) r h).trans (V_main_arg2 m c),
      (kept_of m c main_arg3 rfl (by decide) (by decide) (by decide) r h).trans (V_main_arg3 m c),
      (kept_of m c main_arg4 rfl (by decide) (by decide) (by decide) r h).trans (V_main_arg4 m c)⟩) (run_main m ρ)

end Cert.KernelIdeal.Val

end
-- ==== Proof.KernelIdeal.SampKDefs.lean ====
/-
  The kernel's point sampler of the [4, 300, 256, 256] masks, one definition per host operation of @main (the
  function each operation applies, composed in program order): the sample coordinates x = 256·P[..,0] − 1/2,
  y = 256·P[..,1] − 1/2, their floors and fractional parts, the four corners stacked on a last axis of size 4,
  the validity mask, the clipped integer coordinates, the flat index 256·yi + xi, the one gather out of the
  masks reshaped to [4, 300, 65536] with its fill select, and the weighted sum over the four corners.
-/
import proofs.«122505_j52948356825308_2_alg».proof.Proof.Gen.KernelIdeal
import Idealize.ShloMosaic.PureOps.Ideal

noncomputable section

namespace Cert.KernelIdeal.Samp

open Cert.KernelIdeal Cert.KernelIdeal.Gen Idealize.ShloMosaic Idealize.ShloMosaic.TcCoe Idealize.SL.Sem Idealize.ShloMosaic.StableHlo

variable {F : FTy → Type} [FloatOps F]

/-- A scalar float constant broadcast to [4, 12544]. -/
def kcst2 (w : BitVec 32) : (⟨S4x12544, .f32⟩ : BufTy).Contents (Elt F) :=
  broadcastInDim S4x12544 ![] bcast_S_S4x12544 (constant (F := F) S_ .f32 w)
/-- A scalar float constant broadcast to [4, 12544, 4]. -/
def kcst3 (w : BitVec 32) : (⟨S4x12544x4, .f32⟩ : BufTy).Contents (Elt F) :=
  broadcastInDim S4x12544x4 ![] bcast_S_S4x12544x4 (constant (F := F) S_ .f32 w)
/-- A scalar integer constant broadcast to [4, 12544, 4]. -/
def kcsti3 (w : BitVec 32) : (⟨S4x12544x4, .i32⟩ : BufTy).Contents (Elt F) :=
  broadcastInDim S4x12544x4 ![] bcast_S_S4x12544x4 (constantI S_ 32 w)
/-- [4, 12544] as a column [4, 12544, 1]. -/
def kcol (v : (⟨S4x12544, .f32⟩ : BufTy).Contents (Elt F)) : (⟨S4x12544x1, .f32⟩ : BufTy).Contents (Elt F) :=
  broadcastInDim S4x12544x1 ![0, 1] bcast_S4x12544_S4x12544x1_0_1 v
/-- Four columns stacked along the last axis. -/
def kcat4 (a b c d : (⟨S4x12544x1, .f32⟩ : BufTy).Contents (Elt F)) : (⟨S4x12544x4, .f32⟩ : BufTy).Contents (Elt F) :=
  concatenate S4x12544x4 2 [⟨S4x12544x1, a⟩, ⟨S4x12544x1, b⟩, ⟨S4x12544x1, c⟩, ⟨S4x12544x1, d⟩] concatenates_S4x12544x1_S4x12544x1_S4x12544x1_S4x12544x1_S4x12544x4_d2
/-- [4, 12544, 4] repeated along a new mask axis. -/
def kup (v : (⟨S4x12544x4, .f32⟩ : BufTy).Contents (Elt F)) : (⟨S4x300x12544x4, .f32⟩ : BufTy).Contents (Elt F) :=
  broadcastInDim S4x300x12544x4 ![0, 1, 2, 3] bcast_S4x1x12544x4_S4x300x12544x4_0_1_2_3 (broadcastInDim S4x1x12544x4 ![0, 2, 3] bcast_S4x12544x4_S4x1x12544x4_0_2_3 v)
/-- The clip to [0, 255] (maximum with 0, then minimum with 255, the bounds converted from integers). -/
def kclip (X : (⟨S4x12544x4, .f32⟩ : BufTy).Contents (Elt F)) : (⟨S4x12544x4, .f32⟩ : BufTy).Contents (Elt F) :=
  minimumf (broadcastInDim S4x12544x4 ![] bcast_S_S4x12544x4 (sitofp .f32 (constantI S_ 32 255#32)))
    (maximumf (broadcastInDim S4x12544x4 ![] bcast_S_S4x12544x4 (sitofp .f32 (constantI S_ 32 0#32))) X)

def k0 (P : (⟨S4x12544x2, .f32⟩ : BufTy).Contents (Elt F)) : (⟨S4x12544x1, .f32⟩ : BufTy).Contents (Elt F) :=
  extractStridedSlice S4x12544x1 ![0, 0, 0] P slices_S4x12544x2_S4x12544x1_0_0_0
def k1 (P : (⟨S4x12544x2, .f32⟩ : BufTy).Contents (Elt F)) : (⟨S4x12544, .f32⟩ : BufTy).Contents (Elt F) :=
  shapeCast S4x12544 (k0 P) shapeCasts_S4x12544x1_S4x12544
/-- x = 256·P[..,0] − 1/2. -/
def k5 (P : (⟨S4x12544x2, .f32⟩ : BufTy).Contents (Elt F)) : (⟨S4x12544, .f32⟩ : BufTy).Contents (Elt F) :=
  subf (mulf (k1 P) (kcst2 0x43800000#32)) (kcst2 0x3F000000#32)
def k6 (P : (⟨S4x12544x2, .f32⟩ : BufTy).Contents (Elt F)) : (⟨S4x12544x1, .f32⟩ : BufTy).Contents (Elt F) :=
  extractStridedSlice S4x12544x1 ![0, 0, 1] P slices_S4x12544x2_S4x12544x1_0_0_1
def k7 (P : (⟨S4x12544x2, .f32⟩ : BufTy).Contents (Elt F)) : (⟨S4x12544, .f32⟩ : BufTy).Contents (Elt F) :=
  shapeCast S4x12544 (k6 P) shapeCasts_S4x12544x1_S4x12544
/-- y = 256·P[..,1] − 1/2. -/
def k11 (P : (⟨S4x12544x2, .f32⟩ : BufTy).Contents (Elt F)) : (⟨S4x12544, .f32⟩ : BufTy).Contents (Elt F) :=
  subf (mulf (k7 P) (kcst2 0x43800000#32)) (kcst2 0x3F000000#32)
/-- x0 = ⌊x⌋. -/
def k12 (P : (⟨S4x12544x2, .f32⟩ : BufTy).Contents (Elt F)) : (⟨S4x12544, .f32⟩ : BufTy).Contents (Elt F) := Host.floor (k5 P)
/-- y0 = ⌊y⌋. -/
def k13 (P : (⟨S4x12544x2, .f32⟩ : BufTy).Contents (Elt F)) : (⟨S4x12544, .f32⟩ : BufTy).Contents (Elt F) := Host.floor (k11 P)
/-- dx = x − x0. -/
def k14 (P : (⟨S4x12544x2, .f32⟩ : BufTy).Contents (Elt F)) : (⟨S4x12544, .f32⟩ : BufTy).Contents (Elt F) := subf (k5 P) (k12 P)
/-- dy = y − y0. -/
def k15 (P : (⟨S4x12544x2, .f32⟩ : BufTy).Contents (Elt F)) : (⟨S4x12544, .f32⟩ : BufTy).Contents (Elt F) := subf (k11 P) (k13 P)
/-- x0 + 1. -/
def k17 (P : (⟨S4x12544x2, .f32⟩ : BufTy).Contents (Elt F)) : (⟨S4x12544, .f32⟩ : BufTy).Contents (Elt F) := addf (k12 P) (kcst2 0x3F800000#32)
/-- The corners' x coordinates (x0, x0 + 1, x0, x0 + 1). -/
def k24 (P : (⟨S4x12544x2, .f32⟩ : BufTy).Contents (Elt F)) : (⟨S4x12544x4, .f32⟩ : BufTy).Contents (Elt F) :=
  kcat4 (kcol (k12 P)) (kcol (k17 P)) (kcol (k12 P)) (kcol (k17 P))
/-- y0 + 1. -/
def k26 (P : (⟨S4x12544x2, .f32⟩ : BufTy).Contents (Elt F)) : (⟨S4x12544, .f32⟩ : BufTy).Contents (Elt F) := addf (k13 P) (kcst2 0x3F800000#32)
/-- The corners' y coordinates (y0, y0, y0 + 1, y0 + 1). -/
def k33 (P : (⟨S4x12544x2, .f32⟩ : BufTy).Contents (Elt F)) : (⟨S4x12544x4, .f32⟩ : BufTy).Contents (Elt F) :=
  kcat4 (kcol (k13 P)) (kcol (k13 P)) (kcol (k26 P)) (kcol (k26 P))
/-- The corner lies inside the 256 × 256 mask. -/
def k44 (P : (⟨S4x12544x2, .f32⟩ : BufTy).Contents (Elt F)) : (⟨S4x12544x4, .i1⟩ : BufTy).Contents (Elt F) :=
  andi (andi (andi (cmpf .oge (k24 P) (kcst3 0x00000000#32)) (cmpf .ole (k24 P) (kcst3 0x437F0000#32)))
    (cmpf .oge (k33 P) (kcst3 0x00000000#32))) (cmpf .ole (k33 P) (kcst3 0x437F0000#32))
def k45 (P : (⟨S4x12544x2, .f32⟩ : BufTy).Contents (Elt F)) : (⟨S4x12544x4, .f32⟩ : BufTy).Contents (Elt F) := uitofp .f32 (k44 P)
/-- xi: the clipped x coordinate as an integer. -/
def k47 (P : (⟨S4x12544x2, .f32⟩ : BufTy).Contents (Elt F)) : (⟨S4x12544x4, .i32⟩ : BufTy).Contents (Elt F) := fptosi 32 (kclip (k24 P))
/-- yi: the clipped y coordinate as an integer. -/
def k49 (P : (⟨S4x12544x2, .f32⟩ : BufTy).Contents (Elt F)) : (⟨S4x12544x4, .i32⟩ : BufTy).Contents (Elt F) := fptosi 32 (kclip (k33 P))
/-- The flat index 256·yi + xi. -/
def k52 (P : (⟨S4x12544x2, .f32⟩ : BufTy).Contents (Elt F)) : (⟨S4x12544x4, .i32⟩ : BufTy).Contents (Elt F) :=
  addi (muli (k49 P) (kcsti3 (F := F) 256#32)) (k47 P)
/-- The masks with their two spatial axes flattened. -/
def k53 (M : (⟨S4x300x256x256, .f32⟩ : BufTy).Contents (Elt F)) : (⟨S4x300x65536, .f32⟩ : BufTy).Contents (Elt F) :=
  shapeCast S4x300x65536 M shapeCasts_S4x300x256x256_S4x300x65536
/-- The index with a negative value wrapped by 65536. -/
def kt4 (P : (⟨S4x12544x2, .f32⟩ : BufTy).Contents (Elt F)) : (⟨S4x12544x4, .i32⟩ : BufTy).Contents (Elt F) :=
  select (cmpi .slt (k52 P) (kcsti3 (F := F) 0#32)) (addi (k52 P) (kcsti3 (F := F) 65536#32)) (k52 P)
def kt5 (P : (⟨S4x12544x2, .f32⟩ : BufTy).Contents (Elt F)) : (⟨S4x12544x4x1, .i32⟩ : BufTy).Contents (Elt F) :=
  broadcastInDim S4x12544x4x1 ![0, 1, 2] bcast_S4x12544x4_S4x12544x4x1_0_1_2 (kt4 P)
/-- 0 ≤ index ≤ 65535. -/
def kt11 (P : (⟨S4x12544x2, .f32⟩ : BufTy).Contents (Elt F)) : (⟨S4x12544x4x1, .i1⟩ : BufTy).Contents (Elt F) :=
  andi (cmpi .sge (kt5 P) (broadcastInDim S4x12544x4x1 ![] bcast_S_S4x12544x4x1 (constantI S_ 32 0#32)))
    (cmpi .sle (kt5 P) (broadcastInDim S4x12544x4x1 ![0, 1, 2, 3] bcast_S1x1x1x1_S4x12544x4x1_0_1_2_3
      (broadcastInDim S1x1x1x1 ![3] bcast_S1_S1x1x1x1_3 (constantI S1 32 65535#32))))
def kt12 (P : (⟨S4x12544x2, .f32⟩ : BufTy).Contents (Elt F)) : (⟨S4x12544x4, .i1⟩ : BufTy).Contents (Elt F) :=
  Host.reduce IntOp.andi (kt11 P) (constantI S_ 1 1#1) reducesTo_S4x12544x4x1_S4x12544x4_d3 h_S_
/-- The gather of the four corners' mask entries. -/
def kt13 (M : (⟨S4x300x256x256, .f32⟩ : BufTy).Contents (Elt F)) (P : (⟨S4x12544x2, .f32⟩ : BufTy).Contents (Elt F)) : (⟨S4x300x12544x4, .f32⟩ : BufTy).Contents (Elt F) :=
  Host.gather gather_S4x300x65536_S4x12544x4x1_S4x300x12544x4_1_2_0_0_2_3_13001 (k53 M) (kt5 P)
/-- The gathered entries, or the fill value where the index is out of range. -/
def k54 (M : (⟨S4x300x256x256, .f32⟩ : BufTy).Contents (Elt F)) (P : (⟨S4x12544x2, .f32⟩ : BufTy).Contents (Elt F)) : (⟨S4x300x12544x4, .f32⟩ : BufTy).Contents (Elt F) :=
  select (broadcastInDim S4x300x12544x4 ![0, 2, 3] bcast_S4x12544x4_S4x300x12544x4_0_2_3 (kt12 P)) (kt13 M P)
    (broadcastInDim S4x300x12544x4 ![] bcast_S_S4x300x12544x4 (constant (F := F) S_ .f32 0x7FC00000#32))
def k57 (M : (⟨S4x300x256x256, .f32⟩ : BufTy).Contents (Elt F)) (P : (⟨S4x12544x2, .f32⟩ : BufTy).Contents (Elt F)) : (⟨S4x300x12544x4, .f32⟩ : BufTy).Contents (Elt F) :=
  mulf (k54 M P) (kup (k45 P))
/-- (1 − dx)(1 − dy). -/
def k62 (P : (⟨S4x12544x2, .f32⟩ : BufTy).Contents (Elt F)) : (⟨S4x12544, .f32⟩ : BufTy).Contents (Elt F) :=
  mulf (subf (kcst2 0x3F800000#32) (k14 P)) (subf (kcst2 0x3F800000#32) (k15 P))
/-- dx (1 − dy). -/
def k65 (P : (⟨S4x12544x2, .f32⟩ : BufTy).Contents (Elt F)) : (⟨S4x12544, .f32⟩ : BufTy).Contents (Elt F) :=
  mulf (k14 P) (subf (kcst2 0x3F800000#32) (k15 P))
/-- (1 − dx) dy. -/
def k68 (P : (⟨S4x12544x2, .f32⟩ : BufTy).Contents (Elt F)) : (⟨S4x12544, .f32⟩ : BufTy).Contents (Elt F) :=
  mulf (subf (kcst2 0x3F800000#32) (k14 P)) (k15 P)
/-- dx dy. -/
def k69 (P : (⟨S4x12544x2, .f32⟩ : BufTy).Contents (Elt F)) : (⟨S4x12544, .f32⟩ : BufTy).Contents (Elt F) := mulf (k14 P) (k15 P)
/-- The four bilinear weights stacked along the last axis. -/
def k74 (P : (⟨S4x12544x2, .f32⟩ : BufTy).Contents (Elt F)) : (⟨S4x12544x4, .f32⟩ : BufTy).Contents (Elt F) :=
  kcat4 (kcol (k62 P)) (kcol (k65 P)) (kcol (k68 P)) (kcol (k69 P))
def k77 (M : (⟨S4x300x256x256, .f32⟩ : BufTy).Contents (Elt F)) (P : (⟨S4x12544x2, .f32⟩ : BufTy).Contents (Elt F)) : (⟨S4x300x12544x4, .f32⟩ : BufTy).Contents (Elt F) :=
  mulf (k57 M P) (kup (k74 P))
/-- The sampled masks: the sum over the four corners. -/
def kSamp (M : (⟨S4x300x256x256, .f32⟩ : BufTy).Contents (Elt F)) (P : (⟨S4x12544x2, .f32⟩ : BufTy).Contents (Elt F)) : (⟨S4x300x12544, .f32⟩ : BufTy).Contents (Elt F) :=
  Host.reduceAdd (k77 M P) (constant (F := F) S_ .f32 0x00000000#32) reducesTo_S4x300x12544x4_S4x300x12544_d3 h_S_

end Cert.KernelIdeal.Samp
end
-- ==== Proof.KernelIdeal.SampTransport.lean ====
/-
  A transport of buffer contents along "the buffer's type is the value's type" and back is the identity.
-/
import Idealize.ShloMosaic.Lib.StableHlo

namespace Cert.KernelIdeal.Samp

open Idealize.ShloMosaic Idealize.ShloMosaic.StableHlo

/-- Transport to a buffer's type and back is the identity. -/
theorem ofBuf_toBuf {sig : RefSig} {Val : EltTy → Type} {T : BufTy} (x : TRef sig T) (v : T.Contents Val) :
    x.ofBuf (x.toBuf v) = v := by
  obtain ⟨r, h, d, u⟩ := x
  subst h
  rfl

end Cert.KernelIdeal.Samp
-- ==== Proof.KernelIdeal.SampKV.lean ====
/-
  The kernel's sampled [4, 300, 12544] masks as the region finds them: the buffer's contents after the host
  operations before the region are the staged sampler of the argument arrays (each operation's result at its own
  buffer is its function of its operands' contents; every other buffer is as it was).

  The operations of the outlined clip and gather functions carry their values through a transport along the
  equation "the buffer's type is the value's type"; that type IS the buffer's, so every transport is the identity:
  a transport to a buffer's type and back by the generic law, and the transports at the eleven buffers an outlined
  call shares with @main one by one. With the transports gone the two sides are the same tree of operations.
-/
import proofs.«122505_j52948356825308_2_alg».proof.Proof.KernelIdeal.Frame
import proofs.«122505_j52948356825308_2_alg».proof.Proof.KernelIdeal.SampKDefs
import proofs.«122505_j52948356825308_2_alg».proof.Proof.KernelIdeal.SampTransport

set_option maxRecDepth 200000

noncomputable section

namespace Cert.KernelIdeal.Samp

open Cert.KernelIdeal Cert.KernelIdeal.Gen Cert.KernelIdeal.Hand
open Idealize.ShloMosaic Idealize.ShloMosaic.TcCoe Idealize.SL.Sem Idealize.ShloMosaic.StableHlo

variable {F : FTy → Type} [FloatOps F]

/-! A transport along a buffer's type, at each buffer an outlined call shares with @main: the identity, the type
being the buffer's own. -/
theorem toBuf_v54 (h : main_v54.ty = ⟨S4x300x12544x4, .f32⟩) (d : main_v54.space ≠ .host) (u : main_v54.isScoped = false)
    (v : (⟨S4x300x12544x4, .f32⟩ : BufTy).Contents (Elt F)) : (TRef.of main_v54 h d u).toBuf v = v := rfl
theorem toBuf_v48 (h : main_v48.ty = ⟨S4x12544x4, .f32⟩) (d : main_v48.space ≠ .host) (u : main_v48.isScoped = false)
    (v : (⟨S4x12544x4, .f32⟩ : BufTy).Contents (Elt F)) : (TRef.of main_v48 h d u).toBuf v = v := rfl
theorem toBuf_v46 (h : main_v46.ty = ⟨S4x12544x4, .f32⟩) (d : main_v46.space ≠ .host) (u : main_v46.isScoped = false)
    (v : (⟨S4x12544x4, .f32⟩ : BufTy).Contents (Elt F)) : (TRef.of main_v46 h d u).toBuf v = v := rfl
theorem ofBuf_v52 (h : main_v52.ty = ⟨S4x12544x4, .i32⟩) (d : main_v52.space ≠ .host) (u : main_v52.isScoped = false)
    (v : (⟨S4x12544x4, .i32⟩ : BufTy).Contents (Elt F)) : (TRef.of main_v52 h d u).ofBuf v = v := rfl
theorem ofBuf_v53 (h : main_v53.ty = ⟨S4x300x65536, .f32⟩) (d : main_v53.space ≠ .host) (u : main_v53.isScoped = false)
    (v : (⟨S4x300x65536, .f32⟩ : BufTy).Contents (Elt F)) : (TRef.of main_v53 h d u).ofBuf v = v := rfl
theorem ofBuf_v24 (h : main_v24.ty = ⟨S4x12544x4, .f32⟩) (d : main_v24.space ≠ .host) (u : main_v24.isScoped = false)
    (v : (⟨S4x12544x4, .f32⟩ : BufTy).Contents (Elt F)) : (TRef.of main_v24 h d u).ofBuf v = v := rfl
theorem ofBuf_v33 (h : main_v33.ty = ⟨S4x12544x4, .f32⟩) (d : main_v33.space ≠ .host) (u : main_v33.isScoped = false)
    (v : (⟨S4x12544x4, .f32⟩ : BufTy).Contents (Elt F)) : (TRef.of main_v33 h d u).ofBuf v = v := rfl
theorem ofBuf_c (h : main_c.ty = ⟨S_, .i32⟩) (d : main_c.space ≠ .host) (u : main_c.isScoped = false)
    (v : (⟨S_, .i32⟩ : BufTy).Contents (Elt F)) : (TRef.of main_c h d u).ofBuf v = v := rfl
theorem ofBuf_c11 (h : main_c_11.ty = ⟨S_, .i32⟩) (d : main_c_11.space ≠ .host) (u : main_c_11.isScoped = false)
    (v : (⟨S_, .i32⟩ : BufTy).Contents (Elt F)) : (TRef.of main_c_11 h d u).ofBuf v = v := rfl
theorem ofBuf_c12 (h : main_c_12.ty = ⟨S_, .i32⟩) (d : main_c_12.space ≠ .host) (u : main_c_12.isScoped = false)
    (v : (⟨S_, .i32⟩ : BufTy).Contents (Elt F)) : (TRef.of main_c_12 h d u).ofBuf v = v := rfl
theorem ofBuf_c13 (h : main_c_13.ty = ⟨S_, .i32⟩) (d : main_c_13.space ≠ .host) (u : main_c_13.isScoped = false)
    (v : (⟨S_, .i32⟩ : BufTy).Contents (Elt F)) : (TRef.of main_c_13 h d u).ofBuf v = v := rfl

variable (m : (ℓ : Loc nD τ sig) → Buf (Elt F) ℓ)

set_option maxHeartbeats 400000000 in
theorem V_main_v78 (c : Dev nD) :
    V (F := F) m c main_v78 = kSamp (F := F) (m ((c : Thread nD τ).loc main_arg1)) (m ((c : Thread nD τ).loc main_arg4)) := by
  dsimp only [V, V0]
  simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  simp (disch := decide) only [after_cons, after_nil,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne']
  simp only [ofBuf_toBuf, toBuf_v54, toBuf_v48, toBuf_v46, ofBuf_v52, ofBuf_v53, ofBuf_v24, ofBuf_v33, ofBuf_c, ofBuf_c11, ofBuf_c12, ofBuf_c13]
  rfl

end Cert.KernelIdeal.Samp
end
-- ==== Proof.KernelIdeal.SampKRead.lean ====
/-
  The kernel's staged point sampler of the [4, 300, 256, 256] masks read at an index: the layout operations
  (columns, the stack of four, the repeat along the mask axis), the sum over the four corners, the batched
  gather out of the flattened masks and the flattening itself.
-/
import proofs.«122505_j52948356825308_2_alg».proof.Proof.KernelIdeal.SampKDefs
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Samp

open Cert.KernelIdeal Cert.KernelIdeal.Gen Idealize.ShloMosaic Idealize.ShloMosaic.TcCoe Idealize.SL.Sem Idealize.ShloMosaic.StableHlo
open Idealize.ShloMosaic.ValueIdx

/-- A column [4, 12544, 1] read at (b, p, 0) is the array at (b, p). -/
theorem kcol_apply (v : (⟨S4x12544, .f32⟩ : BufTy).Contents (Elt Ideal)) (b : Fin 4) (p : Fin 12544) (z : Fin 1) :
    kcol (F := Ideal) v (ix3 b p z) = v (ix2 b p) := by
  unfold kcol
  exact broadcastInDim_apply _ bcast_S4x12544_S4x12544x1_0_1 v (ix3 b p z) (ix2 b p) (fun a => match a with
    | ⟨0, _⟩ => by show b.val = if (4 : Nat) = 1 then 0 else b.val; rw [if_neg (by decide)]
    | ⟨1, _⟩ => by show p.val = if (12544 : Nat) = 1 then 0 else p.val; rw [if_neg (by decide)])

/-- The stack of four columns read at (b, p, k) is the k-th column at (b, p, 0). -/
theorem kcat4_apply (a0 a1 a2 a3 : (⟨S4x12544x1, .f32⟩ : BufTy).Contents (Elt Ideal)) (b : Fin 4) (p : Fin 12544) (k : Fin 4) :
    kcat4 (F := Ideal) a0 a1 a2 a3 (ix3 b p k) = (![a0, a1, a2, a3] : Fin 4 → (⟨S4x12544x1, .f32⟩ : BufTy).Contents (Elt Ideal)) k (ix3 b p (0 : Fin 1)) := by
  unfold kcat4
  show concatenate S4x12544x4 2 (List.ofFn fun n : Fin 4 => (⟨S4x12544x1, (![a0, a1, a2, a3] : Fin 4 → (⟨S4x12544x1, .f32⟩ : BufTy).Contents (Elt Ideal)) n⟩ : (s : Shape) × (s.Idx → EReal))) _ (ix3 b p k) = _
  refine concatenate_ofFn_apply (t := S4x12544x4) (s₁ := S4x12544x1) 2 (![a0, a1, a2, a3] : Fin 4 → (⟨S4x12544x1, .f32⟩ : BufTy).Contents (Elt Ideal)) _ rfl 1 rfl (ix3 b p k) k ?_ (ix3 b p (0 : Fin 1)) ?_ ?_
  · show k.val / 1 = k.val
    omega
  · show (0 : Nat) = k.val % 1
    omega
  · intro b' hb
    match b' with
    | ⟨0, _⟩ => rfl
    | ⟨1, _⟩ => rfl
    | ⟨2, _⟩ => exact absurd rfl hb

/-- The stack of four columns of [4, 12544] arrays read at (b, p, k) is the k-th array at (b, p). -/
theorem kcat4_col_apply (v0 v1 v2 v3 : (⟨S4x12544, .f32⟩ : BufTy).Contents (Elt Ideal)) (b : Fin 4) (p : Fin 12544) (k : Fin 4) :
    kcat4 (F := Ideal) (kcol v0) (kcol v1) (kcol v2) (kcol v3) (ix3 b p k)
      = (![v0, v1, v2, v3] : Fin 4 → (⟨S4x12544, .f32⟩ : BufTy).Contents (Elt Ideal)) k (ix2 b p) := by
  rw [kcat4_apply]
  match k with
  | ⟨0, _⟩ => exact kcol_apply v0 b p 0
  | ⟨1, _⟩ => exact kcol_apply v1 b p 0
  | ⟨2, _⟩ => exact kcol_apply v2 b p 0
  | ⟨3, _⟩ => exact kcol_apply v3 b p 0

/-- The repeat along the mask axis read at (b, n, p, k) is the array at (b, p, k). -/
theorem kup_apply (v : (⟨S4x12544x4, .f32⟩ : BufTy).Contents (Elt Ideal)) (b : Fin 4) (n : Fin 300) (p : Fin 12544) (k : Fin 4) :
    kup (F := Ideal) v (ix4 b n p k) = v (ix3 b p k) := by
  unfold kup
  refine (broadcastInDim_apply _ bcast_S4x1x12544x4_S4x300x12544x4_0_1_2_3 _ (ix4 b n p k) (ix4 b (0 : Fin 1) p k) (fun a => match a with
    | ⟨0, _⟩ => by show b.val = if (4 : Nat) = 1 then 0 else b.val; rw [if_neg (by decide)]
    | ⟨1, _⟩ => by show 0 = if (1 : Nat) = 1 then 0 else n.val; rw [if_pos rfl]
    | ⟨2, _⟩ => by show p.val = if (12544 : Nat) = 1 then 0 else p.val; rw [if_neg (by decide)]
    | ⟨3, _⟩ => by show k.val = if (4 : Nat) = 1 then 0 else k.val; rw [if_neg (by decide)])).trans ?_
  exact broadcastInDim_apply _ bcast_S4x12544x4_S4x1x12544x4_0_2_3 v (ix4 b (0 : Fin 1) p k) (ix3 b p k) (fun a => match a with
    | ⟨0, _⟩ => by show b.val = if (4 : Nat) = 1 then 0 else b.val; rw [if_neg (by decide)]
    | ⟨1, _⟩ => by show p.val = if (12544 : Nat) = 1 then 0 else p.val; rw [if_neg (by decide)]
    | ⟨2, _⟩ => by show k.val = if (4 : Nat) = 1 then 0 else k.val; rw [if_neg (by decide)])

/-- The sampled masks at (b, n, p): the initial value plus the sum over the four corners. -/
theorem kSamp_apply (M : (⟨S4x300x256x256, .f32⟩ : BufTy).Contents (Elt Ideal)) (P : (⟨S4x12544x2, .f32⟩ : BufTy).Contents (Elt Ideal)) (b : Fin 4) (n : Fin 300) (p : Fin 12544) :
    kSamp (F := Ideal) M P (ix3 b n p)
      = Ideal.ofBits .f32 0x00000000#32 + ∑ k : Fin 4, k77 (F := Ideal) M P (ix4 b n p k) := by
  unfold kSamp
  generalize k77 (F := Ideal) M P = y0
  simp only [Host.reduceAdd, Ideal.hostReduceAdd_def]
  rw [Ideal.hostReduceAdd_single reducesTo_S4x300x12544x4_S4x300x12544_d3 (by decide)]
  refine congrArg₂ (· + ·) rfl (Finset.sum_congr rfl fun k _ => ?_)
  exact congrArg y0 (funext fun a => Fin.ext (by match a with | ⟨0, _⟩ => rfl | ⟨1, _⟩ => rfl | ⟨2, _⟩ => rfl | ⟨3, _⟩ => rfl))

/-- The flattened masks at (b, n, 256·y + x) are the masks at (b, n, y, x). -/
theorem k53_apply (M : (⟨S4x300x256x256, .f32⟩ : BufTy).Contents (Elt Ideal)) (b : Fin 4) (n : Fin 300) (y x : Fin 256) (f : Fin 65536) (hf : f.val = y.val * 256 + x.val) :
    k53 (F := Ideal) M (ix3 b n f) = M (ix4 b n y x) := by
  unfold k53
  refine shapeCast_apply M shapeCasts_S4x300x256x256_S4x300x65536 (ix3 b n f) (ix4 b n y x) ?_
  rw [Shape.rowMajor_val_four, Shape.rowMajor_val_three]
  show ((b.val * 300 + n.val) * 256 + y.val) * 256 + x.val = (b.val * 300 + n.val) * 65536 + f.val
  omega

/-- The batched gather out of the flattened masks at (b, n, p, k): batch b, mask n, and on the flattened axis the
    start index at (b, p, k, 0), read signed and clamped into [0, 65535]. -/
theorem kgather_apply (X : (⟨S4x300x65536, .f32⟩ : BufTy).Contents (Elt Ideal)) (idx : (⟨S4x12544x4x1, .i32⟩ : BufTy).Contents (Elt Ideal)) (b : Fin 4) (n : Fin 300) (p : Fin 12544) (k : Fin 4) :
    Host.gather gather_S4x300x65536_S4x12544x4x1_S4x300x12544x4_1_2_0_0_2_3_13001 X idx (ix4 b n p k)
      = X (ix3 b n ⟨min (idx (ix4 b p k (0 : Fin 1))).toInt.toNat 65535, by omega⟩) := by
  unfold Host.gather
  refine congrArg X (funext fun a => Fin.ext ?_)
  have hsi : gather_S4x300x65536_S4x12544x4x1_S4x300x12544x4_1_2_0_0_2_3_13001.siIdx (ix4 b n p k) ⟨0, by decide⟩ = ix4 b p k (0 : Fin 1) := by
    funext b'
    refine Fin.ext ?_
    match b' with
    | ⟨0, _⟩ => rfl
    | ⟨1, _⟩ => rfl
    | ⟨2, _⟩ => rfl
    | ⟨3, _⟩ => rfl
  match a with
  | ⟨0, _⟩ =>
    show gather_S4x300x65536_S4x12544x4x1_S4x300x12544x4_1_2_0_0_2_3_13001.start (ix4 b n p k) idx 0 + gather_S4x300x65536_S4x12544x4x1_S4x300x12544x4_1_2_0_0_2_3_13001.batchCoord (ix4 b n p k) 0 + gather_S4x300x65536_S4x12544x4x1_S4x300x12544x4_1_2_0_0_2_3_13001.offCoord (ix4 b n p k) 0 = b.val
    rw [GatherDims.start_batching _ _ _ _ (by decide), GatherDims.offCoord_eq_zero _ _ _ (by decide)]
    simp only [Nat.add_zero, Nat.zero_add]
    simp [GatherDims.batchCoord, GatherDims.siCoord, gather_S4x300x65536_S4x12544x4x1_S4x300x12544x4_1_2_0_0_2_3_13001]
    rfl
  | ⟨1, _⟩ =>
    show gather_S4x300x65536_S4x12544x4x1_S4x300x12544x4_1_2_0_0_2_3_13001.start (ix4 b n p k) idx 1 + gather_S4x300x65536_S4x12544x4x1_S4x300x12544x4_1_2_0_0_2_3_13001.batchCoord (ix4 b n p k) 1 + gather_S4x300x65536_S4x12544x4x1_S4x300x12544x4_1_2_0_0_2_3_13001.offCoord (ix4 b n p k) 1 = n.val
    have hs : gather_S4x300x65536_S4x12544x4x1_S4x300x12544x4_1_2_0_0_2_3_13001.start (ix4 b n p k) idx 1 = 0 := by
      unfold GatherDims.start
      rw [dif_neg (by decide)]
    rw [GatherDims.batchCoord_eq_zero _ _ _ (by decide), hs]
    simp only [Nat.add_zero, Nat.zero_add]
    unfold GatherDims.offCoord
    rw [dif_pos (by decide)]
    rfl
  | ⟨2, _⟩ =>
    show gather_S4x300x65536_S4x12544x4x1_S4x300x12544x4_1_2_0_0_2_3_13001.start (ix4 b n p k) idx 2 + gather_S4x300x65536_S4x12544x4x1_S4x300x12544x4_1_2_0_0_2_3_13001.batchCoord (ix4 b n p k) 2 + gather_S4x300x65536_S4x12544x4x1_S4x300x12544x4_1_2_0_0_2_3_13001.offCoord (ix4 b n p k) 2
      = min (idx (ix4 b p k (0 : Fin 1))).toInt.toNat 65535
    rw [GatherDims.batchCoord_eq_zero _ _ _ (by decide), GatherDims.offCoord_eq_zero _ _ _ (by decide)]
    simp only [Nat.add_zero, Nat.zero_add]
    unfold GatherDims.start
    rw [dif_pos (by decide)]
    refine congrArg₂ min (congrArg (fun z => (idx z).toInt.toNat) ?_) rfl
    exact hsi

end Cert.KernelIdeal.Samp
end
-- ==== Proof.SampSpec.lean ====
/-
  The bilinear point sample of a [4, N, 256, 256] stack of masks at one sampled point, written once for both programs.

  A point with floor coordinates (x0, y0) and fractional parts (dx, dy) reads the four corners (x0, y0),
  (x0 + 1, y0), (x0, y0 + 1), (x0 + 1, y0 + 1). A corner (xc, yc) contributes the mask entry at the coordinates
  clipped to [0, 255] and converted to integers, times 1 or 0 as the corner lies inside the mask or not; the four
  contributions are weighted by (1 − dx)(1 − dy), dx (1 − dy), (1 − dx) dy, dx dy and added from the left.
-/
import Idealize.ShloMosaic.PureOps.Ideal
import Idealize.ShloMosaic.PureOps.Ideal.Laws
import Idealize.ShloMosaic.Lib.ValueIdx

noncomputable section

namespace Cert.SampSpec

open Idealize.ShloMosaic Idealize.ShloMosaic.ValueIdx

/-- The clip's lower bound: the integer 0 converted to a float. -/
def lo : EReal := (((0#32 : BitVec 32).toInt : ℝ) : EReal)
/-- The clip's upper bound: the integer 255 converted to a float. -/
def hi : EReal := (((255#32 : BitVec 32).toInt : ℝ) : EReal)
/-- A coordinate clipped to [0, 255] and converted to a 32-bit integer. -/
def ci (v : EReal) : BitVec 32 := Ideal.fptosi 32 (min hi (max lo v))
/-- The same as a row or column number of the mask (the cap at 255 never acts: `ci v` is between 0 and 255). -/
def cn (v : EReal) : Fin 256 := ⟨min (ci v).toInt.toNat 255, by omega⟩
/-- The float literals 0, 255 and 1. -/
def zero : EReal := Ideal.ofBits .f32 0x00000000#32
def top255 : EReal := Ideal.ofBits .f32 0x437F0000#32
def one : EReal := Ideal.ofBits .f32 0x3F800000#32
/-- 1 if 0 ≤ xc ≤ 255 and 0 ≤ yc ≤ 255, else 0 (the four comparisons joined in this order). -/
def valid (xc yc : EReal) : EReal :=
  FloatOps.uitofp (F := Ideal) .f32
    (IntOp.andi (IntOp.andi (IntOp.andi (Ideal.cmp .oge xc zero) (Ideal.cmp .ole xc top255)) (Ideal.cmp .oge yc zero))
      (Ideal.cmp .ole yc top255))
/-- One corner's contribution before its weight. -/
def corner {N : Nat} (M : FVec Ideal ⟨4, ![4, N, 256, 256]⟩ .f32) (b : Fin 4) (n : Fin N) (xc yc : EReal) : EReal :=
  M (ix4 b n (cn yc) (cn xc)) * valid xc yc
/-- The sample: the four weighted corners added from the left. -/
def sampAt {N : Nat} (M : FVec Ideal ⟨4, ![4, N, 256, 256]⟩ .f32) (b : Fin 4) (n : Fin N) (x0 y0 dx dy : EReal) : EReal :=
  (((corner M b n x0 y0 * (one - dx)) * (one - dy) + (corner M b n (x0 + one) y0 * dx) * (one - dy))
    + (corner M b n x0 (y0 + one) * (one - dx)) * dy) + (corner M b n (x0 + one) (y0 + one) * dx) * dy

end Cert.SampSpec
end
-- ==== Proof.SampInt.lean ====
/-
  The integer facts of the point sampler.

  A coordinate clipped to [0, 255] is a real number between 0 and 255 whatever the coordinate was (an
  infinity clips to an end of the interval), and a real in that interval converts to the 32-bit integer of
  its floor, a number between 0 and 255. So the converted coordinate is nonnegative as a signed integer, is
  its own value read unsigned, names a row or a column of the 256 × 256 mask directly, and the test
  "is it negative" answers no.
-/
import proofs.«122505_j52948356825308_2_alg».proof.Proof.SampSpec
import Idealize.ShloMosaic.Lib.Affine

namespace Cert.SampSpec

open Idealize.ShloMosaic

/-- The clip's lower bound is 0. -/
theorem lo_eq : lo = ((0 : ℝ) : EReal) := by
  unfold lo
  rw [show (0#32 : BitVec 32).toInt = 0 from by decide, Int.cast_zero]

/-- The clip's upper bound is 255. -/
theorem hi_eq : hi = ((255 : ℝ) : EReal) := by
  unfold hi
  rw [show (255#32 : BitVec 32).toInt = 255 from by decide]
  norm_num

/-- A clipped coordinate is a real between 0 and 255. -/
theorem clip_real (v : EReal) : ∃ r : ℝ, 0 ≤ r ∧ r ≤ 255 ∧ min hi (max lo v) = (r : EReal) := by
  rw [lo_eq, hi_eq]
  induction v using EReal.rec with
  | bot => exact ⟨0, le_rfl, by norm_num, by rw [max_eq_left bot_le, min_eq_right (by exact_mod_cast (by norm_num : (0 : ℝ) ≤ 255))]⟩
  | top => exact ⟨255, by norm_num, le_rfl, by rw [max_eq_right le_top, min_eq_left le_top]⟩
  | coe r =>
    refine ⟨min 255 (max 0 r), le_min (by norm_num) (le_max_left _ _), min_le_left _ _, ?_⟩
    rw [EReal.coe_strictMono.monotone.map_min, EReal.coe_strictMono.monotone.map_max]

/-- The converted clipped coordinate is the word of a number at most 255. -/
theorem ci_eq (v : EReal) : ∃ k : ℕ, k ≤ 255 ∧ ci v = BitVec.ofNat 32 k := by
  obtain ⟨r, h0, h1, hr⟩ := clip_real v
  have hf0 : 0 ≤ ⌊r⌋ := Int.floor_nonneg.mpr h0
  have hf1 : ⌊r⌋ ≤ 255 := by
    have : (⌊r⌋ : ℝ) ≤ 255 := (Int.floor_le r).trans h1
    exact_mod_cast this
  refine ⟨⌊r⌋.toNat, by omega, ?_⟩
  unfold ci
  rw [hr]
  show BitVec.ofInt 32 (Ideal.toIntClamped (-((2 ^ (32 - 1) : Nat) : Int)) (((2 ^ (32 - 1) : Nat) : Int) - 1) (r : EReal)) = _
  rw [Ideal.toIntClamped_coe, if_pos h0, min_eq_right (by norm_num; omega), max_eq_right (by norm_num; omega)]
  conv_lhs => rw [← Int.toNat_of_nonneg hf0]
  exact BitVec.ofInt_natCast _ _

/-- THE INTEGER FACT: the converted clipped coordinate, read unsigned, is at most 255. -/
theorem ci_toNat_le (v : EReal) : (ci v).toNat ≤ 255 := by
  obtain ⟨k, hk, e⟩ := ci_eq v
  rw [e, BitVec.toNat_ofNat, Nat.mod_eq_of_lt (by omega)]
  exact hk

/-- Read signed it is the same number: it is not negative. -/
theorem ci_toInt (v : EReal) : (ci v).toInt = ((ci v).toNat : Int) := by
  have h := ci_toNat_le v
  rw [BitVec.toInt_eq_toNat_cond, if_pos (by omega)]

/-- The signed test "is it below 0" answers no. -/
theorem ci_not_neg (v : EReal) : IntOp.cmpi .slt (ci v) 0#32 = 0#1 := by
  rcases BitVec.eq_zero_or_eq_one (IntOp.cmpi .slt (ci v) 0#32) with h | h
  · exact h
  · have := IntOp.cmpi_slt.1 h
    rw [ci_toInt] at this
    have h0 : (0#32 : BitVec 32).toInt = 0 := by decide
    omega

/-- The row or column it names is the number itself. -/
theorem cn_val (v : EReal) : ((cn v : Fin 256) : ℕ) = (ci v).toNat := by
  have h := ci_toNat_le v
  show min (ci v).toInt.toNat 255 = _
  rw [ci_toInt, Int.toNat_natCast, min_eq_left h]

/-- The clamp of a gather on an axis of 256 entries keeps it. -/
theorem ci_clamp (v : EReal) : min (ci v).toInt.toNat (256 - 1) = (ci v).toNat := by
  have h := ci_toNat_le v
  rw [ci_toInt, Int.toNat_natCast]
  exact min_eq_left h

end Cert.SampSpec
-- ==== Proof.KernelIdeal.SampKPoint.lean ====
/-
  The kernel's point sampler of the [4, 300, 256, 256] masks at one corner of one sampled point.

  The clipped coordinates convert to integers between 0 and 255, so the flat index 256·yi + xi is computed without
  overflow and lies in [0, 65535]: the wrap of a negative index does not fire, the in-range mask is true (the
  fill value is never selected), the gather's clamp keeps the index, and the flattened masks at 256·yi + xi are
  the masks at (yi, xi). With the validity factor this is the corner's contribution of the common specification.
-/
import proofs.«122505_j52948356825308_2_alg».proof.Proof.KernelIdeal.SampKRead
import proofs.«122505_j52948356825308_2_alg».proof.Proof.SampSpec
import proofs.«122505_j52948356825308_2_alg».proof.Proof.SampInt
import Idealize.ShloMosaic.Lib.Affine

noncomputable section

namespace Cert.KernelIdeal.Samp

open Cert.KernelIdeal Cert.KernelIdeal.Gen Idealize.ShloMosaic Idealize.ShloMosaic.TcCoe Idealize.SL.Sem Idealize.ShloMosaic.StableHlo
open Idealize.ShloMosaic.ValueIdx

/-! ## The flat index -/

/-- 256·yi + xi in 32 bits is the number 256·yi + xi when both are at most 255. -/
theorem kflat_toNat (yi xi : BitVec 32) (hy : yi.toNat ≤ 255) (hx : xi.toNat ≤ 255) :
    (IntOp.addi (IntOp.muli yi 256#32) xi).toNat = yi.toNat * 256 + xi.toNat := by
  have h256 : (256#32 : BitVec 32).toNat = 256 := by decide
  unfold IntOp.addi IntOp.muli
  rw [BitVec.toNat_add, BitVec.toNat_mul, h256]
  show (yi.toNat * 256 % 4294967296 + xi.toNat) % 4294967296 = yi.toNat * 256 + xi.toNat
  omega

/-- Read signed it is the same number. -/
theorem kflat_toInt (yi xi : BitVec 32) (hy : yi.toNat ≤ 255) (hx : xi.toNat ≤ 255) :
    (IntOp.addi (IntOp.muli yi 256#32) xi).toInt = ((yi.toNat * 256 + xi.toNat : ℕ) : Int) := by
  have h := kflat_toNat yi xi hy hx
  rw [BitVec.toInt_eq_toNat_cond, if_pos (by rw [h]; show 2 * (yi.toNat * 256 + xi.toNat) < 4294967296; omega), h]

/-- It is not negative. -/
theorem kflat_not_neg (yi xi : BitVec 32) (hy : yi.toNat ≤ 255) (hx : xi.toNat ≤ 255) :
    IntOp.cmpi .slt (IntOp.addi (IntOp.muli yi 256#32) xi) 0#32 = 0#1 := by
  rcases BitVec.eq_zero_or_eq_one (IntOp.cmpi .slt (IntOp.addi (IntOp.muli yi 256#32) xi) 0#32) with h | h
  · exact h
  · have := IntOp.cmpi_slt.1 h
    rw [kflat_toInt yi xi hy hx] at this
    have h0 : (0#32 : BitVec 32).toInt = 0 := by decide
    omega

/-- It lies in [0, 65535]. -/
theorem kflat_in_range (yi xi : BitVec 32) (hy : yi.toNat ≤ 255) (hx : xi.toNat ≤ 255) :
    IntOp.andi (IntOp.cmpi .sge (IntOp.addi (IntOp.muli yi 256#32) xi) 0#32)
      (IntOp.cmpi .sle (IntOp.addi (IntOp.muli yi 256#32) xi) 65535#32) = 1#1 := by
  have h0 : (0#32 : BitVec 32).toInt = 0 := by decide
  have h1 : (65535#32 : BitVec 32).toInt = 65535 := by decide
  refine IntOp.andi_eq_one.2 ⟨IntOp.cmpi_sge.2 ?_, IntOp.cmpi_sle.2 ?_⟩
  · rw [kflat_toInt yi xi hy hx, h0]; omega
  · rw [kflat_toInt yi xi hy hx, h1]; omega

/-! ## The stages at a corner -/

/-- xi is the clipped, converted x coordinate of the corner. -/
theorem k47_apply (P : (⟨S4x12544x2, .f32⟩ : BufTy).Contents (Elt Ideal)) (j : S4x12544x4.Idx) :
    k47 (F := Ideal) P j = SampSpec.ci (k24 (F := Ideal) P j) := rfl
/-- yi is the clipped, converted y coordinate of the corner. -/
theorem k49_apply (P : (⟨S4x12544x2, .f32⟩ : BufTy).Contents (Elt Ideal)) (j : S4x12544x4.Idx) :
    k49 (F := Ideal) P j = SampSpec.ci (k33 (F := Ideal) P j) := rfl
/-- The flat index. -/
theorem k52_apply (P : (⟨S4x12544x2, .f32⟩ : BufTy).Contents (Elt Ideal)) (j : S4x12544x4.Idx) :
    k52 (F := Ideal) P j
      = IntOp.addi (IntOp.muli (SampSpec.ci (k33 (F := Ideal) P j)) 256#32) (SampSpec.ci (k24 (F := Ideal) P j)) := rfl
/-- The wrap of a negative index does not fire. -/
theorem kt4_apply (P : (⟨S4x12544x2, .f32⟩ : BufTy).Contents (Elt Ideal)) (j : S4x12544x4.Idx) :
    kt4 (F := Ideal) P j = k52 (F := Ideal) P j := by
  show Scalar.select (IntOp.cmpi .slt (k52 (F := Ideal) P j) 0#32) (IntOp.addi (k52 (F := Ideal) P j) 65536#32) (k52 (F := Ideal) P j) = _
  rw [k52_apply, kflat_not_neg _ _ (SampSpec.ci_toNat_le _) (SampSpec.ci_toNat_le _), select_zero]
/-- The start indices with their unit axis. -/
theorem kt5_apply (P : (⟨S4x12544x2, .f32⟩ : BufTy).Contents (Elt Ideal)) (b : Fin 4) (p : Fin 12544) (k : Fin 4) (z : Fin 1) :
    kt5 (F := Ideal) P (ix4 b p k z) = k52 (F := Ideal) P (ix3 b p k) := by
  unfold kt5
  refine (broadcastInDim_apply _ bcast_S4x12544x4_S4x12544x4x1_0_1_2 _ (ix4 b p k z) (ix3 b p k) (fun a => match a with
    | ⟨0, _⟩ => by show b.val = if (4 : Nat) = 1 then 0 else b.val; rw [if_neg (by decide)]
    | ⟨1, _⟩ => by show p.val = if (12544 : Nat) = 1 then 0 else p.val; rw [if_neg (by decide)]
    | ⟨2, _⟩ => by show k.val = if (4 : Nat) = 1 then 0 else k.val; rw [if_neg (by decide)])).trans ?_
  exact kt4_apply P (ix3 b p k)
/-- The in-range test is true at every index. -/
theorem kt11_apply (P : (⟨S4x12544x2, .f32⟩ : BufTy).Contents (Elt Ideal)) (i : S4x12544x4x1.Idx) : kt11 (F := Ideal) P i = 1#1 := by
  obtain ⟨b, p, k, z, rfl⟩ : ∃ (b : Fin 4) (p : Fin 12544) (k : Fin 4) (z : Fin 1), i = ix4 b p k z := ⟨i 0, i 1, i 2, i 3, eq_ix4 i⟩
  show IntOp.andi (IntOp.cmpi .sge (kt5 (F := Ideal) P (ix4 b p k z)) 0#32) (IntOp.cmpi .sle (kt5 (F := Ideal) P (ix4 b p k z)) 65535#32) = 1#1
  rw [kt5_apply, k52_apply]
  exact kflat_in_range _ _ (SampSpec.ci_toNat_le _) (SampSpec.ci_toNat_le _)
/-- A left fold of `and` over ones from one is one. -/
theorem kfoldl_andi_one {ι : Type} (x : ι → BitVec 1) (hx : ∀ i, x i = 1#1) (l : List ι) :
    l.foldl (fun r i => IntOp.andi r (x i)) 1#1 = 1#1 := by
  induction l with
  | nil => rfl
  | cons a l ih =>
    rw [List.foldl_cons, hx a]
    exact ih
/-- The in-range mask is true at every corner. -/
theorem kt12_apply (P : (⟨S4x12544x2, .f32⟩ : BufTy).Contents (Elt Ideal)) (j : S4x12544x4.Idx) : kt12 (F := Ideal) P j = 1#1 := by
  unfold kt12
  rw [Host.reduce_eq_foldl]
  exact kfoldl_andi_one _ (kt11_apply P) _
/-- A [4, 12544, 4] array of bits repeated along the mask axis, read at (b, n, p, k). -/
theorem kmaskup_apply (msk : (⟨S4x12544x4, .i1⟩ : BufTy).Contents (Elt Ideal)) (b : Fin 4) (n : Fin 300) (p : Fin 12544) (k : Fin 4) :
    (broadcastInDim S4x300x12544x4 ![0, 2, 3] bcast_S4x12544x4_S4x300x12544x4_0_2_3 msk) (ix4 b n p k) = msk (ix3 b p k) :=
  broadcastInDim_apply _ bcast_S4x12544x4_S4x300x12544x4_0_2_3 msk (ix4 b n p k) (ix3 b p k) (fun a => match a with
    | ⟨0, _⟩ => by show b.val = if (4 : Nat) = 1 then 0 else b.val; rw [if_neg (by decide)]
    | ⟨1, _⟩ => by show p.val = if (12544 : Nat) = 1 then 0 else p.val; rw [if_neg (by decide)]
    | ⟨2, _⟩ => by show k.val = if (4 : Nat) = 1 then 0 else k.val; rw [if_neg (by decide)])
/-- The fill value is never selected. -/
theorem k54_apply (M : (⟨S4x300x256x256, .f32⟩ : BufTy).Contents (Elt Ideal)) (P : (⟨S4x12544x2, .f32⟩ : BufTy).Contents (Elt Ideal)) (b : Fin 4) (n : Fin 300) (p : Fin 12544) (k : Fin 4) :
    k54 (F := Ideal) M P (ix4 b n p k) = kt13 (F := Ideal) M P (ix4 b n p k) := by
  unfold k54
  rw [select_apply, kmaskup_apply, kt12_apply, select_one]
/-- The gathered entry is the mask's at the clipped integer coordinates of the corner. -/
theorem kt13_apply (M : (⟨S4x300x256x256, .f32⟩ : BufTy).Contents (Elt Ideal)) (P : (⟨S4x12544x2, .f32⟩ : BufTy).Contents (Elt Ideal)) (b : Fin 4) (n : Fin 300) (p : Fin 12544) (k : Fin 4) :
    kt13 (F := Ideal) M P (ix4 b n p k)
      = M (ix4 b n (SampSpec.cn (k33 (F := Ideal) P (ix3 b p k))) (SampSpec.cn (k24 (F := Ideal) P (ix3 b p k)))) := by
  unfold kt13
  rw [kgather_apply]
  refine k53_apply M b n _ _ _ ?_
  have hy := SampSpec.ci_toNat_le (k33 (F := Ideal) P (ix3 b p k))
  have hx := SampSpec.ci_toNat_le (k24 (F := Ideal) P (ix3 b p k))
  show min (kt5 (F := Ideal) P (ix4 b p k (0 : Fin 1))).toInt.toNat 65535 = _
  rw [kt5_apply, k52_apply, kflat_toInt _ _ hy hx, Int.toNat_natCast, SampSpec.cn_val, SampSpec.cn_val]
  omega
/-- The validity factor of the corner. -/
theorem k45_apply (P : (⟨S4x12544x2, .f32⟩ : BufTy).Contents (Elt Ideal)) (j : S4x12544x4.Idx) :
    k45 (F := Ideal) P j = SampSpec.valid (k24 (F := Ideal) P j) (k33 (F := Ideal) P j) := rfl
/-- One corner's contribution before its weight. -/
theorem k57_apply (M : (⟨S4x300x256x256, .f32⟩ : BufTy).Contents (Elt Ideal)) (P : (⟨S4x12544x2, .f32⟩ : BufTy).Contents (Elt Ideal)) (b : Fin 4) (n : Fin 300) (p : Fin 12544) (k : Fin 4) :
    k57 (F := Ideal) M P (ix4 b n p k)
      = SampSpec.corner (N := 300) M b n (k24 (F := Ideal) P (ix3 b p k)) (k33 (F := Ideal) P (ix3 b p k)) := by
  show k54 (F := Ideal) M P (ix4 b n p k) * kup (F := Ideal) (k45 (F := Ideal) P) (ix4 b n p k) = _
  rw [k54_apply, kt13_apply, kup_apply, k45_apply]
  rfl

end Cert.KernelIdeal.Samp
end
-- ==== Proof.KernelIdeal.SampKSum.lean ====
/-
  The kernel's sampled [4, 300, 12544] masks at (b, n, p) are the common specification's bilinear sample of the
  masks at the point's floor coordinates and fractional parts: the sum over the stacked corners is the four
  weighted corners added from the left (0 + a = a; the weight (1 − dx)(1 − dy) of a corner multiplies it in one
  step here and in two steps there, which is associativity of the product).
-/
import proofs.«122505_j52948356825308_2_alg».proof.Proof.KernelIdeal.SampKPoint

noncomputable section

namespace Cert.KernelIdeal.Samp

open Cert.KernelIdeal Cert.KernelIdeal.Gen Idealize.ShloMosaic Idealize.ShloMosaic.TcCoe Idealize.SL.Sem Idealize.ShloMosaic.StableHlo
open Idealize.ShloMosaic.ValueIdx

theorem kSamp_eq_sampAt (M : (⟨S4x300x256x256, .f32⟩ : BufTy).Contents (Elt Ideal)) (P : (⟨S4x12544x2, .f32⟩ : BufTy).Contents (Elt Ideal)) (b : Fin 4) (n : Fin 300) (p : Fin 12544) :
    kSamp (F := Ideal) M P (ix3 b n p)
      = SampSpec.sampAt (N := 300) M b n (k12 (F := Ideal) P (ix2 b p)) (k13 (F := Ideal) P (ix2 b p)) (k14 (F := Ideal) P (ix2 b p)) (k15 (F := Ideal) P (ix2 b p)) := by
  have e : ∀ k : Fin 4, k77 (F := Ideal) M P (ix4 b n p k)
      = SampSpec.corner (N := 300) M b n (k24 (F := Ideal) P (ix3 b p k)) (k33 (F := Ideal) P (ix3 b p k)) * k74 (F := Ideal) P (ix3 b p k) := fun k => by
    show k57 (F := Ideal) M P (ix4 b n p k) * kup (F := Ideal) (k74 (F := Ideal) P) (ix4 b n p k) = _
    rw [k57_apply, kup_apply]
  have hx0 : k24 (F := Ideal) P (ix3 b p 0) = k12 (F := Ideal) P (ix2 b p) := kcat4_col_apply _ _ _ _ b p 0
  have hx1 : k24 (F := Ideal) P (ix3 b p 1) = k12 (F := Ideal) P (ix2 b p) + SampSpec.one := kcat4_col_apply _ _ _ _ b p 1
  have hx2 : k24 (F := Ideal) P (ix3 b p 2) = k12 (F := Ideal) P (ix2 b p) := kcat4_col_apply _ _ _ _ b p 2
  have hx3 : k24 (F := Ideal) P (ix3 b p 3) = k12 (F := Ideal) P (ix2 b p) + SampSpec.one := kcat4_col_apply _ _ _ _ b p 3
  have hy0 : k33 (F := Ideal) P (ix3 b p 0) = k13 (F := Ideal) P (ix2 b p) := kcat4_col_apply _ _ _ _ b p 0
  have hy1 : k33 (F := Ideal) P (ix3 b p 1) = k13 (F := Ideal) P (ix2 b p) := kcat4_col_apply _ _ _ _ b p 1
  have hy2 : k33 (F := Ideal) P (ix3 b p 2) = k13 (F := Ideal) P (ix2 b p) + SampSpec.one := kcat4_col_apply _ _ _ _ b p 2
  have hy3 : k33 (F := Ideal) P (ix3 b p 3) = k13 (F := Ideal) P (ix2 b p) + SampSpec.one := kcat4_col_apply _ _ _ _ b p 3
  have hw0 : k74 (F := Ideal) P (ix3 b p 0) = (SampSpec.one - k14 (F := Ideal) P (ix2 b p)) * (SampSpec.one - k15 (F := Ideal) P (ix2 b p)) := kcat4_col_apply _ _ _ _ b p 0
  have hw1 : k74 (F := Ideal) P (ix3 b p 1) = k14 (F := Ideal) P (ix2 b p) * (SampSpec.one - k15 (F := Ideal) P (ix2 b p)) := kcat4_col_apply _ _ _ _ b p 1
  have hw2 : k74 (F := Ideal) P (ix3 b p 2) = (SampSpec.one - k14 (F := Ideal) P (ix2 b p)) * k15 (F := Ideal) P (ix2 b p) := kcat4_col_apply _ _ _ _ b p 2
  have hw3 : k74 (F := Ideal) P (ix3 b p 3) = k14 (F := Ideal) P (ix2 b p) * k15 (F := Ideal) P (ix2 b p) := kcat4_col_apply _ _ _ _ b p 3
  rw [kSamp_apply, Fin.sum_univ_four, e 0, e 1, e 2, e 3, hx0, hx1, hx2, hx3, hy0, hy1, hy2, hy3, hw0, hw1, hw2, hw3,
    Ideal.ofBits_zero_f32, zero_add]
  unfold SampSpec.sampAt
  simp only [mul_assoc]

end Cert.KernelIdeal.Samp
end
-- ==== Proof.SampGather.lean ====
/-
  A two-index gather out of a [4, N, 256, 256] stack of masks, read at an index.

  The gather takes, for result index (b, n, p), the start index (idx[b, p, 0], idx[b, p, 1]) on the two
  spatial axes, each component read signed and clamped into [0, 255]; the batch coordinate b pairs with
  the first axis of the start indices and the offset coordinate n runs over the whole second axis. So the
  element read is the mask entry [b, n, clamp idx[b, p, 0], clamp idx[b, p, 1]].
-/
import Idealize.ShloMosaic.PureOps
import Idealize.ShloMosaic.Lib.ValueIdx

namespace Cert.SampSpec

open Idealize.ShloMosaic Idealize.ShloMosaic.ValueIdx

variable {α : Type}

/-- The gather's dimension numbers for an operand [4, N, 256, 256], start indices [4, 12544, 2] and result [4, N, 12544]. -/
abbrev pickDims (N : Nat)
    (wf : GatherDims.WF ⟨4, ![4, N, 256, 256]⟩ ⟨3, ![4, 12544, 2]⟩ ⟨3, ![4, N, 12544]⟩ [1] [2, 3] [0] [2, 3] [0] 2 ![1, N, 1, 1]) :
    GatherDims ⟨4, ![4, N, 256, 256]⟩ ⟨3, ![4, 12544, 2]⟩ ⟨3, ![4, N, 12544]⟩ where
  offsetDims := [1]
  collapsedSliceDims := [2, 3]
  operandBatchingDims := [0]
  startIndicesBatchingDims := [0]
  startIndexMap := [2, 3]
  indexVectorDim := 2
  sliceSizes := ![1, N, 1, 1]
  wf := wf

/-- THE GATHER READ AT (b, n, p). -/
theorem gather_pick_apply {N w : Nat}
    (wf : GatherDims.WF ⟨4, ![4, N, 256, 256]⟩ ⟨3, ![4, 12544, 2]⟩ ⟨3, ![4, N, 12544]⟩ [1] [2, 3] [0] [2, 3] [0] 2 ![1, N, 1, 1])
    (x : (⟨4, ![4, N, 256, 256]⟩ : Shape).Idx → α) (idx : IVec ⟨3, ![4, 12544, 2]⟩ w) (b : Fin 4) (n : Fin N) (p : Fin 12544) :
    Host.gather (pickDims N wf) x idx (ix3 b n p) =
      x (ix4 b n ⟨min (idx (ix3 b p (0 : Fin 2))).toInt.toNat (256 - 1), by omega⟩
        ⟨min (idx (ix3 b p (1 : Fin 2))).toInt.toNat (256 - 1), by omega⟩) := by
  unfold Host.gather
  refine congrArg x (funext fun a => Fin.ext ?_)
  match a with
  | ⟨0, _⟩ =>
    show (pickDims N wf).start (ix3 b n p) idx 0 + (pickDims N wf).batchCoord (ix3 b n p) 0
      + (pickDims N wf).offCoord (ix3 b n p) 0 = b.val
    rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    rfl
  | ⟨1, _⟩ =>
    show (pickDims N wf).start (ix3 b n p) idx 1 + (pickDims N wf).batchCoord (ix3 b n p) 1
      + (pickDims N wf).offCoord (ix3 b n p) 1 = n.val
    rw [GatherDims.batchCoord_eq_zero _ _ _ (show (1 : Fin 4) ∉ ([0] : List (Fin 4)) from by decide)]
    have hs : (pickDims N wf).start (ix3 b n p) idx 1 = 0 := by
      unfold GatherDims.start
      rw [dif_neg (show (1 : Fin 4) ∉ ([2, 3] : List (Fin 4)) from by decide)]
    rw [hs]
    simp only [Nat.add_zero, Nat.zero_add]
    rfl
  | ⟨2, _⟩ =>
    show (pickDims N wf).start (ix3 b n p) idx 2 + (pickDims N wf).batchCoord (ix3 b n p) 2
      + (pickDims N wf).offCoord (ix3 b n p) 2 = min (idx (ix3 b p (0 : Fin 2))).toInt.toNat (256 - 1)
    rw [GatherDims.batchCoord_eq_zero _ _ _ (show (2 : Fin 4) ∉ ([0] : List (Fin 4)) from by decide),
      GatherDims.offCoord_eq_zero _ _ _ (fun h => ((GatherDims.mem_sKept _ _).mp h).1
        (show (2 : Fin 4) ∈ ([2, 3] : List (Fin 4)) from by decide))]
    simp only [Nat.add_zero]
    unfold GatherDims.start
    rw [dif_pos (show (2 : Fin 4) ∈ ([2, 3] : List (Fin 4)) from by decide)]
    have hsi : (pickDims N wf).siIdx (ix3 b n p) ⟨List.idxOf (2 : Fin 4) (pickDims N wf).startIndexMap,
        List.idxOf_lt_length_iff.2 (show (2 : Fin 4) ∈ ([2, 3] : List (Fin 4)) from by decide)⟩ = ix3 b p (0 : Fin 2) := by
      funext c; refine Fin.ext ?_
      match c with
      | ⟨0, _⟩ => rfl
      | ⟨1, _⟩ => rfl
      | ⟨2, _⟩ => rfl
    rw [hsi]
    rfl
  | ⟨3, _⟩ =>
    show (pickDims N wf).start (ix3 b n p) idx 3 + (pickDims N wf).batchCoord (ix3 b n p) 3
      + (pickDims N wf).offCoord (ix3 b n p) 3 = min (idx (ix3 b p (1 : Fin 2))).toInt.toNat (256 - 1)
    rw [GatherDims.batchCoord_eq_zero _ _ _ (show (3 : Fin 4) ∉ ([0] : List (Fin 4)) from by decide),
      GatherDims.offCoord_eq_zero _ _ _ (fun h => ((GatherDims.mem_sKept _ _).mp h).1
        (show (3 : Fin 4) ∈ ([2, 3] : List (Fin 4)) from by decide))]
    simp only [Nat.add_zero]
    unfold GatherDims.start
    rw [dif_pos (show (3 : Fin 4) ∈ ([2, 3] : List (Fin 4)) from by decide)]
    have hsi : (pickDims N wf).siIdx (ix3 b n p) ⟨List.idxOf (3 : Fin 4) (pickDims N wf).startIndexMap,
        List.idxOf_lt_length_iff.2 (show (3 : Fin 4) ∈ ([2, 3] : List (Fin 4)) from by decide)⟩ = ix3 b p (1 : Fin 2) := by
      funext c; refine Fin.ext ?_
      match c with
      | ⟨0, _⟩ => rfl
      | ⟨1, _⟩ => rfl
      | ⟨2, _⟩ => rfl
    rw [hsi]
    rfl

end Cert.SampSpec
-- ==== Proof.SampRef.lean ====
/-
  The reference's point sampler is the bilinear sample.

  Each of the reference's four corner terms is a two-index gather out of the masks, at the clipped integer
  coordinates (row, column) joined along a last axis of size two, times the corner's 0/1 in-range mask
  repeated along the mask axis. Read at an index (b, n, p): the joined index array gives back its two
  columns, the columns give back the per-point integers, the "negative index" wrap never acts on a clipped
  coordinate, and the gather's clamp keeps a number between 0 and 255; the repeated mask and the repeated
  weights read the per-point value at (b, p). What is left is, term for term, the bilinear sample.
-/
import proofs.«122505_j52948356825308_2_alg».proof.Proof.ReferenceReadP
import proofs.«122505_j52948356825308_2_alg».proof.Proof.SampInt
import proofs.«122505_j52948356825308_2_alg».proof.Proof.SampGather

namespace Cert.SampSpec

open Idealize.ShloMosaic Idealize.ShloMosaic.ValueIdx

/-! ## Layout operations of the sampler, read at an index -/

section Layout
variable {α : Type} {N : Nat}

/-- A per-point array [4, 12544] repeated along a new mask axis, read at (b, n, p), is its value at (b, p). -/
theorem up_apply (h1 : (⟨2, ![4, 12544]⟩ : Shape).BroadcastsInDim ⟨3, ![4, 1, 12544]⟩ ![0, 2])
    (h2 : (⟨3, ![4, 1, 12544]⟩ : Shape).BroadcastsInDim ⟨3, ![4, N, 12544]⟩ ![0, 1, 2])
    (y : (⟨2, ![4, 12544]⟩ : Shape).Idx → α) (b : Fin 4) (n : Fin N) (p : Fin 12544) :
    broadcastInDim ⟨3, ![4, N, 12544]⟩ ![0, 1, 2] h2 (broadcastInDim ⟨3, ![4, 1, 12544]⟩ ![0, 2] h1 y) (ix3 b n p)
      = y (ix2 b p) :=
  (broadcastInDim_apply _ h2 _ (ix3 b n p) (ix3 b (0 : Fin 1) p) (fun a => match a with
    | ⟨0, _⟩ => by show b.val = if (4 : Nat) = 1 then 0 else b.val; rw [if_neg (by decide)]
    | ⟨1, _⟩ => by show 0 = if (1 : Nat) = 1 then 0 else n.val; rw [if_pos rfl]
    | ⟨2, _⟩ => by show p.val = if (12544 : Nat) = 1 then 0 else p.val; rw [if_neg (by decide)])).trans
  (broadcastInDim_apply _ h1 y (ix3 b (0 : Fin 1) p) (ix2 b p) (fun a => match a with
    | ⟨0, _⟩ => by show b.val = if (4 : Nat) = 1 then 0 else b.val; rw [if_neg (by decide)]
    | ⟨1, _⟩ => by show p.val = if (12544 : Nat) = 1 then 0 else p.val; rw [if_neg (by decide)]))

/-- A per-point array as a column [4, 12544, 1], read at (b, p, 0), is its value at (b, p). -/
theorem col_apply (h : (⟨2, ![4, 12544]⟩ : Shape).BroadcastsInDim ⟨3, ![4, 12544, 1]⟩ ![0, 1])
    (y : (⟨2, ![4, 12544]⟩ : Shape).Idx → α) (b : Fin 4) (p : Fin 12544) :
    broadcastInDim ⟨3, ![4, 12544, 1]⟩ ![0, 1] h y (ix3 b p (0 : Fin 1)) = y (ix2 b p) :=
  broadcastInDim_apply _ h y (ix3 b p (0 : Fin 1)) (ix2 b p) (fun a => match a with
    | ⟨0, _⟩ => by show b.val = if (4 : Nat) = 1 then 0 else b.val; rw [if_neg (by decide)]
    | ⟨1, _⟩ => by show p.val = if (12544 : Nat) = 1 then 0 else p.val; rw [if_neg (by decide)])

/-- Two columns joined along the last axis: entry 0 is the first column's. -/
theorem cat_left (h : Shape.Concatenates [(⟨3, ![4, 12544, 1]⟩ : Shape), ⟨3, ![4, 12544, 1]⟩] ⟨3, ![4, 12544, 2]⟩ 2)
    (u v : (⟨3, ![4, 12544, 1]⟩ : Shape).Idx → α) (b : Fin 4) (p : Fin 12544) :
    concatenate ⟨3, ![4, 12544, 2]⟩ 2 [⟨⟨3, ![4, 12544, 1]⟩, u⟩, ⟨⟨3, ![4, 12544, 1]⟩, v⟩] h (ix3 b p (0 : Fin 2))
      = u (ix3 b p (0 : Fin 1)) :=
  concatenate_pair_apply_left _ u v h (ix3 b p (0 : Fin 2)) rfl (ix3 b p (0 : Fin 1)) (fun c => match c with
    | ⟨0, _⟩ => rfl
    | ⟨1, _⟩ => rfl
    | ⟨2, _⟩ => rfl)

/-- Two columns joined along the last axis: entry 1 is the second column's. -/
theorem cat_right (h : Shape.Concatenates [(⟨3, ![4, 12544, 1]⟩ : Shape), ⟨3, ![4, 12544, 1]⟩] ⟨3, ![4, 12544, 2]⟩ 2)
    (u v : (⟨3, ![4, 12544, 1]⟩ : Shape).Idx → α) (b : Fin 4) (p : Fin 12544) :
    concatenate ⟨3, ![4, 12544, 2]⟩ 2 [⟨⟨3, ![4, 12544, 1]⟩, u⟩, ⟨⟨3, ![4, 12544, 1]⟩, v⟩] h (ix3 b p (1 : Fin 2))
      = v (ix3 b p (0 : Fin 1)) :=
  concatenate_pair_apply_right _ u v h (ix3 b p (1 : Fin 2)) rfl rfl (ix3 b p (0 : Fin 1)) (fun c => match c with
    | ⟨0, _⟩ => fun _ => rfl
    | ⟨1, _⟩ => fun _ => rfl
    | ⟨2, _⟩ => fun hc => absurd rfl hc) rfl

end Layout

/-! ## One corner -/

/-- The "negative index" wrap never acts on a clipped coordinate. -/
theorem wrap_eq (v : EReal) : Scalar.select (IntOp.cmpi .slt (ci v) 0#32) (IntOp.addi (ci v) 256#32) (ci v) = ci v := by
  rw [ci_not_neg]
  exact if_neg (by decide)

/-- ONE CORNER'S TERM: the gather at the joined (row, column) integers times the repeated in-range mask, read at
    (b, n, p), is the bilinear sample's corner, given what the three per-point arrays hold at (b, p). -/
theorem corner_apply {N : Nat}
    (wf : GatherDims.WF ⟨4, ![4, N, 256, 256]⟩ ⟨3, ![4, 12544, 2]⟩ ⟨3, ![4, N, 12544]⟩ [1] [2, 3] [0] [2, 3] [0] 2 ![1, N, 1, 1])
    (hcol : (⟨2, ![4, 12544]⟩ : Shape).BroadcastsInDim ⟨3, ![4, 12544, 1]⟩ ![0, 1])
    (hcat : Shape.Concatenates [(⟨3, ![4, 12544, 1]⟩ : Shape), ⟨3, ![4, 12544, 1]⟩] ⟨3, ![4, 12544, 2]⟩ 2)
    (h1 : (⟨2, ![4, 12544]⟩ : Shape).BroadcastsInDim ⟨3, ![4, 1, 12544]⟩ ![0, 2])
    (h2 : (⟨3, ![4, 1, 12544]⟩ : Shape).BroadcastsInDim ⟨3, ![4, N, 12544]⟩ ![0, 1, 2])
    (M : FVec Ideal ⟨4, ![4, N, 256, 256]⟩ .f32) (U V : IVec ⟨2, ![4, 12544]⟩ 32) (W : FVec Ideal ⟨2, ![4, 12544]⟩ .f32)
    (b : Fin 4) (n : Fin N) (p : Fin 12544) (xc yc : EReal)
    (hU : U (ix2 b p) = ci yc) (hV : V (ix2 b p) = ci xc) (hW : W (ix2 b p) = valid xc yc) :
    Host.gather (pickDims N wf) M
        (concatenate ⟨3, ![4, 12544, 2]⟩ 2 [⟨⟨3, ![4, 12544, 1]⟩, broadcastInDim ⟨3, ![4, 12544, 1]⟩ ![0, 1] hcol U⟩,
          ⟨⟨3, ![4, 12544, 1]⟩, broadcastInDim ⟨3, ![4, 12544, 1]⟩ ![0, 1] hcol V⟩] hcat) (ix3 b n p)
      * broadcastInDim ⟨3, ![4, N, 12544]⟩ ![0, 1, 2] h2 (broadcastInDim ⟨3, ![4, 1, 12544]⟩ ![0, 2] h1 W) (ix3 b n p)
      = corner M b n xc yc := by
  rw [up_apply h1 h2 W b n p, hW, gather_pick_apply wf M _ b n p]
  have e0 : concatenate ⟨3, ![4, 12544, 2]⟩ 2 [⟨⟨3, ![4, 12544, 1]⟩, broadcastInDim ⟨3, ![4, 12544, 1]⟩ ![0, 1] hcol U⟩,
      ⟨⟨3, ![4, 12544, 1]⟩, broadcastInDim ⟨3, ![4, 12544, 1]⟩ ![0, 1] hcol V⟩] hcat (ix3 b p (0 : Fin 2)) = ci yc := by
    rw [cat_left hcat _ _ b p, col_apply hcol U b p, hU]
  have e1 : concatenate ⟨3, ![4, 12544, 2]⟩ 2 [⟨⟨3, ![4, 12544, 1]⟩, broadcastInDim ⟨3, ![4, 12544, 1]⟩ ![0, 1] hcol U⟩,
      ⟨⟨3, ![4, 12544, 1]⟩, broadcastInDim ⟨3, ![4, 12544, 1]⟩ ![0, 1] hcol V⟩] hcat (ix3 b p (1 : Fin 2)) = ci xc := by
    rw [cat_right hcat _ _ b p, col_apply hcol V b p, hV]
  unfold corner
  refine congrArg (fun k => M k * valid xc yc) (funext fun a => Fin.ext ?_)
  match a with
  | ⟨0, _⟩ => rfl
  | ⟨1, _⟩ => rfl
  | ⟨2, _⟩ => show min (_ : BitVec 32).toInt.toNat (256 - 1) = min (ci yc).toInt.toNat 255; rw [e0]
  | ⟨3, _⟩ => show min (_ : BitVec 32).toInt.toNat (256 - 1) = min (ci xc).toInt.toNat 255; rw [e1]

/-! ## The reference's two samplers -/

open Cert.ReferenceIdeal Cert.ReferenceIdeal.ReadP

/-- Corner 1 of the prediction sampler. -/
theorem v48_eq (M : (⟨S4x300x256x256, .f32⟩ : BufTy).Contents (Elt Ideal)) (P : (⟨S4x12544x2, .f32⟩ : BufTy).Contents (Elt Ideal))
    (b : Fin 4) (n : Fin 300) (p : Fin 12544) :
    val_main_v48 (F := Ideal) M P (ix3 b n p) = corner M b n (val_main_v12 (F := Ideal) P (ix2 b p)) (val_main_v13 (F := Ideal) P (ix2 b p)) :=
  corner_apply Cert.ReferenceIdeal.Gen.gather_S4x300x256x256_S4x12544x2_S4x300x12544_1_23_0_0_23_2_130011_wf Cert.ReferenceIdeal.Gen.bcast_S4x12544_S4x12544x1_0_1
    Cert.ReferenceIdeal.Gen.concatenates_S4x12544x1_S4x12544x1_S4x12544x2_d2 Cert.ReferenceIdeal.Gen.bcast_S4x12544_S4x1x12544_0_2 Cert.ReferenceIdeal.Gen.bcast_S4x1x12544_S4x300x12544_0_1_2 M
    (val_main_v36 (F := Ideal) P) (val_main_v41 (F := Ideal) P) (val_main_v31 (F := Ideal) P) b n p _ _
    (wrap_eq _) (wrap_eq _) rfl

/-- Corner 2 of the prediction sampler. -/
theorem v83_eq (M : (⟨S4x300x256x256, .f32⟩ : BufTy).Contents (Elt Ideal)) (P : (⟨S4x12544x2, .f32⟩ : BufTy).Contents (Elt Ideal))
    (b : Fin 4) (n : Fin 300) (p : Fin 12544) :
    val_main_v83 (F := Ideal) M P (ix3 b n p) = corner M b n (val_main_v12 (F := Ideal) P (ix2 b p) + one) (val_main_v13 (F := Ideal) P (ix2 b p)) :=
  corner_apply Cert.ReferenceIdeal.Gen.gather_S4x300x256x256_S4x12544x2_S4x300x12544_1_23_0_0_23_2_130011_wf Cert.ReferenceIdeal.Gen.bcast_S4x12544_S4x12544x1_0_1
    Cert.ReferenceIdeal.Gen.concatenates_S4x12544x1_S4x12544x1_S4x12544x2_d2 Cert.ReferenceIdeal.Gen.bcast_S4x12544_S4x1x12544_0_2 Cert.ReferenceIdeal.Gen.bcast_S4x1x12544_S4x300x12544_0_1_2 M
    (val_main_v71 (F := Ideal) P) (val_main_v76 (F := Ideal) P) (val_main_v66 (F := Ideal) P) b n p _ _
    (wrap_eq _) (wrap_eq _) rfl

/-- Corner 3 of the prediction sampler. -/
theorem v118_eq (M : (⟨S4x300x256x256, .f32⟩ : BufTy).Contents (Elt Ideal)) (P : (⟨S4x12544x2, .f32⟩ : BufTy).Contents (Elt Ideal))
    (b : Fin 4) (n : Fin 300) (p : Fin 12544) :
    val_main_v118 (F := Ideal) M P (ix3 b n p) = corner M b n (val_main_v12 (F := Ideal) P (ix2 b p)) (val_main_v13 (F := Ideal) P (ix2 b p) + one) :=
  corner_apply Cert.ReferenceIdeal.Gen.gather_S4x300x256x256_S4x12544x2_S4x300x12544_1_23_0_0_23_2_130011_wf Cert.ReferenceIdeal.Gen.bcast_S4x12544_S4x12544x1_0_1
    Cert.ReferenceIdeal.Gen.concatenates_S4x12544x1_S4x12544x1_S4x12544x2_d2 Cert.ReferenceIdeal.Gen.bcast_S4x12544_S4x1x12544_0_2 Cert.ReferenceIdeal.Gen.bcast_S4x1x12544_S4x300x12544_0_1_2 M
    (val_main_v106 (F := Ideal) P) (val_main_v111 (F := Ideal) P) (val_main_v101 (F := Ideal) P) b n p _ _
    (wrap_eq _) (wrap_eq _) rfl

/-- Corner 4 of the prediction sampler. -/
theorem v155_eq (M : (⟨S4x300x256x256, .f32⟩ : BufTy).Contents (Elt Ideal)) (P : (⟨S4x12544x2, .f32⟩ : BufTy).Contents (Elt Ideal))
    (b : Fin 4) (n : Fin 300) (p : Fin 12544) :
    val_main_v155 (F := Ideal) M P (ix3 b n p) = corner M b n (val_main_v12 (F := Ideal) P (ix2 b p) + one) (val_main_v13 (F := Ideal) P (ix2 b p) + one) :=
  corner_apply Cert.ReferenceIdeal.Gen.gather_S4x300x256x256_S4x12544x2_S4x300x12544_1_23_0_0_23_2_130011_wf Cert.ReferenceIdeal.Gen.bcast_S4x12544_S4x12544x1_0_1
    Cert.ReferenceIdeal.Gen.concatenates_S4x12544x1_S4x12544x1_S4x12544x2_d2 Cert.ReferenceIdeal.Gen.bcast_S4x12544_S4x1x12544_0_2 Cert.ReferenceIdeal.Gen.bcast_S4x1x12544_S4x300x12544_0_1_2 M
    (val_main_v143 (F := Ideal) P) (val_main_v148 (F := Ideal) P) (val_main_v138 (F := Ideal) P) b n p _ _
    (wrap_eq _) (wrap_eq _) rfl

/-- THE PREDICTION SAMPLER: the reference's sampled value at (b, n, p) is the bilinear sample at the point's floor
    coordinates and fractional parts. -/
theorem v190_eq (M : (⟨S4x300x256x256, .f32⟩ : BufTy).Contents (Elt Ideal)) (P : (⟨S4x12544x2, .f32⟩ : BufTy).Contents (Elt Ideal))
    (b : Fin 4) (n : Fin 300) (p : Fin 12544) :
    val_main_v190 (F := Ideal) M P (ix3 b n p)
      = sampAt M b n (val_main_v12 (F := Ideal) P (ix2 b p)) (val_main_v13 (F := Ideal) P (ix2 b p))
          (val_main_v14 (F := Ideal) P (ix2 b p)) (val_main_v15 (F := Ideal) P (ix2 b p)) := by
  have w0 : val_main_v159 (F := Ideal) P (ix3 b n p) = one - val_main_v14 (F := Ideal) P (ix2 b p) :=
    up_apply Cert.ReferenceIdeal.Gen.bcast_S4x12544_S4x1x12544_0_2 Cert.ReferenceIdeal.Gen.bcast_S4x1x12544_S4x300x12544_0_1_2 (val_main_v157 (F := Ideal) P) b n p
  have w1 : val_main_v164 (F := Ideal) P (ix3 b n p) = one - val_main_v15 (F := Ideal) P (ix2 b p) :=
    up_apply Cert.ReferenceIdeal.Gen.bcast_S4x12544_S4x1x12544_0_2 Cert.ReferenceIdeal.Gen.bcast_S4x1x12544_S4x300x12544_0_1_2 (val_main_v162 (F := Ideal) P) b n p
  have w2 : val_main_v167 (F := Ideal) P (ix3 b n p) = val_main_v14 (F := Ideal) P (ix2 b p) :=
    up_apply Cert.ReferenceIdeal.Gen.bcast_S4x12544_S4x1x12544_0_2 Cert.ReferenceIdeal.Gen.bcast_S4x1x12544_S4x300x12544_0_1_2 (val_main_v14 (F := Ideal) P) b n p
  have w3 : val_main_v172 (F := Ideal) P (ix3 b n p) = one - val_main_v15 (F := Ideal) P (ix2 b p) :=
    up_apply Cert.ReferenceIdeal.Gen.bcast_S4x12544_S4x1x12544_0_2 Cert.ReferenceIdeal.Gen.bcast_S4x1x12544_S4x300x12544_0_1_2 (val_main_v170 (F := Ideal) P) b n p
  have w4 : val_main_v178 (F := Ideal) P (ix3 b n p) = one - val_main_v14 (F := Ideal) P (ix2 b p) :=
    up_apply Cert.ReferenceIdeal.Gen.bcast_S4x12544_S4x1x12544_0_2 Cert.ReferenceIdeal.Gen.bcast_S4x1x12544_S4x300x12544_0_1_2 (val_main_v176 (F := Ideal) P) b n p
  have w5 : val_main_v181 (F := Ideal) P (ix3 b n p) = val_main_v15 (F := Ideal) P (ix2 b p) :=
    up_apply Cert.ReferenceIdeal.Gen.bcast_S4x12544_S4x1x12544_0_2 Cert.ReferenceIdeal.Gen.bcast_S4x1x12544_S4x300x12544_0_1_2 (val_main_v15 (F := Ideal) P) b n p
  have w6 : val_main_v185 (F := Ideal) P (ix3 b n p) = val_main_v14 (F := Ideal) P (ix2 b p) :=
    up_apply Cert.ReferenceIdeal.Gen.bcast_S4x12544_S4x1x12544_0_2 Cert.ReferenceIdeal.Gen.bcast_S4x1x12544_S4x300x12544_0_1_2 (val_main_v14 (F := Ideal) P) b n p
  have w7 : val_main_v188 (F := Ideal) P (ix3 b n p) = val_main_v15 (F := Ideal) P (ix2 b p) :=
    up_apply Cert.ReferenceIdeal.Gen.bcast_S4x12544_S4x1x12544_0_2 Cert.ReferenceIdeal.Gen.bcast_S4x1x12544_S4x300x12544_0_1_2 (val_main_v15 (F := Ideal) P) b n p
  show (((val_main_v48 (F := Ideal) M P (ix3 b n p) * val_main_v159 (F := Ideal) P (ix3 b n p)) * val_main_v164 (F := Ideal) P (ix3 b n p)
      + (val_main_v83 (F := Ideal) M P (ix3 b n p) * val_main_v167 (F := Ideal) P (ix3 b n p)) * val_main_v172 (F := Ideal) P (ix3 b n p))
      + (val_main_v118 (F := Ideal) M P (ix3 b n p) * val_main_v178 (F := Ideal) P (ix3 b n p)) * val_main_v181 (F := Ideal) P (ix3 b n p))
      + (val_main_v155 (F := Ideal) M P (ix3 b n p) * val_main_v185 (F := Ideal) P (ix3 b n p)) * val_main_v188 (F := Ideal) P (ix3 b n p) = _
  rw [v48_eq, v83_eq, v118_eq, v155_eq, w0, w1, w2, w3, w4, w5, w6, w7]
  rfl

/-- Corner 1 of the target sampler. -/
theorem v239_eq (M : (⟨S4x100x256x256, .f32⟩ : BufTy).Contents (Elt Ideal)) (P : (⟨S4x12544x2, .f32⟩ : BufTy).Contents (Elt Ideal))
    (b : Fin 4) (n : Fin 100) (p : Fin 12544) :
    val_main_v239 (F := Ideal) M P (ix3 b n p) = corner M b n (val_main_v203 (F := Ideal) P (ix2 b p)) (val_main_v204 (F := Ideal) P (ix2 b p)) :=
  corner_apply Cert.ReferenceIdeal.Gen.gather_S4x100x256x256_S4x12544x2_S4x100x12544_1_23_0_0_23_2_110011_wf Cert.ReferenceIdeal.Gen.bcast_S4x12544_S4x12544x1_0_1
    Cert.ReferenceIdeal.Gen.concatenates_S4x12544x1_S4x12544x1_S4x12544x2_d2 Cert.ReferenceIdeal.Gen.bcast_S4x12544_S4x1x12544_0_2 Cert.ReferenceIdeal.Gen.bcast_S4x1x12544_S4x100x12544_0_1_2 M
    (val_main_v227 (F := Ideal) P) (val_main_v232 (F := Ideal) P) (val_main_v222 (F := Ideal) P) b n p _ _
    (wrap_eq _) (wrap_eq _) rfl

/-- Corner 2 of the target sampler. -/
theorem v274_eq (M : (⟨S4x100x256x256, .f32⟩ : BufTy).Contents (Elt Ideal)) (P : (⟨S4x12544x2, .f32⟩ : BufTy).Contents (Elt Ideal))
    (b : Fin 4) (n : Fin 100) (p : Fin 12544) :
    val_main_v274 (F := Ideal) M P (ix3 b n p) = corner M b n (val_main_v203 (F := Ideal) P (ix2 b p) + one) (val_main_v204 (F := Ideal) P (ix2 b p)) :=
  corner_apply Cert.ReferenceIdeal.Gen.gather_S4x100x256x256_S4x12544x2_S4x100x12544_1_23_0_0_23_2_110011_wf Cert.ReferenceIdeal.Gen.bcast_S4x12544_S4x12544x1_0_1
    Cert.ReferenceIdeal.Gen.concatenates_S4x12544x1_S4x12544x1_S4x12544x2_d2 Cert.ReferenceIdeal.Gen.bcast_S4x12544_S4x1x12544_0_2 Cert.ReferenceIdeal.Gen.bcast_S4x1x12544_S4x100x12544_0_1_2 M
    (val_main_v262 (F := Ideal) P) (val_main_v267 (F := Ideal) P) (val_main_v257 (F := Ideal) P) b n p _ _
    (wrap_eq _) (wrap_eq _) rfl

/-- Corner 3 of the target sampler. -/
theorem v309_eq (M : (⟨S4x100x256x256, .f32⟩ : BufTy).Contents (Elt Ideal)) (P : (⟨S4x12544x2, .f32⟩ : BufTy).Contents (Elt Ideal))
    (b : Fin 4) (n : Fin 100) (p : Fin 12544) :
    val_main_v309 (F := Ideal) M P (ix3 b n p) = corner M b n (val_main_v203 (F := Ideal) P (ix2 b p)) (val_main_v204 (F := Ideal) P (ix2 b p) + one) :=
  corner_apply Cert.ReferenceIdeal.Gen.gather_S4x100x256x256_S4x12544x2_S4x100x12544_1_23_0_0_23_2_110011_wf Cert.ReferenceIdeal.Gen.bcast_S4x12544_S4x12544x1_0_1
    Cert.ReferenceIdeal.Gen.concatenates_S4x12544x1_S4x12544x1_S4x12544x2_d2 Cert.ReferenceIdeal.Gen.bcast_S4x12544_S4x1x12544_0_2 Cert.ReferenceIdeal.Gen.bcast_S4x1x12544_S4x100x12544_0_1_2 M
    (val_main_v297 (F := Ideal) P) (val_main_v302 (F := Ideal) P) (val_main_v292 (F := Ideal) P) b n p _ _
    (wrap_eq _) (wrap_eq _) rfl

/-- Corner 4 of the target sampler. -/
theorem v346_eq (M : (⟨S4x100x256x256, .f32⟩ : BufTy).Contents (Elt Ideal)) (P : (⟨S4x12544x2, .f32⟩ : BufTy).Contents (Elt Ideal))
    (b : Fin 4) (n : Fin 100) (p : Fin 12544) :
    val_main_v346 (F := Ideal) M P (ix3 b n p) = corner M b n (val_main_v203 (F := Ideal) P (ix2 b p) + one) (val_main_v204 (F := Ideal) P (ix2 b p) + one) :=
  corner_apply Cert.ReferenceIdeal.Gen.gather_S4x100x256x256_S4x12544x2_S4x100x12544_1_23_0_0_23_2_110011_wf Cert.ReferenceIdeal.Gen.bcast_S4x12544_S4x12544x1_0_1
    Cert.ReferenceIdeal.Gen.concatenates_S4x12544x1_S4x12544x1_S4x12544x2_d2 Cert.ReferenceIdeal.Gen.bcast_S4x12544_S4x1x12544_0_2 Cert.ReferenceIdeal.Gen.bcast_S4x1x12544_S4x100x12544_0_1_2 M
    (val_main_v334 (F := Ideal) P) (val_main_v339 (F := Ideal) P) (val_main_v329 (F := Ideal) P) b n p _ _
    (wrap_eq _) (wrap_eq _) rfl

/-- THE TARGET SAMPLER: the reference's sampled value at (b, n, p) is the bilinear sample at the point's floor
    coordinates and fractional parts. -/
theorem v381_eq (M : (⟨S4x100x256x256, .f32⟩ : BufTy).Contents (Elt Ideal)) (P : (⟨S4x12544x2, .f32⟩ : BufTy).Contents (Elt Ideal))
    (b : Fin 4) (n : Fin 100) (p : Fin 12544) :
    val_main_v381 (F := Ideal) M P (ix3 b n p)
      = sampAt M b n (val_main_v203 (F := Ideal) P (ix2 b p)) (val_main_v204 (F := Ideal) P (ix2 b p))
          (val_main_v205 (F := Ideal) P (ix2 b p)) (val_main_v206 (F := Ideal) P (ix2 b p)) := by
  have w0 : val_main_v350 (F := Ideal) P (ix3 b n p) = one - val_main_v205 (F := Ideal) P (ix2 b p) :=
    up_apply Cert.ReferenceIdeal.Gen.bcast_S4x12544_S4x1x12544_0_2 Cert.ReferenceIdeal.Gen.bcast_S4x1x12544_S4x100x12544_0_1_2 (val_main_v348 (F := Ideal) P) b n p
  have w1 : val_main_v355 (F := Ideal) P (ix3 b n p) = one - val_main_v206 (F := Ideal) P (ix2 b p) :=
    up_apply Cert.ReferenceIdeal.Gen.bcast_S4x12544_S4x1x12544_0_2 Cert.ReferenceIdeal.Gen.bcast_S4x1x12544_S4x100x12544_0_1_2 (val_main_v353 (F := Ideal) P) b n p
  have w2 : val_main_v358 (F := Ideal) P (ix3 b n p) = val_main_v205 (F := Ideal) P (ix2 b p) :=
    up_apply Cert.ReferenceIdeal.Gen.bcast_S4x12544_S4x1x12544_0_2 Cert.ReferenceIdeal.Gen.bcast_S4x1x12544_S4x100x12544_0_1_2 (val_main_v205 (F := Ideal) P) b n p
  have w3 : val_main_v363 (F := Ideal) P (ix3 b n p) = one - val_main_v206 (F := Ideal) P (ix2 b p) :=
    up_apply Cert.ReferenceIdeal.Gen.bcast_S4x12544_S4x1x12544_0_2 Cert.ReferenceIdeal.Gen.bcast_S4x1x12544_S4x100x12544_0_1_2 (val_main_v361 (F := Ideal) P) b n p
  have w4 : val_main_v369 (F := Ideal) P (ix3 b n p) = one - val_main_v205 (F := Ideal) P (ix2 b p) :=
    up_apply Cert.ReferenceIdeal.Gen.bcast_S4x12544_S4x1x12544_0_2 Cert.ReferenceIdeal.Gen.bcast_S4x1x12544_S4x100x12544_0_1_2 (val_main_v367 (F := Ideal) P) b n p
  have w5 : val_main_v372 (F := Ideal) P (ix3 b n p) = val_main_v206 (F := Ideal) P (ix2 b p) :=
    up_apply Cert.ReferenceIdeal.Gen.bcast_S4x12544_S4x1x12544_0_2 Cert.ReferenceIdeal.Gen.bcast_S4x1x12544_S4x100x12544_0_1_2 (val_main_v206 (F := Ideal) P) b n p
  have w6 : val_main_v376 (F := Ideal) P (ix3 b n p) = val_main_v205 (F := Ideal) P (ix2 b p) :=
    up_apply Cert.ReferenceIdeal.Gen.bcast_S4x12544_S4x1x12544_0_2 Cert.ReferenceIdeal.Gen.bcast_S4x1x12544_S4x100x12544_0_1_2 (val_main_v205 (F := Ideal) P) b n p
  have w7 : val_main_v379 (F := Ideal) P (ix3 b n p) = val_main_v206 (F := Ideal) P (ix2 b p) :=
    up_apply Cert.ReferenceIdeal.Gen.bcast_S4x12544_S4x1x12544_0_2 Cert.ReferenceIdeal.Gen.bcast_S4x1x12544_S4x100x12544_0_1_2 (val_main_v206 (F := Ideal) P) b n p
  show (((val_main_v239 (F := Ideal) M P (ix3 b n p) * val_main_v350 (F := Ideal) P (ix3 b n p)) * val_main_v355 (F := Ideal) P (ix3 b n p)
      + (val_main_v274 (F := Ideal) M P (ix3 b n p) * val_main_v358 (F := Ideal) P (ix3 b n p)) * val_main_v363 (F := Ideal) P (ix3 b n p))
      + (val_main_v309 (F := Ideal) M P (ix3 b n p) * val_main_v369 (F := Ideal) P (ix3 b n p)) * val_main_v372 (F := Ideal) P (ix3 b n p))
      + (val_main_v346 (F := Ideal) M P (ix3 b n p) * val_main_v376 (F := Ideal) P (ix3 b n p)) * val_main_v379 (F := Ideal) P (ix3 b n p) = _
  rw [v239_eq, v274_eq, v309_eq, v346_eq, w0, w1, w2, w3, w4, w5, w6, w7]
  rfl

end Cert.SampSpec
-- ==== Proof.KernelIdeal.SampKRef.lean ====
/-
  The two point samplers of the [4, 300, 256, 256] masks compute the same array: at every (b, n, p) both are the
  common specification's bilinear sample at the point's floor coordinates and fractional parts, and those four
  [4, 12544] arrays are the same operations of the sampled points in the two programs.
-/
import proofs.«122505_j52948356825308_2_alg».proof.Proof.KernelIdeal.SampKSum
import proofs.«122505_j52948356825308_2_alg».proof.Proof.SampRef

noncomputable section

namespace Cert.KernelIdeal.Samp

open Cert.KernelIdeal Cert.KernelIdeal.Gen Idealize.ShloMosaic Idealize.ShloMosaic.TcCoe Idealize.SL.Sem Idealize.ShloMosaic.StableHlo
open Idealize.ShloMosaic.ValueIdx

/-- The floor coordinates and fractional parts are the same operations in the two programs. -/
theorem k12_eq_ref (P : (⟨S4x12544x2, .f32⟩ : BufTy).Contents (Elt Ideal)) : k12 (F := Ideal) P = Cert.ReferenceIdeal.ReadP.val_main_v12 (F := Ideal) P := rfl
theorem k13_eq_ref (P : (⟨S4x12544x2, .f32⟩ : BufTy).Contents (Elt Ideal)) : k13 (F := Ideal) P = Cert.ReferenceIdeal.ReadP.val_main_v13 (F := Ideal) P := rfl
theorem k14_eq_ref (P : (⟨S4x12544x2, .f32⟩ : BufTy).Contents (Elt Ideal)) : k14 (F := Ideal) P = Cert.ReferenceIdeal.ReadP.val_main_v14 (F := Ideal) P := rfl
theorem k15_eq_ref (P : (⟨S4x12544x2, .f32⟩ : BufTy).Contents (Elt Ideal)) : k15 (F := Ideal) P = Cert.ReferenceIdeal.ReadP.val_main_v15 (F := Ideal) P := rfl

/-- The kernel's staged sampler is the reference's stage. -/
theorem kSamp_eq_ref (M : (⟨S4x300x256x256, .f32⟩ : BufTy).Contents (Elt Ideal)) (P : (⟨S4x12544x2, .f32⟩ : BufTy).Contents (Elt Ideal)) :
    kSamp (F := Ideal) M P = Cert.ReferenceIdeal.ReadP.val_main_v190 (F := Ideal) M P := by
  funext i
  obtain ⟨b, n, p, rfl⟩ : ∃ (b : Fin 4) (n : Fin 300) (p : Fin 12544), i = ix3 b n p := ⟨i 0, i 1, i 2, eq_ix3 i⟩
  rw [kSamp_eq_sampAt, k12_eq_ref, k13_eq_ref, k14_eq_ref, k15_eq_ref]
  exact (Cert.SampSpec.v190_eq M P b n p).symm

end Cert.KernelIdeal.Samp
end
-- ==== Proof.KernelIdeal.SampS1.lean ====
/-
  The kernel's sampled [4, 300, 12544] masks, as the region finds them, are the reference's: the buffer holds the
  staged sampler of the argument arrays, and the staged sampler is the reference's stage.
-/
import proofs.«122505_j52948356825308_2_alg».proof.Proof.KernelIdeal.SampKV
import proofs.«122505_j52948356825308_2_alg».proof.Proof.KernelIdeal.SampKRef

noncomputable section

namespace Cert.KernelIdeal.Samp

open Cert.KernelIdeal Cert.KernelIdeal.Gen Cert.KernelIdeal.Hand
open Idealize.ShloMosaic Idealize.ShloMosaic.TcCoe Idealize.SL.Sem Idealize.ShloMosaic.StableHlo

variable (m : (ℓ : Loc nD τ sig) → Buf (Elt Ideal) ℓ)

theorem V_main_v78_eq_ref (c : Dev nD) :
    V (F := Ideal) m c main_v78
      = Cert.ReferenceIdeal.ReadP.val_main_v190 (F := Ideal) (m ((c : Thread nD τ).loc main_arg1)) (m ((c : Thread nD τ).loc main_arg4)) :=
  (V_main_v78 (F := Ideal) m c).trans (kSamp_eq_ref _ _)

end Cert.KernelIdeal.Samp
end
-- ==== Proof.KernelIdeal.SampTDefs.lean ====
/-
  The kernel's point sampler of the [4, 100, 256, 256] masks, one definition per host operation of @main (the
  function each operation applies, composed in program order): the sample coordinates x = 256·P[..,0] − 1/2,
  y = 256·P[..,1] − 1/2, their floors and fractional parts, the four corners stacked on a last axis of size 4,
  the validity mask, the clipped integer coordinates, the flat index 256·yi + xi, the one gather out of the
  masks reshaped to [4, 100, 65536] with its fill select, and the weighted sum over the four corners.
-/
import proofs.«122505_j52948356825308_2_alg».proof.Proof.Gen.KernelIdeal
import Idealize.ShloMosaic.PureOps.Ideal

noncomputable section

namespace Cert.KernelIdeal.Samp

open Cert.KernelIdeal Cert.KernelIdeal.Gen Idealize.ShloMosaic Idealize.ShloMosaic.TcCoe Idealize.SL.Sem Idealize.ShloMosaic.StableHlo

variable {F : FTy → Type} [FloatOps F]

/-- A scalar float constant broadcast to [4, 12544]. -/
def tcst2 (w : BitVec 32) : (⟨S4x12544, .f32⟩ : BufTy).Contents (Elt F) :=
  broadcastInDim S4x12544 ![] bcast_S_S4x12544 (constant (F := F) S_ .f32 w)
/-- A scalar float constant broadcast to [4, 12544, 4]. -/
def tcst3 (w : BitVec 32) : (⟨S4x12544x4, .f32⟩ : BufTy).Contents (Elt F) :=
  broadcastInDim S4x12544x4 ![] bcast_S_S4x12544x4 (constant (F := F) S_ .f32 w)
/-- A scalar integer constant broadcast to [4, 12544, 4]. -/
def tcsti3 (w : BitVec 32) : (⟨S4x12544x4, .i32⟩ : BufTy).Contents (Elt F) :=
  broadcastInDim S4x12544x4 ![] bcast_S_S4x12544x4 (constantI S_ 32 w)
/-- [4, 12544] as a column [4, 12544, 1]. -/
def tcol (v : (⟨S4x12544, .f32⟩ : BufTy).Contents (Elt F)) : (⟨S4x12544x1, .f32⟩ : BufTy).Contents (Elt F) :=
  broadcastInDim S4x12544x1 ![0, 1] bcast_S4x12544_S4x12544x1_0_1 v
/-- Four columns stacked along the last axis. -/
def tcat4 (a b c d : (⟨S4x12544x1, .f32⟩ : BufTy).Contents (Elt F)) : (⟨S4x12544x4, .f32⟩ : BufTy).Contents (Elt F) :=
  concatenate S4x12544x4 2 [⟨S4x12544x1, a⟩, ⟨S4x12544x1, b⟩, ⟨S4x12544x1, c⟩, ⟨S4x12544x1, d⟩] concatenates_S4x12544x1_S4x12544x1_S4x12544x1_S4x12544x1_S4x12544x4_d2
/-- [4, 12544, 4] repeated along a new mask axis. -/
def tup (v : (⟨S4x12544x4, .f32⟩ : BufTy).Contents (Elt F)) : (⟨S4x100x12544x4, .f32⟩ : BufTy).Contents (Elt F) :=
  broadcastInDim S4x100x12544x4 ![0, 1, 2, 3] bcast_S4x1x12544x4_S4x100x12544x4_0_1_2_3 (broadcastInDim S4x1x12544x4 ![0, 2, 3] bcast_S4x12544x4_S4x1x12544x4_0_2_3 v)
/-- The clip to [0, 255] (maximum with 0, then minimum with 255, the bounds converted from integers). -/
def tclip (X : (⟨S4x12544x4, .f32⟩ : BufTy).Contents (Elt F)) : (⟨S4x12544x4, .f32⟩ : BufTy).Contents (Elt F) :=
  minimumf (broadcastInDim S4x12544x4 ![] bcast_S_S4x12544x4 (sitofp .f32 (constantI S_ 32 255#32)))
    (maximumf (broadcastInDim S4x12544x4 ![] bcast_S_S4x12544x4 (sitofp .f32 (constantI S_ 32 0#32))) X)

def t0 (P : (⟨S4x12544x2, .f32⟩ : BufTy).Contents (Elt F)) : (⟨S4x12544x1, .f32⟩ : BufTy).Contents (Elt F) :=
  extractStridedSlice S4x12544x1 ![0, 0, 0] P slices_S4x12544x2_S4x12544x1_0_0_0
def t1 (P : (⟨S4x12544x2, .f32⟩ : BufTy).Contents (Elt F)) : (⟨S4x12544, .f32⟩ : BufTy).Contents (Elt F) :=
  shapeCast S4x12544 (t0 P) shapeCasts_S4x12544x1_S4x12544
/-- x = 256·P[..,0] − 1/2. -/
def t5 (P : (⟨S4x12544x2, .f32⟩ : BufTy).Contents (Elt F)) : (⟨S4x12544, .f32⟩ : BufTy).Contents (Elt F) :=
  subf (mulf (t1 P) (tcst2 0x43800000#32)) (tcst2 0x3F000000#32)
def t6 (P : (⟨S4x12544x2, .f32⟩ : BufTy).Contents (Elt F)) : (⟨S4x12544x1, .f32⟩ : BufTy).Contents (Elt F) :=
  extractStridedSlice S4x12544x1 ![0, 0, 1] P slices_S4x12544x2_S4x12544x1_0_0_1
def t7 (P : (⟨S4x12544x2, .f32⟩ : BufTy).Contents (Elt F)) : (⟨S4x12544, .f32⟩ : BufTy).Contents (Elt F) :=
  shapeCast S4x12544 (t6 P) shapeCasts_S4x12544x1_S4x12544
/-- y = 256·P[..,1] − 1/2. -/
def t11 (P : (⟨S4x12544x2, .f32⟩ : BufTy).Contents (Elt F)) : (⟨S4x12544, .f32⟩ : BufTy).Contents (Elt F) :=
  subf (mulf (t7 P) (tcst2 0x43800000#32)) (tcst2 0x3F000000#32)
/-- x0 = ⌊x⌋. -/
def t12 (P : (⟨S4x12544x2, .f32⟩ : BufTy).Contents (Elt F)) : (⟨S4x12544, .f32⟩ : BufTy).Contents (Elt F) := Host.floor (t5 P)
/-- y0 = ⌊y⌋. -/
def t13 (P : (⟨S4x12544x2, .f32⟩ : BufTy).Contents (Elt F)) : (⟨S4x12544, .f32⟩ : BufTy).Contents (Elt F) := Host.floor (t11 P)
/-- dx = x − x0. -/
def t14 (P : (⟨S4x12544x2, .f32⟩ : BufTy).Contents (Elt F)) : (⟨S4x12544, .f32⟩ : BufTy).Contents (Elt F) := subf (t5 P) (t12 P)
/-- dy = y − y0. -/
def t15 (P : (⟨S4x12544x2, .f32⟩ : BufTy).Contents (Elt F)) : (⟨S4x12544, .f32⟩ : BufTy).Contents (Elt F) := subf (t11 P) (t13 P)
/-- x0 + 1. -/
def t17 (P : (⟨S4x12544x2, .f32⟩ : BufTy).Contents (Elt F)) : (⟨S4x12544, .f32⟩ : BufTy).Contents (Elt F) := addf (t12 P) (tcst2 0x3F800000#32)
/-- The corners' x coordinates (x0, x0 + 1, x0, x0 + 1). -/
def t24 (P : (⟨S4x12544x2, .f32⟩ : BufTy).Contents (Elt F)) : (⟨S4x12544x4, .f32⟩ : BufTy).Contents (Elt F) :=
  tcat4 (tcol (t12 P)) (tcol (t17 P)) (tcol (t12 P)) (tcol (t17 P))
/-- y0 + 1. -/
def t26 (P : (⟨S4x12544x2, .f32⟩ : BufTy).Contents (Elt F)) : (⟨S4x12544, .f32⟩ : BufTy).Contents (Elt F) := addf (t13 P) (tcst2 0x3F800000#32)
/-- The corners' y coordinates (y0, y0, y0 + 1, y0 + 1). -/
def t33 (P : (⟨S4x12544x2, .f32⟩ : BufTy).Contents (Elt F)) : (⟨S4x12544x4, .f32⟩ : BufTy).Contents (Elt F) :=
  tcat4 (tcol (t13 P)) (tcol (t13 P)) (tcol (t26 P)) (tcol (t26 P))
/-- The corner lies inside the 256 × 256 mask. -/
def t44 (P : (⟨S4x12544x2, .f32⟩ : BufTy).Contents (Elt F)) : (⟨S4x12544x4, .i1⟩ : BufTy).Contents (Elt F) :=
  andi (andi (andi (cmpf .oge (t24 P) (tcst3 0x00000000#32)) (cmpf .ole (t24 P) (tcst3 0x437F0000#32)))
    (cmpf .oge (t33 P) (tcst3 0x00000000#32))) (cmpf .ole (t33 P) (tcst3 0x437F0000#32))
def t45 (P : (⟨S4x12544x2, .f32⟩ : BufTy).Contents (Elt F)) : (⟨S4x12544x4, .f32⟩ : BufTy).Contents (Elt F) := uitofp .f32 (t44 P)
/-- xi: the clipped x coordinate as an integer. -/
def t47 (P : (⟨S4x12544x2, .f32⟩ : BufTy).Contents (Elt F)) : (⟨S4x12544x4, .i32⟩ : BufTy).Contents (Elt F) := fptosi 32 (tclip (t24 P))
/-- yi: the clipped y coordinate as an integer. -/
def t49 (P : (⟨S4x12544x2, .f32⟩ : BufTy).Contents (Elt F)) : (⟨S4x12544x4, .i32⟩ : BufTy).Contents (Elt F) := fptosi 32 (tclip (t33 P))
/-- The flat index 256·yi + xi. -/
def t52 (P : (⟨S4x12544x2, .f32⟩ : BufTy).Contents (Elt F)) : (⟨S4x12544x4, .i32⟩ : BufTy).Contents (Elt F) :=
  addi (muli (t49 P) (tcsti3 (F := F) 256#32)) (t47 P)
/-- The masks with their two spatial axes flattened. -/
def t53 (M : (⟨S4x100x256x256, .f32⟩ : BufTy).Contents (Elt F)) : (⟨S4x100x65536, .f32⟩ : BufTy).Contents (Elt F) :=
  shapeCast S4x100x65536 M shapeCasts_S4x100x256x256_S4x100x65536
/-- The index with a negative value wrapped by 65536. -/
def tt4 (P : (⟨S4x12544x2, .f32⟩ : BufTy).Contents (Elt F)) : (⟨S4x12544x4, .i32⟩ : BufTy).Contents (Elt F) :=
  select (cmpi .slt (t52 P) (tcsti3 (F := F) 0#32)) (addi (t52 P) (tcsti3 (F := F) 65536#32)) (t52 P)
def tt5 (P : (⟨S4x12544x2, .f32⟩ : BufTy).Contents (Elt F)) : (⟨S4x12544x4x1, .i32⟩ : BufTy).Contents (Elt F) :=
  broadcastInDim S4x12544x4x1 ![0, 1, 2] bcast_S4x12544x4_S4x12544x4x1_0_1_2 (tt4 P)
/-- 0 ≤ index ≤ 65535. -/
def tt11 (P : (⟨S4x12544x2, .f32⟩ : BufTy).Contents (Elt F)) : (⟨S4x12544x4x1, .i1⟩ : BufTy).Contents (Elt F) :=
  andi (cmpi .sge (tt5 P) (broadcastInDim S4x12544x4x1 ![] bcast_S_S4x12544x4x1 (constantI S_ 32 0#32)))
    (cmpi .sle (tt5 P) (broadcastInDim S4x12544x4x1 ![0, 1, 2, 3] bcast_S1x1x1x1_S4x12544x4x1_0_1_2_3
      (broadcastInDim S1x1x1x1 ![3] bcast_S1_S1x1x1x1_3 (constantI S1 32 65535#32))))
def tt12 (P : (⟨S4x12544x2, .f32⟩ : BufTy).Contents (Elt F)) : (⟨S4x12544x4, .i1⟩ : BufTy).Contents (Elt F) :=
  Host.reduce IntOp.andi (tt11 P) (constantI S_ 1 1#1) reducesTo_S4x12544x4x1_S4x12544x4_d3 h_S_
/-- The gather of the four corners' mask entries. -/
def tt13 (M : (⟨S4x100x256x256, .f32⟩ : BufTy).Contents (Elt F)) (P : (⟨S4x12544x2, .f32⟩ : BufTy).Contents (Elt F)) : (⟨S4x100x12544x4, .f32⟩ : BufTy).Contents (Elt F) :=
  Host.gather gather_S4x100x65536_S4x12544x4x1_S4x100x12544x4_1_2_0_0_2_3_11001 (t53 M) (tt5 P)
/-- The gathered entries, or the fill value where the index is out of range. -/
def t54 (M : (⟨S4x100x256x256, .f32⟩ : BufTy).Contents (Elt F)) (P : (⟨S4x12544x2, .f32⟩ : BufTy).Contents (Elt F)) : (⟨S4x100x12544x4, .f32⟩ : BufTy).Contents (Elt F) :=
  select (broadcastInDim S4x100x12544x4 ![0, 2, 3] bcast_S4x12544x4_S4x100x12544x4_0_2_3 (tt12 P)) (tt13 M P)
    (broadcastInDim S4x100x12544x4 ![] bcast_S_S4x100x12544x4 (constant (F := F) S_ .f32 0x7FC00000#32))
def t57 (M : (⟨S4x100x256x256, .f32⟩ : BufTy).Contents (Elt F)) (P : (⟨S4x12544x2, .f32⟩ : BufTy).Contents (Elt F)) : (⟨S4x100x12544x4, .f32⟩ : BufTy).Contents (Elt F) :=
  mulf (t54 M P) (tup (t45 P))
/-- (1 − dx)(1 − dy). -/
def t62 (P : (⟨S4x12544x2, .f32⟩ : BufTy).Contents (Elt F)) : (⟨S4x12544, .f32⟩ : BufTy).Contents (Elt F) :=
  mulf (subf (tcst2 0x3F800000#32) (t14 P)) (subf (tcst2 0x3F800000#32) (t15 P))
/-- dx (1 − dy). -/
def t65 (P : (⟨S4x12544x2, .f32⟩ : BufTy).Contents (Elt F)) : (⟨S4x12544, .f32⟩ : BufTy).Contents (Elt F) :=
  mulf (t14 P) (subf (tcst2 0x3F800000#32) (t15 P))
/-- (1 − dx) dy. -/
def t68 (P : (⟨S4x12544x2, .f32⟩ : BufTy).Contents (Elt F)) : (⟨S4x12544, .f32⟩ : BufTy).Contents (Elt F) :=
  mulf (subf (tcst2 0x3F800000#32) (t14 P)) (t15 P)
/-- dx dy. -/
def t69 (P : (⟨S4x12544x2, .f32⟩ : BufTy).Contents (Elt F)) : (⟨S4x12544, .f32⟩ : BufTy).Contents (Elt F) := mulf (t14 P) (t15 P)
/-- The four bilinear weights stacked along the last axis. -/
def t74 (P : (⟨S4x12544x2, .f32⟩ : BufTy).Contents (Elt F)) : (⟨S4x12544x4, .f32⟩ : BufTy).Contents (Elt F) :=
  tcat4 (tcol (t62 P)) (tcol (t65 P)) (tcol (t68 P)) (tcol (t69 P))
def t77 (M : (⟨S4x100x256x256, .f32⟩ : BufTy).Contents (Elt F)) (P : (⟨S4x12544x2, .f32⟩ : BufTy).Contents (Elt F)) : (⟨S4x100x12544x4, .f32⟩ : BufTy).Contents (Elt F) :=
  mulf (t57 M P) (tup (t74 P))
/-- The sampled masks: the sum over the four corners. -/
def tSamp (M : (⟨S4x100x256x256, .f32⟩ : BufTy).Contents (Elt F)) (P : (⟨S4x12544x2, .f32⟩ : BufTy).Contents (Elt F)) : (⟨S4x100x12544, .f32⟩ : BufTy).Contents (Elt F) :=
  Host.reduceAdd (t77 M P) (constant (F := F) S_ .f32 0x00000000#32) reducesTo_S4x100x12544x4_S4x100x12544_d3 h_S_

end Cert.KernelIdeal.Samp
end
-- ==== Proof.KernelIdeal.SampTV.lean ====
/-
  The kernel's sampled [4, 100, 12544] masks as the region finds them: the buffer's contents after the host
  operations before the region are the staged sampler of the argument arrays (each operation's result at its own
  buffer is its function of its operands' contents; every other buffer is as it was).

  The operations of the outlined clip and gather functions carry their values through a transport along the
  equation "the buffer's type is the value's type"; that type IS the buffer's, so every transport is the identity:
  a transport to a buffer's type and back by the generic law, and the transports at the eleven buffers an outlined
  call shares with @main one by one. With the transports gone the two sides are the same tree of operations.
-/
import proofs.«122505_j52948356825308_2_alg».proof.Proof.KernelIdeal.Frame
import proofs.«122505_j52948356825308_2_alg».proof.Proof.KernelIdeal.SampTDefs
import proofs.«122505_j52948356825308_2_alg».proof.Proof.KernelIdeal.SampTransport

set_option maxRecDepth 200000

noncomputable section

namespace Cert.KernelIdeal.Samp

open Cert.KernelIdeal Cert.KernelIdeal.Gen Cert.KernelIdeal.Hand
open Idealize.ShloMosaic Idealize.ShloMosaic.TcCoe Idealize.SL.Sem Idealize.ShloMosaic.StableHlo

variable {F : FTy → Type} [FloatOps F]

/-! A transport along a buffer's type, at each buffer an outlined call shares with @main: the identity, the type
being the buffer's own. -/
theorem toBuf_v133 (h : main_v133.ty = ⟨S4x100x12544x4, .f32⟩) (d : main_v133.space ≠ .host) (u : main_v133.isScoped = false)
    (v : (⟨S4x100x12544x4, .f32⟩ : BufTy).Contents (Elt F)) : (TRef.of main_v133 h d u).toBuf v = v := rfl
theorem toBuf_v127 (h : main_v127.ty = ⟨S4x12544x4, .f32⟩) (d : main_v127.space ≠ .host) (u : main_v127.isScoped = false)
    (v : (⟨S4x12544x4, .f32⟩ : BufTy).Contents (Elt F)) : (TRef.of main_v127 h d u).toBuf v = v := rfl
theorem toBuf_v125 (h : main_v125.ty = ⟨S4x12544x4, .f32⟩) (d : main_v125.space ≠ .host) (u : main_v125.isScoped = false)
    (v : (⟨S4x12544x4, .f32⟩ : BufTy).Contents (Elt F)) : (TRef.of main_v125 h d u).toBuf v = v := rfl
theorem ofBuf_v131 (h : main_v131.ty = ⟨S4x12544x4, .i32⟩) (d : main_v131.space ≠ .host) (u : main_v131.isScoped = false)
    (v : (⟨S4x12544x4, .i32⟩ : BufTy).Contents (Elt F)) : (TRef.of main_v131 h d u).ofBuf v = v := rfl
theorem ofBuf_v132 (h : main_v132.ty = ⟨S4x100x65536, .f32⟩) (d : main_v132.space ≠ .host) (u : main_v132.isScoped = false)
    (v : (⟨S4x100x65536, .f32⟩ : BufTy).Contents (Elt F)) : (TRef.of main_v132 h d u).ofBuf v = v := rfl
theorem ofBuf_v103 (h : main_v103.ty = ⟨S4x12544x4, .f32⟩) (d : main_v103.space ≠ .host) (u : main_v103.isScoped = false)
    (v : (⟨S4x12544x4, .f32⟩ : BufTy).Contents (Elt F)) : (TRef.of main_v103 h d u).ofBuf v = v := rfl
theorem ofBuf_v112 (h : main_v112.ty = ⟨S4x12544x4, .f32⟩) (d : main_v112.space ≠ .host) (u : main_v112.isScoped = false)
    (v : (⟨S4x12544x4, .f32⟩ : BufTy).Contents (Elt F)) : (TRef.of main_v112 h d u).ofBuf v = v := rfl
theorem ofBuf_c32 (h : main_c_32.ty = ⟨S_, .i32⟩) (d : main_c_32.space ≠ .host) (u : main_c_32.isScoped = false)
    (v : (⟨S_, .i32⟩ : BufTy).Contents (Elt F)) : (TRef.of main_c_32 h d u).ofBuf v = v := rfl
theorem ofBuf_c33 (h : main_c_33.ty = ⟨S_, .i32⟩) (d : main_c_33.space ≠ .host) (u : main_c_33.isScoped = false)
    (v : (⟨S_, .i32⟩ : BufTy).Contents (Elt F)) : (TRef.of main_c_33 h d u).ofBuf v = v := rfl
theorem ofBuf_c34 (h : main_c_34.ty = ⟨S_, .i32⟩) (d : main_c_34.space ≠ .host) (u : main_c_34.isScoped = false)
    (v : (⟨S_, .i32⟩ : BufTy).Contents (Elt F)) : (TRef.of main_c_34 h d u).ofBuf v = v := rfl
theorem ofBuf_c35 (h : main_c_35.ty = ⟨S_, .i32⟩) (d : main_c_35.space ≠ .host) (u : main_c_35.isScoped = false)
    (v : (⟨S_, .i32⟩ : BufTy).Contents (Elt F)) : (TRef.of main_c_35 h d u).ofBuf v = v := rfl

variable (m : (ℓ : Loc nD τ sig) → Buf (Elt F) ℓ)

set_option maxHeartbeats 400000000 in
theorem V_main_v157 (c : Dev nD) :
    V (F := F) m c main_v157 = tSamp (F := F) (m ((c : Thread nD τ).loc main_arg3)) (m ((c : Thread nD τ).loc main_arg4)) := by
  dsimp only [V, V0]
  simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  simp (disch := decide) only [after_cons, after_nil,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne']
  simp only [ofBuf_toBuf, toBuf_v133, toBuf_v127, toBuf_v125, ofBuf_v131, ofBuf_v132, ofBuf_v103, ofBuf_v112, ofBuf_c32, ofBuf_c33, ofBuf_c34, ofBuf_c35]
  rfl

end Cert.KernelIdeal.Samp
end
-- ==== Proof.KernelIdeal.SampTRead.lean ====
/-
  The kernel's staged point sampler of the [4, 100, 256, 256] masks read at an index: the layout operations
  (columns, the stack of four, the repeat along the mask axis), the sum over the four corners, the batched
  gather out of the flattened masks and the flattening itself.
-/
import proofs.«122505_j52948356825308_2_alg».proof.Proof.KernelIdeal.SampTDefs
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Samp

open Cert.KernelIdeal Cert.KernelIdeal.Gen Idealize.ShloMosaic Idealize.ShloMosaic.TcCoe Idealize.SL.Sem Idealize.ShloMosaic.StableHlo
open Idealize.ShloMosaic.ValueIdx

/-- A column [4, 12544, 1] read at (b, p, 0) is the array at (b, p). -/
theorem tcol_apply (v : (⟨S4x12544, .f32⟩ : BufTy).Contents (Elt Ideal)) (b : Fin 4) (p : Fin 12544) (z : Fin 1) :
    tcol (F := Ideal) v (ix3 b p z) = v (ix2 b p) := by
  unfold tcol
  exact broadcastInDim_apply _ bcast_S4x12544_S4x12544x1_0_1 v (ix3 b p z) (ix2 b p) (fun a => match a with
    | ⟨0, _⟩ => by show b.val = if (4 : Nat) = 1 then 0 else b.val; rw [if_neg (by decide)]
    | ⟨1, _⟩ => by show p.val = if (12544 : Nat) = 1 then 0 else p.val; rw [if_neg (by decide)])

/-- The stack of four columns read at (b, p, k) is the k-th column at (b, p, 0). -/
theorem tcat4_apply (a0 a1 a2 a3 : (⟨S4x12544x1, .f32⟩ : BufTy).Contents (Elt Ideal)) (b : Fin 4) (p : Fin 12544) (k : Fin 4) :
    tcat4 (F := Ideal) a0 a1 a2 a3 (ix3 b p k) = (![a0, a1, a2, a3] : Fin 4 → (⟨S4x12544x1, .f32⟩ : BufTy).Contents (Elt Ideal)) k (ix3 b p (0 : Fin 1)) := by
  unfold tcat4
  show concatenate S4x12544x4 2 (List.ofFn fun n : Fin 4 => (⟨S4x12544x1, (![a0, a1, a2, a3] : Fin 4 → (⟨S4x12544x1, .f32⟩ : BufTy).Contents (Elt Ideal)) n⟩ : (s : Shape) × (s.Idx → EReal))) _ (ix3 b p k) = _
  refine concatenate_ofFn_apply (t := S4x12544x4) (s₁ := S4x12544x1) 2 (![a0, a1, a2, a3] : Fin 4 → (⟨S4x12544x1, .f32⟩ : BufTy).Contents (Elt Ideal)) _ rfl 1 rfl (ix3 b p k) k ?_ (ix3 b p (0 : Fin 1)) ?_ ?_
  · show k.val / 1 = k.val
    omega
  · show (0 : Nat) = k.val % 1
    omega
  · intro b' hb
    match b' with
    | ⟨0, _⟩ => rfl
    | ⟨1, _⟩ => rfl
    | ⟨2, _⟩ => exact absurd rfl hb

/-- The stack of four columns of [4, 12544] arrays read at (b, p, k) is the k-th array at (b, p). -/
theorem tcat4_col_apply (v0 v1 v2 v3 : (⟨S4x12544, .f32⟩ : BufTy).Contents (Elt Ideal)) (b : Fin 4) (p : Fin 12544) (k : Fin 4) :
    tcat4 (F := Ideal) (tcol v0) (tcol v1) (tcol v2) (tcol v3) (ix3 b p k)
      = (![v0, v1, v2, v3] : Fin 4 → (⟨S4x12544, .f32⟩ : BufTy).Contents (Elt Ideal)) k (ix2 b p) := by
  rw [tcat4_apply]
  match k with
  | ⟨0, _⟩ => exact tcol_apply v0 b p 0
  | ⟨1, _⟩ => exact tcol_apply v1 b p 0
  | ⟨2, _⟩ => exact tcol_apply v2 b p 0
  | ⟨3, _⟩ => exact tcol_apply v3 b p 0

/-- The repeat along the mask axis read at (b, n, p, k) is the array at (b, p, k). -/
theorem tup_apply (v : (⟨S4x12544x4, .f32⟩ : BufTy).Contents (Elt Ideal)) (b : Fin 4) (n : Fin 100) (p : Fin 12544) (k : Fin 4) :
    tup (F := Ideal) v (ix4 b n p k) = v (ix3 b p k) := by
  unfold tup
  refine (broadcastInDim_apply _ bcast_S4x1x12544x4_S4x100x12544x4_0_1_2_3 _ (ix4 b n p k) (ix4 b (0 : Fin 1) p k) (fun a => match a with
    | ⟨0, _⟩ => by show b.val = if (4 : Nat) = 1 then 0 else b.val; rw [if_neg (by decide)]
    | ⟨1, _⟩ => by show 0 = if (1 : Nat) = 1 then 0 else n.val; rw [if_pos rfl]
    | ⟨2, _⟩ => by show p.val = if (12544 : Nat) = 1 then 0 else p.val; rw [if_neg (by decide)]
    | ⟨3, _⟩ => by show k.val = if (4 : Nat) = 1 then 0 else k.val; rw [if_neg (by decide)])).trans ?_
  exact broadcastInDim_apply _ bcast_S4x12544x4_S4x1x12544x4_0_2_3 v (ix4 b (0 : Fin 1) p k) (ix3 b p k) (fun a => match a with
    | ⟨0, _⟩ => by show b.val = if (4 : Nat) = 1 then 0 else b.val; rw [if_neg (by decide)]
    | ⟨1, _⟩ => by show p.val = if (12544 : Nat) = 1 then 0 else p.val; rw [if_neg (by decide)]
    | ⟨2, _⟩ => by show k.val = if (4 : Nat) = 1 then 0 else k.val; rw [if_neg (by decide)])

/-- The sampled masks at (b, n, p): the initial value plus the sum over the four corners. -/
theorem tSamp_apply (M : (⟨S4x100x256x256, .f32⟩ : BufTy).Contents (Elt Ideal)) (P : (⟨S4x12544x2, .f32⟩ : BufTy).Contents (Elt Ideal)) (b : Fin 4) (n : Fin 100) (p : Fin 12544) :
    tSamp (F := Ideal) M P (ix3 b n p)
      = Ideal.ofBits .f32 0x00000000#32 + ∑ k : Fin 4, t77 (F := Ideal) M P (ix4 b n p k) := by
  unfold tSamp
  generalize t77 (F := Ideal) M P = y0
  simp only [Host.reduceAdd, Ideal.hostReduceAdd_def]
  rw [Ideal.hostReduceAdd_single reducesTo_S4x100x12544x4_S4x100x12544_d3 (by decide)]
  refine congrArg₂ (· + ·) rfl (Finset.sum_congr rfl fun k _ => ?_)
  exact congrArg y0 (funext fun a => Fin.ext (by match a with | ⟨0, _⟩ => rfl | ⟨1, _⟩ => rfl | ⟨2, _⟩ => rfl | ⟨3, _⟩ => rfl))

/-- The flattened masks at (b, n, 256·y + x) are the masks at (b, n, y, x). -/
theorem t53_apply (M : (⟨S4x100x256x256, .f32⟩ : BufTy).Contents (Elt Ideal)) (b : Fin 4) (n : Fin 100) (y x : Fin 256) (f : Fin 65536) (hf : f.val = y.val * 256 + x.val) :
    t53 (F := Ideal) M (ix3 b n f) = M (ix4 b n y x) := by
  unfold t53
  refine shapeCast_apply M shapeCasts_S4x100x256x256_S4x100x65536 (ix3 b n f) (ix4 b n y x) ?_
  rw [Shape.rowMajor_val_four, Shape.rowMajor_val_three]
  show ((b.val * 100 + n.val) * 256 + y.val) * 256 + x.val = (b.val * 100 + n.val) * 65536 + f.val
  omega

/-- The batched gather out of the flattened masks at (b, n, p, k): batch b, mask n, and on the flattened axis the
    start index at (b, p, k, 0), read signed and clamped into [0, 65535]. -/
theorem tgather_apply (X : (⟨S4x100x65536, .f32⟩ : BufTy).Contents (Elt Ideal)) (idx : (⟨S4x12544x4x1, .i32⟩ : BufTy).Contents (Elt Ideal)) (b : Fin 4) (n : Fin 100) (p : Fin 12544) (k : Fin 4) :
    Host.gather gather_S4x100x65536_S4x12544x4x1_S4x100x12544x4_1_2_0_0_2_3_11001 X idx (ix4 b n p k)
      = X (ix3 b n ⟨min (idx (ix4 b p k (0 : Fin 1))).toInt.toNat 65535, by omega⟩) := by
  unfold Host.gather
  refine congrArg X (funext fun a => Fin.ext ?_)
  have hsi : gather_S4x100x65536_S4x12544x4x1_S4x100x12544x4_1_2_0_0_2_3_11001.siIdx (ix4 b n p k) ⟨0, by decide⟩ = ix4 b p k (0 : Fin 1) := by
    funext b'
    refine Fin.ext ?_
    match b' with
    | ⟨0, _⟩ => rfl
    | ⟨1, _⟩ => rfl
    | ⟨2, _⟩ => rfl
    | ⟨3, _⟩ => rfl
  match a with
  | ⟨0, _⟩ =>
    show gather_S4x100x65536_S4x12544x4x1_S4x100x12544x4_1_2_0_0_2_3_11001.start (ix4 b n p k) idx 0 + gather_S4x100x65536_S4x12544x4x1_S4x100x12544x4_1_2_0_0_2_3_11001.batchCoord (ix4 b n p k) 0 + gather_S4x100x65536_S4x12544x4x1_S4x100x12544x4_1_2_0_0_2_3_11001.offCoord (ix4 b n p k) 0 = b.val
    rw [GatherDims.start_batching _ _ _ _ (by decide), GatherDims.offCoord_eq_zero _ _ _ (by decide)]
    simp only [Nat.add_zero, Nat.zero_add]
    simp [GatherDims.batchCoord, GatherDims.siCoord, gather_S4x100x65536_S4x12544x4x1_S4x100x12544x4_1_2_0_0_2_3_11001]
    rfl
  | ⟨1, _⟩ =>
    show gather_S4x100x65536_S4x12544x4x1_S4x100x12544x4_1_2_0_0_2_3_11001.start (ix4 b n p k) idx 1 + gather_S4x100x65536_S4x12544x4x1_S4x100x12544x4_1_2_0_0_2_3_11001.batchCoord (ix4 b n p k) 1 + gather_S4x100x65536_S4x12544x4x1_S4x100x12544x4_1_2_0_0_2_3_11001.offCoord (ix4 b n p k) 1 = n.val
    have hs : gather_S4x100x65536_S4x12544x4x1_S4x100x12544x4_1_2_0_0_2_3_11001.start (ix4 b n p k) idx 1 = 0 := by
      unfold GatherDims.start
      rw [dif_neg (by decide)]
    rw [GatherDims.batchCoord_eq_zero _ _ _ (by decide), hs]
    simp only [Nat.add_zero, Nat.zero_add]
    unfold GatherDims.offCoord
    rw [dif_pos (by decide)]
    rfl
  | ⟨2, _⟩ =>
    show gather_S4x100x65536_S4x12544x4x1_S4x100x12544x4_1_2_0_0_2_3_11001.start (ix4 b n p k) idx 2 + gather_S4x100x65536_S4x12544x4x1_S4x100x12544x4_1_2_0_0_2_3_11001.batchCoord (ix4 b n p k) 2 + gather_S4x100x65536_S4x12544x4x1_S4x100x12544x4_1_2_0_0_2_3_11001.offCoord (ix4 b n p k) 2
      = min (idx (ix4 b p k (0 : Fin 1))).toInt.toNat 65535
    rw [GatherDims.batchCoord_eq_zero _ _ _ (by decide), GatherDims.offCoord_eq_zero _ _ _ (by decide)]
    simp only [Nat.add_zero, Nat.zero_add]
    unfold GatherDims.start
    rw [dif_pos (by decide)]
    refine congrArg₂ min (congrArg (fun z => (idx z).toInt.toNat) ?_) rfl
    exact hsi

end Cert.KernelIdeal.Samp
end
-- ==== Proof.KernelIdeal.SampTPoint.lean ====
/-
  The kernel's point sampler of the [4, 100, 256, 256] masks at one corner of one sampled point.

  The clipped coordinates convert to integers between 0 and 255, so the flat index 256·yi + xi is computed without
  overflow and lies in [0, 65535]: the wrap of a negative index does not fire, the in-range mask is true (the
  fill value is never selected), the gather's clamp keeps the index, and the flattened masks at 256·yi + xi are
  the masks at (yi, xi). With the validity factor this is the corner's contribution of the common specification.
-/
import proofs.«122505_j52948356825308_2_alg».proof.Proof.KernelIdeal.SampTRead
import proofs.«122505_j52948356825308_2_alg».proof.Proof.SampSpec
import proofs.«122505_j52948356825308_2_alg».proof.Proof.SampInt
import Idealize.ShloMosaic.Lib.Affine

noncomputable section

namespace Cert.KernelIdeal.Samp

open Cert.KernelIdeal Cert.KernelIdeal.Gen Idealize.ShloMosaic Idealize.ShloMosaic.TcCoe Idealize.SL.Sem Idealize.ShloMosaic.StableHlo
open Idealize.ShloMosaic.ValueIdx

/-! ## The flat index -/

/-- 256·yi + xi in 32 bits is the number 256·yi + xi when both are at most 255. -/
theorem tflat_toNat (yi xi : BitVec 32) (hy : yi.toNat ≤ 255) (hx : xi.toNat ≤ 255) :
    (IntOp.addi (IntOp.muli yi 256#32) xi).toNat = yi.toNat * 256 + xi.toNat := by
  have h256 : (256#32 : BitVec 32).toNat = 256 := by decide
  unfold IntOp.addi IntOp.muli
  rw [BitVec.toNat_add, BitVec.toNat_mul, h256]
  show (yi.toNat * 256 % 4294967296 + xi.toNat) % 4294967296 = yi.toNat * 256 + xi.toNat
  omega

/-- Read signed it is the same number. -/
theorem tflat_toInt (yi xi : BitVec 32) (hy : yi.toNat ≤ 255) (hx : xi.toNat ≤ 255) :
    (IntOp.addi (IntOp.muli yi 256#32) xi).toInt = ((yi.toNat * 256 + xi.toNat : ℕ) : Int) := by
  have h := tflat_toNat yi xi hy hx
  rw [BitVec.toInt_eq_toNat_cond, if_pos (by rw [h]; show 2 * (yi.toNat * 256 + xi.toNat) < 4294967296; omega), h]

/-- It is not negative. -/
theorem tflat_not_neg (yi xi : BitVec 32) (hy : yi.toNat ≤ 255) (hx : xi.toNat ≤ 255) :
    IntOp.cmpi .slt (IntOp.addi (IntOp.muli yi 256#32) xi) 0#32 = 0#1 := by
  rcases BitVec.eq_zero_or_eq_one (IntOp.cmpi .slt (IntOp.addi (IntOp.muli yi 256#32) xi) 0#32) with h | h
  · exact h
  · have := IntOp.cmpi_slt.1 h
    rw [tflat_toInt yi xi hy hx] at this
    have h0 : (0#32 : BitVec 32).toInt = 0 := by decide
    omega

/-- It lies in [0, 65535]. -/
theorem tflat_in_range (yi xi : BitVec 32) (hy : yi.toNat ≤ 255) (hx : xi.toNat ≤ 255) :
    IntOp.andi (IntOp.cmpi .sge (IntOp.addi (IntOp.muli yi 256#32) xi) 0#32)
      (IntOp.cmpi .sle (IntOp.addi (IntOp.muli yi 256#32) xi) 65535#32) = 1#1 := by
  have h0 : (0#32 : BitVec 32).toInt = 0 := by decide
  have h1 : (65535#32 : BitVec 32).toInt = 65535 := by decide
  refine IntOp.andi_eq_one.2 ⟨IntOp.cmpi_sge.2 ?_, IntOp.cmpi_sle.2 ?_⟩
  · rw [tflat_toInt yi xi hy hx, h0]; omega
  · rw [tflat_toInt yi xi hy hx, h1]; omega

/-! ## The stages at a corner -/

/-- xi is the clipped, converted x coordinate of the corner. -/
theorem t47_apply (P : (⟨S4x12544x2, .f32⟩ : BufTy).Contents (Elt Ideal)) (j : S4x12544x4.Idx) :
    t47 (F := Ideal) P j = SampSpec.ci (t24 (F := Ideal) P j) := rfl
/-- yi is the clipped, converted y coordinate of the corner. -/
theorem t49_apply (P : (⟨S4x12544x2, .f32⟩ : BufTy).Contents (Elt Ideal)) (j : S4x12544x4.Idx) :
    t49 (F := Ideal) P j = SampSpec.ci (t33 (F := Ideal) P j) := rfl
/-- The flat index. -/
theorem t52_apply (P : (⟨S4x12544x2, .f32⟩ : BufTy).Contents (Elt Ideal)) (j : S4x12544x4.Idx) :
    t52 (F := Ideal) P j
      = IntOp.addi (IntOp.muli (SampSpec.ci (t33 (F := Ideal) P j)) 256#32) (SampSpec.ci (t24 (F := Ideal) P j)) := rfl
/-- The wrap of a negative index does not fire. -/
theorem tt4_apply (P : (⟨S4x12544x2, .f32⟩ : BufTy).Contents (Elt Ideal)) (j : S4x12544x4.Idx) :
    tt4 (F := Ideal) P j = t52 (F := Ideal) P j := by
  show Scalar.select (IntOp.cmpi .slt (t52 (F := Ideal) P j) 0#32) (IntOp.addi (t52 (F := Ideal) P j) 65536#32) (t52 (F := Ideal) P j) = _
  rw [t52_apply, tflat_not_neg _ _ (SampSpec.ci_toNat_le _) (SampSpec.ci_toNat_le _), select_zero]
/-- The start indices with their unit axis. -/
theorem tt5_apply (P : (⟨S4x12544x2, .f32⟩ : BufTy).Contents (Elt Ideal)) (b : Fin 4) (p : Fin 12544) (k : Fin 4) (z : Fin 1) :
    tt5 (F := Ideal) P (ix4 b p k z) = t52 (F := Ideal) P (ix3 b p k) := by
  unfold tt5
  refine (broadcastInDim_apply _ bcast_S4x12544x4_S4x12544x4x1_0_1_2 _ (ix4 b p k z) (ix3 b p k) (fun a => match a with
    | ⟨0, _⟩ => by show b.val = if (4 : Nat) = 1 then 0 else b.val; rw [if_neg (by decide)]
    | ⟨1, _⟩ => by show p.val = if (12544 : Nat) = 1 then 0 else p.val; rw [if_neg (by decide)]
    | ⟨2, _⟩ => by show k.val = if (4 : Nat) = 1 then 0 else k.val; rw [if_neg (by decide)])).trans ?_
  exact tt4_apply P (ix3 b p k)
/-- The in-range test is true at every index. -/
theorem tt11_apply (P : (⟨S4x12544x2, .f32⟩ : BufTy).Contents (Elt Ideal)) (i : S4x12544x4x1.Idx) : tt11 (F := Ideal) P i = 1#1 := by
  obtain ⟨b, p, k, z, rfl⟩ : ∃ (b : Fin 4) (p : Fin 12544) (k : Fin 4) (z : Fin 1), i = ix4 b p k z := ⟨i 0, i 1, i 2, i 3, eq_ix4 i⟩
  show IntOp.andi (IntOp.cmpi .sge (tt5 (F := Ideal) P (ix4 b p k z)) 0#32) (IntOp.cmpi .sle (tt5 (F := Ideal) P (ix4 b p k z)) 65535#32) = 1#1
  rw [tt5_apply, t52_apply]
  exact tflat_in_range _ _ (SampSpec.ci_toNat_le _) (SampSpec.ci_toNat_le _)
/-- A left fold of `and` over ones from one is one. -/
theorem tfoldl_andi_one {ι : Type} (x : ι → BitVec 1) (hx : ∀ i, x i = 1#1) (l : List ι) :
    l.foldl (fun r i => IntOp.andi r (x i)) 1#1 = 1#1 := by
  induction l with
  | nil => rfl
  | cons a l ih =>
    rw [List.foldl_cons, hx a]
    exact ih
/-- The in-range mask is true at every corner. -/
theorem tt12_apply (P : (⟨S4x12544x2, .f32⟩ : BufTy).Contents (Elt Ideal)) (j : S4x12544x4.Idx) : tt12 (F := Ideal) P j = 1#1 := by
  unfold tt12
  rw [Host.reduce_eq_foldl]
  exact tfoldl_andi_one _ (tt11_apply P) _
/-- A [4, 12544, 4] array of bits repeated along the mask axis, read at (b, n, p, k). -/
theorem tmaskup_apply (msk : (⟨S4x12544x4, .i1⟩ : BufTy).Contents (Elt Ideal)) (b : Fin 4) (n : Fin 100) (p : Fin 12544) (k : Fin 4) :
    (broadcastInDim S4x100x12544x4 ![0, 2, 3] bcast_S4x12544x4_S4x100x12544x4_0_2_3 msk) (ix4 b n p k) = msk (ix3 b p k) :=
  broadcastInDim_apply _ bcast_S4x12544x4_S4x100x12544x4_0_2_3 msk (ix4 b n p k) (ix3 b p k) (fun a => match a with
    | ⟨0, _⟩ => by show b.val = if (4 : Nat) = 1 then 0 else b.val; rw [if_neg (by decide)]
    | ⟨1, _⟩ => by show p.val = if (12544 : Nat) = 1 then 0 else p.val; rw [if_neg (by decide)]
    | ⟨2, _⟩ => by show k.val = if (4 : Nat) = 1 then 0 else k.val; rw [if_neg (by decide)])
/-- The fill value is never selected. -/
theorem t54_apply (M : (⟨S4x100x256x256, .f32⟩ : BufTy).Contents (Elt Ideal)) (P : (⟨S4x12544x2, .f32⟩ : BufTy).Contents (Elt Ideal)) (b : Fin 4) (n : Fin 100) (p : Fin 12544) (k : Fin 4) :
    t54 (F := Ideal) M P (ix4 b n p k) = tt13 (F := Ideal) M P (ix4 b n p k) := by
  unfold t54
  rw [select_apply, tmaskup_apply, tt12_apply, select_one]
/-- The gathered entry is the mask's at the clipped integer coordinates of the corner. -/
theorem tt13_apply (M : (⟨S4x100x256x256, .f32⟩ : BufTy).Contents (Elt Ideal)) (P : (⟨S4x12544x2, .f32⟩ : BufTy).Contents (Elt Ideal)) (b : Fin 4) (n : Fin 100) (p : Fin 12544) (k : Fin 4) :
    tt13 (F := Ideal) M P (ix4 b n p k)
      = M (ix4 b n (SampSpec.cn (t33 (F := Ideal) P (ix3 b p k))) (SampSpec.cn (t24 (F := Ideal) P (ix3 b p k)))) := by
  unfold tt13
  rw [tgather_apply]
  refine t53_apply M b n _ _ _ ?_
  have hy := SampSpec.ci_toNat_le (t33 (F := Ideal) P (ix3 b p k))
  have hx := SampSpec.ci_toNat_le (t24 (F := Ideal) P (ix3 b p k))
  show min (tt5 (F := Ideal) P (ix4 b p k (0 : Fin 1))).toInt.toNat 65535 = _
  rw [tt5_apply, t52_apply, tflat_toInt _ _ hy hx, Int.toNat_natCast, SampSpec.cn_val, SampSpec.cn_val]
  omega
/-- The validity factor of the corner. -/
theorem t45_apply (P : (⟨S4x12544x2, .f32⟩ : BufTy).Contents (Elt Ideal)) (j : S4x12544x4.Idx) :
    t45 (F := Ideal) P j = SampSpec.valid (t24 (F := Ideal) P j) (t33 (F := Ideal) P j) := rfl
/-- One corner's contribution before its weight. -/
theorem t57_apply (M : (⟨S4x100x256x256, .f32⟩ : BufTy).Contents (Elt Ideal)) (P : (⟨S4x12544x2, .f32⟩ : BufTy).Contents (Elt Ideal)) (b : Fin 4) (n : Fin 100) (p : Fin 12544) (k : Fin 4) :
    t57 (F := Ideal) M P (ix4 b n p k)
      = SampSpec.corner (N := 100) M b n (t24 (F := Ideal) P (ix3 b p k)) (t33 (F := Ideal) P (ix3 b p k)) := by
  show t54 (F := Ideal) M P (ix4 b n p k) * tup (F := Ideal) (t45 (F := Ideal) P) (ix4 b n p k) = _
  rw [t54_apply, tt13_apply, tup_apply, t45_apply]
  rfl

end Cert.KernelIdeal.Samp
end
-- ==== Proof.KernelIdeal.SampTSum.lean ====
/-
  The kernel's sampled [4, 100, 12544] masks at (b, n, p) are the common specification's bilinear sample of the
  masks at the point's floor coordinates and fractional parts: the sum over the stacked corners is the four
  weighted corners added from the left (0 + a = a; the weight (1 − dx)(1 − dy) of a corner multiplies it in one
  step here and in two steps there, which is associativity of the product).
-/
import proofs.«122505_j52948356825308_2_alg».proof.Proof.KernelIdeal.SampTPoint

noncomputable section

namespace Cert.KernelIdeal.Samp

open Cert.KernelIdeal Cert.KernelIdeal.Gen Idealize.ShloMosaic Idealize.ShloMosaic.TcCoe Idealize.SL.Sem Idealize.ShloMosaic.StableHlo
open Idealize.ShloMosaic.ValueIdx

theorem tSamp_eq_sampAt (M : (⟨S4x100x256x256, .f32⟩ : BufTy).Contents (Elt Ideal)) (P : (⟨S4x12544x2, .f32⟩ : BufTy).Contents (Elt Ideal)) (b : Fin 4) (n : Fin 100) (p : Fin 12544) :
    tSamp (F := Ideal) M P (ix3 b n p)
      = SampSpec.sampAt (N := 100) M b n (t12 (F := Ideal) P (ix2 b p)) (t13 (F := Ideal) P (ix2 b p)) (t14 (F := Ideal) P (ix2 b p)) (t15 (F := Ideal) P (ix2 b p)) := by
  have e : ∀ k : Fin 4, t77 (F := Ideal) M P (ix4 b n p k)
      = SampSpec.corner (N := 100) M b n (t24 (F := Ideal) P (ix3 b p k)) (t33 (F := Ideal) P (ix3 b p k)) * t74 (F := Ideal) P (ix3 b p k) := fun k => by
    show t57 (F := Ideal) M P (ix4 b n p k) * tup (F := Ideal) (t74 (F := Ideal) P) (ix4 b n p k) = _
    rw [t57_apply, tup_apply]
  have hx0 : t24 (F := Ideal) P (ix3 b p 0) = t12 (F := Ideal) P (ix2 b p) := tcat4_col_apply _ _ _ _ b p 0
  have hx1 : t24 (F := Ideal) P (ix3 b p 1) = t12 (F := Ideal) P (ix2 b p) + SampSpec.one := tcat4_col_apply _ _ _ _ b p 1
  have hx2 : t24 (F := Ideal) P (ix3 b p 2) = t12 (F := Ideal) P (ix2 b p) := tcat4_col_apply _ _ _ _ b p 2
  have hx3 : t24 (F := Ideal) P (ix3 b p 3) = t12 (F := Ideal) P (ix2 b p) + SampSpec.one := tcat4_col_apply _ _ _ _ b p 3
  have hy0 : t33 (F := Ideal) P (ix3 b p 0) = t13 (F := Ideal) P (ix2 b p) := tcat4_col_apply _ _ _ _ b p 0
  have hy1 : t33 (F := Ideal) P (ix3 b p 1) = t13 (F := Ideal) P (ix2 b p) := tcat4_col_apply _ _ _ _ b p 1
  have hy2 : t33 (F := Ideal) P (ix3 b p 2) = t13 (F := Ideal) P (ix2 b p) + SampSpec.one := tcat4_col_apply _ _ _ _ b p 2
  have hy3 : t33 (F := Ideal) P (ix3 b p 3) = t13 (F := Ideal) P (ix2 b p) + SampSpec.one := tcat4_col_apply _ _ _ _ b p 3
  have hw0 : t74 (F := Ideal) P (ix3 b p 0) = (SampSpec.one - t14 (F := Ideal) P (ix2 b p)) * (SampSpec.one - t15 (F := Ideal) P (ix2 b p)) := tcat4_col_apply _ _ _ _ b p 0
  have hw1 : t74 (F := Ideal) P (ix3 b p 1) = t14 (F := Ideal) P (ix2 b p) * (SampSpec.one - t15 (F := Ideal) P (ix2 b p)) := tcat4_col_apply _ _ _ _ b p 1
  have hw2 : t74 (F := Ideal) P (ix3 b p 2) = (SampSpec.one - t14 (F := Ideal) P (ix2 b p)) * t15 (F := Ideal) P (ix2 b p) := tcat4_col_apply _ _ _ _ b p 2
  have hw3 : t74 (F := Ideal) P (ix3 b p 3) = t14 (F := Ideal) P (ix2 b p) * t15 (F := Ideal) P (ix2 b p) := tcat4_col_apply _ _ _ _ b p 3
  rw [tSamp_apply, Fin.sum_univ_four, e 0, e 1, e 2, e 3, hx0, hx1, hx2, hx3, hy0, hy1, hy2, hy3, hw0, hw1, hw2, hw3,
    Ideal.ofBits_zero_f32, zero_add]
  unfold SampSpec.sampAt
  simp only [mul_assoc]

end Cert.KernelIdeal.Samp
end
-- ==== Proof.KernelIdeal.SampTRef.lean ====
/-
  The two point samplers of the [4, 100, 256, 256] masks compute the same array: at every (b, n, p) both are the
  common specification's bilinear sample at the point's floor coordinates and fractional parts, and those four
  [4, 12544] arrays are the same operations of the sampled points in the two programs.
-/
import proofs.«122505_j52948356825308_2_alg».proof.Proof.KernelIdeal.SampTSum
import proofs.«122505_j52948356825308_2_alg».proof.Proof.SampRef

noncomputable section

namespace Cert.KernelIdeal.Samp

open Cert.KernelIdeal Cert.KernelIdeal.Gen Idealize.ShloMosaic Idealize.ShloMosaic.TcCoe Idealize.SL.Sem Idealize.ShloMosaic.StableHlo
open Idealize.ShloMosaic.ValueIdx

/-- The floor coordinates and fractional parts are the same operations in the two programs. -/
theorem t12_eq_ref (P : (⟨S4x12544x2, .f32⟩ : BufTy).Contents (Elt Ideal)) : t12 (F := Ideal) P = Cert.ReferenceIdeal.ReadP.val_main_v203 (F := Ideal) P := rfl
theorem t13_eq_ref (P : (⟨S4x12544x2, .f32⟩ : BufTy).Contents (Elt Ideal)) : t13 (F := Ideal) P = Cert.ReferenceIdeal.ReadP.val_main_v204 (F := Ideal) P := rfl
theorem t14_eq_ref (P : (⟨S4x12544x2, .f32⟩ : BufTy).Contents (Elt Ideal)) : t14 (F := Ideal) P = Cert.ReferenceIdeal.ReadP.val_main_v205 (F := Ideal) P := rfl
theorem t15_eq_ref (P : (⟨S4x12544x2, .f32⟩ : BufTy).Contents (Elt Ideal)) : t15 (F := Ideal) P = Cert.ReferenceIdeal.ReadP.val_main_v206 (F := Ideal) P := rfl

/-- The kernel's staged sampler is the reference's stage. -/
theorem tSamp_eq_ref (M : (⟨S4x100x256x256, .f32⟩ : BufTy).Contents (Elt Ideal)) (P : (⟨S4x12544x2, .f32⟩ : BufTy).Contents (Elt Ideal)) :
    tSamp (F := Ideal) M P = Cert.ReferenceIdeal.ReadP.val_main_v381 (F := Ideal) M P := by
  funext i
  obtain ⟨b, n, p, rfl⟩ : ∃ (b : Fin 4) (n : Fin 100) (p : Fin 12544), i = ix3 b n p := ⟨i 0, i 1, i 2, eq_ix3 i⟩
  rw [tSamp_eq_sampAt, t12_eq_ref, t13_eq_ref, t14_eq_ref, t15_eq_ref]
  exact (Cert.SampSpec.v381_eq M P b n p).symm

end Cert.KernelIdeal.Samp
end
-- ==== Proof.KernelIdeal.SampS2.lean ====
/-
  The kernel's sampled [4, 100, 12544] masks, as the region finds them, are the reference's: the buffer holds the
  staged sampler of the argument arrays, and the staged sampler is the reference's stage.
-/
import proofs.«122505_j52948356825308_2_alg».proof.Proof.KernelIdeal.SampTV
import proofs.«122505_j52948356825308_2_alg».proof.Proof.KernelIdeal.SampTRef

noncomputable section

namespace Cert.KernelIdeal.Samp

open Cert.KernelIdeal Cert.KernelIdeal.Gen Cert.KernelIdeal.Hand
open Idealize.ShloMosaic Idealize.ShloMosaic.TcCoe Idealize.SL.Sem Idealize.ShloMosaic.StableHlo

variable (m : (ℓ : Loc nD τ sig) → Buf (Elt Ideal) ℓ)

theorem V_main_v157_eq_ref (c : Dev nD) :
    V (F := Ideal) m c main_v157
      = Cert.ReferenceIdeal.ReadP.val_main_v381 (F := Ideal) (m ((c : Thread nD τ).loc main_arg3)) (m ((c : Thread nD τ).loc main_arg4)) :=
  (V_main_v157 (F := Ideal) m c).trans (tSamp_eq_ref _ _)

end Cert.KernelIdeal.Samp
end
-- ==== Proof.lean ====
/-
  The certificate of the Hungarian-matcher cost kernel against its jnp reference.

  Both programs compute, per batch b, query q and target j, the negated matching cost
      −(5 · mask(q, j) + 5 · dice(q, j) + 2 · class(q, j))
  from 12544 bilinearly sampled points of the predicted and the target masks. The kernel's @main samples both mask stacks on the
  host (one flattened gather of the four corners, their weighted sum), forms the classification cost, pads the target axis from
  100 to 128 with zeros, and runs ONE pallas_call on the grid (batch, block of 1792 points): five accumulators — Σ x·t, Σ σ(x)·t,
  the row sums Σ softplus(x) and Σ σ(x), the column sums Σ t — are reset at a batch's first block, take every block's
  contributions, and at the last block the cost tile is formed and stored; a slice then drops the padding.

  The three FRAMES: each program terminates, nothing faults, its five argument arrays end unchanged — the two kernel programs
  through the region's run (three control cases by the block's position in its batch, the accumulators carried from point to
  point), the reference as one straight line of host operations. The idealized kernel is the kernel's sanctioned idealization: the
  three bf16 round trips of the hi/lo split are the identity on the extended reals. The VALUE claim: at the ideal instance, on
  finite inputs, every sampled value is a real number, so the hi/lo split's correction products are x − x = 0, softplus(−x) −
  softplus(x) = −x turns Σ softplus(−x)·t + Σ softplus(x)·(1 − t) into Σ softplus(x) − Σ x·t, exp(−softplus(−x)) is the sigmoid,
  seven blocks of 1792 points are the 12544 points, and the kernel's one fused gather reads the mask entries the reference's four
  gathers read.
-/
import proofs.«122505_j52948356825308_2_alg».proof.Defs
import proofs.«122505_j52948356825308_2_alg».proof.Proof.Gen.Kernel
import proofs.«122505_j52948356825308_2_alg».proof.Proof.Gen.KernelIdeal
import proofs.«122505_j52948356825308_2_alg».proof.Proof.Gen.ReferenceIdeal
import proofs.«122505_j52948356825308_2_alg».proof.Proof.Gen.Pre_finite_inputs
import proofs.«122505_j52948356825308_2_alg».proof.Proof.Kernel.Frame
import proofs.«122505_j52948356825308_2_alg».proof.Proof.KernelIdeal.Frame
import proofs.«122505_j52948356825308_2_alg».proof.Proof.ReferenceFrame
import proofs.«122505_j52948356825308_2_alg».proof.Proof.ReferenceResult
import proofs.«122505_j52948356825308_2_alg».proof.Proof.KernelIdeal.Assemble
import proofs.«122505_j52948356825308_2_alg».proof.Proof.KernelIdeal.ValRun
import proofs.«122505_j52948356825308_2_alg».proof.Proof.KernelIdeal.SampS1
import proofs.«122505_j52948356825308_2_alg».proof.Proof.KernelIdeal.SampS2
import Idealize.ShloMosaic.Adequacy
import Idealize.ShloMosaic.Init

noncomputable section

namespace Cert.Proof

open Idealize.ShloMosaic Idealize.SL.Sem

theorem frame_kernel : Cert.frame_Kernel := fun m ρ _ => Cert.Kernel.Hand.frame m ρ
theorem frame_kernelIdeal : Cert.frame_KernelIdeal := fun m ρ _ => Cert.KernelIdeal.Hand.frame m ρ
theorem frame_referenceIdeal : Cert.frame_ReferenceIdeal := fun m ρ _ => Cert.ReferenceIdeal.Hand.frame m ρ

/-- The ledger's three entries: narrowing an f32 vector to bf16 and widening it back is the identity on the extended reals (and the
    rounding through bf16 at the word level) — the target block once, the prediction block and its sigmoid once each. -/
theorem preserves : Cert.preserves_Kernel_KernelIdeal :=
  ⟨IdealRules.truncf_extf.statement _ .f32 .bf16, IdealRules.truncf_extf.statement _ .f32 .bf16, IdealRules.truncf_extf.statement _ .f32 .bf16⟩

/-- The two idealized programs end with equal results: the kernel's result buffer is the slice of the region's result on its three
    operands, the reference's the last stage function of the arguments, and under the precondition these are one array. -/
theorem algebraic : Cert.algebraic_KernelIdeal_ReferenceIdeal := by
  intro m ρ m' ρ' hpre hagree
  refine ⟨fun c => Cert.KernelIdeal.Bridge.sliceOut (Cert.KernelIdeal.Val.regionOut
      (Cert.KernelIdeal.Hand.V (F := Ideal) m c Cert.KernelIdeal.main_v78) (Cert.KernelIdeal.Hand.V (F := Ideal) m c Cert.KernelIdeal.main_v158)
      (Cert.KernelIdeal.Hand.V (F := Ideal) m c Cert.KernelIdeal.main_v202)), Cert.KernelIdeal.Val.run m ρ, ?_⟩
  refine (θ_run Cert.ReferenceIdeal.defs _ _).mono (fun r h c => ⟨?_,
      (h c Cert.ReferenceIdeal.main_arg0).trans (Cert.ReferenceIdeal.Hand.kept0 _),
      (h c Cert.ReferenceIdeal.main_arg1).trans (Cert.ReferenceIdeal.Hand.kept1 _),
      (h c Cert.ReferenceIdeal.main_arg2).trans (Cert.ReferenceIdeal.Hand.kept2 _),
      (h c Cert.ReferenceIdeal.main_arg3).trans (Cert.ReferenceIdeal.Hand.kept3 _),
      (h c Cert.ReferenceIdeal.main_arg4).trans (Cert.ReferenceIdeal.Hand.kept4 _)⟩)
    (Cert.ReferenceIdeal.Hand.run_all (F := Ideal) m' ρ')
  rw [h c Cert.ReferenceIdeal.main_v466, Cert.ReferenceIdeal.Hand.result_eq]
  show Cert.ReferenceIdeal.ReadP.val_main_v466 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) = _
  rw [(hagree c).1, (hagree c).2.1, (hagree c).2.2.1, (hagree c).2.2.2.1, (hagree c).2.2.2.2]
  exact Cert.KernelIdeal.Bridge.result_eq_of_samplers m c (hpre c) (Cert.KernelIdeal.Samp.V_main_v78_eq_ref m c) (Cert.KernelIdeal.Samp.V_main_v157_eq_ref m c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
